-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v161)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v161) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x165 : Shape := ⟨2, ![100000, 165]⟩
abbrev S2x625000 : Shape := ⟨2, ![2, 625000]⟩
abbrev S3x165x128 : Shape := ⟨3, ![3, 165, 128]⟩
abbrev S128 : Shape := ⟨1, ![128]⟩
abbrev S3x128x128 : Shape := ⟨3, ![3, 128, 128]⟩
abbrev S3x128x2 : Shape := ⟨3, ![3, 128, 2]⟩
abbrev S2 : Shape := ⟨1, ![2]⟩
abbrev S_ : Shape := ⟨0, ![]⟩

class Facts : Prop where
  bcast_S_S100000x165 : S_.BroadcastsInDim S100000x165 (![] : Fin 0 → Fin S100000x165.rank)
  reducesTo_S100000x165_S_d0_1 : S100000x165.ReducesTo [0, 1] S_
  h_S_ : 0 < S_.numel
  bcast_S_S3x165x128 : S_.BroadcastsInDim S3x165x128 (![] : Fin 0 → Fin S3x165x128.rank)
  reducesTo_S3x165x128_S_d0_1_2 : S3x165x128.ReducesTo [0, 1, 2] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128x2 : S_.BroadcastsInDim S3x128x2 (![] : Fin 0 → Fin S3x128x2.rank)
  reducesTo_S3x128x2_S_d0_1_2 : S3x128x2.ReducesTo [0, 1, 2] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S3x128x2 .f32) (main_arg9 : FVec F S2 .f32) (main_v33 : IVec S_ 1) : IVec S_ 1 :=
  let main_v34 : FVec F S3x128x2 .f32 := Host.absf main_arg8
  let main_cst_12 : FVec F S_ .f32 := constant S_ .f32 0x7F800000#32
  let main_v35 : FVec F S3x128x2 .f32 := broadcastInDim S3x128x2 ![] bcast_S_S3x128x2 main_cst_12
  let main_v36 : IVec S3x128x2 1 := cmpf .olt main_v34 main_v35
  let main_c_13 : IVec S_ 1 := constantI S_ 1 1#1
  let main_v37 : IVec S_ 1 := (fun x v => Host.reduce IntOp.andi x v reducesTo_S3x128x2_S_d0_1_2 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S128 .f32) (main_arg6 : FVec F S3x128x128 .f32) (main_arg7 : FVec F S128 .f32) (main_arg8 : FVec F S3x128x2 .f32) (main_arg9 : FVec F S2 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x128x128 .f32 := Host.absf main_arg6
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x165 .f32) (main_arg1 : IVec S2x625000 32) (main_arg2 : FVec F S3x165x128 .f32) (main_arg3 : FVec F S128 .f32) (main_arg4 : FVec F S3x128x128 .f32) (main_arg5 : FVec F S128 .f32) (main_arg6 : FVec F S3x128x128 .f32) (main_arg7 : FVec F S128 .f32) (main_arg8 : FVec F S3x128x2 .f32) (main_arg9 : FVec F S2 .f32) : IVec S_ 1 :=
  let main_v0 : FVec F S100000x165 .f32 := Host.absf main_arg0
  let main_cst : FVec F S_ .f32 := constant S_ .f32 0x7F800000#32
  let main_v1 : FVec F S100000x165 .f32 := broadcastInDim S100000x165 ![] bcast_S_S100000x165 main_cst
  let main_v2 : IVec S100000x165 1 := cmpf .olt main_v0 main_v1
  let main_c : IVec S_ 1 := constantI S_ 1 1#1
  let main_v3 : IVec S_ 1 := (fun x v => Host.reduce IntOp.andi x v reducesTo_S100000x165_S_d0_1 h_S_) main_v2 main_c
  let main_v4 : FVec F S3x165x128 .f32 := Host.absf main_arg2
  let main_cst_0 : FVec F S_ .f32 := constant S_ .f32 0x7F800000#32
  let main_v5 : FVec F S3x165x128 .f32 := broadcastInDim S3x165x128 ![] bcast_S_S3x165x128 main_cst_0
  let main_v6 : IVec S3x165x128 1 := cmpf .olt main_v4 main_v5
  let main_c_1 : IVec S_ 1 := constantI S_ 1 1#1
  let main_v7 : IVec S_ 1 := (fun x v => Host.reduce IntOp.andi x v reducesTo_S3x165x128_S_d0_1_2 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_v13 main_v16
-- ==== Kernel.lean ====
abbrev S100000x165 : Shape := ⟨2, ![100000, 165]⟩
abbrev S2x625000 : Shape := ⟨2, ![2, 625000]⟩
abbrev S3x165x128 : Shape := ⟨3, ![3, 165, 128]⟩
abbrev S128 : Shape := ⟨1, ![128]⟩
abbrev S3x128x128 : Shape := ⟨3, ![3, 128, 128]⟩
abbrev S3x128x2 : Shape := ⟨3, ![3, 128, 2]⟩
abbrev S2 : Shape := ⟨1, ![2]⟩
abbrev S1x625000 : Shape := ⟨2, ![1, 625000]⟩
abbrev S625000 : Shape := ⟨1, ![625000]⟩
abbrev S_ : Shape := ⟨0, ![]⟩
abbrev S100000 : Shape := ⟨1, ![100000]⟩
abbrev S625000x1 : Shape := ⟨2, ![625000, 1]⟩
abbrev S625000x165 : Shape := ⟨2, ![625000, 165]⟩
abbrev S100000x495 : Shape := ⟨2, ![100000, 495]⟩
abbrev S495x128 : Shape := ⟨2, ![495, 128]⟩
abbrev S1x128 : Shape := ⟨2, ![1, 128]⟩
abbrev S100000x128 : Shape := ⟨2, ![100000, 128]⟩
abbrev S2000x495 : Shape := ⟨2, ![2000, 495]⟩
abbrev S2000x128 : Shape := ⟨2, ![2000, 128]⟩
abbrev S625000x128 : Shape := ⟨2, ![625000, 128]⟩
abbrev S100000x384 : Shape := ⟨2, ![100000, 384]⟩
abbrev S384x128 : Shape := ⟨2, ![384, 128]⟩
abbrev S2000x384 : Shape := ⟨2, ![2000, 384]⟩
abbrev S384x2 : Shape := ⟨2, ![384, 2]⟩
abbrev S1x2 : Shape := ⟨2, ![1, 2]⟩
abbrev S100000x2 : Shape := ⟨2, ![100000, 2]⟩
abbrev S2000x2 : Shape := ⟨2, ![2000, 2]⟩

abbrev nBuf : Space → Nat
  | .hbm => 211
  | .vmem => 24
  | .smem => 0
  | _ => 0

abbrev hbmTy0_0 (i : Nat) : BufTy := match i % 128 with
  | 0 => ⟨S100000x165, .f32⟩
  | 1 => ⟨S2x625000, .i32⟩
  | 2 => ⟨S3x165x128, .f32⟩
  | 3 => ⟨S128, .f32⟩
  | 4 => ⟨S3x128x128, .f32⟩
  | 5 => ⟨S128, .f32⟩
  | 6 => ⟨S3x128x128, .f32⟩
  | 7 => ⟨S128, .f32⟩
  | 8 => ⟨S3x128x2, .f32⟩
  | 9 => ⟨S2, .f32⟩
  | 10 => ⟨S1x625000, .i32⟩
  | 11 => ⟨S625000, .i32⟩
  | 12 => ⟨S1x625000, .i32⟩
  | 13 => ⟨S625000, .i32⟩
  | 14 => ⟨S_, .f32⟩
  | 15 => ⟨S625000, .f32⟩
  | 16 => ⟨S_, .f32⟩
  | 17 => ⟨S100000, .f32⟩
  | 18 => ⟨S625000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S625000, .i32⟩
  | 33 => ⟨S625000, .i1⟩
  | 34 => ⟨S_, .i32⟩
  | 35 => ⟨S625000, .i32⟩
  | 36 => ⟨S625000, .i32⟩
  | 37 => ⟨S625000, .i32⟩
  | 38 => ⟨S625000x1, .i32⟩
  | 39 => ⟨S625000, .f32⟩
  | 40 => ⟨S625000, .f32⟩
  | 41 => ⟨S_, .i32⟩
  | 42 => ⟨S625000, .i32⟩
  | 43 => ⟨S625000, .i1⟩
  | 44 => ⟨S_, .i32⟩
  | 45 => ⟨S625000, .i32⟩
  | 46 => ⟨S625000, .i32⟩
  | 47 => ⟨S625000, .i32⟩
  | 48 => ⟨S625000x1, .i32⟩
  | 49 => ⟨S625000, .f32⟩
  | 50 => ⟨S625000, .f32⟩
  | 51 => ⟨S_, .i32⟩
  | 52 => ⟨S625000, .i32⟩
  | 53 => ⟨S625000, .i1⟩
  | 54 => ⟨S_, .i32⟩
  | 55 => ⟨S625000, .i32⟩
  | 56 => ⟨S625000, .i32⟩
  | 57 => ⟨S625000, .i32⟩
  | 58 => ⟨S625000x1, .i32⟩
  | 59 => ⟨S625000x165, .f32⟩
  | 60 => ⟨S625000x1, .f32⟩
  | 61 => ⟨S625000x165, .f32⟩
  | 62 => ⟨S625000x165, .f32⟩
  | 63 => ⟨S_, .f32⟩
  | 64 => ⟨S100000x165, .f32⟩
  | 65 => ⟨S625000x1, .i32⟩
  | 66 => ⟨S100000x165, .f32⟩
  | 67 => ⟨S_, .i32⟩
  | 68 => ⟨S625000, .i32⟩
  | 69 => ⟨S625000, .i1⟩
  | 70 => ⟨S_, .i32⟩
  | 71 => ⟨S625000, .i32⟩
  | 72 => ⟨S625000, .i32⟩
  | 73 => ⟨S625000, .i32⟩
  | 74 => ⟨S625000x1, .i32⟩
  | 75 => ⟨S625000x165, .f32⟩
  | 76 => ⟨S625000x1, .f32⟩
  | 77 => ⟨S625000x165, .f32⟩
  | 78 => ⟨S625000x165, .f32⟩
  | 79 => ⟨S_, .f32⟩
  | 80 => ⟨S100000x165, .f32⟩
  | 81 => ⟨S625000x1, .i32⟩
  | 82 => ⟨S100000x165, .f32⟩
  | 83 => ⟨S_, .f32⟩
  | 84 => ⟨S100000x165, .f32⟩
  | 85 => ⟨S100000x165, .f32⟩
  | 86 => ⟨S100000x165, .f32⟩
  | 87 => ⟨S100000x495, .f32⟩
  | 88 => ⟨S495x128, .f32⟩
  | 89 => ⟨S1x128, .f32⟩
  | 90 => ⟨S100000x128, .f32⟩
  | 91 => ⟨S_, .i32⟩
  | 92 => ⟨S625000, .i32⟩
  | 93 => ⟨S625000, .i1⟩
  | 94 => ⟨S_, .i32⟩
  | 95 => ⟨S625000, .i32⟩
  | 96 => ⟨S625000, .i32⟩
  | 97 => ⟨S625000, .i32⟩
  | 98 => ⟨S625000x1, .i32⟩
  | 99 => ⟨S625000x128, .f32⟩
  | 100 => ⟨S625000x1, .f32⟩
  | 101 => ⟨S625000x128, .f32⟩
  | 102 => ⟨S625000x128, .f32⟩
  | 103 => ⟨S_, .f32⟩
  | 104 => ⟨S100000x128, .f32⟩
  | 105 => ⟨S625000x1, .i32⟩
  | 106 => ⟨S100000x128, .f32⟩
  | 107 => ⟨S_, .i32⟩
  | 108 => ⟨S625000, .i32⟩
  | 109 => ⟨S625000, .i1⟩
  | 110 => ⟨S_, .i32⟩
  | 111 => ⟨S625000, .i32⟩
  | 112 => ⟨S625000, .i32⟩
  | 113 => ⟨S625000, .i32⟩
  | 114 => ⟨S625000x1, .i32⟩
  | 115 => ⟨S625000x128, .f32⟩
  | 116 => ⟨S625000x1, .f32⟩
  | 117 => ⟨S625000x128, .f32⟩
  | 118 => ⟨S625000x128, .f32⟩
  | 119 => ⟨S_, .f32⟩
  | 120 => ⟨S100000x128, .f32⟩
  | 121 => ⟨S625000x1, .i32⟩
  | 122 => ⟨S100000x128, .f32⟩
  | 123 => ⟨S_, .f32⟩
  | 124 => ⟨S100000x128, .f32⟩
  | 125 => ⟨S100000x128, .f32⟩
  | 126 => ⟨S100000x128, .f32⟩
  | 127 => ⟨S100000x384, .f32⟩
  | _ => ⟨S100000x165, .f32⟩

abbrev hbmTy0_1 (i : Nat) : BufTy := match i % 128 with
  | 0 => ⟨S384x128, .f32⟩
  | 1 => ⟨S1x128, .f32⟩
  | 2 => ⟨S100000x128, .f32⟩
  | 3 => ⟨S_, .i32⟩
  | 4 => ⟨S625000, .i32⟩
  | 5 => ⟨S625000, .i1⟩
  | 6 => ⟨S_, .i32⟩
  | 7 => ⟨S625000, .i32⟩
  | 8 => ⟨S625000, .i32⟩
  | 9 => ⟨S625000, .i32⟩
  | 10 => ⟨S625000x1, .i32⟩
  | 11 => ⟨S625000x128, .f32⟩
  | 12 => ⟨S625000x1, .f32⟩
  | 13 => ⟨S625000x128, .f32⟩
  | 14 => ⟨S625000x128, .f32⟩
  | 15 => ⟨S_, .f32⟩
  | 16 => ⟨S100000x128, .f32⟩
  | 17 => ⟨S625000x1, .i32⟩
  | 18 => ⟨S100000x128, .f32⟩
  | 19 => ⟨S_, .i32⟩
  | 20 => ⟨S625000, .i32⟩
  | 21 => ⟨S625000, .i1⟩
  | 22 => ⟨S_, .i32⟩
  | 23 => ⟨S625000, .i32⟩
  | 24 => ⟨S625000, .i32⟩
  | 25 => ⟨S625000, .i32⟩
  | 26 => ⟨S625000x1, .i32⟩
  | 27 => ⟨S625000x128, .f32⟩
  | 28 => ⟨S625000x1, .f32⟩
  | 29 => ⟨S625000x128, .f32⟩
  | 30 => ⟨S625000x128, .f32⟩
  | 31 => ⟨S_, .f32⟩
  | 32 => ⟨S100000x128, .f32⟩
  | 33 => ⟨S625000x1, .i32⟩
  | 34 => ⟨S100000x128, .f32⟩
  | 35 => ⟨S_, .f32⟩
  | 36 => ⟨S100000x128, .f32⟩
  | 37 => ⟨S100000x128, .f32⟩
  | 38 => ⟨S100000x128, .f32⟩
  | 39 => ⟨S100000x384, .f32⟩
  | 40 => ⟨S384x128, .f32⟩
  | 41 => ⟨S1x128, .f32⟩
  | 42 => ⟨S100000x128, .f32⟩
  | 43 => ⟨S_, .i32⟩
  | 44 => ⟨S625000, .i32⟩
  | 45 => ⟨S625000, .i1⟩
  | 46 => ⟨S_, .i32⟩
  | 47 => ⟨S625000, .i32⟩
  | 48 => ⟨S625000, .i32⟩
  | 49 => ⟨S625000, .i32⟩
  | 50 => ⟨S625000x1, .i32⟩
  | 51 => ⟨S625000x128, .f32⟩
  | 52 => ⟨S625000x1, .f32⟩
  | 53 => ⟨S625000x128, .f32⟩
  | 54 => ⟨S625000x128, .f32⟩
  | 55 => ⟨S_, .f32⟩
  | 56 => ⟨S100000x128, .f32⟩
  | 57 => ⟨S625000x1, .i32⟩
  | 58 => ⟨S100000x128, .f32⟩
  | 59 => ⟨S_, .i32⟩
  | 60 => ⟨S625000, .i32⟩
  | 61 => ⟨S625000, .i1⟩
  | 62 => ⟨S_, .i32⟩
  | 63 => ⟨S625000, .i32⟩
  | 64 => ⟨S625000, .i32⟩
  | 65 => ⟨S625000, .i32⟩
  | 66 => ⟨S625000x1, .i32⟩
  | 67 => ⟨S625000x128, .f32⟩
  | 68 => ⟨S625000x1, .f32⟩
  | 69 => ⟨S625000x128, .f32⟩
  | 70 => ⟨S625000x128, .f32⟩
  | 71 => ⟨S_, .f32⟩
  | 72 => ⟨S100000x128, .f32⟩
  | 73 => ⟨S625000x1, .i32⟩
  | 74 => ⟨S100000x128, .f32⟩
  | 75 => ⟨S_, .f32⟩
  | 76 => ⟨S100000x128, .f32⟩
  | 77 => ⟨S100000x128, .f32⟩
  | 78 => ⟨S100000x128, .f32⟩
  | 79 => ⟨S100000x384, .f32⟩
  | 80 => ⟨S384x2, .f32⟩
  | 81 => ⟨S1x2, .f32⟩
  | 82 => ⟨S100000x2, .f32⟩
  | _ => ⟨S100000x165, .f32⟩

abbrev hbmTy (i : Nat) : BufTy := match i / 128 with
  | 0 => hbmTy0_0 i
  | 1 => hbmTy0_1 i
  | _ => ⟨S100000x165, .f32⟩

abbrev bufTy : (tb : Table) → Fin (tcTables nBuf tb) → BufTy
  | .hbm, ⟨i, _⟩ => hbmTy i
  | .local _ .vmem, ⟨0, _⟩ => ⟨S2000x495, .f32⟩
  | .local _ .vmem, ⟨1, _⟩ => ⟨S2000x495, .f32⟩
  | .local _ .vmem, ⟨2, _⟩ => ⟨S495x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x384, .f32⟩
  | .local _ .vmem, ⟨7, _⟩ => ⟨S2000x384, .f32⟩
  | .local _ .vmem, ⟨8, _⟩ => ⟨S384x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x384, .f32⟩
  | .local _ .vmem, ⟨13, _⟩ => ⟨S2000x384, .f32⟩
  | .local _ .vmem, ⟨14, _⟩ => ⟨S384x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x384, .f32⟩
  | .local _ .vmem, ⟨19, _⟩ => ⟨S2000x384, .f32⟩
  | .local _ .vmem, ⟨20, _⟩ => ⟨S384x2, .f32⟩
  | .local _ .vmem, ⟨21, _⟩ => ⟨S1x2, .f32⟩
  | .local _ .vmem, ⟨22, _⟩ => ⟨S2000x2, .f32⟩
  | .local _ .vmem, ⟨23, _⟩ => ⟨S2000x2, .f32⟩
  | _, _ => ⟨S100000x165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_7 : Ref sig .tc := ⟨.hbm, 51, rfl⟩
abbrev main_v30 : Ref sig .tc := ⟨.hbm, 52, rfl⟩
abbrev main_v31 : Ref sig .tc := ⟨.hbm, 53, rfl⟩
abbrev main_c_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_13 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_14 : Ref sig .tc := ⟨.hbm, 91, rfl⟩
abbrev main_v63 : Ref sig .tc := ⟨.hbm, 92, rfl⟩
abbrev main_v64 : Ref sig .tc := ⟨.hbm, 93, rfl⟩
abbrev main_c_15 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_17 : Ref sig .tc := ⟨.hbm, 107, rfl⟩
abbrev main_v76 : Ref sig .tc := ⟨.hbm, 108, rfl⟩
abbrev main_v77 : Ref sig .tc := ⟨.hbm, 109, rfl⟩
abbrev main_c_18 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_19 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_20 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_c_21 : Ref sig .tc := ⟨.hbm, 131, rfl⟩
abbrev main_v96 : Ref sig .tc := ⟨.hbm, 132, rfl⟩
abbrev main_v97 : Ref sig .tc := ⟨.hbm, 133, rfl⟩
abbrev main_c_22 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_23 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_c_24 : Ref sig .tc := ⟨.hbm, 147, rfl⟩
abbrev main_v109 : Ref sig .tc := ⟨.hbm, 148, rfl⟩
abbrev main_v110 : Ref sig .tc := ⟨.hbm, 149, rfl⟩
abbrev main_c_25 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_26 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_cst_27 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_c_28 : Ref sig .tc := ⟨.hbm, 171, rfl⟩
abbrev main_v129 : Ref sig .tc := ⟨.hbm, 172, rfl⟩
abbrev main_v130 : Ref sig .tc := ⟨.hbm, 173, rfl⟩
abbrev main_c_29 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_cst_30 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_c_31 : Ref sig .tc := ⟨.hbm, 187, rfl⟩
abbrev main_v142 : Ref sig .tc := ⟨.hbm, 188, rfl⟩
abbrev main_v143 : Ref sig .tc := ⟨.hbm, 189, rfl⟩
abbrev main_c_32 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_cst_33 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_cst_34 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x495 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S495x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S384x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x384 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S384x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x2 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S_S100000 : S_.BroadcastsInDim S100000 (![] : Fin 0 → Fin S100000.rank)
  bcast_S625000_S625000x1_0 : S625000.BroadcastsInDim S625000x1 (![0] : Fin 1 → Fin S625000x1.rank)
  bcast_S625000x1_S625000x165_0_1 : S625000x1.BroadcastsInDim S625000x165 (![0, 1] : Fin 2 → Fin S625000x165.rank)
  bcast_S_S100000x165 : S_.BroadcastsInDim S100000x165 (![] : Fin 0 → Fin S100000x165.rank)
  concatenates_S100000x165_S100000x165_S100000x165_S100000x495_d1 : Shape.Concatenates [S100000x165, S100000x165, S100000x165] S100000x495 1
  shapeCasts_S3x165x128_S495x128 : S3x165x128.ShapeCasts S495x128
  shapeCasts_S128_S1x128 : S128.ShapeCasts S1x128
  inb_S2000x495_S2000x495_0_0 : ∀ a, (![0, 0] : Fin 2 → Nat) a + S2000x495.size a ≤ S2000x495.size a
  h_S2000x495 : 0 < S2000x495.numel
  shapeCasts_S2000x495_S2000x495 : S2000x495.ShapeCasts S2000x495
  bitsLt_bf16_f32 : FTy.bits .bf16 < FTy.bits .f32
  inb_S495x128_S495x128_0_0 : ∀ a, (![0, 0] : Fin 2 → Nat) a + S495x128.size a ≤ S495x128.size a
  h_S495x128 : 0 < S495x128.numel
  shapeCasts_S495x128_S495x128 : S495x128.ShapeCasts S495x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S625000x1_S625000x128_0_1 : S625000x1.BroadcastsInDim S625000x128 (![0, 1] : Fin 2 → Fin S625000x128.rank)
  bcast_S_S100000x128 : S_.BroadcastsInDim S100000x128 (![] : Fin 0 → Fin S100000x128.rank)
  concatenates_S100000x128_S100000x128_S100000x128_S100000x384_d1 : Shape.Concatenates [S100000x128, S100000x128, S100000x128] S100000x384 1
  shapeCasts_S3x128x128_S384x128 : S3x128x128.ShapeCasts S384x128
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  inb_S384x128_S384x128_0_0 : ∀ a, (![0, 0] : Fin 2 → Nat) a + S384x128.size a ≤ S384x128.size a
  h_S384x128 : 0 < S384x128.numel
  shapeCasts_S384x128_S384x128 : S384x128.ShapeCasts S384x128
  shapeCasts_S3x128x2_S384x2 : S3x128x2.ShapeCasts S384x2
  shapeCasts_S2_S1x2 : S2.ShapeCasts S1x2
  inb_S384x2_S384x2_0_0 : ∀ a, (![0, 0] : Fin 2 → Nat) a + S384x2.size a ≤ S384x2.size a
  h_S384x2 : 0 < S384x2.numel
  shapeCasts_S384x2_S384x2 : S384x2.ShapeCasts S384x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S100000_S625000x1_S625000_n_0_0_1_wf : ScatterDims.WF S100000 S625000x1 S625000 [] [0] [0] 1
  gather_S100000_S625000x1_S625000_n_0_n_n_0_1_1_wf : GatherDims.WF S100000 S625000x1 S625000 [] [0] [] [0] [] 1 ![1]
  gather_S100000x165_S625000x1_S625000x165_1_0_n_n_0_1_1165_wf : GatherDims.WF S100000x165 S625000x1 S625000x165 [1] [0] [] [0] [] 1 ![1, 165]
  scatter_S100000x165_S625000x1_S625000x165_1_0_0_1_wf : ScatterDims.WF S100000x165 S625000x1 S625000x165 [1] [0] [0] 1
  dot_S2000x495_S495x128_S2000x128_1_0_0_1_n_n_wf : DotDims.WF S2000x495 S495x128 S2000x128 [1] [0] [0] [1] [] []
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S2000x384_S384x128_S2000x128_1_0_0_1_n_n_wf : DotDims.WF S2000x384 S384x128 S2000x128 [1] [0] [0] [1] [] []
  dot_S2000x384_S384x2_S2000x2_1_0_0_1_n_n_wf : DotDims.WF S2000x384 S384x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x495.size a ≤ S100000x495.size a
  hwx0_0 : ∀ i : grid0.Coords, EltTy.bits .f32 = 32 ∨ (Rect.block (s := S100000x495) S2000x495.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S495x128.size a ≤ S495x128.size a
  hwx0_1 : ∀ i : grid0.Coords, EltTy.bits .f32 = 32 ∨ (Rect.block (s := S495x128) S495x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x384.size a ≤ S100000x384.size a
  hwx1_0 : ∀ i : grid1.Coords, EltTy.bits .f32 = 32 ∨ (Rect.block (s := S100000x384) S2000x384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x128.size a ≤ S384x128.size a
  hwx1_1 : ∀ i : grid1.Coords, EltTy.bits .f32 = 32 ∨ (Rect.block (s := S384x128) S384x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x384.size a ≤ S100000x384.size a
  hwx2_0 : ∀ i : grid2.Coords, EltTy.bits .f32 = 32 ∨ (Rect.block (s := S100000x384) S2000x384.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S384x128.size a ≤ S384x128.size a
  hwx2_1 : ∀ i : grid2.Coords, EltTy.bits .f32 = 32 ∨ (Rect.block (s := S384x128) S384x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x384.size a ≤ S100000x384.size a
  hwx3_0 : ∀ i : grid3.Coords, EltTy.bits .f32 = 32 ∨ (Rect.block (s := S100000x384) S2000x384.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S384x2.size a ≤ S384x2.size a
  hwx3_1 : ∀ i : grid3.Coords, EltTy.bits .f32 = 32 ∨ (Rect.block (s := S384x2) S384x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x2.size a ≤ S100000x2.size a
  hwx3_3 : ∀ i : grid3.Coords, EltTy.bits .f32 = 32 ∨ (Rect.block (s := S100000x2) S2000x2.size (cc3_transform_3 i) (hinb3_3 i)).WholeWords (EltTy.packing .f32)

variable [Facts₀]

def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def gather_S100000_S625000x1_S625000_n_0_n_n_0_1_1 : GatherDims S100000 S625000x1 S625000 where
  offsetDims := []
  collapsedSliceDims := [0]
  operandBatchingDims := []
  startIndicesBatchingDims := []
  startIndexMap := [0]
  indexVectorDim := 1
  sliceSizes := ![1]
  wf := gather_S100000_S625000x1_S625000_n_0_n_n_0_1_1_wf
def gather_S100000x165_S625000x1_S625000x165_1_0_n_n_0_1_1165 : GatherDims S100000x165 S625000x1 S625000x165 where
  offsetDims := [1]
  collapsedSliceDims := [0]
  operandBatchingDims := []
  startIndicesBatchingDims := []
  startIndexMap := [0]
  indexVectorDim := 1
  sliceSizes := ![1, 165]
  wf := gather_S100000x165_S625000x1_S625000x165_1_0_n_n_0_1_1165_wf
def scatter_S100000x165_S625000x1_S625000x165_1_0_0_1 : ScatterDims S100000x165 S625000x1 S625000x165 where
  updateWindowDims := [1]
  insertedWindowDims := [0]
  scatterDimsToOperandDims := [0]
  indexVectorDim := 1
  wf := scatter_S100000x165_S625000x1_S625000x165_1_0_0_1_wf
def dot_S2000x495_S495x128_S2000x128_1_0_0_1_n_n : DotDims S2000x495 S495x128 S2000x128 where
  lhsContracting := [1]
  rhsContracting := [0]
  lhsNonContracting := [0]
  rhsNonContracting := [1]
  lhsBatch := []
  rhsBatch := []
  wf := dot_S2000x495_S495x128_S2000x128_1_0_0_1_n_n_wf
def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf
def dot_S2000x384_S384x2_S2000x2_1_0_0_1_n_n : DotDims S2000x384 S384x2 S2000x2 where
  lhsContracting := [1]
  rhsContracting := [0]
  lhsNonContracting := [0]
  rhsNonContracting := [1]
  lhsBatch := []
  rhsBatch := []
  wf := dot_S2000x384_S384x2_S2000x2_1_0_0_1_n_n_wf

abbrev win0_0 : Pipeline.Window sig grid0 :=
  Pipeline.Window.ofSpec (Memref.whole main_v59) S2000x495.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v60) S495x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v61) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v62) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v92) S2000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v93) S384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v94) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v95) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v125) S2000x384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v126) S384x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v127) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v128) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v158) S2000x384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v159) S384x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v160) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v161) S2000x2.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x165 : Shape := ⟨2, ![100000, 165]⟩
abbrev S2x625000 : Shape := ⟨2, ![2, 625000]⟩
abbrev S3x165x128 : Shape := ⟨3, ![3, 165, 128]⟩
abbrev S128 : Shape := ⟨1, ![128]⟩
abbrev S3x128x128 : Shape := ⟨3, ![3, 128, 128]⟩
abbrev S3x128x2 : Shape := ⟨3, ![3, 128, 2]⟩
abbrev S2 : Shape := ⟨1, ![2]⟩
abbrev S1x625000 : Shape := ⟨2, ![1, 625000]⟩
abbrev S625000 : Shape := ⟨1, ![625000]⟩
abbrev S_ : Shape := ⟨0, ![]⟩
abbrev S100000 : Shape := ⟨1, ![100000]⟩
abbrev S625000x1 : Shape := ⟨2, ![625000, 1]⟩
abbrev S1x165x128 : Shape := ⟨3, ![1, 165, 128]⟩
abbrev S165x128 : Shape := ⟨2, ![165, 128]⟩
abbrev S100000x128 : Shape := ⟨2, ![100000, 128]⟩
abbrev S625000x165 : Shape := ⟨2, ![625000, 165]⟩
abbrev S1x128 : Shape := ⟨2, ![1, 128]⟩
abbrev S1x128x128 : Shape := ⟨3, ![1, 128, 128]⟩
abbrev S128x128 : Shape := ⟨2, ![128, 128]⟩
abbrev S625000x128 : Shape := ⟨2, ![625000, 128]⟩
abbrev S1x128x2 : Shape := ⟨3, ![1, 128, 2]⟩
abbrev S128x2 : Shape := ⟨2, ![128, 2]⟩
abbrev S100000x2 : Shape := ⟨2, ![100000, 2]⟩
abbrev S1x2 : Shape := ⟨2, ![1, 2]⟩

abbrev nBuf : Space → Nat
  | .hbm => 275
  | .vmem => 0
  | .smem => 0
  | _ => 0

abbrev hbmTy0_0 (i : Nat) : BufTy := match i % 128 with
  | 0 => ⟨S100000x165, .f32⟩
  | 1 => ⟨S2x625000, .i32⟩
  | 2 => ⟨S3x165x128, .f32⟩
  | 3 => ⟨S128, .f32⟩
  | 4 => ⟨S3x128x128, .f32⟩
  | 5 => ⟨S128, .f32⟩
  | 6 => ⟨S3x128x128, .f32⟩
  | 7 => ⟨S128, .f32⟩
  | 8 => ⟨S3x128x2, .f32⟩
  | 9 => ⟨S2, .f32⟩
  | 10 => ⟨S1x625000, .i32⟩
  | 11 => ⟨S625000, .i32⟩
  | 12 => ⟨S1x625000, .i32⟩
  | 13 => ⟨S625000, .i32⟩
  | 14 => ⟨S_, .f32⟩
  | 15 => ⟨S625000, .f32⟩
  | 16 => ⟨S_, .f32⟩
  | 17 => ⟨S100000, .f32⟩
  | 18 => ⟨S625000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S625000, .i32⟩
  | 33 => ⟨S625000, .i1⟩
  | 34 => ⟨S_, .i32⟩
  | 35 => ⟨S625000, .i32⟩
  | 36 => ⟨S625000, .i32⟩
  | 37 => ⟨S625000, .i32⟩
  | 38 => ⟨S625000x1, .i32⟩
  | 39 => ⟨S625000, .f32⟩
  | 40 => ⟨S625000, .f32⟩
  | 41 => ⟨S_, .i32⟩
  | 42 => ⟨S625000, .i32⟩
  | 43 => ⟨S625000, .i1⟩
  | 44 => ⟨S_, .i32⟩
  | 45 => ⟨S625000, .i32⟩
  | 46 => ⟨S625000, .i32⟩
  | 47 => ⟨S625000, .i32⟩
  | 48 => ⟨S625000x1, .i32⟩
  | 49 => ⟨S625000, .f32⟩
  | 50 => ⟨S625000, .f32⟩
  | 51 => ⟨S1x165x128, .f32⟩
  | 52 => ⟨S165x128, .f32⟩
  | 53 => ⟨S100000x128, .f32⟩
  | 54 => ⟨S_, .i32⟩
  | 55 => ⟨S625000, .i32⟩
  | 56 => ⟨S625000, .i1⟩
  | 57 => ⟨S_, .i32⟩
  | 58 => ⟨S625000, .i32⟩
  | 59 => ⟨S625000, .i32⟩
  | 60 => ⟨S625000, .i32⟩
  | 61 => ⟨S625000x1, .i32⟩
  | 62 => ⟨S625000x165, .f32⟩
  | 63 => ⟨S625000x1, .f32⟩
  | 64 => ⟨S625000x165, .f32⟩
  | 65 => ⟨S625000x165, .f32⟩
  | 66 => ⟨S_, .f32⟩
  | 67 => ⟨S100000x165, .f32⟩
  | 68 => ⟨S625000x1, .i32⟩
  | 69 => ⟨S100000x165, .f32⟩
  | 70 => ⟨S1x165x128, .f32⟩
  | 71 => ⟨S165x128, .f32⟩
  | 72 => ⟨S100000x128, .f32⟩
  | 73 => ⟨S100000x128, .f32⟩
  | 74 => ⟨S_, .i32⟩
  | 75 => ⟨S625000, .i32⟩
  | 76 => ⟨S625000, .i1⟩
  | 77 => ⟨S_, .i32⟩
  | 78 => ⟨S625000, .i32⟩
  | 79 => ⟨S625000, .i32⟩
  | 80 => ⟨S625000, .i32⟩
  | 81 => ⟨S625000x1, .i32⟩
  | 82 => ⟨S625000x165, .f32⟩
  | 83 => ⟨S625000x1, .f32⟩
  | 84 => ⟨S625000x165, .f32⟩
  | 85 => ⟨S625000x165, .f32⟩
  | 86 => ⟨S_, .f32⟩
  | 87 => ⟨S100000x165, .f32⟩
  | 88 => ⟨S625000x1, .i32⟩
  | 89 => ⟨S100000x165, .f32⟩
  | 90 => ⟨S_, .f32⟩
  | 91 => ⟨S100000x165, .f32⟩
  | 92 => ⟨S100000x165, .f32⟩
  | 93 => ⟨S100000x165, .f32⟩
  | 94 => ⟨S1x165x128, .f32⟩
  | 95 => ⟨S165x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S_, .f32⟩
  | 103 => ⟨S_, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S1x128x128, .f32⟩
  | 110 => ⟨S128x128, .f32⟩
  | 111 => ⟨S100000x128, .f32⟩
  | 112 => ⟨S_, .i32⟩
  | 113 => ⟨S625000, .i32⟩
  | 114 => ⟨S625000, .i1⟩
  | 115 => ⟨S_, .i32⟩
  | 116 => ⟨S625000, .i32⟩
  | 117 => ⟨S625000, .i32⟩
  | 118 => ⟨S625000, .i32⟩
  | 119 => ⟨S625000x1, .i32⟩
  | 120 => ⟨S625000x128, .f32⟩
  | 121 => ⟨S625000x1, .f32⟩
  | 122 => ⟨S625000x128, .f32⟩
  | 123 => ⟨S625000x128, .f32⟩
  | 124 => ⟨S_, .f32⟩
  | 125 => ⟨S100000x128, .f32⟩
  | 126 => ⟨S625000x1, .i32⟩
  | 127 => ⟨S100000x128, .f32⟩
  | _ => ⟨S100000x165, .f32⟩

abbrev hbmTy0_1 (i : Nat) : BufTy := match i % 128 with
  | 0 => ⟨S1x128x128, .f32⟩
  | 1 => ⟨S128x128, .f32⟩
  | 2 => ⟨S100000x128, .f32⟩
  | 3 => ⟨S100000x128, .f32⟩
  | 4 => ⟨S_, .i32⟩
  | 5 => ⟨S625000, .i32⟩
  | 6 => ⟨S625000, .i1⟩
  | 7 => ⟨S_, .i32⟩
  | 8 => ⟨S625000, .i32⟩
  | 9 => ⟨S625000, .i32⟩
  | 10 => ⟨S625000, .i32⟩
  | 11 => ⟨S625000x1, .i32⟩
  | 12 => ⟨S625000x128, .f32⟩
  | 13 => ⟨S625000x1, .f32⟩
  | 14 => ⟨S625000x128, .f32⟩
  | 15 => ⟨S625000x128, .f32⟩
  | 16 => ⟨S_, .f32⟩
  | 17 => ⟨S100000x128, .f32⟩
  | 18 => ⟨S625000x1, .i32⟩
  | 19 => ⟨S100000x128, .f32⟩
  | 20 => ⟨S_, .f32⟩
  | 21 => ⟨S100000x128, .f32⟩
  | 22 => ⟨S100000x128, .f32⟩
  | 23 => ⟨S100000x128, .f32⟩
  | 24 => ⟨S1x128x128, .f32⟩
  | 25 => ⟨S128x128, .f32⟩
  | 26 => ⟨S100000x128, .f32⟩
  | 27 => ⟨S100000x128, .f32⟩
  | 28 => ⟨S1x128, .f32⟩
  | 29 => ⟨S100000x128, .f32⟩
  | 30 => ⟨S100000x128, .f32⟩
  | 31 => ⟨S_, .f32⟩
  | 32 => ⟨S_, .f32⟩
  | 33 => ⟨S_, .f32⟩
  | 34 => ⟨S100000x128, .f32⟩
  | 35 => ⟨S100000x128, .f32⟩
  | 36 => ⟨S_, .f32⟩
  | 37 => ⟨S100000x128, .f32⟩
  | 38 => ⟨S100000x128, .f32⟩
  | 39 => ⟨S1x128x128, .f32⟩
  | 40 => ⟨S128x128, .f32⟩
  | 41 => ⟨S100000x128, .f32⟩
  | 42 => ⟨S_, .i32⟩
  | 43 => ⟨S625000, .i32⟩
  | 44 => ⟨S625000, .i1⟩
  | 45 => ⟨S_, .i32⟩
  | 46 => ⟨S625000, .i32⟩
  | 47 => ⟨S625000, .i32⟩
  | 48 => ⟨S625000, .i32⟩
  | 49 => ⟨S625000x1, .i32⟩
  | 50 => ⟨S625000x128, .f32⟩
  | 51 => ⟨S625000x1, .f32⟩
  | 52 => ⟨S625000x128, .f32⟩
  | 53 => ⟨S625000x128, .f32⟩
  | 54 => ⟨S_, .f32⟩
  | 55 => ⟨S100000x128, .f32⟩
  | 56 => ⟨S625000x1, .i32⟩
  | 57 => ⟨S100000x128, .f32⟩
  | 58 => ⟨S1x128x128, .f32⟩
  | 59 => ⟨S128x128, .f32⟩
  | 60 => ⟨S100000x128, .f32⟩
  | 61 => ⟨S100000x128, .f32⟩
  | 62 => ⟨S_, .i32⟩
  | 63 => ⟨S625000, .i32⟩
  | 64 => ⟨S625000, .i1⟩
  | 65 => ⟨S_, .i32⟩
  | 66 => ⟨S625000, .i32⟩
  | 67 => ⟨S625000, .i32⟩
  | 68 => ⟨S625000, .i32⟩
  | 69 => ⟨S625000x1, .i32⟩
  | 70 => ⟨S625000x128, .f32⟩
  | 71 => ⟨S625000x1, .f32⟩
  | 72 => ⟨S625000x128, .f32⟩
  | 73 => ⟨S625000x128, .f32⟩
  | 74 => ⟨S_, .f32⟩
  | 75 => ⟨S100000x128, .f32⟩
  | 76 => ⟨S625000x1, .i32⟩
  | 77 => ⟨S100000x128, .f32⟩
  | 78 => ⟨S_, .f32⟩
  | 79 => ⟨S100000x128, .f32⟩
  | 80 => ⟨S100000x128, .f32⟩
  | 81 => ⟨S100000x128, .f32⟩
  | 82 => ⟨S1x128x128, .f32⟩
  | 83 => ⟨S128x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S_, .f32⟩
  | 91 => ⟨S_, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S1x128x2, .f32⟩
  | 98 => ⟨S128x2, .f32⟩
  | 99 => ⟨S100000x2, .f32⟩
  | 100 => ⟨S_, .i32⟩
  | 101 => ⟨S625000, .i32⟩
  | 102 => ⟨S625000, .i1⟩
  | 103 => ⟨S_, .i32⟩
  | 104 => ⟨S625000, .i32⟩
  | 105 => ⟨S625000, .i32⟩
  | 106 => ⟨S625000, .i32⟩
  | 107 => ⟨S625000x1, .i32⟩
  | 108 => ⟨S625000x128, .f32⟩
  | 109 => ⟨S625000x1, .f32⟩
  | 110 => ⟨S625000x128, .f32⟩
  | 111 => ⟨S625000x128, .f32⟩
  | 112 => ⟨S_, .f32⟩
  | 113 => ⟨S100000x128, .f32⟩
  | 114 => ⟨S625000x1, .i32⟩
  | 115 => ⟨S100000x128, .f32⟩
  | 116 => ⟨S1x128x2, .f32⟩
  | 117 => ⟨S128x2, .f32⟩
  | 118 => ⟨S100000x2, .f32⟩
  | 119 => ⟨S100000x2, .f32⟩
  | 120 => ⟨S_, .i32⟩
  | 121 => ⟨S625000, .i32⟩
  | 122 => ⟨S625000, .i1⟩
  | 123 => ⟨S_, .i32⟩
  | 124 => ⟨S625000, .i32⟩
  | 125 => ⟨S625000, .i32⟩
  | 126 => ⟨S625000, .i32⟩
  | 127 => ⟨S625000x1, .i32⟩
  | _ => ⟨S100000x165, .f32⟩

abbrev hbmTy0_2 (i : Nat) : BufTy := match i % 128 with
  | 0 => ⟨S625000x128, .f32⟩
  | 1 => ⟨S625000x1, .f32⟩
  | 2 => ⟨S625000x128, .f32⟩
  | 3 => ⟨S625000x128, .f32⟩
  | 4 => ⟨S_, .f32⟩
  | 5 => ⟨S100000x128, .f32⟩
  | 6 => ⟨S625000x1, .i32⟩
  | 7 => ⟨S100000x128, .f32⟩
  | 8 => ⟨S_, .f32⟩
  | 9 => ⟨S100000x128, .f32⟩
  | 10 => ⟨S100000x128, .f32⟩
  | 11 => ⟨S100000x128, .f32⟩
  | 12 => ⟨S1x128x2, .f32⟩
  | 13 => ⟨S128x2, .f32⟩
  | 14 => ⟨S100000x2, .f32⟩
  | 15 => ⟨S100000x2, .f32⟩
  | 16 => ⟨S1x2, .f32⟩
  | 17 => ⟨S100000x2, .f32⟩
  | 18 => ⟨S100000x2, .f32⟩
  | _ => ⟨S100000x165, .f32⟩

abbrev hbmTy (i : Nat) : BufTy := match i / 128 with
  | 0 => hbmTy0_0 i
  | 1 => hbmTy0_1 i
  | 2 => hbmTy0_2 i
  | _ => ⟨S100000x165, .f32⟩

abbrev bufTy : (tb : Table) → Fin (tcTables nBuf tb) → BufTy
  | .hbm, ⟨i, _⟩ => hbmTy i
  | _, _ => ⟨S100000x165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_14 : Ref sig .tc := ⟨.hbm, 101, rfl⟩
abbrev main_cst_15 : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_16 : Ref sig .tc := ⟨.hbm, 112, rfl⟩
abbrev main_v77 : Ref sig .tc := ⟨.hbm, 113, rfl⟩
abbrev main_v78 : Ref sig .tc := ⟨.hbm, 114, rfl⟩
abbrev main_c_17 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_18 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_c_19 : Ref sig .tc := ⟨.hbm, 132, rfl⟩
abbrev main_v94 : Ref sig .tc := ⟨.hbm, 133, rfl⟩
abbrev main_v95 : Ref sig .tc := ⟨.hbm, 134, rfl⟩
abbrev main_c_20 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_21 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_22 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_23 : Ref sig .tc := ⟨.hbm, 159, rfl⟩
abbrev main_cst_24 : Ref sig .tc := ⟨.hbm, 160, rfl⟩
abbrev main_call2_v0 : Ref sig .tc := ⟨.hbm, 161, rfl⟩
abbrev main_call2_v1 : Ref sig .tc := ⟨.hbm, 162, rfl⟩
abbrev main_call2_v2 : Ref sig .tc := ⟨.hbm, 163, rfl⟩
abbrev main_call2_v3 : Ref sig .tc := ⟨.hbm, 164, rfl⟩
abbrev main_call2_v4 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_c_25 : Ref sig .tc := ⟨.hbm, 170, rfl⟩
abbrev main_v121 : Ref sig .tc := ⟨.hbm, 171, rfl⟩
abbrev main_v122 : Ref sig .tc := ⟨.hbm, 172, rfl⟩
abbrev main_c_26 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_cst_27 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_c_28 : Ref sig .tc := ⟨.hbm, 190, rfl⟩
abbrev main_v138 : Ref sig .tc := ⟨.hbm, 191, rfl⟩
abbrev main_v139 : Ref sig .tc := ⟨.hbm, 192, rfl⟩
abbrev main_c_29 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_cst_30 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_cst_31 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_cst_32 : Ref sig .tc := ⟨.hbm, 217, rfl⟩
abbrev main_cst_33 : Ref sig .tc := ⟨.hbm, 218, rfl⟩
abbrev main_call3_v0 : Ref sig .tc := ⟨.hbm, 219, rfl⟩
abbrev main_call3_v1 : Ref sig .tc := ⟨.hbm, 220, rfl⟩
abbrev main_call3_v2 : Ref sig .tc := ⟨.hbm, 221, rfl⟩
abbrev main_call3_v3 : Ref sig .tc := ⟨.hbm, 222, rfl⟩
abbrev main_call3_v4 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_c_34 : Ref sig .tc := ⟨.hbm, 228, rfl⟩
abbrev main_v165 : Ref sig .tc := ⟨.hbm, 229, rfl⟩
abbrev main_v166 : Ref sig .tc := ⟨.hbm, 230, rfl⟩
abbrev main_c_35 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_cst_36 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_c_37 : Ref sig .tc := ⟨.hbm, 248, rfl⟩
abbrev main_v182 : Ref sig .tc := ⟨.hbm, 249, rfl⟩
abbrev main_v183 : Ref sig .tc := ⟨.hbm, 250, rfl⟩
abbrev main_c_38 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_cst_39 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_cst_40 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S_S100000 : S_.BroadcastsInDim S100000 (![] : Fin 0 → Fin S100000.rank)
  bcast_S625000_S625000x1_0 : S625000.BroadcastsInDim S625000x1 (![0] : Fin 1 → Fin S625000x1.rank)
  slices_S3x165x128_S1x165x128_0_0_0 : S3x165x128.Slices ![0, 0, 0] S1x165x128
  shapeCasts_S1x165x128_S165x128 : S1x165x128.ShapeCasts S165x128
  bcast_S625000x1_S625000x165_0_1 : S625000x1.BroadcastsInDim S625000x165 (![0, 1] : Fin 2 → Fin S625000x165.rank)
  bcast_S_S100000x165 : S_.BroadcastsInDim S100000x165 (![] : Fin 0 → Fin S100000x165.rank)
  slices_S3x165x128_S1x165x128_1_0_0 : S3x165x128.Slices ![1, 0, 0] S1x165x128
  slices_S3x165x128_S1x165x128_2_0_0 : S3x165x128.Slices ![2, 0, 0] S1x165x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  bcast_S625000x1_S625000x128_0_1 : S625000x1.BroadcastsInDim S625000x128 (![0, 1] : Fin 2 → Fin S625000x128.rank)
  slices_S3x128x128_S1x128x128_1_0_0 : S3x128x128.Slices ![1, 0, 0] S1x128x128
  slices_S3x128x128_S1x128x128_2_0_0 : S3x128x128.Slices ![2, 0, 0] S1x128x128
  slices_S3x128x2_S1x128x2_0_0_0 : S3x128x2.Slices ![0, 0, 0] S1x128x2
  shapeCasts_S1x128x2_S128x2 : S1x128x2.ShapeCasts S128x2
  slices_S3x128x2_S1x128x2_1_0_0 : S3x128x2.Slices ![1, 0, 0] S1x128x2
  slices_S3x128x2_S1x128x2_2_0_0 : S3x128x2.Slices ![2, 0, 0] S1x128x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S625000x1_S625000_n_0_0_1_wf : ScatterDims.WF S100000 S625000x1 S625000 [] [0] [0] 1
  gather_S100000_S625000x1_S625000_n_0_n_n_0_1_1_wf : GatherDims.WF S100000 S625000x1 S625000 [] [0] [] [0] [] 1 ![1]
  dot_S100000x165_S165x128_S100000x128_1_0_0_1_n_n_wf : DotDims.WF S100000x165 S165x128 S100000x128 [1] [0] [0] [1] [] []
  gather_S100000x165_S625000x1_S625000x165_1_0_n_n_0_1_1165_wf : GatherDims.WF S100000x165 S625000x1 S625000x165 [1] [0] [] [0] [] 1 ![1, 165]
  scatter_S100000x165_S625000x1_S625000x165_1_0_0_1_wf : ScatterDims.WF S100000x165 S625000x1 S625000x165 [1] [0] [0] 1
  dot_S100000x128_S128x128_S100000x128_1_0_0_1_n_n_wf : DotDims.WF S100000x128 S128x128 S100000x128 [1] [0] [0] [1] [] []
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S100000x128_S128x2_S100000x2_1_0_0_1_n_n_wf : DotDims.WF S100000x128 S128x2 S100000x2 [1] [0] [0] [1] [] []

variable [Facts₀]

def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def gather_S100000_S625000x1_S625000_n_0_n_n_0_1_1 : GatherDims S100000 S625000x1 S625000 where
  offsetDims := []
  collapsedSliceDims := [0]
  operandBatchingDims := []
  startIndicesBatchingDims := []
  startIndexMap := [0]
  indexVectorDim := 1
  sliceSizes := ![1]
  wf := gather_S100000_S625000x1_S625000_n_0_n_n_0_1_1_wf
def dot_S100000x165_S165x128_S100000x128_1_0_0_1_n_n : DotDims S100000x165 S165x128 S100000x128 where
  lhsContracting := [1]
  rhsContracting := [0]
  lhsNonContracting := [0]
  rhsNonContracting := [1]
  lhsBatch := []
  rhsBatch := []
  wf := dot_S100000x165_S165x128_S100000x128_1_0_0_1_n_n_wf
def gather_S100000x165_S625000x1_S625000x165_1_0_n_n_0_1_1165 : GatherDims S100000x165 S625000x1 S625000x165 where
  offsetDims := [1]
  collapsedSliceDims := [0]
  operandBatchingDims := []
  startIndicesBatchingDims := []
  startIndexMap := [0]
  indexVectorDim := 1
  sliceSizes := ![1, 165]
  wf := gather_S100000x165_S625000x1_S625000x165_1_0_n_n_0_1_1165_wf
def scatter_S100000x165_S625000x1_S625000x165_1_0_0_1 : ScatterDims S100000x165 S625000x1 S625000x165 where
  updateWindowDims := [1]
  insertedWindowDims := [0]
  scatterDimsToOperandDims := [0]
  indexVectorDim := 1
  wf := scatter_S100000x165_S625000x1_S625000x165_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.KRegions.lean ====
/-
  The four matmul launches of the Chebyshev network, one layer each, read as pipelines over their row blocks.
  Each body loads a 2000-row block of the concatenated terms [T0 | T1 | T2], the whole reshaped weight matrix and the
  bias row, multiplies, adds the bias (and, in layers 1-3, clamps to [0, 6]) and stores the 2000-row block of the result.
  This module states, for a launch entered with the buffers at `V`: the block each window holds at a grid point, what the
  body leaves in the result's staging buffer as a function of the three input blocks, the body's triple, and the
  pipeline's proof data with its body obligation. Nothing here depends on the float instance.
-/
import proofs.«104839_j69879117905989_1_alg».proof.Proof.Gen.KernelIdeal.Launch
import proofs.«104839_j69879117905989_1_alg».proof.Proof.Gen.KernelIdeal.Skeleton
import proofs.«104839_j69879117905989_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 1's matmul launch (pipeline 0), at the contents `V` the launch finds

Window 0 is a 2000-row block of the concatenated Chebyshev terms, window 1 the whole reshaped weight matrix, window 2
the bias row, window 3 the 2000-row block of the result. -/

section Region0
variable (V : (c : Dev nD) → (b : Ref sig .tc) → Buf (Elt F) ((c : Thread nD τ).loc b))

/-- Window `w`'s block at grid point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetches it or not (the weight
    matrix and the bias row are fetched once; their block index never moves). One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rA0 : Rect S2000x495 := Rect.unit (s := S2000x495) ![0, 0] S2000x495.size inb_S2000x495_S2000x495_0_0
abbrev rB0 : Rect S495x128 := Rect.unit (s := S495x128) ![0, 0] S495x128.size inb_S495x128_S495x128_0_0
abbrev rC0 : Rect S1x128 := Rect.unit (s := S1x128) ![0, 0] S1x128.size inb_S1x128_S1x128_0_0
abbrev rO0 : Rect S2000x128 := Rect.unit (s := S2000x128) ![0, 0] S2000x128.size inb_S2000x128_S2000x128_0_0

/-- What the body leaves in the result's staging buffer: its one whole-buffer store, the clamped product-plus-bias of the three loaded blocks. -/
def out0 (x0 : Vec F S2000x495 .f32) (x1 : Vec F S495x128 .f32) (x2 : Vec F S1x128 .f32) : Vec F S2000x128 .f32 :=
  View.canon [⟨rO0, k0_pay1 (View.ld x0 rA0) (View.ld x1 rB0) (View.ld x2 rC0)⟩]

/-- The one store is the whole buffer, so it covers it. -/
theorem cover0 (p0 : Vec F S2000x128 .f32) (y : S2000x128.Idx) :
    ∃ pc ∈ ([⟨rO0, p0⟩] : List (View.Piece (Elt F) S2000x128 .f32)), y ∈ pc.1.set :=
  View.cover_of_tiled [⟨rO0, p0⟩] S2000x128.size (by rfl) y

set_option maxHeartbeats 1000000 in
/-- The body on whole staging buffers: the three inputs are read and left as found, the result buffer ends at `out0`
    of them, whatever it held. -/
theorem sound_kernel0 (c : Dev nD) (E : Set ℕ) (i : grid0.Coords)
    (a1 : Memref sig .tc .vmem S2000x495 .f32) (h1 : a1.IsWhole) (a2 : Memref sig .tc .vmem S495x128 .f32) (h2 : a2.IsWhole)
    (a3 : Memref sig .tc .vmem S1x128 .f32) (h3 : a3.IsWhole) (a4 : Memref sig .tc .vmem S2000x128 .f32) (h4 : a4.IsWhole)
    (x0 : Vec F S2000x495 .f32) (x1 : Vec F S495x128 .f32) (x2 : Vec F S1x128 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (out0 x0 x1 x2)) -∗ K ⟨⟩))
      ⊢ wp frame (wpE (defs₀ (F := F)) Variants.none c none) E (cc0__chebmm_kernel i a1 h1 a2 h2 a3 h3 a4 h4) K := by
  simp only [cc0__chebmm_kernel_eq_skeleton]; unfold cc0__chebmm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The launch's proof data on core `c`: the arrays as found; after the body each input buffer still at its block,
    the result buffer at `out0` of the three blocks; nothing carried between points, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

/-! # Layer 2's matmul launch (pipeline 1), at the contents `V` the launch finds

Window 0 is a 2000-row block of the concatenated Chebyshev terms, window 1 the whole reshaped weight matrix, window 2
the bias row, window 3 the 2000-row block of the result. -/

section Region1
variable (V : (c : Dev nD) → (b : Ref sig .tc) → Buf (Elt F) ((c : Thread nD τ).loc b))

/-- Window `w`'s block at grid point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetches it or not (the weight
    matrix and the bias row are fetched once; their block index never moves). One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rA1 : Rect S2000x384 := Rect.unit (s := S2000x384) ![0, 0] S2000x384.size inb_S2000x384_S2000x384_0_0
abbrev rB1 : Rect S384x128 := Rect.unit (s := S384x128) ![0, 0] S384x128.size inb_S384x128_S384x128_0_0
abbrev rC1 : Rect S1x128 := Rect.unit (s := S1x128) ![0, 0] S1x128.size inb_S1x128_S1x128_0_0
abbrev rO1 : Rect S2000x128 := Rect.unit (s := S2000x128) ![0, 0] S2000x128.size inb_S2000x128_S2000x128_0_0

/-- What the body leaves in the result's staging buffer: its one whole-buffer store, the clamped product-plus-bias of the three loaded blocks. -/
def out1 (x0 : Vec F S2000x384 .f32) (x1 : Vec F S384x128 .f32) (x2 : Vec F S1x128 .f32) : Vec F S2000x128 .f32 :=
  View.canon [⟨rO1, k1_pay1 (View.ld x0 rA1) (View.ld x1 rB1) (View.ld x2 rC1)⟩]

/-- The one store is the whole buffer, so it covers it. -/
theorem cover1 (p0 : Vec F S2000x128 .f32) (y : S2000x128.Idx) :
    ∃ pc ∈ ([⟨rO1, p0⟩] : List (View.Piece (Elt F) S2000x128 .f32)), y ∈ pc.1.set :=
  View.cover_of_tiled [⟨rO1, p0⟩] S2000x128.size (by rfl) y

set_option maxHeartbeats 1000000 in
/-- The body on whole staging buffers: the three inputs are read and left as found, the result buffer ends at `out1`
    of them, whatever it held. -/
theorem sound_kernel1 (c : Dev nD) (E : Set ℕ) (i : grid1.Coords)
    (a1 : Memref sig .tc .vmem S2000x384 .f32) (h1 : a1.IsWhole) (a2 : Memref sig .tc .vmem S384x128 .f32) (h2 : a2.IsWhole)
    (a3 : Memref sig .tc .vmem S1x128 .f32) (h3 : a3.IsWhole) (a4 : Memref sig .tc .vmem S2000x128 .f32) (h4 : a4.IsWhole)
    (x0 : Vec F S2000x384 .f32) (x1 : Vec F S384x128 .f32) (x2 : Vec F S1x128 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (out1 x0 x1 x2)) -∗ K ⟨⟩))
      ⊢ wp frame (wpE (defs₀ (F := F)) Variants.none c none) E (cc1__chebmm_kernel i a1 h1 a2 h2 a3 h3 a4 h4) K := by
  simp only [cc1__chebmm_kernel_eq_skeleton]; unfold cc1__chebmm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The launch's proof data on core `c`: the arrays as found; after the body each input buffer still at its block,
    the result buffer at `out1` of the three blocks; nothing carried between points, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

/-! # Layer 3's matmul launch (pipeline 2), at the contents `V` the launch finds

Window 0 is a 2000-row block of the concatenated Chebyshev terms, window 1 the whole reshaped weight matrix, window 2
the bias row, window 3 the 2000-row block of the result. -/

section Region2
variable (V : (c : Dev nD) → (b : Ref sig .tc) → Buf (Elt F) ((c : Thread nD τ).loc b))

/-- Window `w`'s block at grid point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the point fetches it or not (the weight
    matrix and the bias row are fetched once; their block index never moves). One statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rA2 : Rect S2000x384 := Rect.unit (s := S2000x384) ![0, 0] S2000x384.size inb_S2000x384_S2000x384_0_0
abbrev rB2 : Rect S384x128 := Rect.unit (s := S384x128) ![0, 0] S384x128.size inb_S384x128_S384x128_0_0
abbrev rC2 : Rect S1x128 := Rect.unit (s := S1x128) ![0, 0] S1x128.size inb_S1x128_S1x128_0_0
abbrev rO2 : Rect S2000x128 := Rect.unit (s := S2000x128) ![0, 0] S2000x128.size inb_S2000x128_S2000x128_0_0

/-- What the body leaves in the result's staging buffer: its one whole-buffer store, the clamped product-plus-bias of the three loaded blocks. -/
def out2 (x0 : Vec F S2000x384 .f32) (x1 : Vec F S384x128 .f32) (x2 : Vec F S1x128 .f32) : Vec F S2000x128 .f32 :=
  View.canon [⟨rO2, k2_pay1 (View.ld x0 rA2) (View.ld x1 rB2) (View.ld x2 rC2)⟩]

/-- The one store is the whole buffer, so it covers it. -/
theorem cover2 (p0 : Vec F S2000x128 .f32) (y : S2000x128.Idx) :
    ∃ pc ∈ ([⟨rO2, p0⟩] : List (View.Piece (Elt F) S2000x128 .f32)), y ∈ pc.1.set :=
  View.cover_of_tiled [⟨rO2, p0⟩] S2000x128.size (by rfl) y

set_option maxHeartbeats 1000000 in
/-- The body on whole staging buffers: the three inputs are read and left as found, the result buffer ends at `out2`
    of them, whatever it held. -/
theorem sound_kernel2 (c : Dev nD) (E : Set ℕ) (i : grid2.Coords)
    (a1 : Memref sig .tc .vmem S2000x384 .f32) (h1 : a1.IsWhole) (a2 : Memref sig .tc .vmem S384x128 .f32) (h2 : a2.IsWhole)
    (a3 : Memref sig .tc .vmem S1x128 .f32) (h3 : a3.IsWhole) (a4 : Memref sig .tc .vmem S2000x128 .f32) (h4 : a4.IsWhole)
    (x0 : Vec F S2000x384 .f32) (x1 : Vec F S384x128 .f32) (x2 : Vec F S1x128 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (out2 x0 x1 x2)) -∗ K ⟨⟩))
      ⊢ wp frame (wpE (defs₀ (F := F)) Variants.none c none) E (cc2__chebmm_kernel i a1 h1 a2 h2 a3 h3 a4 h4) K := by
  simp only [cc2__chebmm_kernel_eq_skeleton]; unfold cc2__chebmm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-- The launch's proof data on core `c`: the arrays as found; after the body each input buffer still at its block,
    the result buffer at `out2` of the three blocks; nothing carried between points, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

/-! # Layer 4's matmul launch (pipeline 3), at the contents `V` the launch finds

Window 0 is a 2000-row block of the concatenated Chebyshev terms, window 1 the whole reshaped weight matrix, window 2
the bias row, window 3 the 2000-row block of the result. -/

section Region3
variable (V : (c : Dev nD) → (b : Ref sig .tc) → Buf (Elt F) ((c : Thread nD τ).loc b))

/-- Window `w`'s block at grid point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, whether the point fetches it or not (the weight
    matrix and the bias row are fetched once; their block index never moves). One statement per input window. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev rA3 : Rect S2000x384 := Rect.unit (s := S2000x384) ![0, 0] S2000x384.size inb_S2000x384_S2000x384_0_0
abbrev rB3 : Rect S384x2 := Rect.unit (s := S384x2) ![0, 0] S384x2.size inb_S384x2_S384x2_0_0
abbrev rC3 : Rect S1x2 := Rect.unit (s := S1x2) ![0, 0] S1x2.size inb_S1x2_S1x2_0_0
abbrev rO3 : Rect S2000x2 := Rect.unit (s := S2000x2) ![0, 0] S2000x2.size inb_S2000x2_S2000x2_0_0

/-- What the body leaves in the result's staging buffer: its one whole-buffer store, the product-plus-bias of the three loaded blocks. -/
def out3 (x0 : Vec F S2000x384 .f32) (x1 : Vec F S384x2 .f32) (x2 : Vec F S1x2 .f32) : Vec F S2000x2 .f32 :=
  View.canon [⟨rO3, k3_pay1 (View.ld x0 rA3) (View.ld x1 rB3) (View.ld x2 rC3)⟩]

/-- The one store is the whole buffer, so it covers it. -/
theorem cover3 (p0 : Vec F S2000x2 .f32) (y : S2000x2.Idx) :
    ∃ pc ∈ ([⟨rO3, p0⟩] : List (View.Piece (Elt F) S2000x2 .f32)), y ∈ pc.1.set :=
  View.cover_of_tiled [⟨rO3, p0⟩] S2000x2.size (by rfl) y

set_option maxHeartbeats 1000000 in
/-- The body on whole staging buffers: the three inputs are read and left as found, the result buffer ends at `out3`
    of them, whatever it held. -/
theorem sound_kernel3 (c : Dev nD) (E : Set ℕ) (i : grid3.Coords)
    (a1 : Memref sig .tc .vmem S2000x384 .f32) (h1 : a1.IsWhole) (a2 : Memref sig .tc .vmem S384x2 .f32) (h2 : a2.IsWhole)
    (a3 : Memref sig .tc .vmem S1x2 .f32) (h3 : a3.IsWhole) (a4 : Memref sig .tc .vmem S2000x2 .f32) (h4 : a4.IsWhole)
    (x0 : Vec F S2000x384 .f32) (x1 : Vec F S384x2 .f32) (x2 : Vec F S1x2 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (out3 x0 x1 x2)) -∗ K ⟨⟩))
      ⊢ wp frame (wpE (defs₀ (F := F)) Variants.none c none) E (cc3__chebmm_kernel i a1 h1 a2 h2 a3 h3 a4 h4) K := by
  simp only [cc3__chebmm_kernel_eq_skeleton]; unfold cc3__chebmm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-- The launch's proof data on core `c`: the arrays as found; after the body each input buffer still at its block,
    the result buffer at `out3` of the three blocks; nothing carried between points, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KRunA.lean ====
/- The buffers' contents between the ten items of the program as a fold from the launch memory (a host stretch:
   what its operations compute; a kernel region: its four arrays at the fold of the write-backs over its grid, every
   other buffer as entered), the unknowns of the generated chain of valuations chosen to be that fold, the two chains
   shown equal, and what the chain holds at each region's result. -/
import proofs.«104839_j69879117905989_1_alg».proof.Proof.Gen.KernelIdeal.Regions
import proofs.«104839_j69879117905989_1_alg».proof.Proof.KRegions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffers' contents between the items of the program, as a fold from the launch memory

A region leaves each of its windows' arrays at the fold of the write-backs over its grid and every other buffer
as it found it; a host stretch leaves what its operations compute. -/

/-- A valuation with a pipeline's arrays replaced is the valuation updated at ONE reference — the one window `wo`
    whose array the pipeline may change — when every other window's final array is what the valuation already holds. -/
theorem withArrays_eq_update {gr W : Nat} (win : Fin W → Pipeline.WinSpec sig gr)
    (hinj : Function.Injective (Pipeline.arrRef win)) (c : Dev nD) (V : Valuation τ sig (Elt F))
    (A : (w : Fin W) → Buf (Elt F) ((win w).arr.view.loc (c.tc : Thread nD τ))) (wo : Fin W)
    (hin : ∀ w, w ≠ wo → A w = V (Proc.devRef .tc (Pipeline.arrRef win w))) :
    Pipeline.withArrays win c V A
      = Function.update V (Proc.devRef .tc (Pipeline.arrRef win wo))
          (Pipeline.withArrays win c V A (Proc.devRef .tc (Pipeline.arrRef win wo))) := by
  funext b
  by_cases h : ∃ w, Proc.devRef .tc (Pipeline.arrRef win w) = b
  · obtain ⟨w, rfl⟩ := h
    by_cases hw : w = wo
    · subst hw; rw [Function.update_self]
    · rw [Function.update_of_ne (fun e => hw (hinj (Proc.devRef_injective _ e))),
        Pipeline.withArrays_arr win hinj, hin w hw]
  · rw [Function.update_of_ne (fun e => h ⟨wo, e.symm⟩)]
    unfold Pipeline.withArrays; rw [dif_neg h]

/-- The contents region 0 is entered from, read at the TensorCore's references. -/
abbrev E3 : (c : Dev nD) → (b : Ref sig .tc) → Buf (Elt F) ((c : Thread nD τ).loc b) := fun c b => Gen.V3 m c b

/-- After region 0: its four arrays at the fold of its write-backs, every other buffer as entered. -/
def W4 (c : Dev nD) : Valuation τ sig (Elt F) :=
  Pipeline.withArrays spec0 c (Gen.V3 m c) fun w => (dat0 (E3 m) c).arrAt w cfg0.N
theorem W4_arr (c : Dev nD) (w : Fin cfg0.W) :
    W4 m c (Proc.devRef .tc (Pipeline.arrRef spec0 w)) = (dat0 (E3 m) c).arrAt w cfg0.N := by
  unfold W4; exact Pipeline.withArrays_arr spec0 Gen.launch0.win.arr_inj c _ _ w
theorem W4_of_ne (c : Dev nD) (b : Ref sig .tc) (hb : ∀ w, Pipeline.arrRef spec0 w ≠ b) :
    W4 m c (Proc.devRef .tc b) = (Gen.V3 m c) (Proc.devRef .tc b) := by
  unfold W4; exact Pipeline.withArrays_of_ne spec0 c _ _ b hb
/-- An input window's array is never written: region 0 leaves it as entered. -/
theorem W4_in (c : Dev nD) (w : Fin cfg0.W) (hw : w ≠ 3) :
    (dat0 (E3 m) c).arrAt w cfg0.N = (Gen.V3 m c) (Proc.devRef .tc (Pipeline.arrRef spec0 w)) := by
  have hin : (cfg0.win w).isOut = false := by
    revert hw; revert w; decide
  exact ((dat0 (E3 m) c).arrAt_in w hin _).trans (A_eq0 (E3 m) c w)
/-- So region 0 changes the valuation at `main_v62` only. -/
theorem W4_update (c : Dev nD) :
    W4 m c = Function.update (Gen.V3 m c) (Proc.devRef .tc main_v62) (W4 m c (Proc.devRef .tc main_v62)) := by
  unfold W4
  exact withArrays_eq_update spec0 Gen.launch0.win.arr_inj c _ _ 3 (fun w hw => W4_in m c w hw)
/-- After the host stretch that follows region 0 (region 1's entry). -/
abbrev W5 (c : Dev nD) : Valuation τ sig (Elt F) := StableHlo.after Gen.hostOps1 (W4 m c)
/-- The same read at the TensorCore's references. -/
abbrev E5 : (c : Dev nD) → (b : Ref sig .tc) → Buf (Elt F) ((c : Thread nD τ).loc b) := fun c b => W5 m c b

/-- After region 1: its four arrays at the fold of its write-backs, every other buffer as entered. -/
def W6 (c : Dev nD) : Valuation τ sig (Elt F) :=
  Pipeline.withArrays spec1 c (W5 m c) fun w => (dat1 (E5 m) c).arrAt w cfg1.N
theorem W6_arr (c : Dev nD) (w : Fin cfg1.W) :
    W6 m c (Proc.devRef .tc (Pipeline.arrRef spec1 w)) = (dat1 (E5 m) c).arrAt w cfg1.N := by
  unfold W6; exact Pipeline.withArrays_arr spec1 Gen.launch1.win.arr_inj c _ _ w
theorem W6_of_ne (c : Dev nD) (b : Ref sig .tc) (hb : ∀ w, Pipeline.arrRef spec1 w ≠ b) :
    W6 m c (Proc.devRef .tc b) = (W5 m c) (Proc.devRef .tc b) := by
  unfold W6; exact Pipeline.withArrays_of_ne spec1 c _ _ b hb
/-- An input window's array is never written: region 1 leaves it as entered. -/
theorem W6_in (c : Dev nD) (w : Fin cfg1.W) (hw : w ≠ 3) :
    (dat1 (E5 m) c).arrAt w cfg1.N = (W5 m c) (Proc.devRef .tc (Pipeline.arrRef spec1 w)) := by
  have hin : (cfg1.win w).isOut = false := by
    revert hw; revert w; decide
  exact ((dat1 (E5 m) c).arrAt_in w hin _).trans (A_eq1 (E5 m) c w)
/-- So region 1 changes the valuation at `main_v95` only. -/
theorem W6_update (c : Dev nD) :
    W6 m c = Function.update (W5 m c) (Proc.devRef .tc main_v95) (W6 m c (Proc.devRef .tc main_v95)) := by
  unfold W6
  exact withArrays_eq_update spec1 Gen.launch1.win.arr_inj c _ _ 3 (fun w hw => W6_in m c w hw)
/-- After the host stretch that follows region 1 (region 2's entry). -/
abbrev W7 (c : Dev nD) : Valuation τ sig (Elt F) := StableHlo.after Gen.hostOps2 (W6 m c)
/-- The same read at the TensorCore's references. -/
abbrev E7 : (c : Dev nD) → (b : Ref sig .tc) → Buf (Elt F) ((c : Thread nD τ).loc b) := fun c b => W7 m c b

/-- After region 2: its four arrays at the fold of its write-backs, every other buffer as entered. -/
def W8 (c : Dev nD) : Valuation τ sig (Elt F) :=
  Pipeline.withArrays spec2 c (W7 m c) fun w => (dat2 (E7 m) c).arrAt w cfg2.N
theorem W8_arr (c : Dev nD) (w : Fin cfg2.W) :
    W8 m c (Proc.devRef .tc (Pipeline.arrRef spec2 w)) = (dat2 (E7 m) c).arrAt w cfg2.N := by
  unfold W8; exact Pipeline.withArrays_arr spec2 Gen.launch2.win.arr_inj c _ _ w
theorem W8_of_ne (c : Dev nD) (b : Ref sig .tc) (hb : ∀ w, Pipeline.arrRef spec2 w ≠ b) :
    W8 m c (Proc.devRef .tc b) = (W7 m c) (Proc.devRef .tc b) := by
  unfold W8; exact Pipeline.withArrays_of_ne spec2 c _ _ b hb
/-- An input window's array is never written: region 2 leaves it as entered. -/
theorem W8_in (c : Dev nD) (w : Fin cfg2.W) (hw : w ≠ 3) :
    (dat2 (E7 m) c).arrAt w cfg2.N = (W7 m c) (Proc.devRef .tc (Pipeline.arrRef spec2 w)) := by
  have hin : (cfg2.win w).isOut = false := by
    revert hw; revert w; decide
  exact ((dat2 (E7 m) c).arrAt_in w hin _).trans (A_eq2 (E7 m) c w)
/-- So region 2 changes the valuation at `main_v128` only. -/
theorem W8_update (c : Dev nD) :
    W8 m c = Function.update (W7 m c) (Proc.devRef .tc main_v128) (W8 m c (Proc.devRef .tc main_v128)) := by
  unfold W8
  exact withArrays_eq_update spec2 Gen.launch2.win.arr_inj c _ _ 3 (fun w hw => W8_in m c w hw)
/-- After the host stretch that follows region 2 (region 3's entry). -/
abbrev W9 (c : Dev nD) : Valuation τ sig (Elt F) := StableHlo.after Gen.hostOps3 (W8 m c)
/-- The same read at the TensorCore's references. -/
abbrev E9 : (c : Dev nD) → (b : Ref sig .tc) → Buf (Elt F) ((c : Thread nD τ).loc b) := fun c b => W9 m c b

/-- After region 3: its four arrays at the fold of its write-backs, every other buffer as entered. -/
def W10 (c : Dev nD) : Valuation τ sig (Elt F) :=
  Pipeline.withArrays spec3 c (W9 m c) fun w => (dat3 (E9 m) c).arrAt w cfg3.N
theorem W10_arr (c : Dev nD) (w : Fin cfg3.W) :
    W10 m c (Proc.devRef .tc (Pipeline.arrRef spec3 w)) = (dat3 (E9 m) c).arrAt w cfg3.N := by
  unfold W10; exact Pipeline.withArrays_arr spec3 Gen.launch3.win.arr_inj c _ _ w
theorem W10_of_ne (c : Dev nD) (b : Ref sig .tc) (hb : ∀ w, Pipeline.arrRef spec3 w ≠ b) :
    W10 m c (Proc.devRef .tc b) = (W9 m c) (Proc.devRef .tc b) := by
  unfold W10; exact Pipeline.withArrays_of_ne spec3 c _ _ b hb
/-- An input window's array is never written: region 3 leaves it as entered. -/
theorem W10_in (c : Dev nD) (w : Fin cfg3.W) (hw : w ≠ 3) :
    (dat3 (E9 m) c).arrAt w cfg3.N = (W9 m c) (Proc.devRef .tc (Pipeline.arrRef spec3 w)) := by
  have hin : (cfg3.win w).isOut = false := by
    revert hw; revert w; decide
  exact ((dat3 (E9 m) c).arrAt_in w hin _).trans (A_eq3 (E9 m) c w)
/-- So region 3 changes the valuation at `main_v161` only. -/
theorem W10_update (c : Dev nD) :
    W10 m c = Function.update (W9 m c) (Proc.devRef .tc main_v161) (W10 m c (Proc.devRef .tc main_v161)) := by
  unfold W10
  exact withArrays_eq_update spec3 Gen.launch3.win.arr_inj c _ _ 3 (fun w hw => W10_in m c w hw)

/-- What the regions leave: item by item, the fold read at the reference asked for. -/
def outs : Gen.Outs (F := F) := fun J r c =>
  if J = 4 then W4 m c (Proc.devRef .tc r) else if J = 6 then W6 m c (Proc.devRef .tc r)
  else if J = 8 then W8 m c (Proc.devRef .tc r) else W10 m c (Proc.devRef .tc r)

theorem outs_4 (r : Ref sig .tc) (c : Dev nD) : outs m 4 r c = W4 m c (Proc.devRef .tc r) := rfl
theorem outs_6 (r : Ref sig .tc) (c : Dev nD) : outs m 6 r c = W6 m c (Proc.devRef .tc r) := rfl
theorem outs_8 (r : Ref sig .tc) (c : Dev nD) : outs m 8 r c = W8 m c (Proc.devRef .tc r) := rfl
theorem outs_10 (r : Ref sig .tc) (c : Dev nD) : outs m 10 r c = W10 m c (Proc.devRef .tc r) := rfl

/-! ## The generated valuations over these `outs` are the fold -/

theorem V4_eq (c : Dev nD) : Gen.V4 m (outs m) c = W4 m c := by
  rw [W4_update m c]; rfl
theorem V5_eq (c : Dev nD) : Gen.V5 m (outs m) c = W5 m c := congrArg (StableHlo.after Gen.hostOps1) (V4_eq m c)
theorem V6_eq (c : Dev nD) : Gen.V6 m (outs m) c = W6 m c := by
  rw [W6_update m c, ← V5_eq m c]; rfl
theorem V7_eq (c : Dev nD) : Gen.V7 m (outs m) c = W7 m c := congrArg (StableHlo.after Gen.hostOps2) (V6_eq m c)
theorem V8_eq (c : Dev nD) : Gen.V8 m (outs m) c = W8 m c := by
  rw [W8_update m c, ← V7_eq m c]; rfl
theorem V9_eq (c : Dev nD) : Gen.V9 m (outs m) c = W9 m c := congrArg (StableHlo.after Gen.hostOps3) (V8_eq m c)
theorem V10_eq (c : Dev nD) : Gen.V10 m (outs m) c = W10 m c := by
  rw [W10_update m c, ← V9_eq m c]; rfl

/-! ## What the chain of valuations holds at each region's result -/

theorem E5_eq : (fun (c : Dev nD) (b : Ref sig .tc) => Gen.V5 m (outs m) c b) = E5 m := by
  funext c b; exact congrFun (V5_eq m c) _
theorem E7_eq : (fun (c : Dev nD) (b : Ref sig .tc) => Gen.V7 m (outs m) c b) = E7 m := by
  funext c b; exact congrFun (V7_eq m c) _
theorem E9_eq : (fun (c : Dev nD) (b : Ref sig .tc) => Gen.V9 m (outs m) c b) = E9 m := by
  funext c b; exact congrFun (V9_eq m c) _

/-- Region 0's result: the fold of its write-backs from the contents it is entered with. -/
theorem outs_main_v62 (c : Dev nD) :
    outs m 4 main_v62 c = (dat0 (fun c b => Gen.V3 m c b) c).arrAt 3 cfg0.N := W4_arr m c 3
theorem outs_main_v95 (c : Dev nD) :
    outs m 6 main_v95 c = (dat1 (fun c b => Gen.V5 m (outs m) c b) c).arrAt 3 cfg1.N := by
  rw [E5_eq]; exact W6_arr m c 3
theorem outs_main_v128 (c : Dev nD) :
    outs m 8 main_v128 c = (dat2 (fun c b => Gen.V7 m (outs m) c b) c).arrAt 3 cfg2.N := by
  rw [E7_eq]; exact W8_arr m c 3
theorem outs_main_v161 (c : Dev nD) :
    outs m 10 main_v161 c = (dat3 (fun c b => Gen.V9 m (outs m) c b) c).arrAt 3 cfg3.N := by
  rw [E9_eq]; exact W10_arr m c 3

/-- The same read off the valuation after each region. -/
theorem V4_main_v62 (c : Dev nD) :
    Gen.V4 m (outs m) c main_v62 = (dat0 (fun c b => Gen.V3 m c b) c).arrAt 3 cfg0.N :=
  (congrFun (V4_eq m c) _).trans (W4_arr m c 3)
theorem V6_main_v95 (c : Dev nD) :
    Gen.V6 m (outs m) c main_v95 = (dat1 (fun c b => Gen.V5 m (outs m) c b) c).arrAt 3 cfg1.N := by
  rw [E5_eq]; exact (congrFun (V6_eq m c) _).trans (W6_arr m c 3)
theorem V8_main_v128 (c : Dev nD) :
    Gen.V8 m (outs m) c main_v128 = (dat2 (fun c b => Gen.V7 m (outs m) c b) c).arrAt 3 cfg2.N := by
  rw [E7_eq]; exact (congrFun (V8_eq m c) _).trans (W8_arr m c 3)
/-- The program's result buffer at the end. -/
theorem result_eq (c : Dev nD) :
    Gen.V10 m (outs m) c main_v161 = (dat3 (fun c b => Gen.V9 m (outs m) c b) c).arrAt 3 cfg3.N := by
  rw [E9_eq]; exact (congrFun (V10_eq m c) _).trans (W10_arr m c 3)

/-- The host stretch after a region does not write the region's result: the next region's entry contents hold it. -/
theorem V5_main_v62 (c : Dev nD) :
    Gen.V5 m (outs m) c main_v62 = (dat0 (fun c b => Gen.V3 m c b) c).arrAt 3 cfg0.N :=
  (Gen.V5_of m (outs m) c main_v62 (by decide)).trans (V4_main_v62 m c)
theorem V7_main_v95 (c : Dev nD) :
    Gen.V7 m (outs m) c main_v95 = (dat1 (fun c b => Gen.V5 m (outs m) c b) c).arrAt 3 cfg1.N :=
  (Gen.V7_of m (outs m) c main_v95 (by decide)).trans (V6_main_v95 m c)
theorem V9_main_v128 (c : Dev nD) :
    Gen.V9 m (outs m) c main_v128 = (dat2 (fun c b => Gen.V7 m (outs m) c b) c).arrAt 3 cfg2.N :=
  (Gen.V9_of m (outs m) c main_v128 (by decide)).trans (V8_main_v128 m c)

end Cert.KernelIdeal.Hand

end
-- ==== Proof.KRun.lean ====
/- The program's ten items as segments of one run: each host stretch from the contents the fold gives at its start,
   each kernel region a record entered with every unscoped buffer at its entry contents and left with them at the fold
   of its write-backs. Every weakly fair execution terminates and ends with every unscoped buffer at the last
   valuation; the ten argument arrays end as launched. -/
import proofs.«104839_j69879117905989_1_alg».proof.Proof.Gen.KernelIdeal.Regions
import proofs.«104839_j69879117905989_1_alg».proof.Proof.KRunA
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The run: the program's ten items as segments, from the launch to the return -/

/-- No pipeline has a prefetched table. -/
abbrev adm : (p : Fin 4) → (pcfgs (F := F) p).Adm := fun p => (cfgs p).toPCfg_adm
/-- Every pipeline's proof data, each at the contents its region is entered from. -/
def pdats : (p : Fin 4) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E5 m) c
  | ⟨2, _⟩ => fun c => dat2 (E7 m) c
  | ⟨3, _⟩ => fun c => dat3 (E9 m) c
abbrev 𝒱₀ : Variants := Variants.none
/-- No core owes another anything. -/
abbrev L : GSem nD τ sig → Finset Unit := fun _ => ∅
abbrev lv : GSem nD τ sig → Unit → ℕ := fun _ _ => 0
/-- What a core holds beside its buffers at every boundary: its generator register at some state, and nothing owed. -/
abbrev R (c : Dev nD) : sProp 𝕄 := iprop((∃ r, prngReg c r) ∗ ∃ W, owes (c : Thread nD τ) (0 : CellTallies nD τ sig Unit) W)
/-- A host stretch from the contents `W`: it ends at `StableHlo.after ops (W c)`, `R` untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last boundary without the `owes`. -/
abbrev Tₙ (c : Dev nD) : sProp 𝕄 := iprop(StableHlo.held (c : Thread nD τ) (Pipeline.ucRefs τ sig) (W10 m c) ∗ ∃ r, prngReg c r)

set_option backward.isDefEq.respectTransparency.types false in
/-- Region 0: entered with every unscoped buffer at its entry contents, left with them at the fold of its
    write-backs. Its arrays are split out of the unscoped buffers and joined back; the generator register goes into the
    pipeline's invariant and comes back; nothing is owed; the kernel has no semaphore of its own. -/
def reg0 : Pipeline.RegionSeg (pcfgs (F := F)) adm (pdats m) () defs₀ 𝒱₀ L lv 0 where
  win := Gen.launch0.win.to₀
  block_pos := Gen.launch0.block_pos
  stage_whole := Gen.launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) Gen.launch0.win Gen.launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      Gen.launch0.win Gen.launch0.arr_whole c (pdats m) ((pdats m 0 c).share_full fun _ => rfl)
      (E3 m c) (fun b => W4 m c b) ((pdats m 0 c).arrAt · cfg0.N) (fun w => (W4_arr m c w).symm)
      (fun b hb => W4_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at its entry contents, left with them at the fold of its
    write-backs. Its arrays are split out of the unscoped buffers and joined back; the generator register goes into the
    pipeline's invariant and comes back; nothing is owed; the kernel has no semaphore of its own. -/
def reg1 : Pipeline.RegionSeg (pcfgs (F := F)) adm (pdats m) () defs₀ 𝒱₀ L lv 1 where
  win := Gen.launch1.win.to₀
  block_pos := Gen.launch1.block_pos
  stage_whole := Gen.launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) Gen.launch1.win Gen.launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      Gen.launch1.win Gen.launch1.arr_whole c (pdats m) ((pdats m 1 c).share_full fun _ => rfl)
      (E5 m c) (fun b => W6 m c b) ((pdats m 1 c).arrAt · cfg1.N) (fun w => (W6_arr m c w).symm)
      (fun b hb => W6_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at its entry contents, left with them at the fold of its
    write-backs. Its arrays are split out of the unscoped buffers and joined back; the generator register goes into the
    pipeline's invariant and comes back; nothing is owed; the kernel has no semaphore of its own. -/
def reg2 : Pipeline.RegionSeg (pcfgs (F := F)) adm (pdats m) () defs₀ 𝒱₀ L lv 2 where
  win := Gen.launch2.win.to₀
  block_pos := Gen.launch2.block_pos
  stage_whole := Gen.launch2.stage_whole
  K := PEmpty
  osem k := k.elim
  ho := Pipeline.OwnSemFacts.none _
  hbody c := (body_obligation2 (E7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [Pipeline.ownSems0_none]
    have hsplit := Pipeline.arrays_of_unscopedBufs (p := 2) (pcfgs (F := F)) adm (pdats m) Gen.launch2.win Gen.launch2.arr_whole c
      ((pdats m 2 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      Gen.launch2.win Gen.launch2.arr_whole c (pdats m) ((pdats m 2 c).share_full fun _ => rfl)
      (E7 m c) (fun b => W8 m c b) ((pdats m 2 c).arrAt · cfg2.N) (fun w => (W8_arr m c w).symm)
      (fun b hb => W8_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at its entry contents, left with them at the fold of its
    write-backs. Its arrays are split out of the unscoped buffers and joined back; the generator register goes into the
    pipeline's invariant and comes back; nothing is owed; the kernel has no semaphore of its own. -/
def reg3 : Pipeline.RegionSeg (pcfgs (F := F)) adm (pdats m) () defs₀ 𝒱₀ L lv 3 where
  win := Gen.launch3.win.to₀
  block_pos := Gen.launch3.block_pos
  stage_whole := Gen.launch3.stage_whole
  K := PEmpty
  osem k := k.elim
  ho := Pipeline.OwnSemFacts.none _
  hbody c := (body_obligation3 (E9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E9 m c)
  hentry c := by
    rw [Pipeline.ownSems0_none]
    have hsplit := Pipeline.arrays_of_unscopedBufs (p := 3) (pcfgs (F := F)) adm (pdats m) Gen.launch3.win Gen.launch3.arr_whole c
      ((pdats m 3 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      Gen.launch3.win Gen.launch3.arr_whole c (pdats m) ((pdats m 3 c).share_full fun _ => rfl)
      (E9 m c) (fun b => W10 m c b) ((pdats m 3 c).arrAt · cfg3.N) (fun w => (W10_arr m c w).symm)
      (fun b hb => W10_of_ne m c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's ten items in order. -/
abbrev segs : List (Pipeline.Seg (pcfgs (F := F)) adm (pdats m) () defs₀ 𝒱₀ L lv) :=
  [ .host (hseg Gen.hostOps0 Gen.hostOps0_sub Gen.hostOps0_fresh (Gen.V0 m)),
    .host (hseg Gen.hostOps0_1 Gen.hostOps0_1_sub Gen.hostOps0_1_fresh (Gen.V1 m)),
    .host (hseg Gen.hostOps0_2 Gen.hostOps0_2_sub Gen.hostOps0_2_fresh (Gen.V2 m)),
    .region (reg0 m),
    .host (hseg Gen.hostOps1 Gen.hostOps1_sub Gen.hostOps1_fresh (W4 m)),
    .region (reg1 m),
    .host (hseg Gen.hostOps2 Gen.hostOps2_sub Gen.hostOps2_fresh (W6 m)),
    .region (reg2 m),
    .host (hseg Gen.hostOps3 Gen.hostOps3_sub Gen.hostOps3_fresh (W8 m)),
    .region (reg3 m) ]

variable (ρ : Dev nD → PrngReg)

set_option backward.isDefEq.respectTransparency.types false in
/-- Every weakly fair execution from memory `m` with zero counters terminates, and at the end every unscoped buffer of
    every core holds what the fold says. -/
theorem run_all : θ_run defs (onTc (τ := τ) (main (F := F))) ⟨m, fun _ => 0, ρ⟩ (fun r => ∀ c : Dev nD,
      ∀ b ∈ Pipeline.ucRefs τ sig, r.2.mem ((c : Thread nD τ).1, b) = Gen.V10 m (outs m) c b) :=
  Pipeline.θ_run_regions_kit (pcfgs (F := F)) adm (pdats m) () Gen.cellOf_inj emb₁ defs₀ 𝒱₀ L lv m ρ main (segs m)
    (fun c Q => by
      rewrite [Gen.main_chain c, Pipeline.Seg.run_eq_chain,
        show (segs m).map Pipeline.Seg.prog = [
          StableHlo.seq Gen.hostOps0,
          StableHlo.seq Gen.hostOps0_1,
          StableHlo.seq Gen.hostOps0_2,
          Prog.lift (.customCall (Pipeline.entry 0) ()),
          StableHlo.seq Gen.hostOps1,
          Prog.lift (.customCall (Pipeline.entry 1) ()),
          StableHlo.seq Gen.hostOps2,
          Prog.lift (.customCall (Pipeline.entry 2) ()),
          StableHlo.seq Gen.hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c b hb => (h c b hb).trans (congrFun (V10_eq m c) b).symm)

/-- The ten argument arrays end as launched: no host stretch writes one and no region may change one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  OrdCont.mono (θ_run defs (onTc (τ := τ) (main (F := F))) ⟨m, fun _ => 0, ρ⟩)
    (fun r h c => ⟨(h c (Proc.devRef .tc main_arg0) (Finset.mem_filter.mpr ⟨StableHlo.devRef_mem_tcRefs main_arg0, by decide⟩)).trans (Gen.V10_main_arg0 m (outs m) c),
      (h c (Proc.devRef .tc main_arg1) (Finset.mem_filter.mpr ⟨StableHlo.devRef_mem_tcRefs main_arg1, by decide⟩)).trans (Gen.V10_main_arg1 m (outs m) c),
      (h c (Proc.devRef .tc main_arg2) (Finset.mem_filter.mpr ⟨StableHlo.devRef_mem_tcRefs main_arg2, by decide⟩)).trans (Gen.V10_main_arg2 m (outs m) c),
      (h c (Proc.devRef .tc main_arg3) (Finset.mem_filter.mpr ⟨StableHlo.devRef_mem_tcRefs main_arg3, by decide⟩)).trans (Gen.V10_main_arg3 m (outs m) c),
      (h c (Proc.devRef .tc main_arg4) (Finset.mem_filter.mpr ⟨StableHlo.devRef_mem_tcRefs main_arg4, by decide⟩)).trans (Gen.V10_main_arg4 m (outs m) c),
      (h c (Proc.devRef .tc main_arg5) (Finset.mem_filter.mpr ⟨StableHlo.devRef_mem_tcRefs main_arg5, by decide⟩)).trans (Gen.V10_main_arg5 m (outs m) c),
      (h c (Proc.devRef .tc main_arg6) (Finset.mem_filter.mpr ⟨StableHlo.devRef_mem_tcRefs main_arg6, by decide⟩)).trans (Gen.V10_main_arg6 m (outs m) c),
      (h c (Proc.devRef .tc main_arg7) (Finset.mem_filter.mpr ⟨StableHlo.devRef_mem_tcRefs main_arg7, by decide⟩)).trans (Gen.V10_main_arg7 m (outs m) c),
      (h c (Proc.devRef .tc main_arg8) (Finset.mem_filter.mpr ⟨StableHlo.devRef_mem_tcRefs main_arg8, by decide⟩)).trans (Gen.V10_main_arg8 m (outs m) c),
      (h c (Proc.devRef .tc main_arg9) (Finset.mem_filter.mpr ⟨StableHlo.devRef_mem_tcRefs main_arg9, by decide⟩)).trans (Gen.V10_main_arg9 m (outs m) c)⟩)
    (run_all m ρ)

end Cert.KernelIdeal.Hand

end
-- ==== Proof.BRegions.lean ====
/-
  The four matmul launches of the Chebyshev network, one layer each, read as pipelines over their row blocks.
  Each body loads a 2000-row block of the concatenated terms [T0 | T1 | T2], the whole reshaped weight matrix and the
  bias row, multiplies, adds the bias (and, in layers 1-3, clamps to [0, 6]) and stores the 2000-row block of the result.
  This module states, for a launch entered with the buffers at `V`: the block each window holds at a grid point, what the
  body leaves in the result's staging buffer as a function of the three input blocks, the body's triple, and the
  pipeline's proof data with its body obligation. Nothing here depends on the float instance.
-/
import proofs.«104839_j69879117905989_1_alg».proof.Proof.Gen.Kernel.Launch
import proofs.«104839_j69879117905989_1_alg».proof.Proof.Gen.Kernel.Skeleton
import proofs.«104839_j69879117905989_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 1's matmul launch (pipeline 0), at the contents `V` the launch finds

Window 0 is a 2000-row block of the concatenated Chebyshev terms, window 1 the whole reshaped weight matrix, window 2
the bias row, window 3 the 2000-row block of the result. -/

section Region0
variable (V : (c : Dev nD) → (b : Ref sig .tc) → Buf (Elt F) ((c : Thread nD τ).loc b))

/-- Window `w`'s block at grid point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetches it or not (the weight
    matrix and the bias row are fetched once; their block index never moves). One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rA0 : Rect S2000x495 := Rect.unit (s := S2000x495) ![0, 0] S2000x495.size inb_S2000x495_S2000x495_0_0
abbrev rB0 : Rect S495x128 := Rect.unit (s := S495x128) ![0, 0] S495x128.size inb_S495x128_S495x128_0_0
abbrev rC0 : Rect S1x128 := Rect.unit (s := S1x128) ![0, 0] S1x128.size inb_S1x128_S1x128_0_0
abbrev rO0 : Rect S2000x128 := Rect.unit (s := S2000x128) ![0, 0] S2000x128.size inb_S2000x128_S2000x128_0_0

/-- What the body leaves in the result's staging buffer: its one whole-buffer store, the clamped product-plus-bias of the three loaded blocks. -/
def out0 (x0 : Vec F S2000x495 .f32) (x1 : Vec F S495x128 .f32) (x2 : Vec F S1x128 .f32) : Vec F S2000x128 .f32 :=
  View.canon [⟨rO0, k0_pay1 (View.ld x0 rA0) (View.ld x1 rB0) (View.ld x2 rC0)⟩]

/-- The one store is the whole buffer, so it covers it. -/
theorem cover0 (p0 : Vec F S2000x128 .f32) (y : S2000x128.Idx) :
    ∃ pc ∈ ([⟨rO0, p0⟩] : List (View.Piece (Elt F) S2000x128 .f32)), y ∈ pc.1.set :=
  View.cover_of_tiled [⟨rO0, p0⟩] S2000x128.size (by rfl) y

set_option maxHeartbeats 1000000 in
/-- The body on whole staging buffers: the three inputs are read and left as found, the result buffer ends at `out0`
    of them, whatever it held. -/
theorem sound_kernel0 (c : Dev nD) (E : Set ℕ) (i : grid0.Coords)
    (a1 : Memref sig .tc .vmem S2000x495 .f32) (h1 : a1.IsWhole) (a2 : Memref sig .tc .vmem S495x128 .f32) (h2 : a2.IsWhole)
    (a3 : Memref sig .tc .vmem S1x128 .f32) (h3 : a3.IsWhole) (a4 : Memref sig .tc .vmem S2000x128 .f32) (h4 : a4.IsWhole)
    (x0 : Vec F S2000x495 .f32) (x1 : Vec F S495x128 .f32) (x2 : Vec F S1x128 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (out0 x0 x1 x2)) -∗ K ⟨⟩))
      ⊢ wp frame (wpE (defs₀ (F := F)) Variants.none c none) E (cc0__chebmm_kernel i a1 h1 a2 h2 a3 h3 a4 h4) K := by
  simp only [cc0__chebmm_kernel_eq_skeleton]; unfold cc0__chebmm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The launch's proof data on core `c`: the arrays as found; after the body each input buffer still at its block,
    the result buffer at `out0` of the three blocks; nothing carried between points, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

/-! # Layer 2's matmul launch (pipeline 1), at the contents `V` the launch finds

Window 0 is a 2000-row block of the concatenated Chebyshev terms, window 1 the whole reshaped weight matrix, window 2
the bias row, window 3 the 2000-row block of the result. -/

section Region1
variable (V : (c : Dev nD) → (b : Ref sig .tc) → Buf (Elt F) ((c : Thread nD τ).loc b))

/-- Window `w`'s block at grid point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetches it or not (the weight
    matrix and the bias row are fetched once; their block index never moves). One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rA1 : Rect S2000x384 := Rect.unit (s := S2000x384) ![0, 0] S2000x384.size inb_S2000x384_S2000x384_0_0
abbrev rB1 : Rect S384x128 := Rect.unit (s := S384x128) ![0, 0] S384x128.size inb_S384x128_S384x128_0_0
abbrev rC1 : Rect S1x128 := Rect.unit (s := S1x128) ![0, 0] S1x128.size inb_S1x128_S1x128_0_0
abbrev rO1 : Rect S2000x128 := Rect.unit (s := S2000x128) ![0, 0] S2000x128.size inb_S2000x128_S2000x128_0_0

/-- What the body leaves in the result's staging buffer: its one whole-buffer store, the clamped product-plus-bias of the three loaded blocks. -/
def out1 (x0 : Vec F S2000x384 .f32) (x1 : Vec F S384x128 .f32) (x2 : Vec F S1x128 .f32) : Vec F S2000x128 .f32 :=
  View.canon [⟨rO1, k1_pay1 (View.ld x0 rA1) (View.ld x1 rB1) (View.ld x2 rC1)⟩]

/-- The one store is the whole buffer, so it covers it. -/
theorem cover1 (p0 : Vec F S2000x128 .f32) (y : S2000x128.Idx) :
    ∃ pc ∈ ([⟨rO1, p0⟩] : List (View.Piece (Elt F) S2000x128 .f32)), y ∈ pc.1.set :=
  View.cover_of_tiled [⟨rO1, p0⟩] S2000x128.size (by rfl) y

set_option maxHeartbeats 1000000 in
/-- The body on whole staging buffers: the three inputs are read and left as found, the result buffer ends at `out1`
    of them, whatever it held. -/
theorem sound_kernel1 (c : Dev nD) (E : Set ℕ) (i : grid1.Coords)
    (a1 : Memref sig .tc .vmem S2000x384 .f32) (h1 : a1.IsWhole) (a2 : Memref sig .tc .vmem S384x128 .f32) (h2 : a2.IsWhole)
    (a3 : Memref sig .tc .vmem S1x128 .f32) (h3 : a3.IsWhole) (a4 : Memref sig .tc .vmem S2000x128 .f32) (h4 : a4.IsWhole)
    (x0 : Vec F S2000x384 .f32) (x1 : Vec F S384x128 .f32) (x2 : Vec F S1x128 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (out1 x0 x1 x2)) -∗ K ⟨⟩))
      ⊢ wp frame (wpE (defs₀ (F := F)) Variants.none c none) E (cc1__chebmm_kernel i a1 h1 a2 h2 a3 h3 a4 h4) K := by
  simp only [cc1__chebmm_kernel_eq_skeleton]; unfold cc1__chebmm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The launch's proof data on core `c`: the arrays as found; after the body each input buffer still at its block,
    the result buffer at `out1` of the three blocks; nothing carried between points, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

/-! # Layer 3's matmul launch (pipeline 2), at the contents `V` the launch finds

Window 0 is a 2000-row block of the concatenated Chebyshev terms, window 1 the whole reshaped weight matrix, window 2
the bias row, window 3 the 2000-row block of the result. -/

section Region2
variable (V : (c : Dev nD) → (b : Ref sig .tc) → Buf (Elt F) ((c : Thread nD τ).loc b))

/-- Window `w`'s block at grid point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the point fetches it or not (the weight
    matrix and the bias row are fetched once; their block index never moves). One statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rA2 : Rect S2000x384 := Rect.unit (s := S2000x384) ![0, 0] S2000x384.size inb_S2000x384_S2000x384_0_0
abbrev rB2 : Rect S384x128 := Rect.unit (s := S384x128) ![0, 0] S384x128.size inb_S384x128_S384x128_0_0
abbrev rC2 : Rect S1x128 := Rect.unit (s := S1x128) ![0, 0] S1x128.size inb_S1x128_S1x128_0_0
abbrev rO2 : Rect S2000x128 := Rect.unit (s := S2000x128) ![0, 0] S2000x128.size inb_S2000x128_S2000x128_0_0

/-- What the body leaves in the result's staging buffer: its one whole-buffer store, the clamped product-plus-bias of the three loaded blocks. -/
def out2 (x0 : Vec F S2000x384 .f32) (x1 : Vec F S384x128 .f32) (x2 : Vec F S1x128 .f32) : Vec F S2000x128 .f32 :=
  View.canon [⟨rO2, k2_pay1 (View.ld x0 rA2) (View.ld x1 rB2) (View.ld x2 rC2)⟩]

/-- The one store is the whole buffer, so it covers it. -/
theorem cover2 (p0 : Vec F S2000x128 .f32) (y : S2000x128.Idx) :
    ∃ pc ∈ ([⟨rO2, p0⟩] : List (View.Piece (Elt F) S2000x128 .f32)), y ∈ pc.1.set :=
  View.cover_of_tiled [⟨rO2, p0⟩] S2000x128.size (by rfl) y

set_option maxHeartbeats 1000000 in
/-- The body on whole staging buffers: the three inputs are read and left as found, the result buffer ends at `out2`
    of them, whatever it held. -/
theorem sound_kernel2 (c : Dev nD) (E : Set ℕ) (i : grid2.Coords)
    (a1 : Memref sig .tc .vmem S2000x384 .f32) (h1 : a1.IsWhole) (a2 : Memref sig .tc .vmem S384x128 .f32) (h2 : a2.IsWhole)
    (a3 : Memref sig .tc .vmem S1x128 .f32) (h3 : a3.IsWhole) (a4 : Memref sig .tc .vmem S2000x128 .f32) (h4 : a4.IsWhole)
    (x0 : Vec F S2000x384 .f32) (x1 : Vec F S384x128 .f32) (x2 : Vec F S1x128 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (out2 x0 x1 x2)) -∗ K ⟨⟩))
      ⊢ wp frame (wpE (defs₀ (F := F)) Variants.none c none) E (cc2__chebmm_kernel i a1 h1 a2 h2 a3 h3 a4 h4) K := by
  simp only [cc2__chebmm_kernel_eq_skeleton]; unfold cc2__chebmm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-- The launch's proof data on core `c`: the arrays as found; after the body each input buffer still at its block,
    the result buffer at `out2` of the three blocks; nothing carried between points, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

/-! # Layer 4's matmul launch (pipeline 3), at the contents `V` the launch finds

Window 0 is a 2000-row block of the concatenated Chebyshev terms, window 1 the whole reshaped weight matrix, window 2
the bias row, window 3 the 2000-row block of the result. -/

section Region3
variable (V : (c : Dev nD) → (b : Ref sig .tc) → Buf (Elt F) ((c : Thread nD τ).loc b))

/-- Window `w`'s block at grid point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, whether the point fetches it or not (the weight
    matrix and the bias row are fetched once; their block index never moves). One statement per input window. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev rA3 : Rect S2000x384 := Rect.unit (s := S2000x384) ![0, 0] S2000x384.size inb_S2000x384_S2000x384_0_0
abbrev rB3 : Rect S384x2 := Rect.unit (s := S384x2) ![0, 0] S384x2.size inb_S384x2_S384x2_0_0
abbrev rC3 : Rect S1x2 := Rect.unit (s := S1x2) ![0, 0] S1x2.size inb_S1x2_S1x2_0_0
abbrev rO3 : Rect S2000x2 := Rect.unit (s := S2000x2) ![0, 0] S2000x2.size inb_S2000x2_S2000x2_0_0

/-- What the body leaves in the result's staging buffer: its one whole-buffer store, the product-plus-bias of the three loaded blocks. -/
def out3 (x0 : Vec F S2000x384 .f32) (x1 : Vec F S384x2 .f32) (x2 : Vec F S1x2 .f32) : Vec F S2000x2 .f32 :=
  View.canon [⟨rO3, k3_pay1 (View.ld x0 rA3) (View.ld x1 rB3) (View.ld x2 rC3)⟩]

/-- The one store is the whole buffer, so it covers it. -/
theorem cover3 (p0 : Vec F S2000x2 .f32) (y : S2000x2.Idx) :
    ∃ pc ∈ ([⟨rO3, p0⟩] : List (View.Piece (Elt F) S2000x2 .f32)), y ∈ pc.1.set :=
  View.cover_of_tiled [⟨rO3, p0⟩] S2000x2.size (by rfl) y

set_option maxHeartbeats 1000000 in
/-- The body on whole staging buffers: the three inputs are read and left as found, the result buffer ends at `out3`
    of them, whatever it held. -/
theorem sound_kernel3 (c : Dev nD) (E : Set ℕ) (i : grid3.Coords)
    (a1 : Memref sig .tc .vmem S2000x384 .f32) (h1 : a1.IsWhole) (a2 : Memref sig .tc .vmem S384x2 .f32) (h2 : a2.IsWhole)
    (a3 : Memref sig .tc .vmem S1x2 .f32) (h3 : a3.IsWhole) (a4 : Memref sig .tc .vmem S2000x2 .f32) (h4 : a4.IsWhole)
    (x0 : Vec F S2000x384 .f32) (x1 : Vec F S384x2 .f32) (x2 : Vec F S1x2 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (out3 x0 x1 x2)) -∗ K ⟨⟩))
      ⊢ wp frame (wpE (defs₀ (F := F)) Variants.none c none) E (cc3__chebmm_kernel i a1 h1 a2 h2 a3 h3 a4 h4) K := by
  simp only [cc3__chebmm_kernel_eq_skeleton]; unfold cc3__chebmm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-- The launch's proof data on core `c`: the arrays as found; after the body each input buffer still at its block,
    the result buffer at `out3` of the three blocks; nothing carried between points, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.BRunA.lean ====
/- The buffers' contents between the ten items of the program as a fold from the launch memory (a host stretch:
   what its operations compute; a kernel region: its four arrays at the fold of the write-backs over its grid, every
   other buffer as entered), the unknowns of the generated chain of valuations chosen to be that fold, the two chains
   shown equal, and what the chain holds at each region's result. -/
import proofs.«104839_j69879117905989_1_alg».proof.Proof.Gen.Kernel.Regions
import proofs.«104839_j69879117905989_1_alg».proof.Proof.BRegions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffers' contents between the items of the program, as a fold from the launch memory

A region leaves each of its windows' arrays at the fold of the write-backs over its grid and every other buffer
as it found it; a host stretch leaves what its operations compute. -/

/-- A valuation with a pipeline's arrays replaced is the valuation updated at ONE reference — the one window `wo`
    whose array the pipeline may change — when every other window's final array is what the valuation already holds. -/
theorem withArrays_eq_update {gr W : Nat} (win : Fin W → Pipeline.WinSpec sig gr)
    (hinj : Function.Injective (Pipeline.arrRef win)) (c : Dev nD) (V : Valuation τ sig (Elt F))
    (A : (w : Fin W) → Buf (Elt F) ((win w).arr.view.loc (c.tc : Thread nD τ))) (wo : Fin W)
    (hin : ∀ w, w ≠ wo → A w = V (Proc.devRef .tc (Pipeline.arrRef win w))) :
    Pipeline.withArrays win c V A
      = Function.update V (Proc.devRef .tc (Pipeline.arrRef win wo))
          (Pipeline.withArrays win c V A (Proc.devRef .tc (Pipeline.arrRef win wo))) := by
  funext b
  by_cases h : ∃ w, Proc.devRef .tc (Pipeline.arrRef win w) = b
  · obtain ⟨w, rfl⟩ := h
    by_cases hw : w = wo
    · subst hw; rw [Function.update_self]
    · rw [Function.update_of_ne (fun e => hw (hinj (Proc.devRef_injective _ e))),
        Pipeline.withArrays_arr win hinj, hin w hw]
  · rw [Function.update_of_ne (fun e => h ⟨wo, e.symm⟩)]
    unfold Pipeline.withArrays; rw [dif_neg h]

/-- The contents region 0 is entered from, read at the TensorCore's references. -/
abbrev E3 : (c : Dev nD) → (b : Ref sig .tc) → Buf (Elt F) ((c : Thread nD τ).loc b) := fun c b => Gen.V3 m c b

/-- After region 0: its four arrays at the fold of its write-backs, every other buffer as entered. -/
def W4 (c : Dev nD) : Valuation τ sig (Elt F) :=
  Pipeline.withArrays spec0 c (Gen.V3 m c) fun w => (dat0 (E3 m) c).arrAt w cfg0.N
theorem W4_arr (c : Dev nD) (w : Fin cfg0.W) :
    W4 m c (Proc.devRef .tc (Pipeline.arrRef spec0 w)) = (dat0 (E3 m) c).arrAt w cfg0.N := by
  unfold W4; exact Pipeline.withArrays_arr spec0 Gen.launch0.win.arr_inj c _ _ w
theorem W4_of_ne (c : Dev nD) (b : Ref sig .tc) (hb : ∀ w, Pipeline.arrRef spec0 w ≠ b) :
    W4 m c (Proc.devRef .tc b) = (Gen.V3 m c) (Proc.devRef .tc b) := by
  unfold W4; exact Pipeline.withArrays_of_ne spec0 c _ _ b hb
/-- An input window's array is never written: region 0 leaves it as entered. -/
theorem W4_in (c : Dev nD) (w : Fin cfg0.W) (hw : w ≠ 3) :
    (dat0 (E3 m) c).arrAt w cfg0.N = (Gen.V3 m c) (Proc.devRef .tc (Pipeline.arrRef spec0 w)) := by
  have hin : (cfg0.win w).isOut = false := by
    revert hw; revert w; decide
  exact ((dat0 (E3 m) c).arrAt_in w hin _).trans (A_eq0 (E3 m) c w)
/-- So region 0 changes the valuation at `main_v62` only. -/
theorem W4_update (c : Dev nD) :
    W4 m c = Function.update (Gen.V3 m c) (Proc.devRef .tc main_v62) (W4 m c (Proc.devRef .tc main_v62)) := by
  unfold W4
  exact withArrays_eq_update spec0 Gen.launch0.win.arr_inj c _ _ 3 (fun w hw => W4_in m c w hw)
/-- After the host stretch that follows region 0 (region 1's entry). -/
abbrev W5 (c : Dev nD) : Valuation τ sig (Elt F) := StableHlo.after Gen.hostOps1 (W4 m c)
/-- The same read at the TensorCore's references. -/
abbrev E5 : (c : Dev nD) → (b : Ref sig .tc) → Buf (Elt F) ((c : Thread nD τ).loc b) := fun c b => W5 m c b

/-- After region 1: its four arrays at the fold of its write-backs, every other buffer as entered. -/
def W6 (c : Dev nD) : Valuation τ sig (Elt F) :=
  Pipeline.withArrays spec1 c (W5 m c) fun w => (dat1 (E5 m) c).arrAt w cfg1.N
theorem W6_arr (c : Dev nD) (w : Fin cfg1.W) :
    W6 m c (Proc.devRef .tc (Pipeline.arrRef spec1 w)) = (dat1 (E5 m) c).arrAt w cfg1.N := by
  unfold W6; exact Pipeline.withArrays_arr spec1 Gen.launch1.win.arr_inj c _ _ w
theorem W6_of_ne (c : Dev nD) (b : Ref sig .tc) (hb : ∀ w, Pipeline.arrRef spec1 w ≠ b) :
    W6 m c (Proc.devRef .tc b) = (W5 m c) (Proc.devRef .tc b) := by
  unfold W6; exact Pipeline.withArrays_of_ne spec1 c _ _ b hb
/-- An input window's array is never written: region 1 leaves it as entered. -/
theorem W6_in (c : Dev nD) (w : Fin cfg1.W) (hw : w ≠ 3) :
    (dat1 (E5 m) c).arrAt w cfg1.N = (W5 m c) (Proc.devRef .tc (Pipeline.arrRef spec1 w)) := by
  have hin : (cfg1.win w).isOut = false := by
    revert hw; revert w; decide
  exact ((dat1 (E5 m) c).arrAt_in w hin _).trans (A_eq1 (E5 m) c w)
/-- So region 1 changes the valuation at `main_v95` only. -/
theorem W6_update (c : Dev nD) :
    W6 m c = Function.update (W5 m c) (Proc.devRef .tc main_v95) (W6 m c (Proc.devRef .tc main_v95)) := by
  unfold W6
  exact withArrays_eq_update spec1 Gen.launch1.win.arr_inj c _ _ 3 (fun w hw => W6_in m c w hw)
/-- After the host stretch that follows region 1 (region 2's entry). -/
abbrev W7 (c : Dev nD) : Valuation τ sig (Elt F) := StableHlo.after Gen.hostOps2 (W6 m c)
/-- The same read at the TensorCore's references. -/
abbrev E7 : (c : Dev nD) → (b : Ref sig .tc) → Buf (Elt F) ((c : Thread nD τ).loc b) := fun c b => W7 m c b

/-- After region 2: its four arrays at the fold of its write-backs, every other buffer as entered. -/
def W8 (c : Dev nD) : Valuation τ sig (Elt F) :=
  Pipeline.withArrays spec2 c (W7 m c) fun w => (dat2 (E7 m) c).arrAt w cfg2.N
theorem W8_arr (c : Dev nD) (w : Fin cfg2.W) :
    W8 m c (Proc.devRef .tc (Pipeline.arrRef spec2 w)) = (dat2 (E7 m) c).arrAt w cfg2.N := by
  unfold W8; exact Pipeline.withArrays_arr spec2 Gen.launch2.win.arr_inj c _ _ w
theorem W8_of_ne (c : Dev nD) (b : Ref sig .tc) (hb : ∀ w, Pipeline.arrRef spec2 w ≠ b) :
    W8 m c (Proc.devRef .tc b) = (W7 m c) (Proc.devRef .tc b) := by
  unfold W8; exact Pipeline.withArrays_of_ne spec2 c _ _ b hb
/-- An input window's array is never written: region 2 leaves it as entered. -/
theorem W8_in (c : Dev nD) (w : Fin cfg2.W) (hw : w ≠ 3) :
    (dat2 (E7 m) c).arrAt w cfg2.N = (W7 m c) (Proc.devRef .tc (Pipeline.arrRef spec2 w)) := by
  have hin : (cfg2.win w).isOut = false := by
    revert hw; revert w; decide
  exact ((dat2 (E7 m) c).arrAt_in w hin _).trans (A_eq2 (E7 m) c w)
/-- So region 2 changes the valuation at `main_v128` only. -/
theorem W8_update (c : Dev nD) :
    W8 m c = Function.update (W7 m c) (Proc.devRef .tc main_v128) (W8 m c (Proc.devRef .tc main_v128)) := by
  unfold W8
  exact withArrays_eq_update spec2 Gen.launch2.win.arr_inj c _ _ 3 (fun w hw => W8_in m c w hw)
/-- After the host stretch that follows region 2 (region 3's entry). -/
abbrev W9 (c : Dev nD) : Valuation τ sig (Elt F) := StableHlo.after Gen.hostOps3 (W8 m c)
/-- The same read at the TensorCore's references. -/
abbrev E9 : (c : Dev nD) → (b : Ref sig .tc) → Buf (Elt F) ((c : Thread nD τ).loc b) := fun c b => W9 m c b

/-- After region 3: its four arrays at the fold of its write-backs, every other buffer as entered. -/
def W10 (c : Dev nD) : Valuation τ sig (Elt F) :=
  Pipeline.withArrays spec3 c (W9 m c) fun w => (dat3 (E9 m) c).arrAt w cfg3.N
theorem W10_arr (c : Dev nD) (w : Fin cfg3.W) :
    W10 m c (Proc.devRef .tc (Pipeline.arrRef spec3 w)) = (dat3 (E9 m) c).arrAt w cfg3.N := by
  unfold W10; exact Pipeline.withArrays_arr spec3 Gen.launch3.win.arr_inj c _ _ w
theorem W10_of_ne (c : Dev nD) (b : Ref sig .tc) (hb : ∀ w, Pipeline.arrRef spec3 w ≠ b) :
    W10 m c (Proc.devRef .tc b) = (W9 m c) (Proc.devRef .tc b) := by
  unfold W10; exact Pipeline.withArrays_of_ne spec3 c _ _ b hb
/-- An input window's array is never written: region 3 leaves it as entered. -/
theorem W10_in (c : Dev nD) (w : Fin cfg3.W) (hw : w ≠ 3) :
    (dat3 (E9 m) c).arrAt w cfg3.N = (W9 m c) (Proc.devRef .tc (Pipeline.arrRef spec3 w)) := by
  have hin : (cfg3.win w).isOut = false := by
    revert hw; revert w; decide
  exact ((dat3 (E9 m) c).arrAt_in w hin _).trans (A_eq3 (E9 m) c w)
/-- So region 3 changes the valuation at `main_v161` only. -/
theorem W10_update (c : Dev nD) :
    W10 m c = Function.update (W9 m c) (Proc.devRef .tc main_v161) (W10 m c (Proc.devRef .tc main_v161)) := by
  unfold W10
  exact withArrays_eq_update spec3 Gen.launch3.win.arr_inj c _ _ 3 (fun w hw => W10_in m c w hw)

/-- What the regions leave: item by item, the fold read at the reference asked for. -/
def outs : Gen.Outs (F := F) := fun J r c =>
  if J = 4 then W4 m c (Proc.devRef .tc r) else if J = 6 then W6 m c (Proc.devRef .tc r)
  else if J = 8 then W8 m c (Proc.devRef .tc r) else W10 m c (Proc.devRef .tc r)

theorem outs_4 (r : Ref sig .tc) (c : Dev nD) : outs m 4 r c = W4 m c (Proc.devRef .tc r) := rfl
theorem outs_6 (r : Ref sig .tc) (c : Dev nD) : outs m 6 r c = W6 m c (Proc.devRef .tc r) := rfl
theorem outs_8 (r : Ref sig .tc) (c : Dev nD) : outs m 8 r c = W8 m c (Proc.devRef .tc r) := rfl
theorem outs_10 (r : Ref sig .tc) (c : Dev nD) : outs m 10 r c = W10 m c (Proc.devRef .tc r) := rfl

/-! ## The generated valuations over these `outs` are the fold -/

theorem V4_eq (c : Dev nD) : Gen.V4 m (outs m) c = W4 m c := by
  rw [W4_update m c]; rfl
theorem V5_eq (c : Dev nD) : Gen.V5 m (outs m) c = W5 m c := congrArg (StableHlo.after Gen.hostOps1) (V4_eq m c)
theorem V6_eq (c : Dev nD) : Gen.V6 m (outs m) c = W6 m c := by
  rw [W6_update m c, ← V5_eq m c]; rfl
theorem V7_eq (c : Dev nD) : Gen.V7 m (outs m) c = W7 m c := congrArg (StableHlo.after Gen.hostOps2) (V6_eq m c)
theorem V8_eq (c : Dev nD) : Gen.V8 m (outs m) c = W8 m c := by
  rw [W8_update m c, ← V7_eq m c]; rfl
theorem V9_eq (c : Dev nD) : Gen.V9 m (outs m) c = W9 m c := congrArg (StableHlo.after Gen.hostOps3) (V8_eq m c)
theorem V10_eq (c : Dev nD) : Gen.V10 m (outs m) c = W10 m c := by
  rw [W10_update m c, ← V9_eq m c]; rfl

/-! ## What the chain of valuations holds at each region's result -/

theorem E5_eq : (fun (c : Dev nD) (b : Ref sig .tc) => Gen.V5 m (outs m) c b) = E5 m := by
  funext c b; exact congrFun (V5_eq m c) _
theorem E7_eq : (fun (c : Dev nD) (b : Ref sig .tc) => Gen.V7 m (outs m) c b) = E7 m := by
  funext c b; exact congrFun (V7_eq m c) _
theorem E9_eq : (fun (c : Dev nD) (b : Ref sig .tc) => Gen.V9 m (outs m) c b) = E9 m := by
  funext c b; exact congrFun (V9_eq m c) _

/-- Region 0's result: the fold of its write-backs from the contents it is entered with. -/
theorem outs_main_v62 (c : Dev nD) :
    outs m 4 main_v62 c = (dat0 (fun c b => Gen.V3 m c b) c).arrAt 3 cfg0.N := W4_arr m c 3
theorem outs_main_v95 (c : Dev nD) :
    outs m 6 main_v95 c = (dat1 (fun c b => Gen.V5 m (outs m) c b) c).arrAt 3 cfg1.N := by
  rw [E5_eq]; exact W6_arr m c 3
theorem outs_main_v128 (c : Dev nD) :
    outs m 8 main_v128 c = (dat2 (fun c b => Gen.V7 m (outs m) c b) c).arrAt 3 cfg2.N := by
  rw [E7_eq]; exact W8_arr m c 3
theorem outs_main_v161 (c : Dev nD) :
    outs m 10 main_v161 c = (dat3 (fun c b => Gen.V9 m (outs m) c b) c).arrAt 3 cfg3.N := by
  rw [E9_eq]; exact W10_arr m c 3

/-- The same read off the valuation after each region. -/
theorem V4_main_v62 (c : Dev nD) :
    Gen.V4 m (outs m) c main_v62 = (dat0 (fun c b => Gen.V3 m c b) c).arrAt 3 cfg0.N :=
  (congrFun (V4_eq m c) _).trans (W4_arr m c 3)
theorem V6_main_v95 (c : Dev nD) :
    Gen.V6 m (outs m) c main_v95 = (dat1 (fun c b => Gen.V5 m (outs m) c b) c).arrAt 3 cfg1.N := by
  rw [E5_eq]; exact (congrFun (V6_eq m c) _).trans (W6_arr m c 3)
theorem V8_main_v128 (c : Dev nD) :
    Gen.V8 m (outs m) c main_v128 = (dat2 (fun c b => Gen.V7 m (outs m) c b) c).arrAt 3 cfg2.N := by
  rw [E7_eq]; exact (congrFun (V8_eq m c) _).trans (W8_arr m c 3)
/-- The program's result buffer at the end. -/
theorem result_eq (c : Dev nD) :
    Gen.V10 m (outs m) c main_v161 = (dat3 (fun c b => Gen.V9 m (outs m) c b) c).arrAt 3 cfg3.N := by
  rw [E9_eq]; exact (congrFun (V10_eq m c) _).trans (W10_arr m c 3)

/-- The host stretch after a region does not write the region's result: the next region's entry contents hold it. -/
theorem V5_main_v62 (c : Dev nD) :
    Gen.V5 m (outs m) c main_v62 = (dat0 (fun c b => Gen.V3 m c b) c).arrAt 3 cfg0.N :=
  (Gen.V5_of m (outs m) c main_v62 (by decide)).trans (V4_main_v62 m c)
theorem V7_main_v95 (c : Dev nD) :
    Gen.V7 m (outs m) c main_v95 = (dat1 (fun c b => Gen.V5 m (outs m) c b) c).arrAt 3 cfg1.N :=
  (Gen.V7_of m (outs m) c main_v95 (by decide)).trans (V6_main_v95 m c)
theorem V9_main_v128 (c : Dev nD) :
    Gen.V9 m (outs m) c main_v128 = (dat2 (fun c b => Gen.V7 m (outs m) c b) c).arrAt 3 cfg2.N :=
  (Gen.V9_of m (outs m) c main_v128 (by decide)).trans (V8_main_v128 m c)

end Cert.Kernel.Hand

end
-- ==== Proof.BRun.lean ====
/- The program's ten items as segments of one run: each host stretch from the contents the fold gives at its start,
   each kernel region a record entered with every unscoped buffer at its entry contents and left with them at the fold
   of its write-backs. Every weakly fair execution terminates and ends with every unscoped buffer at the last
   valuation; the ten argument arrays end as launched. -/
import proofs.«104839_j69879117905989_1_alg».proof.Proof.Gen.Kernel.Regions
import proofs.«104839_j69879117905989_1_alg».proof.Proof.BRunA
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The run: the program's ten items as segments, from the launch to the return -/

/-- No pipeline has a prefetched table. -/
abbrev adm : (p : Fin 4) → (pcfgs (F := F) p).Adm := fun p => (cfgs p).toPCfg_adm
/-- Every pipeline's proof data, each at the contents its region is entered from. -/
def pdats : (p : Fin 4) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E5 m) c
  | ⟨2, _⟩ => fun c => dat2 (E7 m) c
  | ⟨3, _⟩ => fun c => dat3 (E9 m) c
abbrev 𝒱₀ : Variants := Variants.none
/-- No core owes another anything. -/
abbrev L : GSem nD τ sig → Finset Unit := fun _ => ∅
abbrev lv : GSem nD τ sig → Unit → ℕ := fun _ _ => 0
/-- What a core holds beside its buffers at every boundary: its generator register at some state, and nothing owed. -/
abbrev R (c : Dev nD) : sProp 𝕄 := iprop((∃ r, prngReg c r) ∗ ∃ W, owes (c : Thread nD τ) (0 : CellTallies nD τ sig Unit) W)
/-- A host stretch from the contents `W`: it ends at `StableHlo.after ops (W c)`, `R` untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last boundary without the `owes`. -/
abbrev Tₙ (c : Dev nD) : sProp 𝕄 := iprop(StableHlo.held (c : Thread nD τ) (Pipeline.ucRefs τ sig) (W10 m c) ∗ ∃ r, prngReg c r)

set_option backward.isDefEq.respectTransparency.types false in
/-- Region 0: entered with every unscoped buffer at its entry contents, left with them at the fold of its
    write-backs. Its arrays are split out of the unscoped buffers and joined back; the generator register goes into the
    pipeline's invariant and comes back; nothing is owed; the kernel has no semaphore of its own. -/
def reg0 : Pipeline.RegionSeg (pcfgs (F := F)) adm (pdats m) () defs₀ 𝒱₀ L lv 0 where
  win := Gen.launch0.win.to₀
  block_pos := Gen.launch0.block_pos
  stage_whole := Gen.launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) Gen.launch0.win Gen.launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      Gen.launch0.win Gen.launch0.arr_whole c (pdats m) ((pdats m 0 c).share_full fun _ => rfl)
      (E3 m c) (fun b => W4 m c b) ((pdats m 0 c).arrAt · cfg0.N) (fun w => (W4_arr m c w).symm)
      (fun b hb => W4_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at its entry contents, left with them at the fold of its
    write-backs. Its arrays are split out of the unscoped buffers and joined back; the generator register goes into the
    pipeline's invariant and comes back; nothing is owed; the kernel has no semaphore of its own. -/
def reg1 : Pipeline.RegionSeg (pcfgs (F := F)) adm (pdats m) () defs₀ 𝒱₀ L lv 1 where
  win := Gen.launch1.win.to₀
  block_pos := Gen.launch1.block_pos
  stage_whole := Gen.launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) Gen.launch1.win Gen.launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      Gen.launch1.win Gen.launch1.arr_whole c (pdats m) ((pdats m 1 c).share_full fun _ => rfl)
      (E5 m c) (fun b => W6 m c b) ((pdats m 1 c).arrAt · cfg1.N) (fun w => (W6_arr m c w).symm)
      (fun b hb => W6_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at its entry contents, left with them at the fold of its
    write-backs. Its arrays are split out of the unscoped buffers and joined back; the generator register goes into the
    pipeline's invariant and comes back; nothing is owed; the kernel has no semaphore of its own. -/
def reg2 : Pipeline.RegionSeg (pcfgs (F := F)) adm (pdats m) () defs₀ 𝒱₀ L lv 2 where
  win := Gen.launch2.win.to₀
  block_pos := Gen.launch2.block_pos
  stage_whole := Gen.launch2.stage_whole
  K := PEmpty
  osem k := k.elim
  ho := Pipeline.OwnSemFacts.none _
  hbody c := (body_obligation2 (E7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [Pipeline.ownSems0_none]
    have hsplit := Pipeline.arrays_of_unscopedBufs (p := 2) (pcfgs (F := F)) adm (pdats m) Gen.launch2.win Gen.launch2.arr_whole c
      ((pdats m 2 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      Gen.launch2.win Gen.launch2.arr_whole c (pdats m) ((pdats m 2 c).share_full fun _ => rfl)
      (E7 m c) (fun b => W8 m c b) ((pdats m 2 c).arrAt · cfg2.N) (fun w => (W8_arr m c w).symm)
      (fun b hb => W8_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at its entry contents, left with them at the fold of its
    write-backs. Its arrays are split out of the unscoped buffers and joined back; the generator register goes into the
    pipeline's invariant and comes back; nothing is owed; the kernel has no semaphore of its own. -/
def reg3 : Pipeline.RegionSeg (pcfgs (F := F)) adm (pdats m) () defs₀ 𝒱₀ L lv 3 where
  win := Gen.launch3.win.to₀
  block_pos := Gen.launch3.block_pos
  stage_whole := Gen.launch3.stage_whole
  K := PEmpty
  osem k := k.elim
  ho := Pipeline.OwnSemFacts.none _
  hbody c := (body_obligation3 (E9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E9 m c)
  hentry c := by
    rw [Pipeline.ownSems0_none]
    have hsplit := Pipeline.arrays_of_unscopedBufs (p := 3) (pcfgs (F := F)) adm (pdats m) Gen.launch3.win Gen.launch3.arr_whole c
      ((pdats m 3 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      Gen.launch3.win Gen.launch3.arr_whole c (pdats m) ((pdats m 3 c).share_full fun _ => rfl)
      (E9 m c) (fun b => W10 m c b) ((pdats m 3 c).arrAt · cfg3.N) (fun w => (W10_arr m c w).symm)
      (fun b hb => W10_of_ne m c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's ten items in order. -/
abbrev segs : List (Pipeline.Seg (pcfgs (F := F)) adm (pdats m) () defs₀ 𝒱₀ L lv) :=
  [ .host (hseg Gen.hostOps0 Gen.hostOps0_sub Gen.hostOps0_fresh (Gen.V0 m)),
    .host (hseg Gen.hostOps0_1 Gen.hostOps0_1_sub Gen.hostOps0_1_fresh (Gen.V1 m)),
    .host (hseg Gen.hostOps0_2 Gen.hostOps0_2_sub Gen.hostOps0_2_fresh (Gen.V2 m)),
    .region (reg0 m),
    .host (hseg Gen.hostOps1 Gen.hostOps1_sub Gen.hostOps1_fresh (W4 m)),
    .region (reg1 m),
    .host (hseg Gen.hostOps2 Gen.hostOps2_sub Gen.hostOps2_fresh (W6 m)),
    .region (reg2 m),
    .host (hseg Gen.hostOps3 Gen.hostOps3_sub Gen.hostOps3_fresh (W8 m)),
    .region (reg3 m) ]

variable (ρ : Dev nD → PrngReg)

set_option backward.isDefEq.respectTransparency.types false in
/-- Every weakly fair execution from memory `m` with zero counters terminates, and at the end every unscoped buffer of
    every core holds what the fold says. -/
theorem run_all : θ_run defs (onTc (τ := τ) (main (F := F))) ⟨m, fun _ => 0, ρ⟩ (fun r => ∀ c : Dev nD,
      ∀ b ∈ Pipeline.ucRefs τ sig, r.2.mem ((c : Thread nD τ).1, b) = Gen.V10 m (outs m) c b) :=
  Pipeline.θ_run_regions_kit (pcfgs (F := F)) adm (pdats m) () Gen.cellOf_inj emb₁ defs₀ 𝒱₀ L lv m ρ main (segs m)
    (fun c Q => by
      rewrite [Gen.main_chain c, Pipeline.Seg.run_eq_chain,
        show (segs m).map Pipeline.Seg.prog = [
          StableHlo.seq Gen.hostOps0,
          StableHlo.seq Gen.hostOps0_1,
          StableHlo.seq Gen.hostOps0_2,
          Prog.lift (.customCall (Pipeline.entry 0) ()),
          StableHlo.seq Gen.hostOps1,
          Prog.lift (.customCall (Pipeline.entry 1) ()),
          StableHlo.seq Gen.hostOps2,
          Prog.lift (.customCall (Pipeline.entry 2) ()),
          StableHlo.seq Gen.hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c b hb => (h c b hb).trans (congrFun (V10_eq m c) b).symm)

/-- The ten argument arrays end as launched: no host stretch writes one and no region may change one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  OrdCont.mono (θ_run defs (onTc (τ := τ) (main (F := F))) ⟨m, fun _ => 0, ρ⟩)
    (fun r h c => ⟨(h c (Proc.devRef .tc main_arg0) (Finset.mem_filter.mpr ⟨StableHlo.devRef_mem_tcRefs main_arg0, by decide⟩)).trans (Gen.V10_main_arg0 m (outs m) c),
      (h c (Proc.devRef .tc main_arg1) (Finset.mem_filter.mpr ⟨StableHlo.devRef_mem_tcRefs main_arg1, by decide⟩)).trans (Gen.V10_main_arg1 m (outs m) c),
      (h c (Proc.devRef .tc main_arg2) (Finset.mem_filter.mpr ⟨StableHlo.devRef_mem_tcRefs main_arg2, by decide⟩)).trans (Gen.V10_main_arg2 m (outs m) c),
      (h c (Proc.devRef .tc main_arg3) (Finset.mem_filter.mpr ⟨StableHlo.devRef_mem_tcRefs main_arg3, by decide⟩)).trans (Gen.V10_main_arg3 m (outs m) c),
      (h c (Proc.devRef .tc main_arg4) (Finset.mem_filter.mpr ⟨StableHlo.devRef_mem_tcRefs main_arg4, by decide⟩)).trans (Gen.V10_main_arg4 m (outs m) c),
      (h c (Proc.devRef .tc main_arg5) (Finset.mem_filter.mpr ⟨StableHlo.devRef_mem_tcRefs main_arg5, by decide⟩)).trans (Gen.V10_main_arg5 m (outs m) c),
      (h c (Proc.devRef .tc main_arg6) (Finset.mem_filter.mpr ⟨StableHlo.devRef_mem_tcRefs main_arg6, by decide⟩)).trans (Gen.V10_main_arg6 m (outs m) c),
      (h c (Proc.devRef .tc main_arg7) (Finset.mem_filter.mpr ⟨StableHlo.devRef_mem_tcRefs main_arg7, by decide⟩)).trans (Gen.V10_main_arg7 m (outs m) c),
      (h c (Proc.devRef .tc main_arg8) (Finset.mem_filter.mpr ⟨StableHlo.devRef_mem_tcRefs main_arg8, by decide⟩)).trans (Gen.V10_main_arg8 m (outs m) c),
      (h c (Proc.devRef .tc main_arg9) (Finset.mem_filter.mpr ⟨StableHlo.devRef_mem_tcRefs main_arg9, by decide⟩)).trans (Gen.V10_main_arg9 m (outs m) c)⟩)
    (run_all m ρ)

end Cert.Kernel.Hand

end
-- ==== Proof.Frames.lean ====
/- The frame claims of the word-level program and of its reading at the ideal instance, from the runs of their ten items;
   and the kernel's half of the value claim: the run ends with the result buffer at whatever the last valuation holds
   there, the second argument and all ten arguments as launched. -/
import proofs.«104839_j69879117905989_1_alg».proof.Defs
import proofs.«104839_j69879117905989_1_alg».proof.Proof.Gen.Kernel
import proofs.«104839_j69879117905989_1_alg».proof.Proof.Gen.KernelIdeal
import proofs.«104839_j69879117905989_1_alg».proof.Proof.Gen.Pre_finite_inputs
import proofs.«104839_j69879117905989_1_alg».proof.Proof.KRun
import proofs.«104839_j69879117905989_1_alg».proof.Proof.BRun

set_option maxRecDepth 16384

noncomputable section

namespace Cert.Proof.Hand

open Idealize.ShloMosaic Idealize.ShloMosaic.TcCoe Idealize.SL.Sem

/-- The word-level program terminates and leaves its ten argument arrays as launched. -/
theorem frame_k : Cert.frame_Kernel := fun m ρ _ => Cert.Kernel.Hand.frame m ρ

/-- The same program read at the ideal instance terminates and leaves its ten argument arrays as launched. -/
theorem frame_ki : Cert.frame_KernelIdeal := fun m ρ _ => Cert.KernelIdeal.Hand.frame (F := Ideal) m ρ

/-- The kernel's half of the value claim: for any `G` equal to what the last valuation holds at the result buffer, the
    run from `m` terminates and ends with the result buffer at `G`, the second argument and all ten arguments unchanged. -/
theorem kernel_half (m : (ℓ : Loc Cert.KernelIdeal.nD Cert.KernelIdeal.τ Cert.KernelIdeal.sig) → Buf (Elt Ideal) ℓ) (ρ : Dev Cert.KernelIdeal.nD → PrngReg)
    (G : (c : Dev Cert.KernelIdeal.nD) → Buf (Elt Ideal) ((c.tc : Thread Cert.KernelIdeal.nD Cert.KernelIdeal.τ).loc Cert.KernelIdeal.main_v161))
    (hG : ∀ c, Cert.KernelIdeal.Gen.V10 m (Cert.KernelIdeal.Hand.outs m) c Cert.KernelIdeal.main_v161 = G c) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v161) = G c
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  OrdCont.mono (θ_run (Cert.KernelIdeal.defs (F := Ideal)) (onTc (τ := Cert.KernelIdeal.τ) (Cert.KernelIdeal.main (F := Ideal))) ⟨m, fun _ => 0, ρ⟩)
    (fun r h c => ⟨(h c (Proc.devRef .tc Cert.KernelIdeal.main_v161) (Finset.mem_filter.mpr ⟨StableHlo.devRef_mem_tcRefs Cert.KernelIdeal.main_v161, by decide⟩)).trans (hG c),
      (h c (Proc.devRef .tc Cert.KernelIdeal.main_arg1) (Finset.mem_filter.mpr ⟨StableHlo.devRef_mem_tcRefs Cert.KernelIdeal.main_arg1, by decide⟩)).trans (Cert.KernelIdeal.Gen.V10_main_arg1 m (Cert.KernelIdeal.Hand.outs m) c),
      (h c (Proc.devRef .tc Cert.KernelIdeal.main_arg0) (Finset.mem_filter.mpr ⟨StableHlo.devRef_mem_tcRefs Cert.KernelIdeal.main_arg0, by decide⟩)).trans (Cert.KernelIdeal.Gen.V10_main_arg0 m (Cert.KernelIdeal.Hand.outs m) c),
      (h c (Proc.devRef .tc Cert.KernelIdeal.main_arg1) (Finset.mem_filter.mpr ⟨StableHlo.devRef_mem_tcRefs Cert.KernelIdeal.main_arg1, by decide⟩)).trans (Cert.KernelIdeal.Gen.V10_main_arg1 m (Cert.KernelIdeal.Hand.outs m) c),
      (h c (Proc.devRef .tc Cert.KernelIdeal.main_arg2) (Finset.mem_filter.mpr ⟨StableHlo.devRef_mem_tcRefs Cert.KernelIdeal.main_arg2, by decide⟩)).trans (Cert.KernelIdeal.Gen.V10_main_arg2 m (Cert.KernelIdeal.Hand.outs m) c),
      (h c (Proc.devRef .tc Cert.KernelIdeal.main_arg3) (Finset.mem_filter.mpr ⟨StableHlo.devRef_mem_tcRefs Cert.KernelIdeal.main_arg3, by decide⟩)).trans (Cert.KernelIdeal.Gen.V10_main_arg3 m (Cert.KernelIdeal.Hand.outs m) c),
      (h c (Proc.devRef .tc Cert.KernelIdeal.main_arg4) (Finset.mem_filter.mpr ⟨StableHlo.devRef_mem_tcRefs Cert.KernelIdeal.main_arg4, by decide⟩)).trans (Cert.KernelIdeal.Gen.V10_main_arg4 m (Cert.KernelIdeal.Hand.outs m) c),
      (h c (Proc.devRef .tc Cert.KernelIdeal.main_arg5) (Finset.mem_filter.mpr ⟨StableHlo.devRef_mem_tcRefs Cert.KernelIdeal.main_arg5, by decide⟩)).trans (Cert.KernelIdeal.Gen.V10_main_arg5 m (Cert.KernelIdeal.Hand.outs m) c),
      (h c (Proc.devRef .tc Cert.KernelIdeal.main_arg6) (Finset.mem_filter.mpr ⟨StableHlo.devRef_mem_tcRefs Cert.KernelIdeal.main_arg6, by decide⟩)).trans (Cert.KernelIdeal.Gen.V10_main_arg6 m (Cert.KernelIdeal.Hand.outs m) c),
      (h c (Proc.devRef .tc Cert.KernelIdeal.main_arg7) (Finset.mem_filter.mpr ⟨StableHlo.devRef_mem_tcRefs Cert.KernelIdeal.main_arg7, by decide⟩)).trans (Cert.KernelIdeal.Gen.V10_main_arg7 m (Cert.KernelIdeal.Hand.outs m) c),
      (h c (Proc.devRef .tc Cert.KernelIdeal.main_arg8) (Finset.mem_filter.mpr ⟨StableHlo.devRef_mem_tcRefs Cert.KernelIdeal.main_arg8, by decide⟩)).trans (Cert.KernelIdeal.Gen.V10_main_arg8 m (Cert.KernelIdeal.Hand.outs m) c),
      (h c (Proc.devRef .tc Cert.KernelIdeal.main_arg9) (Finset.mem_filter.mpr ⟨StableHlo.devRef_mem_tcRefs Cert.KernelIdeal.main_arg9, by decide⟩)).trans (Cert.KernelIdeal.Gen.V10_main_arg9 m (Cert.KernelIdeal.Hand.outs m) c)⟩)
    (Cert.KernelIdeal.Hand.run_all (F := Ideal) m ρ)

end Cert.Proof.Hand

end
-- ==== Proof.RefStagedOps.lean ====
/-
  The reference program's operations, in order, cut into five consecutive stages: the edge weights of the graph
  Laplacian (through `main_v29`: degrees, their inverse square roots, and the product over each edge's two ends), then one
  stage per layer (through `main_v73`, `main_v117`, `main_v161` and `main_v204`): the two sparse transforms of the layer's
  input, the three matrix products, their sum with the bias and, but for the last layer, the clip to [0, 6]. The lists
  together are the program's whole line of operations; with them, the side conditions the run of a straight line of
  operations asks for.
-/
import proofs.«104839_j69879117905989_1_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- Stage 1: the edge weights. -/
abbrev ops1 : List (HloOp τ sig (Elt F)) :=
  [ unary main_arg1 main_v0 ((extractStridedSlice S1x625000 ![0, 0] · slices_S2x625000_S1x625000_0_0) : (⟨S2x625000, .i32⟩ : BufTy).Contents (Elt F) → (⟨S1x625000, .i32⟩ : BufTy).Contents (Elt F)),
    reshape main_v0 main_v1 rfl shapeCasts_S1x625000_S625000,
    unary main_arg1 main_v2 ((extractStridedSlice S1x625000 ![1, 0] · slices_S2x625000_S1x625000_1_0) : (⟨S2x625000, .i32⟩ : BufTy).Contents (Elt F) → (⟨S1x625000, .i32⟩ : BufTy).Contents (Elt F)),
    reshape main_v2 main_v3 rfl shapeCasts_S1x625000_S625000,
    nullary main_cst (constant S_ .f32 0x3F800000#32),
    unary main_cst main_v4 (broadcastInDim S625000 ![] bcast_S_S625000 : (⟨S_, .f32⟩ : BufTy).Contents (Elt F) → (⟨S625000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S625000x1 ![0] bcast_S625000_S625000x1_0 : (⟨S625000, .i32⟩ : BufTy).Contents (Elt F) → (⟨S625000x1, .i32⟩ : BufTy).Contents (Elt F)),
    ternary main_v5 main_v6 main_v4 main_v7 ((fun x i u => Host.scatterAdd scatter_S100000_S625000x1_S625000_n_0_0_1 x i u) : (⟨S100000, .f32⟩ : BufTy).Contents (Elt F) → (⟨S625000x1, .i32⟩ : BufTy).Contents (Elt F) → (⟨S625000, .f32⟩ : BufTy).Contents (Elt F) → (⟨S100000, .f32⟩ : BufTy).Contents (Elt F)),
    nullary main_cst_1 (constant S_ .f32 0x00000000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x2B8CBCCC#32),
    unary main_cst_2 main_v10 (broadcastInDim S100000 ![] bcast_S_S100000 : (⟨S_, .f32⟩ : BufTy).Contents (Elt F) → (⟨S100000, .f32⟩ : BufTy).Contents (Elt F)),
    binary main_v7 main_v10 main_v11 (maximumf : (⟨S100000, .f32⟩ : BufTy).Contents (Elt F) → (⟨S100000, .f32⟩ : BufTy).Contents (Elt F) → (⟨S100000, .f32⟩ : BufTy).Contents (Elt F)),
    unary main_v11 main_v12 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v9) (TRef.of (T := ⟨S100000, .f32⟩) main_v12) (TRef.of (T := ⟨S100000, .f32⟩) main_call0_v1) (TRef.of (T := ⟨S100000, .f32⟩) main_v13) select,
    nullary main_c (constantI S_ 32 0#32),
    unary main_c main_v14 (broadcastInDim S625000 ![] bcast_S_S625000 : (⟨S_, .i32⟩ : BufTy).Contents (Elt F) → (⟨S625000, .i32⟩ : BufTy).Contents (Elt F)),
    binary main_v1 main_v14 main_v15 (cmpi .slt : (⟨S625000, .i32⟩ : BufTy).Contents (Elt F) → (⟨S625000, .i32⟩ : BufTy).Contents (Elt F) → (⟨S625000, .i1⟩ : BufTy).Contents (Elt F)),
    nullary main_c_4 (constantI S_ 32 100000#32),
    unary main_c_4 main_v16 (broadcastInDim S625000 ![] bcast_S_S625000 : (⟨S_, .i32⟩ : BufTy).Contents (Elt F) → (⟨S625000, .i32⟩ : BufTy).Contents (Elt F)),
    binary main_v1 main_v16 main_v17 (addi : (⟨S625000, .i32⟩ : BufTy).Contents (Elt F) → (⟨S625000, .i32⟩ : BufTy).Contents (Elt F) → (⟨S625000, .i32⟩ : BufTy).Contents (Elt F)),
    ternary main_v15 main_v17 main_v1 main_v18 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v18 main_v19 (broadcastInDim S625000x1 ![0] bcast_S625000_S625000x1_0 : (⟨S625000, .i32⟩ : BufTy).Contents (Elt F) → (⟨S625000x1, .i32⟩ : BufTy).Contents (Elt F)),
    binary main_v13 main_v19 main_v20 ((fun x i => Host.gather gather_S100000_S625000x1_S625000_n_0_n_n_0_1_1 x i) : (⟨S100000, .f32⟩ : BufTy).Contents (Elt F) → (⟨S625000x1, .i32⟩ : BufTy).Contents (Elt F) → (⟨S625000, .f32⟩ : BufTy).Contents (Elt F)),
    unary main_v20 main_v21 (Host.negf : (⟨S625000, .f32⟩ : BufTy).Contents (Elt F) → (⟨S625000, .f32⟩ : BufTy).Contents (Elt F)),
    nullary main_c_5 (constantI S_ 32 0#32),
    unary main_c_5 main_v22 (broadcastInDim S625000 ![] bcast_S_S625000 : (⟨S_, .i32⟩ : BufTy).Contents (Elt F) → (⟨S625000, .i32⟩ : BufTy).Contents (Elt F)),
    binary main_v3 main_v22 main_v23 (cmpi .slt : (⟨S625000, .i32⟩ : BufTy).Contents (Elt F) → (⟨S625000, .i32⟩ : BufTy).Contents (Elt F) → (⟨S625000, .i1⟩ : BufTy).Contents (Elt F)),
    nullary main_c_6 (constantI S_ 32 100000#32),
    unary main_c_6 main_v24 (broadcastInDim S625000 ![] bcast_S_S625000 : (⟨S_, .i32⟩ : BufTy).Contents (Elt F) → (⟨S625000, .i32⟩ : BufTy).Contents (Elt F)),
    binary main_v3 main_v24 main_v25 (addi : (⟨S625000, .i32⟩ : BufTy).Contents (Elt F) → (⟨S625000, .i32⟩ : BufTy).Contents (Elt F) → (⟨S625000, .i32⟩ : BufTy).Contents (Elt F)),
    ternary main_v23 main_v25 main_v3 main_v26 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v26 main_v27 (broadcastInDim S625000x1 ![0] bcast_S625000_S625000x1_0 : (⟨S625000, .i32⟩ : BufTy).Contents (Elt F) → (⟨S625000x1, .i32⟩ : BufTy).Contents (Elt F)),
    binary main_v13 main_v27 main_v28 ((fun x i => Host.gather gather_S100000_S625000x1_S625000_n_0_n_n_0_1_1 x i) : (⟨S100000, .f32⟩ : BufTy).Contents (Elt F) → (⟨S625000x1, .i32⟩ : BufTy).Contents (Elt F) → (⟨S625000, .f32⟩ : BufTy).Contents (Elt F)),
    binary main_v21 main_v28 main_v29 (mulf : (⟨S625000, .f32⟩ : BufTy).Contents (Elt F) → (⟨S625000, .f32⟩ : BufTy).Contents (Elt F) → (⟨S625000, .f32⟩ : BufTy).Contents (Elt F)) ]

/-- Stage 2: the first layer (165 → 128 features). -/
abbrev ops2 : List (HloOp τ sig (Elt F)) :=
  [ unary main_arg2 main_v30 ((extractStridedSlice S1x165x128 ![0, 0, 0] · slices_S3x165x128_S1x165x128_0_0_0) : (⟨S3x165x128, .f32⟩ : BufTy).Contents (Elt F) → (⟨S1x165x128, .f32⟩ : BufTy).Contents (Elt F)),
    reshape main_v30 main_v31 rfl shapeCasts_S1x165x128_S165x128,
    binary main_arg0 main_v31 main_v32 ((fun l r => Host.dotGeneral dot_S100000x165_S165x128_S100000x128_1_0_0_1_n_n none l r) : (⟨S100000x165, .f32⟩ : BufTy).Contents (Elt F) → (⟨S165x128, .f32⟩ : BufTy).Contents (Elt F) → (⟨S100000x128, .f32⟩ : BufTy).Contents (Elt F)),
    nullary main_c_7 (constantI S_ 32 0#32),
    unary main_c_7 main_v33 (broadcastInDim S625000 ![] bcast_S_S625000 : (⟨S_, .i32⟩ : BufTy).Contents (Elt F) → (⟨S625000, .i32⟩ : BufTy).Contents (Elt F)),
    binary main_v1 main_v33 main_v34 (cmpi .slt : (⟨S625000, .i32⟩ : BufTy).Contents (Elt F) → (⟨S625000, .i32⟩ : BufTy).Contents (Elt F) → (⟨S625000, .i1⟩ : BufTy).Contents (Elt F)),
    nullary main_c_8 (constantI S_ 32 100000#32),
    unary main_c_8 main_v35 (broadcastInDim S625000 ![] bcast_S_S625000 : (⟨S_, .i32⟩ : BufTy).Contents (Elt F) → (⟨S625000, .i32⟩ : BufTy).Contents (Elt F)),
    binary main_v1 main_v35 main_v36 (addi : (⟨S625000, .i32⟩ : BufTy).Contents (Elt F) → (⟨S625000, .i32⟩ : BufTy).Contents (Elt F) → (⟨S625000, .i32⟩ : BufTy).Contents (Elt F)),
    ternary main_v34 main_v36 main_v1 main_v37 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v37 main_v38 (broadcastInDim S625000x1 ![0] bcast_S625000_S625000x1_0 : (⟨S625000, .i32⟩ : BufTy).Contents (Elt F) → (⟨S625000x1, .i32⟩ : BufTy).Contents (Elt F)),
    binary main_arg0 main_v38 main_v39 ((fun x i => Host.gather gather_S100000x165_S625000x1_S625000x165_1_0_n_n_0_1_1165 x i) : (⟨S100000x165, .f32⟩ : BufTy).Contents (Elt F) → (⟨S625000x1, .i32⟩ : BufTy).Contents (Elt F) → (⟨S625000x165, .f32⟩ : BufTy).Contents (Elt F)),
    unary main_v29 main_v40 (broadcastInDim S625000x1 ![0] bcast_S625000_S625000x1_0 : (⟨S625000, .f32⟩ : BufTy).Contents (Elt F) → (⟨S625000x1, .f32⟩ : BufTy).Contents (Elt F)),
    unary main_v40 main_v41 (broadcastInDim S625000x165 ![0, 1] bcast_S625000x1_S625000x165_0_1 : (⟨S625000x1, .f32⟩ : BufTy).Contents (Elt F) → (⟨S625000x165, .f32⟩ : BufTy).Contents (Elt F)),
    binary main_v39 main_v41 main_v42 (mulf : (⟨S625000x165, .f32⟩ : BufTy).Contents (Elt F) → (⟨S625000x165, .f32⟩ : BufTy).Contents (Elt F) → (⟨S625000x165, .f32⟩ : BufTy).Contents (Elt F)),
    nullary main_cst_9 (constant S_ .f32 0x00000000#32),
    unary main_cst_9 main_v43 (broadcastInDim S100000x165 ![] bcast_S_S100000x165 : (⟨S_, .f32⟩ : BufTy).Contents (Elt F) → (⟨S100000x165, .f32⟩ : BufTy).Contents (Elt F)),
    unary main_v3 main_v44 (broadcastInDim S625000x1 ![0] bcast_S625000_S625000x1_0 : (⟨S625000, .i32⟩ : BufTy).Contents (Elt F) → (⟨S625000x1, .i32⟩ : BufTy).Contents (Elt F)),
    ternary main_v43 main_v44 main_v42 main_v45 ((fun x i u => Host.scatterAdd scatter_S100000x165_S625000x1_S625000x165_1_0_0_1 x i u) : (⟨S100000x165, .f32⟩ : BufTy).Contents (Elt F) → (⟨S625000x1, .i32⟩ : BufTy).Contents (Elt F) → (⟨S625000x165, .f32⟩ : BufTy).Contents (Elt F) → (⟨S100000x165, .f32⟩ : BufTy).Contents (Elt F)),
    unary main_arg2 main_v46 ((extractStridedSlice S1x165x128 ![1, 0, 0] · slices_S3x165x128_S1x165x128_1_0_0) : (⟨S3x165x128, .f32⟩ : BufTy).Contents (Elt F) → (⟨S1x165x128, .f32⟩ : BufTy).Contents (Elt F)),
    reshape main_v46 main_v47 rfl shapeCasts_S1x165x128_S165x128,
    binary main_v45 main_v47 main_v48 ((fun l r => Host.dotGeneral dot_S100000x165_S165x128_S100000x128_1_0_0_1_n_n none l r) : (⟨S100000x165, .f32⟩ : BufTy).Contents (Elt F) → (⟨S165x128, .f32⟩ : BufTy).Contents (Elt F) → (⟨S100000x128, .f32⟩ : BufTy).Contents (Elt F)),
    binary main_v32 main_v48 main_v49 (addf : (⟨S100000x128, .f32⟩ : BufTy).Contents (Elt F) → (⟨S100000x128, .f32⟩ : BufTy).Contents (Elt F) → (⟨S100000x128, .f32⟩ : BufTy).Contents (Elt F)),
    nullary main_c_10 (constantI S_ 32 0#32),
    unary main_c_10 main_v50 (broadcastInDim S625000 ![] bcast_S_S625000 : (⟨S_, .i32⟩ : BufTy).Contents (Elt F) → (⟨S625000, .i32⟩ : BufTy).Contents (Elt F)),
    binary main_v1 main_v50 main_v51 (cmpi .slt : (⟨S625000, .i32⟩ : BufTy).Contents (Elt F) → (⟨S625000, .i32⟩ : BufTy).Contents (Elt F) → (⟨S625000, .i1⟩ : BufTy).Contents (Elt F)),
    nullary main_c_11 (constantI S_ 32 100000#32),
    unary main_c_11 main_v52 (broadcastInDim S625000 ![] bcast_S_S625000 : (⟨S_, .i32⟩ : BufTy).Contents (Elt F) → (⟨S625000, .i32⟩ : BufTy).Contents (Elt F)),
    binary main_v1 main_v52 main_v53 (addi : (⟨S625000, .i32⟩ : BufTy).Contents (Elt F) → (⟨S625000, .i32⟩ : BufTy).Contents (Elt F) → (⟨S625000, .i32⟩ : BufTy).Contents (Elt F)),
    ternary main_v51 main_v53 main_v1 main_v54 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v54 main_v55 (broadcastInDim S625000x1 ![0] bcast_S625000_S625000x1_0 : (⟨S625000, .i32⟩ : BufTy).Contents (Elt F) → (⟨S625000x1, .i32⟩ : BufTy).Contents (Elt F)),
    binary main_v45 main_v55 main_v56 ((fun x i => Host.gather gather_S100000x165_S625000x1_S625000x165_1_0_n_n_0_1_1165 x i) : (⟨S100000x165, .f32⟩ : BufTy).Contents (Elt F) → (⟨S625000x1, .i32⟩ : BufTy).Contents (Elt F) → (⟨S625000x165, .f32⟩ : BufTy).Contents (Elt F)),
    unary main_v29 main_v57 (broadcastInDim S625000x1 ![0] bcast_S625000_S625000x1_0 : (⟨S625000, .f32⟩ : BufTy).Contents (Elt F) → (⟨S625000x1, .f32⟩ : BufTy).Contents (Elt F)),
    unary main_v57 main_v58 (broadcastInDim S625000x165 ![0, 1] bcast_S625000x1_S625000x165_0_1 : (⟨S625000x1, .f32⟩ : BufTy).Contents (Elt F) → (⟨S625000x165, .f32⟩ : BufTy).Contents (Elt F)),
    binary main_v56 main_v58 main_v59 (mulf : (⟨S625000x165, .f32⟩ : BufTy).Contents (Elt F) → (⟨S625000x165, .f32⟩ : BufTy).Contents (Elt F) → (⟨S625000x165, .f32⟩ : BufTy).Contents (Elt F)),
    nullary main_cst_12 (constant S_ .f32 0x00000000#32),
    unary main_cst_12 main_v60 (broadcastInDim S100000x165 ![] bcast_S_S100000x165 : (⟨S_, .f32⟩ : BufTy).Contents (Elt F) → (⟨S100000x165, .f32⟩ : BufTy).Contents (Elt F)),
    unary main_v3 main_v61 (broadcastInDim S625000x1 ![0] bcast_S625000_S625000x1_0 : (⟨S625000, .i32⟩ : BufTy).Contents (Elt F) → (⟨S625000x1, .i32⟩ : BufTy).Contents (Elt F)),
    ternary main_v60 main_v61 main_v59 main_v62 ((fun x i u => Host.scatterAdd scatter_S100000x165_S625000x1_S625000x165_1_0_0_1 x i u) : (⟨S100000x165, .f32⟩ : BufTy).Contents (Elt F) → (⟨S625000x1, .i32⟩ : BufTy).Contents (Elt F) → (⟨S625000x165, .f32⟩ : BufTy).Contents (Elt F) → (⟨S100000x165, .f32⟩ : BufTy).Contents (Elt F)),
    nullary main_cst_13 (constant S_ .f32 0x40000000#32),
    unary main_cst_13 main_v63 (broadcastInDim S100000x165 ![] bcast_S_S100000x165 : (⟨S_, .f32⟩ : BufTy).Contents (Elt F) → (⟨S100000x165, .f32⟩ : BufTy).Contents (Elt F)),
    binary main_v63 main_v62 main_v64 (mulf : (⟨S100000x165, .f32⟩ : BufTy).Contents (Elt F) → (⟨S100000x165, .f32⟩ : BufTy).Contents (Elt F) → (⟨S100000x165, .f32⟩ : BufTy).Contents (Elt F)),
    binary main_v64 main_arg0 main_v65 (subf : (⟨S100000x165, .f32⟩ : BufTy).Contents (Elt F) → (⟨S100000x165, .f32⟩ : BufTy).Contents (Elt F) → (⟨S100000x165, .f32⟩ : BufTy).Contents (Elt F)),
    unary main_arg2 main_v66 ((extractStridedSlice S1x165x128 ![2, 0, 0] · slices_S3x165x128_S1x165x128_2_0_0) : (⟨S3x165x128, .f32⟩ : BufTy).Contents (Elt F) → (⟨S1x165x128, .f32⟩ : BufTy).Contents (Elt F)),
    reshape main_v66 main_v67 rfl shapeCasts_S1x165x128_S165x128,
    binary main_v65 main_v67 main_v68 ((fun l r => Host.dotGeneral dot_S100000x165_S165x128_S100000x128_1_0_0_1_n_n none l r) : (⟨S100000x165, .f32⟩ : BufTy).Contents (Elt F) → (⟨S165x128, .f32⟩ : BufTy).Contents (Elt F) → (⟨S100000x128, .f32⟩ : BufTy).Contents (Elt F)),
    binary main_v49 main_v68 main_v69 (addf : (⟨S100000x128, .f32⟩ : BufTy).Contents (Elt F) → (⟨S100000x128, .f32⟩ : BufTy).Contents (Elt F) → (⟨S100000x128, .f32⟩ : BufTy).Contents (Elt F)),
    unary main_arg3 main_v70 (broadcastInDim S1x128 ![1] bcast_S128_S1x128_1 : (⟨S128, .f32⟩ : BufTy).Contents (Elt F) → (⟨S1x128, .f32⟩ : BufTy).Contents (Elt F)),
    unary main_v70 main_v71 (broadcastInDim S100000x128 ![0, 1] bcast_S1x128_S100000x128_0_1 : (⟨S1x128, .f32⟩ : BufTy).Contents (Elt F) → (⟨S100000x128, .f32⟩ : BufTy).Contents (Elt F)),
    binary main_v69 main_v71 main_v72 (addf : (⟨S100000x128, .f32⟩ : BufTy).Contents (Elt F) → (⟨S100000x128, .f32⟩ : BufTy).Contents (Elt F) → (⟨S100000x128, .f32⟩ : BufTy).Contents (Elt F)),
    nullary main_cst_14 (constant S_ .f32 0x00000000#32),
    nullary main_cst_15 (constant S_ .f32 0x40C00000#32),
    TRef.unary (TRef.of (T := ⟨S_, .f32⟩) main_cst_14) (TRef.of (T := ⟨S_, .f32⟩) main_call1_v0) id,
    TRef.unary (TRef.of (T := ⟨S_, .f32⟩) main_call1_v0) (TRef.of (T := ⟨S100000x128, .f32⟩) main_call1_v1) (broadcastInDim S100000x128 ![] bcast_S_S100000x128),
    TRef.binary (TRef.of (T := ⟨S100000x128, .f32⟩) main_call1_v1) (TRef.of (T := ⟨S100000x128, .f32⟩) main_v72) (TRef.of (T := ⟨S100000x128, .f32⟩) main_call1_v2) maximumf,
    TRef.unary (TRef.of (T := ⟨S_, .f32⟩) main_cst_15) (TRef.of (T := ⟨S_, .f32⟩) main_call1_v3) id,
    TRef.unary (TRef.of (T := ⟨S_, .f32⟩) main_call1_v3) (TRef.of (T := ⟨S100000x128, .f32⟩) main_call1_v4) (broadcastInDim S100000x128 ![] bcast_S_S100000x128),
    TRef.binary (TRef.of (T := ⟨S100000x128, .f32⟩) main_call1_v4) (TRef.of (T := ⟨S100000x128, .f32⟩) main_call1_v2) (TRef.of (T := ⟨S100000x128, .f32⟩) main_v73) minimumf ]

/-- Stage 3: the second layer (128 → 128). -/
abbrev ops3 : List (HloOp τ sig (Elt F)) :=
  [ unary main_arg4 main_v74 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v74 main_v75 rfl shapeCasts_S1x128x128_S128x128,
    binary main_v73 main_v75 main_v76 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_16 (constantI S_ 32 0#32),
    unary main_c_16 main_v77 (broadcastInDim S625000 ![] bcast_S_S625000 : (⟨S_, .i32⟩ : BufTy).Contents (Elt F) → (⟨S625000, .i32⟩ : BufTy).Contents (Elt F)),
    binary main_v1 main_v77 main_v78 (cmpi .slt : (⟨S625000, .i32⟩ : BufTy).Contents (Elt F) → (⟨S625000, .i32⟩ : BufTy).Contents (Elt F) → (⟨S625000, .i1⟩ : BufTy).Contents (Elt F)),
    nullary main_c_17 (constantI S_ 32 100000#32),
    unary main_c_17 main_v79 (broadcastInDim S625000 ![] bcast_S_S625000 : (⟨S_, .i32⟩ : BufTy).Contents (Elt F) → (⟨S625000, .i32⟩ : BufTy).Contents (Elt F)),
    binary main_v1 main_v79 main_v80 (addi : (⟨S625000, .i32⟩ : BufTy).Contents (Elt F) → (⟨S625000, .i32⟩ : BufTy).Contents (Elt F) → (⟨S625000, .i32⟩ : BufTy).Contents (Elt F)),
    ternary main_v78 main_v80 main_v1 main_v81 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v81 main_v82 (broadcastInDim S625000x1 ![0] bcast_S625000_S625000x1_0 : (⟨S625000, .i32⟩ : BufTy).Contents (Elt F) → (⟨S625000x1, .i32⟩ : BufTy).Contents (Elt F)),
    binary main_v73 main_v82 main_v83 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    unary main_v29 main_v84 (broadcastInDim S625000x1 ![0] bcast_S625000_S625000x1_0 : (⟨S625000, .f32⟩ : BufTy).Contents (Elt F) → (⟨S625000x1, .f32⟩ : BufTy).Contents (Elt F)),
    unary main_v84 main_v85 (broadcastInDim S625000x128 ![0, 1] bcast_S625000x1_S625000x128_0_1 : (⟨S625000x1, .f32⟩ : BufTy).Contents (Elt F) → (⟨S625000x128, .f32⟩ : BufTy).Contents (Elt F)),
    binary main_v83 main_v85 main_v86 (mulf : (⟨S625000x128, .f32⟩ : BufTy).Contents (Elt F) → (⟨S625000x128, .f32⟩ : BufTy).Contents (Elt F) → (⟨S625000x128, .f32⟩ : BufTy).Contents (Elt F)),
    nullary main_cst_18 (constant S_ .f32 0x00000000#32),
    unary main_cst_18 main_v87 (broadcastInDim S100000x128 ![] bcast_S_S100000x128 : (⟨S_, .f32⟩ : BufTy).Contents (Elt F) → (⟨S100000x128, .f32⟩ : BufTy).Contents (Elt F)),
    unary main_v3 main_v88 (broadcastInDim S625000x1 ![0] bcast_S625000_S625000x1_0 : (⟨S625000, .i32⟩ : BufTy).Contents (Elt F) → (⟨S625000x1, .i32⟩ : BufTy).Contents (Elt F)),
    ternary main_v87 main_v88 main_v86 main_v89 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    unary main_arg4 main_v90 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v90 main_v91 rfl shapeCasts_S1x128x128_S128x128,
    binary main_v89 main_v91 main_v92 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v76 main_v92 main_v93 (addf : (⟨S100000x128, .f32⟩ : BufTy).Contents (Elt F) → (⟨S100000x128, .f32⟩ : BufTy).Contents (Elt F) → (⟨S100000x128, .f32⟩ : BufTy).Contents (Elt F)),
    nullary main_c_19 (constantI S_ 32 0#32),
    unary main_c_19 main_v94 (broadcastInDim S625000 ![] bcast_S_S625000 : (⟨S_, .i32⟩ : BufTy).Contents (Elt F) → (⟨S625000, .i32⟩ : BufTy).Contents (Elt F)),
    binary main_v1 main_v94 main_v95 (cmpi .slt : (⟨S625000, .i32⟩ : BufTy).Contents (Elt F) → (⟨S625000, .i32⟩ : BufTy).Contents (Elt F) → (⟨S625000, .i1⟩ : BufTy).Contents (Elt F)),
    nullary main_c_20 (constantI S_ 32 100000#32),
    unary main_c_20 main_v96 (broadcastInDim S625000 ![] bcast_S_S625000 : (⟨S_, .i32⟩ : BufTy).Contents (Elt F) → (⟨S625000, .i32⟩ : BufTy).Contents (Elt F)),
    binary main_v1 main_v96 main_v97 (addi : (⟨S625000, .i32⟩ : BufTy).Contents (Elt F) → (⟨S625000, .i32⟩ : BufTy).Contents (Elt F) → (⟨S625000, .i32⟩ : BufTy).Contents (Elt F)),
    ternary main_v95 main_v97 main_v1 main_v98 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v98 main_v99 (broadcastInDim S625000x1 ![0] bcast_S625000_S625000x1_0 : (⟨S625000, .i32⟩ : BufTy).Contents (Elt F) → (⟨S625000x1, .i32⟩ : BufTy).Contents (Elt F)),
    binary main_v89 main_v99 main_v100 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    unary main_v29 main_v101 (broadcastInDim S625000x1 ![0] bcast_S625000_S625000x1_0 : (⟨S625000, .f32⟩ : BufTy).Contents (Elt F) → (⟨S625000x1, .f32⟩ : BufTy).Contents (Elt F)),
    unary main_v101 main_v102 (broadcastInDim S625000x128 ![0, 1] bcast_S625000x1_S625000x128_0_1 : (⟨S625000x1, .f32⟩ : BufTy).Contents (Elt F) → (⟨S625000x128, .f32⟩ : BufTy).Contents (Elt F)),
    binary main_v100 main_v102 main_v103 (mulf : (⟨S625000x128, .f32⟩ : BufTy).Contents (Elt F) → (⟨S625000x128, .f32⟩ : BufTy).Contents (Elt F) → (⟨S625000x128, .f32⟩ : BufTy).Contents (Elt F)),
    nullary main_cst_21 (constant S_ .f32 0x00000000#32),
    unary main_cst_21 main_v104 (broadcastInDim S100000x128 ![] bcast_S_S100000x128 : (⟨S_, .f32⟩ : BufTy).Contents (Elt F) → (⟨S100000x128, .f32⟩ : BufTy).Contents (Elt F)),
    unary main_v3 main_v105 (broadcastInDim S625000x1 ![0] bcast_S625000_S625000x1_0 : (⟨S625000, .i32⟩ : BufTy).Contents (Elt F) → (⟨S625000x1, .i32⟩ : BufTy).Contents (Elt F)),
    ternary main_v104 main_v105 main_v103 main_v106 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    nullary main_cst_22 (constant S_ .f32 0x40000000#32),
    unary main_cst_22 main_v107 (broadcastInDim S100000x128 ![] bcast_S_S100000x128 : (⟨S_, .f32⟩ : BufTy).Contents (Elt F) → (⟨S100000x128, .f32⟩ : BufTy).Contents (Elt F)),
    binary main_v107 main_v106 main_v108 (mulf : (⟨S100000x128, .f32⟩ : BufTy).Contents (Elt F) → (⟨S100000x128, .f32⟩ : BufTy).Contents (Elt F) → (⟨S100000x128, .f32⟩ : BufTy).Contents (Elt F)),
    binary main_v108 main_v73 main_v109 (subf : (⟨S100000x128, .f32⟩ : BufTy).Contents (Elt F) → (⟨S100000x128, .f32⟩ : BufTy).Contents (Elt F) → (⟨S100000x128, .f32⟩ : BufTy).Contents (Elt F)),
    unary main_arg4 main_v110 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v110 main_v111 rfl shapeCasts_S1x128x128_S128x128,
    binary main_v109 main_v111 main_v112 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v93 main_v112 main_v113 (addf : (⟨S100000x128, .f32⟩ : BufTy).Contents (Elt F) → (⟨S100000x128, .f32⟩ : BufTy).Contents (Elt F) → (⟨S100000x128, .f32⟩ : BufTy).Contents (Elt F)),
    unary main_arg5 main_v114 (broadcastInDim S1x128 ![1] bcast_S128_S1x128_1 : (⟨S128, .f32⟩ : BufTy).Contents (Elt F) → (⟨S1x128, .f32⟩ : BufTy).Contents (Elt F)),
    unary main_v114 main_v115 (broadcastInDim S100000x128 ![0, 1] bcast_S1x128_S100000x128_0_1 : (⟨S1x128, .f32⟩ : BufTy).Contents (Elt F) → (⟨S100000x128, .f32⟩ : BufTy).Contents (Elt F)),
    binary main_v113 main_v115 main_v116 (addf : (⟨S100000x128, .f32⟩ : BufTy).Contents (Elt F) → (⟨S100000x128, .f32⟩ : BufTy).Contents (Elt F) → (⟨S100000x128, .f32⟩ : BufTy).Contents (Elt F)),
    nullary main_cst_23 (constant S_ .f32 0x00000000#32),
    nullary main_cst_24 (constant S_ .f32 0x40C00000#32),
    TRef.unary (TRef.of (T := ⟨S_, .f32⟩) main_cst_23) (TRef.of (T := ⟨S_, .f32⟩) main_call2_v0) id,
    TRef.unary (TRef.of (T := ⟨S_, .f32⟩) main_call2_v0) (TRef.of (T := ⟨S100000x128, .f32⟩) main_call2_v1) (broadcastInDim S100000x128 ![] bcast_S_S100000x128),
    TRef.binary (TRef.of (T := ⟨S100000x128, .f32⟩) main_call2_v1) (TRef.of (T := ⟨S100000x128, .f32⟩) main_v116) (TRef.of (T := ⟨S100000x128, .f32⟩) main_call2_v2) maximumf,
    TRef.unary (TRef.of (T := ⟨S_, .f32⟩) main_cst_24) (TRef.of (T := ⟨S_, .f32⟩) main_call2_v3) id,
    TRef.unary (TRef.of (T := ⟨S_, .f32⟩) main_call2_v3) (TRef.of (T := ⟨S100000x128, .f32⟩) main_call2_v4) (broadcastInDim S100000x128 ![] bcast_S_S100000x128),
    TRef.binary (TRef.of (T := ⟨S100000x128, .f32⟩) main_call2_v4) (TRef.of (T := ⟨S100000x128, .f32⟩) main_call2_v2) (TRef.of (T := ⟨S100000x128, .f32⟩) main_v117) minimumf ]

/-- Stage 4: the third layer (128 → 128). -/
abbrev ops4 : List (HloOp τ sig (Elt F)) :=
  [ unary main_arg6 main_v118 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v118 main_v119 rfl shapeCasts_S1x128x128_S128x128,
    binary main_v117 main_v119 main_v120 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_25 (constantI S_ 32 0#32),
    unary main_c_25 main_v121 (broadcastInDim S625000 ![] bcast_S_S625000 : (⟨S_, .i32⟩ : BufTy).Contents (Elt F) → (⟨S625000, .i32⟩ : BufTy).Contents (Elt F)),
    binary main_v1 main_v121 main_v122 (cmpi .slt : (⟨S625000, .i32⟩ : BufTy).Contents (Elt F) → (⟨S625000, .i32⟩ : BufTy).Contents (Elt F) → (⟨S625000, .i1⟩ : BufTy).Contents (Elt F)),
    nullary main_c_26 (constantI S_ 32 100000#32),
    unary main_c_26 main_v123 (broadcastInDim S625000 ![] bcast_S_S625000 : (⟨S_, .i32⟩ : BufTy).Contents (Elt F) → (⟨S625000, .i32⟩ : BufTy).Contents (Elt F)),
    binary main_v1 main_v123 main_v124 (addi : (⟨S625000, .i32⟩ : BufTy).Contents (Elt F) → (⟨S625000, .i32⟩ : BufTy).Contents (Elt F) → (⟨S625000, .i32⟩ : BufTy).Contents (Elt F)),
    ternary main_v122 main_v124 main_v1 main_v125 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v125 main_v126 (broadcastInDim S625000x1 ![0] bcast_S625000_S625000x1_0 : (⟨S625000, .i32⟩ : BufTy).Contents (Elt F) → (⟨S625000x1, .i32⟩ : BufTy).Contents (Elt F)),
    binary main_v117 main_v126 main_v127 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    unary main_v29 main_v128 (broadcastInDim S625000x1 ![0] bcast_S625000_S625000x1_0 : (⟨S625000, .f32⟩ : BufTy).Contents (Elt F) → (⟨S625000x1, .f32⟩ : BufTy).Contents (Elt F)),
    unary main_v128 main_v129 (broadcastInDim S625000x128 ![0, 1] bcast_S625000x1_S625000x128_0_1 : (⟨S625000x1, .f32⟩ : BufTy).Contents (Elt F) → (⟨S625000x128, .f32⟩ : BufTy).Contents (Elt F)),
    binary main_v127 main_v129 main_v130 (mulf : (⟨S625000x128, .f32⟩ : BufTy).Contents (Elt F) → (⟨S625000x128, .f32⟩ : BufTy).Contents (Elt F) → (⟨S625000x128, .f32⟩ : BufTy).Contents (Elt F)),
    nullary main_cst_27 (constant S_ .f32 0x00000000#32),
    unary main_cst_27 main_v131 (broadcastInDim S100000x128 ![] bcast_S_S100000x128 : (⟨S_, .f32⟩ : BufTy).Contents (Elt F) → (⟨S100000x128, .f32⟩ : BufTy).Contents (Elt F)),
    unary main_v3 main_v132 (broadcastInDim S625000x1 ![0] bcast_S625000_S625000x1_0 : (⟨S625000, .i32⟩ : BufTy).Contents (Elt F) → (⟨S625000x1, .i32⟩ : BufTy).Contents (Elt F)),
    ternary main_v131 main_v132 main_v130 main_v133 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    unary main_arg6 main_v134 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v134 main_v135 rfl shapeCasts_S1x128x128_S128x128,
    binary main_v133 main_v135 main_v136 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v120 main_v136 main_v137 (addf : (⟨S100000x128, .f32⟩ : BufTy).Contents (Elt F) → (⟨S100000x128, .f32⟩ : BufTy).Contents (Elt F) → (⟨S100000x128, .f32⟩ : BufTy).Contents (Elt F)),
    nullary main_c_28 (constantI S_ 32 0#32),
    unary main_c_28 main_v138 (broadcastInDim S625000 ![] bcast_S_S625000 : (⟨S_, .i32⟩ : BufTy).Contents (Elt F) → (⟨S625000, .i32⟩ : BufTy).Contents (Elt F)),
    binary main_v1 main_v138 main_v139 (cmpi .slt : (⟨S625000, .i32⟩ : BufTy).Contents (Elt F) → (⟨S625000, .i32⟩ : BufTy).Contents (Elt F) → (⟨S625000, .i1⟩ : BufTy).Contents (Elt F)),
    nullary main_c_29 (constantI S_ 32 100000#32),
    unary main_c_29 main_v140 (broadcastInDim S625000 ![] bcast_S_S625000 : (⟨S_, .i32⟩ : BufTy).Contents (Elt F) → (⟨S625000, .i32⟩ : BufTy).Contents (Elt F)),
    binary main_v1 main_v140 main_v141 (addi : (⟨S625000, .i32⟩ : BufTy).Contents (Elt F) → (⟨S625000, .i32⟩ : BufTy).Contents (Elt F) → (⟨S625000, .i32⟩ : BufTy).Contents (Elt F)),
    ternary main_v139 main_v141 main_v1 main_v142 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v142 main_v143 (broadcastInDim S625000x1 ![0] bcast_S625000_S625000x1_0 : (⟨S625000, .i32⟩ : BufTy).Contents (Elt F) → (⟨S625000x1, .i32⟩ : BufTy).Contents (Elt F)),
    binary main_v133 main_v143 main_v144 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    unary main_v29 main_v145 (broadcastInDim S625000x1 ![0] bcast_S625000_S625000x1_0 : (⟨S625000, .f32⟩ : BufTy).Contents (Elt F) → (⟨S625000x1, .f32⟩ : BufTy).Contents (Elt F)),
    unary main_v145 main_v146 (broadcastInDim S625000x128 ![0, 1] bcast_S625000x1_S625000x128_0_1 : (⟨S625000x1, .f32⟩ : BufTy).Contents (Elt F) → (⟨S625000x128, .f32⟩ : BufTy).Contents (Elt F)),
    binary main_v144 main_v146 main_v147 (mulf : (⟨S625000x128, .f32⟩ : BufTy).Contents (Elt F) → (⟨S625000x128, .f32⟩ : BufTy).Contents (Elt F) → (⟨S625000x128, .f32⟩ : BufTy).Contents (Elt F)),
    nullary main_cst_30 (constant S_ .f32 0x00000000#32),
    unary main_cst_30 main_v148 (broadcastInDim S100000x128 ![] bcast_S_S100000x128 : (⟨S_, .f32⟩ : BufTy).Contents (Elt F) → (⟨S100000x128, .f32⟩ : BufTy).Contents (Elt F)),
    unary main_v3 main_v149 (broadcastInDim S625000x1 ![0] bcast_S625000_S625000x1_0 : (⟨S625000, .i32⟩ : BufTy).Contents (Elt F) → (⟨S625000x1, .i32⟩ : BufTy).Contents (Elt F)),
    ternary main_v148 main_v149 main_v147 main_v150 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    nullary main_cst_31 (constant S_ .f32 0x40000000#32),
    unary main_cst_31 main_v151 (broadcastInDim S100000x128 ![] bcast_S_S100000x128 : (⟨S_, .f32⟩ : BufTy).Contents (Elt F) → (⟨S100000x128, .f32⟩ : BufTy).Contents (Elt F)),
    binary main_v151 main_v150 main_v152 (mulf : (⟨S100000x128, .f32⟩ : BufTy).Contents (Elt F) → (⟨S100000x128, .f32⟩ : BufTy).Contents (Elt F) → (⟨S100000x128, .f32⟩ : BufTy).Contents (Elt F)),
    binary main_v152 main_v117 main_v153 (subf : (⟨S100000x128, .f32⟩ : BufTy).Contents (Elt F) → (⟨S100000x128, .f32⟩ : BufTy).Contents (Elt F) → (⟨S100000x128, .f32⟩ : BufTy).Contents (Elt F)),
    unary main_arg6 main_v154 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v154 main_v155 rfl shapeCasts_S1x128x128_S128x128,
    binary main_v153 main_v155 main_v156 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v137 main_v156 main_v157 (addf : (⟨S100000x128, .f32⟩ : BufTy).Contents (Elt F) → (⟨S100000x128, .f32⟩ : BufTy).Contents (Elt F) → (⟨S100000x128, .f32⟩ : BufTy).Contents (Elt F)),
    unary main_arg7 main_v158 (broadcastInDim S1x128 ![1] bcast_S128_S1x128_1 : (⟨S128, .f32⟩ : BufTy).Contents (Elt F) → (⟨S1x128, .f32⟩ : BufTy).Contents (Elt F)),
    unary main_v158 main_v159 (broadcastInDim S100000x128 ![0, 1] bcast_S1x128_S100000x128_0_1 : (⟨S1x128, .f32⟩ : BufTy).Contents (Elt F) → (⟨S100000x128, .f32⟩ : BufTy).Contents (Elt F)),
    binary main_v157 main_v159 main_v160 (addf : (⟨S100000x128, .f32⟩ : BufTy).Contents (Elt F) → (⟨S100000x128, .f32⟩ : BufTy).Contents (Elt F) → (⟨S100000x128, .f32⟩ : BufTy).Contents (Elt F)),
    nullary main_cst_32 (constant S_ .f32 0x00000000#32),
    nullary main_cst_33 (constant S_ .f32 0x40C00000#32),
    TRef.unary (TRef.of (T := ⟨S_, .f32⟩) main_cst_32) (TRef.of (T := ⟨S_, .f32⟩) main_call3_v0) id,
    TRef.unary (TRef.of (T := ⟨S_, .f32⟩) main_call3_v0) (TRef.of (T := ⟨S100000x128, .f32⟩) main_call3_v1) (broadcastInDim S100000x128 ![] bcast_S_S100000x128),
    TRef.binary (TRef.of (T := ⟨S100000x128, .f32⟩) main_call3_v1) (TRef.of (T := ⟨S100000x128, .f32⟩) main_v160) (TRef.of (T := ⟨S100000x128, .f32⟩) main_call3_v2) maximumf,
    TRef.unary (TRef.of (T := ⟨S_, .f32⟩) main_cst_33) (TRef.of (T := ⟨S_, .f32⟩) main_call3_v3) id,
    TRef.unary (TRef.of (T := ⟨S_, .f32⟩) main_call3_v3) (TRef.of (T := ⟨S100000x128, .f32⟩) main_call3_v4) (broadcastInDim S100000x128 ![] bcast_S_S100000x128),
    TRef.binary (TRef.of (T := ⟨S100000x128, .f32⟩) main_call3_v4) (TRef.of (T := ⟨S100000x128, .f32⟩) main_call3_v2) (TRef.of (T := ⟨S100000x128, .f32⟩) main_v161) minimumf ]

/-- Stage 5: the last layer (128 → 2), not clipped. -/
abbrev ops5 : List (HloOp τ sig (Elt F)) :=
  [ unary main_arg8 main_v162 ((extractStridedSlice S1x128x2 ![0, 0, 0] · slices_S3x128x2_S1x128x2_0_0_0) : (⟨S3x128x2, .f32⟩ : BufTy).Contents (Elt F) → (⟨S1x128x2, .f32⟩ : BufTy).Contents (Elt F)),
    reshape main_v162 main_v163 rfl shapeCasts_S1x128x2_S128x2,
    binary main_v161 main_v163 main_v164 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    nullary main_c_34 (constantI S_ 32 0#32),
    unary main_c_34 main_v165 (broadcastInDim S625000 ![] bcast_S_S625000 : (⟨S_, .i32⟩ : BufTy).Contents (Elt F) → (⟨S625000, .i32⟩ : BufTy).Contents (Elt F)),
    binary main_v1 main_v165 main_v166 (cmpi .slt : (⟨S625000, .i32⟩ : BufTy).Contents (Elt F) → (⟨S625000, .i32⟩ : BufTy).Contents (Elt F) → (⟨S625000, .i1⟩ : BufTy).Contents (Elt F)),
    nullary main_c_35 (constantI S_ 32 100000#32),
    unary main_c_35 main_v167 (broadcastInDim S625000 ![] bcast_S_S625000 : (⟨S_, .i32⟩ : BufTy).Contents (Elt F) → (⟨S625000, .i32⟩ : BufTy).Contents (Elt F)),
    binary main_v1 main_v167 main_v168 (addi : (⟨S625000, .i32⟩ : BufTy).Contents (Elt F) → (⟨S625000, .i32⟩ : BufTy).Contents (Elt F) → (⟨S625000, .i32⟩ : BufTy).Contents (Elt F)),
    ternary main_v166 main_v168 main_v1 main_v169 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v169 main_v170 (broadcastInDim S625000x1 ![0] bcast_S625000_S625000x1_0 : (⟨S625000, .i32⟩ : BufTy).Contents (Elt F) → (⟨S625000x1, .i32⟩ : BufTy).Contents (Elt F)),
    binary main_v161 main_v170 main_v171 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    unary main_v29 main_v172 (broadcastInDim S625000x1 ![0] bcast_S625000_S625000x1_0 : (⟨S625000, .f32⟩ : BufTy).Contents (Elt F) → (⟨S625000x1, .f32⟩ : BufTy).Contents (Elt F)),
    unary main_v172 main_v173 (broadcastInDim S625000x128 ![0, 1] bcast_S625000x1_S625000x128_0_1 : (⟨S625000x1, .f32⟩ : BufTy).Contents (Elt F) → (⟨S625000x128, .f32⟩ : BufTy).Contents (Elt F)),
    binary main_v171 main_v173 main_v174 (mulf : (⟨S625000x128, .f32⟩ : BufTy).Contents (Elt F) → (⟨S625000x128, .f32⟩ : BufTy).Contents (Elt F) → (⟨S625000x128, .f32⟩ : BufTy).Contents (Elt F)),
    nullary main_cst_36 (constant S_ .f32 0x00000000#32),
    unary main_cst_36 main_v175 (broadcastInDim S100000x128 ![] bcast_S_S100000x128 : (⟨S_, .f32⟩ : BufTy).Contents (Elt F) → (⟨S100000x128, .f32⟩ : BufTy).Contents (Elt F)),
    unary main_v3 main_v176 (broadcastInDim S625000x1 ![0] bcast_S625000_S625000x1_0 : (⟨S625000, .i32⟩ : BufTy).Contents (Elt F) → (⟨S625000x1, .i32⟩ : BufTy).Contents (Elt F)),
    ternary main_v175 main_v176 main_v174 main_v177 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    unary main_arg8 main_v178 ((extractStridedSlice S1x128x2 ![1, 0, 0] · slices_S3x128x2_S1x128x2_1_0_0) : (⟨S3x128x2, .f32⟩ : BufTy).Contents (Elt F) → (⟨S1x128x2, .f32⟩ : BufTy).Contents (Elt F)),
    reshape main_v178 main_v179 rfl shapeCasts_S1x128x2_S128x2,
    binary main_v177 main_v179 main_v180 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    binary main_v164 main_v180 main_v181 (addf : (⟨S100000x2, .f32⟩ : BufTy).Contents (Elt F) → (⟨S100000x2, .f32⟩ : BufTy).Contents (Elt F) → (⟨S100000x2, .f32⟩ : BufTy).Contents (Elt F)),
    nullary main_c_37 (constantI S_ 32 0#32),
    unary main_c_37 main_v182 (broadcastInDim S625000 ![] bcast_S_S625000 : (⟨S_, .i32⟩ : BufTy).Contents (Elt F) → (⟨S625000, .i32⟩ : BufTy).Contents (Elt F)),
    binary main_v1 main_v182 main_v183 (cmpi .slt : (⟨S625000, .i32⟩ : BufTy).Contents (Elt F) → (⟨S625000, .i32⟩ : BufTy).Contents (Elt F) → (⟨S625000, .i1⟩ : BufTy).Contents (Elt F)),
    nullary main_c_38 (constantI S_ 32 100000#32),
    unary main_c_38 main_v184 (broadcastInDim S625000 ![] bcast_S_S625000 : (⟨S_, .i32⟩ : BufTy).Contents (Elt F) → (⟨S625000, .i32⟩ : BufTy).Contents (Elt F)),
    binary main_v1 main_v184 main_v185 (addi : (⟨S625000, .i32⟩ : BufTy).Contents (Elt F) → (⟨S625000, .i32⟩ : BufTy).Contents (Elt F) → (⟨S625000, .i32⟩ : BufTy).Contents (Elt F)),
    ternary main_v183 main_v185 main_v1 main_v186 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v186 main_v187 (broadcastInDim S625000x1 ![0] bcast_S625000_S625000x1_0 : (⟨S625000, .i32⟩ : BufTy).Contents (Elt F) → (⟨S625000x1, .i32⟩ : BufTy).Contents (Elt F)),
    binary main_v177 main_v187 main_v188 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    unary main_v29 main_v189 (broadcastInDim S625000x1 ![0] bcast_S625000_S625000x1_0 : (⟨S625000, .f32⟩ : BufTy).Contents (Elt F) → (⟨S625000x1, .f32⟩ : BufTy).Contents (Elt F)),
    unary main_v189 main_v190 (broadcastInDim S625000x128 ![0, 1] bcast_S625000x1_S625000x128_0_1 : (⟨S625000x1, .f32⟩ : BufTy).Contents (Elt F) → (⟨S625000x128, .f32⟩ : BufTy).Contents (Elt F)),
    binary main_v188 main_v190 main_v191 (mulf : (⟨S625000x128, .f32⟩ : BufTy).Contents (Elt F) → (⟨S625000x128, .f32⟩ : BufTy).Contents (Elt F) → (⟨S625000x128, .f32⟩ : BufTy).Contents (Elt F)),
    nullary main_cst_39 (constant S_ .f32 0x00000000#32),
    unary main_cst_39 main_v192 (broadcastInDim S100000x128 ![] bcast_S_S100000x128 : (⟨S_, .f32⟩ : BufTy).Contents (Elt F) → (⟨S100000x128, .f32⟩ : BufTy).Contents (Elt F)),
    unary main_v3 main_v193 (broadcastInDim S625000x1 ![0] bcast_S625000_S625000x1_0 : (⟨S625000, .i32⟩ : BufTy).Contents (Elt F) → (⟨S625000x1, .i32⟩ : BufTy).Contents (Elt F)),
    ternary main_v192 main_v193 main_v191 main_v194 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    nullary main_cst_40 (constant S_ .f32 0x40000000#32),
    unary main_cst_40 main_v195 (broadcastInDim S100000x128 ![] bcast_S_S100000x128 : (⟨S_, .f32⟩ : BufTy).Contents (Elt F) → (⟨S100000x128, .f32⟩ : BufTy).Contents (Elt F)),
    binary main_v195 main_v194 main_v196 (mulf : (⟨S100000x128, .f32⟩ : BufTy).Contents (Elt F) → (⟨S100000x128, .f32⟩ : BufTy).Contents (Elt F) → (⟨S100000x128, .f32⟩ : BufTy).Contents (Elt F)),
    binary main_v196 main_v161 main_v197 (subf : (⟨S100000x128, .f32⟩ : BufTy).Contents (Elt F) → (⟨S100000x128, .f32⟩ : BufTy).Contents (Elt F) → (⟨S100000x128, .f32⟩ : BufTy).Contents (Elt F)),
    unary main_arg8 main_v198 ((extractStridedSlice S1x128x2 ![2, 0, 0] · slices_S3x128x2_S1x128x2_2_0_0) : (⟨S3x128x2, .f32⟩ : BufTy).Contents (Elt F) → (⟨S1x128x2, .f32⟩ : BufTy).Contents (Elt F)),
    reshape main_v198 main_v199 rfl shapeCasts_S1x128x2_S128x2,
    binary main_v197 main_v199 main_v200 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    binary main_v181 main_v200 main_v201 (addf : (⟨S100000x2, .f32⟩ : BufTy).Contents (Elt F) → (⟨S100000x2, .f32⟩ : BufTy).Contents (Elt F) → (⟨S100000x2, .f32⟩ : BufTy).Contents (Elt F)),
    unary main_arg9 main_v202 (broadcastInDim S1x2 ![1] bcast_S2_S1x2_1 : (⟨S2, .f32⟩ : BufTy).Contents (Elt F) → (⟨S1x2, .f32⟩ : BufTy).Contents (Elt F)),
    unary main_v202 main_v203 (broadcastInDim S100000x2 ![0, 1] bcast_S1x2_S100000x2_0_1 : (⟨S1x2, .f32⟩ : BufTy).Contents (Elt F) → (⟨S100000x2, .f32⟩ : BufTy).Contents (Elt F)),
    binary main_v201 main_v203 main_v204 (addf : (⟨S100000x2, .f32⟩ : BufTy).Contents (Elt F) → (⟨S100000x2, .f32⟩ : BufTy).Contents (Elt F) → (⟨S100000x2, .f32⟩ : BufTy).Contents (Elt F)) ]

/-- All of @main's operations, in order. -/
abbrev opsAll : List (HloOp τ sig (Elt F)) :=
  [ unary main_arg1 main_v0 ((extractStridedSlice S1x625000 ![0, 0] · slices_S2x625000_S1x625000_0_0) : (⟨S2x625000, .i32⟩ : BufTy).Contents (Elt F) → (⟨S1x625000, .i32⟩ : BufTy).Contents (Elt F)),
    reshape main_v0 main_v1 rfl shapeCasts_S1x625000_S625000,
    unary main_arg1 main_v2 ((extractStridedSlice S1x625000 ![1, 0] · slices_S2x625000_S1x625000_1_0) : (⟨S2x625000, .i32⟩ : BufTy).Contents (Elt F) → (⟨S1x625000, .i32⟩ : BufTy).Contents (Elt F)),
    reshape main_v2 main_v3 rfl shapeCasts_S1x625000_S625000,
    nullary main_cst (constant S_ .f32 0x3F800000#32),
    unary main_cst main_v4 (broadcastInDim S625000 ![] bcast_S_S625000 : (⟨S_, .f32⟩ : BufTy).Contents (Elt F) → (⟨S625000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S625000x1 ![0] bcast_S625000_S625000x1_0 : (⟨S625000, .i32⟩ : BufTy).Contents (Elt F) → (⟨S625000x1, .i32⟩ : BufTy).Contents (Elt F)),
    ternary main_v5 main_v6 main_v4 main_v7 ((fun x i u => Host.scatterAdd scatter_S100000_S625000x1_S625000_n_0_0_1 x i u) : (⟨S100000, .f32⟩ : BufTy).Contents (Elt F) → (⟨S625000x1, .i32⟩ : BufTy).Contents (Elt F) → (⟨S625000, .f32⟩ : BufTy).Contents (Elt F) → (⟨S100000, .f32⟩ : BufTy).Contents (Elt F)),
    nullary main_cst_1 (constant S_ .f32 0x00000000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x2B8CBCCC#32),
    unary main_cst_2 main_v10 (broadcastInDim S100000 ![] bcast_S_S100000 : (⟨S_, .f32⟩ : BufTy).Contents (Elt F) → (⟨S100000, .f32⟩ : BufTy).Contents (Elt F)),
    binary main_v7 main_v10 main_v11 (maximumf : (⟨S100000, .f32⟩ : BufTy).Contents (Elt F) → (⟨S100000, .f32⟩ : BufTy).Contents (Elt F) → (⟨S100000, .f32⟩ : BufTy).Contents (Elt F)),
    unary main_v11 main_v12 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v9) (TRef.of (T := ⟨S100000, .f32⟩) main_v12) (TRef.of (T := ⟨S100000, .f32⟩) main_call0_v1) (TRef.of (T := ⟨S100000, .f32⟩) main_v13) select,
    nullary main_c (constantI S_ 32 0#32),
    unary main_c main_v14 (broadcastInDim S625000 ![] bcast_S_S625000 : (⟨S_, .i32⟩ : BufTy).Contents (Elt F) → (⟨S625000, .i32⟩ : BufTy).Contents (Elt F)),
    binary main_v1 main_v14 main_v15 (cmpi .slt : (⟨S625000, .i32⟩ : BufTy).Contents (Elt F) → (⟨S625000, .i32⟩ : BufTy).Contents (Elt F) → (⟨S625000, .i1⟩ : BufTy).Contents (Elt F)),
    nullary main_c_4 (constantI S_ 32 100000#32),
    unary main_c_4 main_v16 (broadcastInDim S625000 ![] bcast_S_S625000 : (⟨S_, .i32⟩ : BufTy).Contents (Elt F) → (⟨S625000, .i32⟩ : BufTy).Contents (Elt F)),
    binary main_v1 main_v16 main_v17 (addi : (⟨S625000, .i32⟩ : BufTy).Contents (Elt F) → (⟨S625000, .i32⟩ : BufTy).Contents (Elt F) → (⟨S625000, .i32⟩ : BufTy).Contents (Elt F)),
    ternary main_v15 main_v17 main_v1 main_v18 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v18 main_v19 (broadcastInDim S625000x1 ![0] bcast_S625000_S625000x1_0 : (⟨S625000, .i32⟩ : BufTy).Contents (Elt F) → (⟨S625000x1, .i32⟩ : BufTy).Contents (Elt F)),
    binary main_v13 main_v19 main_v20 ((fun x i => Host.gather gather_S100000_S625000x1_S625000_n_0_n_n_0_1_1 x i) : (⟨S100000, .f32⟩ : BufTy).Contents (Elt F) → (⟨S625000x1, .i32⟩ : BufTy).Contents (Elt F) → (⟨S625000, .f32⟩ : BufTy).Contents (Elt F)),
    unary main_v20 main_v21 (Host.negf : (⟨S625000, .f32⟩ : BufTy).Contents (Elt F) → (⟨S625000, .f32⟩ : BufTy).Contents (Elt F)),
    nullary main_c_5 (constantI S_ 32 0#32),
    unary main_c_5 main_v22 (broadcastInDim S625000 ![] bcast_S_S625000 : (⟨S_, .i32⟩ : BufTy).Contents (Elt F) → (⟨S625000, .i32⟩ : BufTy).Contents (Elt F)),
    binary main_v3 main_v22 main_v23 (cmpi .slt : (⟨S625000, .i32⟩ : BufTy).Contents (Elt F) → (⟨S625000, .i32⟩ : BufTy).Contents (Elt F) → (⟨S625000, .i1⟩ : BufTy).Contents (Elt F)),
    nullary main_c_6 (constantI S_ 32 100000#32),
    unary main_c_6 main_v24 (broadcastInDim S625000 ![] bcast_S_S625000 : (⟨S_, .i32⟩ : BufTy).Contents (Elt F) → (⟨S625000, .i32⟩ : BufTy).Contents (Elt F)),
    binary main_v3 main_v24 main_v25 (addi : (⟨S625000, .i32⟩ : BufTy).Contents (Elt F) → (⟨S625000, .i32⟩ : BufTy).Contents (Elt F) → (⟨S625000, .i32⟩ : BufTy).Contents (Elt F)),
    ternary main_v23 main_v25 main_v3 main_v26 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v26 main_v27 (broadcastInDim S625000x1 ![0] bcast_S625000_S625000x1_0 : (⟨S625000, .i32⟩ : BufTy).Contents (Elt F) → (⟨S625000x1, .i32⟩ : BufTy).Contents (Elt F)),
    binary main_v13 main_v27 main_v28 ((fun x i => Host.gather gather_S100000_S625000x1_S625000_n_0_n_n_0_1_1 x i) : (⟨S100000, .f32⟩ : BufTy).Contents (Elt F) → (⟨S625000x1, .i32⟩ : BufTy).Contents (Elt F) → (⟨S625000, .f32⟩ : BufTy).Contents (Elt F)),
    binary main_v21 main_v28 main_v29 (mulf : (⟨S625000, .f32⟩ : BufTy).Contents (Elt F) → (⟨S625000, .f32⟩ : BufTy).Contents (Elt F) → (⟨S625000, .f32⟩ : BufTy).Contents (Elt F)),
    unary main_arg2 main_v30 ((extractStridedSlice S1x165x128 ![0, 0, 0] · slices_S3x165x128_S1x165x128_0_0_0) : (⟨S3x165x128, .f32⟩ : BufTy).Contents (Elt F) → (⟨S1x165x128, .f32⟩ : BufTy).Contents (Elt F)),
    reshape main_v30 main_v31 rfl shapeCasts_S1x165x128_S165x128,
    binary main_arg0 main_v31 main_v32 ((fun l r => Host.dotGeneral dot_S100000x165_S165x128_S100000x128_1_0_0_1_n_n none l r) : (⟨S100000x165, .f32⟩ : BufTy).Contents (Elt F) → (⟨S165x128, .f32⟩ : BufTy).Contents (Elt F) → (⟨S100000x128, .f32⟩ : BufTy).Contents (Elt F)),
    nullary main_c_7 (constantI S_ 32 0#32),
    unary main_c_7 main_v33 (broadcastInDim S625000 ![] bcast_S_S625000 : (⟨S_, .i32⟩ : BufTy).Contents (Elt F) → (⟨S625000, .i32⟩ : BufTy).Contents (Elt F)),
    binary main_v1 main_v33 main_v34 (cmpi .slt : (⟨S625000, .i32⟩ : BufTy).Contents (Elt F) → (⟨S625000, .i32⟩ : BufTy).Contents (Elt F) → (⟨S625000, .i1⟩ : BufTy).Contents (Elt F)),
    nullary main_c_8 (constantI S_ 32 100000#32),
    unary main_c_8 main_v35 (broadcastInDim S625000 ![] bcast_S_S625000 : (⟨S_, .i32⟩ : BufTy).Contents (Elt F) → (⟨S625000, .i32⟩ : BufTy).Contents (Elt F)),
    binary main_v1 main_v35 main_v36 (addi : (⟨S625000, .i32⟩ : BufTy).Contents (Elt F) → (⟨S625000, .i32⟩ : BufTy).Contents (Elt F) → (⟨S625000, .i32⟩ : BufTy).Contents (Elt F)),
    ternary main_v34 main_v36 main_v1 main_v37 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v37 main_v38 (broadcastInDim S625000x1 ![0] bcast_S625000_S625000x1_0 : (⟨S625000, .i32⟩ : BufTy).Contents (Elt F) → (⟨S625000x1, .i32⟩ : BufTy).Contents (Elt F)),
    binary main_arg0 main_v38 main_v39 ((fun x i => Host.gather gather_S100000x165_S625000x1_S625000x165_1_0_n_n_0_1_1165 x i) : (⟨S100000x165, .f32⟩ : BufTy).Contents (Elt F) → (⟨S625000x1, .i32⟩ : BufTy).Contents (Elt F) → (⟨S625000x165, .f32⟩ : BufTy).Contents (Elt F)),
    unary main_v29 main_v40 (broadcastInDim S625000x1 ![0] bcast_S625000_S625000x1_0 : (⟨S625000, .f32⟩ : BufTy).Contents (Elt F) → (⟨S625000x1, .f32⟩ : BufTy).Contents (Elt F)),
    unary main_v40 main_v41 (broadcastInDim S625000x165 ![0, 1] bcast_S625000x1_S625000x165_0_1 : (⟨S625000x1, .f32⟩ : BufTy).Contents (Elt F) → (⟨S625000x165, .f32⟩ : BufTy).Contents (Elt F)),
    binary main_v39 main_v41 main_v42 (mulf : (⟨S625000x165, .f32⟩ : BufTy).Contents (Elt F) → (⟨S625000x165, .f32⟩ : BufTy).Contents (Elt F) → (⟨S625000x165, .f32⟩ : BufTy).Contents (Elt F)),
    nullary main_cst_9 (constant S_ .f32 0x00000000#32),
    unary main_cst_9 main_v43 (broadcastInDim S100000x165 ![] bcast_S_S100000x165 : (⟨S_, .f32⟩ : BufTy).Contents (Elt F) → (⟨S100000x165, .f32⟩ : BufTy).Contents (Elt F)),
    unary main_v3 main_v44 (broadcastInDim S625000x1 ![0] bcast_S625000_S625000x1_0 : (⟨S625000, .i32⟩ : BufTy).Contents (Elt F) → (⟨S625000x1, .i32⟩ : BufTy).Contents (Elt F)),
    ternary main_v43 main_v44 main_v42 main_v45 ((fun x i u => Host.scatterAdd scatter_S100000x165_S625000x1_S625000x165_1_0_0_1 x i u) : (⟨S100000x165, .f32⟩ : BufTy).Contents (Elt F) → (⟨S625000x1, .i32⟩ : BufTy).Contents (Elt F) → (⟨S625000x165, .f32⟩ : BufTy).Contents (Elt F) → (⟨S100000x165, .f32⟩ : BufTy).Contents (Elt F)),
    unary main_arg2 main_v46 ((extractStridedSlice S1x165x128 ![1, 0, 0] · slices_S3x165x128_S1x165x128_1_0_0) : (⟨S3x165x128, .f32⟩ : BufTy).Contents (Elt F) → (⟨S1x165x128, .f32⟩ : BufTy).Contents (Elt F)),
    reshape main_v46 main_v47 rfl shapeCasts_S1x165x128_S165x128,
    binary main_v45 main_v47 main_v48 ((fun l r => Host.dotGeneral dot_S100000x165_S165x128_S100000x128_1_0_0_1_n_n none l r) : (⟨S100000x165, .f32⟩ : BufTy).Contents (Elt F) → (⟨S165x128, .f32⟩ : BufTy).Contents (Elt F) → (⟨S100000x128, .f32⟩ : BufTy).Contents (Elt F)),
    binary main_v32 main_v48 main_v49 (addf : (⟨S100000x128, .f32⟩ : BufTy).Contents (Elt F) → (⟨S100000x128, .f32⟩ : BufTy).Contents (Elt F) → (⟨S100000x128, .f32⟩ : BufTy).Contents (Elt F)),
    nullary main_c_10 (constantI S_ 32 0#32),
    unary main_c_10 main_v50 (broadcastInDim S625000 ![] bcast_S_S625000 : (⟨S_, .i32⟩ : BufTy).Contents (Elt F) → (⟨S625000, .i32⟩ : BufTy).Contents (Elt F)),
    binary main_v1 main_v50 main_v51 (cmpi .slt : (⟨S625000, .i32⟩ : BufTy).Contents (Elt F) → (⟨S625000, .i32⟩ : BufTy).Contents (Elt F) → (⟨S625000, .i1⟩ : BufTy).Contents (Elt F)),
    nullary main_c_11 (constantI S_ 32 100000#32),
    unary main_c_11 main_v52 (broadcastInDim S625000 ![] bcast_S_S625000 : (⟨S_, .i32⟩ : BufTy).Contents (Elt F) → (⟨S625000, .i32⟩ : BufTy).Contents (Elt F)),
    binary main_v1 main_v52 main_v53 (addi : (⟨S625000, .i32⟩ : BufTy).Contents (Elt F) → (⟨S625000, .i32⟩ : BufTy).Contents (Elt F) → (⟨S625000, .i32⟩ : BufTy).Contents (Elt F)),
    ternary main_v51 main_v53 main_v1 main_v54 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v54 main_v55 (broadcastInDim S625000x1 ![0] bcast_S625000_S625000x1_0 : (⟨S625000, .i32⟩ : BufTy).Contents (Elt F) → (⟨S625000x1, .i32⟩ : BufTy).Contents (Elt F)),
    binary main_v45 main_v55 main_v56 ((fun x i => Host.gather gather_S100000x165_S625000x1_S625000x165_1_0_n_n_0_1_1165 x i) : (⟨S100000x165, .f32⟩ : BufTy).Contents (Elt F) → (⟨S625000x1, .i32⟩ : BufTy).Contents (Elt F) → (⟨S625000x165, .f32⟩ : BufTy).Contents (Elt F)),
    unary main_v29 main_v57 (broadcastInDim S625000x1 ![0] bcast_S625000_S625000x1_0 : (⟨S625000, .f32⟩ : BufTy).Contents (Elt F) → (⟨S625000x1, .f32⟩ : BufTy).Contents (Elt F)),
    unary main_v57 main_v58 (broadcastInDim S625000x165 ![0, 1] bcast_S625000x1_S625000x165_0_1 : (⟨S625000x1, .f32⟩ : BufTy).Contents (Elt F) → (⟨S625000x165, .f32⟩ : BufTy).Contents (Elt F)),
    binary main_v56 main_v58 main_v59 (mulf : (⟨S625000x165, .f32⟩ : BufTy).Contents (Elt F) → (⟨S625000x165, .f32⟩ : BufTy).Contents (Elt F) → (⟨S625000x165, .f32⟩ : BufTy).Contents (Elt F)),
    nullary main_cst_12 (constant S_ .f32 0x00000000#32),
    unary main_cst_12 main_v60 (broadcastInDim S100000x165 ![] bcast_S_S100000x165 : (⟨S_, .f32⟩ : BufTy).Contents (Elt F) → (⟨S100000x165, .f32⟩ : BufTy).Contents (Elt F)),
    unary main_v3 main_v61 (broadcastInDim S625000x1 ![0] bcast_S625000_S625000x1_0 : (⟨S625000, .i32⟩ : BufTy).Contents (Elt F) → (⟨S625000x1, .i32⟩ : BufTy).Contents (Elt F)),
    ternary main_v60 main_v61 main_v59 main_v62 ((fun x i u => Host.scatterAdd scatter_S100000x165_S625000x1_S625000x165_1_0_0_1 x i u) : (⟨S100000x165, .f32⟩ : BufTy).Contents (Elt F) → (⟨S625000x1, .i32⟩ : BufTy).Contents (Elt F) → (⟨S625000x165, .f32⟩ : BufTy).Contents (Elt F) → (⟨S100000x165, .f32⟩ : BufTy).Contents (Elt F)),
    nullary main_cst_13 (constant S_ .f32 0x40000000#32),
    unary main_cst_13 main_v63 (broadcastInDim S100000x165 ![] bcast_S_S100000x165 : (⟨S_, .f32⟩ : BufTy).Contents (Elt F) → (⟨S100000x165, .f32⟩ : BufTy).Contents (Elt F)),
    binary main_v63 main_v62 main_v64 (mulf : (⟨S100000x165, .f32⟩ : BufTy).Contents (Elt F) → (⟨S100000x165, .f32⟩ : BufTy).Contents (Elt F) → (⟨S100000x165, .f32⟩ : BufTy).Contents (Elt F)),
    binary main_v64 main_arg0 main_v65 (subf : (⟨S100000x165, .f32⟩ : BufTy).Contents (Elt F) → (⟨S100000x165, .f32⟩ : BufTy).Contents (Elt F) → (⟨S100000x165, .f32⟩ : BufTy).Contents (Elt F)),
    unary main_arg2 main_v66 ((extractStridedSlice S1x165x128 ![2, 0, 0] · slices_S3x165x128_S1x165x128_2_0_0) : (⟨S3x165x128, .f32⟩ : BufTy).Contents (Elt F) → (⟨S1x165x128, .f32⟩ : BufTy).Contents (Elt F)),
    reshape main_v66 main_v67 rfl shapeCasts_S1x165x128_S165x128,
    binary main_v65 main_v67 main_v68 ((fun l r => Host.dotGeneral dot_S100000x165_S165x128_S100000x128_1_0_0_1_n_n none l r) : (⟨S100000x165, .f32⟩ : BufTy).Contents (Elt F) → (⟨S165x128, .f32⟩ : BufTy).Contents (Elt F) → (⟨S100000x128, .f32⟩ : BufTy).Contents (Elt F)),
    binary main_v49 main_v68 main_v69 (addf : (⟨S100000x128, .f32⟩ : BufTy).Contents (Elt F) → (⟨S100000x128, .f32⟩ : BufTy).Contents (Elt F) → (⟨S100000x128, .f32⟩ : BufTy).Contents (Elt F)),
    unary main_arg3 main_v70 (broadcastInDim S1x128 ![1] bcast_S128_S1x128_1 : (⟨S128, .f32⟩ : BufTy).Contents (Elt F) → (⟨S1x128, .f32⟩ : BufTy).Contents (Elt F)),
    unary main_v70 main_v71 (broadcastInDim S100000x128 ![0, 1] bcast_S1x128_S100000x128_0_1 : (⟨S1x128, .f32⟩ : BufTy).Contents (Elt F) → (⟨S100000x128, .f32⟩ : BufTy).Contents (Elt F)),
    binary main_v69 main_v71 main_v72 (addf : (⟨S100000x128, .f32⟩ : BufTy).Contents (Elt F) → (⟨S100000x128, .f32⟩ : BufTy).Contents (Elt F) → (⟨S100000x128, .f32⟩ : BufTy).Contents (Elt F)),
    nullary main_cst_14 (constant S_ .f32 0x00000000#32),
    nullary main_cst_15 (constant S_ .f32 0x40C00000#32),
    TRef.unary (TRef.of (T := ⟨S_, .f32⟩) main_cst_14) (TRef.of (T := ⟨S_, .f32⟩) main_call1_v0) id,
    TRef.unary (TRef.of (T := ⟨S_, .f32⟩) main_call1_v0) (TRef.of (T := ⟨S100000x128, .f32⟩) main_call1_v1) (broadcastInDim S100000x128 ![] bcast_S_S100000x128),
    TRef.binary (TRef.of (T := ⟨S100000x128, .f32⟩) main_call1_v1) (TRef.of (T := ⟨S100000x128, .f32⟩) main_v72) (TRef.of (T := ⟨S100000x128, .f32⟩) main_call1_v2) maximumf,
    TRef.unary (TRef.of (T := ⟨S_, .f32⟩) main_cst_15) (TRef.of (T := ⟨S_, .f32⟩) main_call1_v3) id,
    TRef.unary (TRef.of (T := ⟨S_, .f32⟩) main_call1_v3) (TRef.of (T := ⟨S100000x128, .f32⟩) main_call1_v4) (broadcastInDim S100000x128 ![] bcast_S_S100000x128),
    TRef.binary (TRef.of (T := ⟨S100000x128, .f32⟩) main_call1_v4) (TRef.of (T := ⟨S100000x128, .f32⟩) main_call1_v2) (TRef.of (T := ⟨S100000x128, .f32⟩) main_v73) minimumf,
    unary main_arg4 main_v74 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v74 main_v75 rfl shapeCasts_S1x128x128_S128x128,
    binary main_v73 main_v75 main_v76 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_16 (constantI S_ 32 0#32),
    unary main_c_16 main_v77 (broadcastInDim S625000 ![] bcast_S_S625000 : (⟨S_, .i32⟩ : BufTy).Contents (Elt F) → (⟨S625000, .i32⟩ : BufTy).Contents (Elt F)),
    binary main_v1 main_v77 main_v78 (cmpi .slt : (⟨S625000, .i32⟩ : BufTy).Contents (Elt F) → (⟨S625000, .i32⟩ : BufTy).Contents (Elt F) → (⟨S625000, .i1⟩ : BufTy).Contents (Elt F)),
    nullary main_c_17 (constantI S_ 32 100000#32),
    unary main_c_17 main_v79 (broadcastInDim S625000 ![] bcast_S_S625000 : (⟨S_, .i32⟩ : BufTy).Contents (Elt F) → (⟨S625000, .i32⟩ : BufTy).Contents (Elt F)),
    binary main_v1 main_v79 main_v80 (addi : (⟨S625000, .i32⟩ : BufTy).Contents (Elt F) → (⟨S625000, .i32⟩ : BufTy).Contents (Elt F) → (⟨S625000, .i32⟩ : BufTy).Contents (Elt F)),
    ternary main_v78 main_v80 main_v1 main_v81 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v81 main_v82 (broadcastInDim S625000x1 ![0] bcast_S625000_S625000x1_0 : (⟨S625000, .i32⟩ : BufTy).Contents (Elt F) → (⟨S625000x1, .i32⟩ : BufTy).Contents (Elt F)),
    binary main_v73 main_v82 main_v83 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    unary main_v29 main_v84 (broadcastInDim S625000x1 ![0] bcast_S625000_S625000x1_0 : (⟨S625000, .f32⟩ : BufTy).Contents (Elt F) → (⟨S625000x1, .f32⟩ : BufTy).Contents (Elt F)),
    unary main_v84 main_v85 (broadcastInDim S625000x128 ![0, 1] bcast_S625000x1_S625000x128_0_1 : (⟨S625000x1, .f32⟩ : BufTy).Contents (Elt F) → (⟨S625000x128, .f32⟩ : BufTy).Contents (Elt F)),
    binary main_v83 main_v85 main_v86 (mulf : (⟨S625000x128, .f32⟩ : BufTy).Contents (Elt F) → (⟨S625000x128, .f32⟩ : BufTy).Contents (Elt F) → (⟨S625000x128, .f32⟩ : BufTy).Contents (Elt F)),
    nullary main_cst_18 (constant S_ .f32 0x00000000#32),
    unary main_cst_18 main_v87 (broadcastInDim S100000x128 ![] bcast_S_S100000x128 : (⟨S_, .f32⟩ : BufTy).Contents (Elt F) → (⟨S100000x128, .f32⟩ : BufTy).Contents (Elt F)),
    unary main_v3 main_v88 (broadcastInDim S625000x1 ![0] bcast_S625000_S625000x1_0 : (⟨S625000, .i32⟩ : BufTy).Contents (Elt F) → (⟨S625000x1, .i32⟩ : BufTy).Contents (Elt F)),
    ternary main_v87 main_v88 main_v86 main_v89 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    unary main_arg4 main_v90 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v90 main_v91 rfl shapeCasts_S1x128x128_S128x128,
    binary main_v89 main_v91 main_v92 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v76 main_v92 main_v93 (addf : (⟨S100000x128, .f32⟩ : BufTy).Contents (Elt F) → (⟨S100000x128, .f32⟩ : BufTy).Contents (Elt F) → (⟨S100000x128, .f32⟩ : BufTy).Contents (Elt F)),
    nullary main_c_19 (constantI S_ 32 0#32),
    unary main_c_19 main_v94 (broadcastInDim S625000 ![] bcast_S_S625000 : (⟨S_, .i32⟩ : BufTy).Contents (Elt F) → (⟨S625000, .i32⟩ : BufTy).Contents (Elt F)),
    binary main_v1 main_v94 main_v95 (cmpi .slt : (⟨S625000, .i32⟩ : BufTy).Contents (Elt F) → (⟨S625000, .i32⟩ : BufTy).Contents (Elt F) → (⟨S625000, .i1⟩ : BufTy).Contents (Elt F)),
    nullary main_c_20 (constantI S_ 32 100000#32),
    unary main_c_20 main_v96 (broadcastInDim S625000 ![] bcast_S_S625000 : (⟨S_, .i32⟩ : BufTy).Contents (Elt F) → (⟨S625000, .i32⟩ : BufTy).Contents (Elt F)),
    binary main_v1 main_v96 main_v97 (addi : (⟨S625000, .i32⟩ : BufTy).Contents (Elt F) → (⟨S625000, .i32⟩ : BufTy).Contents (Elt F) → (⟨S625000, .i32⟩ : BufTy).Contents (Elt F)),
    ternary main_v95 main_v97 main_v1 main_v98 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v98 main_v99 (broadcastInDim S625000x1 ![0] bcast_S625000_S625000x1_0 : (⟨S625000, .i32⟩ : BufTy).Contents (Elt F) → (⟨S625000x1, .i32⟩ : BufTy).Contents (Elt F)),
    binary main_v89 main_v99 main_v100 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    unary main_v29 main_v101 (broadcastInDim S625000x1 ![0] bcast_S625000_S625000x1_0 : (⟨S625000, .f32⟩ : BufTy).Contents (Elt F) → (⟨S625000x1, .f32⟩ : BufTy).Contents (Elt F)),
    unary main_v101 main_v102 (broadcastInDim S625000x128 ![0, 1] bcast_S625000x1_S625000x128_0_1 : (⟨S625000x1, .f32⟩ : BufTy).Contents (Elt F) → (⟨S625000x128, .f32⟩ : BufTy).Contents (Elt F)),
    binary main_v100 main_v102 main_v103 (mulf : (⟨S625000x128, .f32⟩ : BufTy).Contents (Elt F) → (⟨S625000x128, .f32⟩ : BufTy).Contents (Elt F) → (⟨S625000x128, .f32⟩ : BufTy).Contents (Elt F)),
    nullary main_cst_21 (constant S_ .f32 0x00000000#32),
    unary main_cst_21 main_v104 (broadcastInDim S100000x128 ![] bcast_S_S100000x128 : (⟨S_, .f32⟩ : BufTy).Contents (Elt F) → (⟨S100000x128, .f32⟩ : BufTy).Contents (Elt F)),
    unary main_v3 main_v105 (broadcastInDim S625000x1 ![0] bcast_S625000_S625000x1_0 : (⟨S625000, .i32⟩ : BufTy).Contents (Elt F) → (⟨S625000x1, .i32⟩ : BufTy).Contents (Elt F)),
    ternary main_v104 main_v105 main_v103 main_v106 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    nullary main_cst_22 (constant S_ .f32 0x40000000#32),
    unary main_cst_22 main_v107 (broadcastInDim S100000x128 ![] bcast_S_S100000x128 : (⟨S_, .f32⟩ : BufTy).Contents (Elt F) → (⟨S100000x128, .f32⟩ : BufTy).Contents (Elt F)),
    binary main_v107 main_v106 main_v108 (mulf : (⟨S100000x128, .f32⟩ : BufTy).Contents (Elt F) → (⟨S100000x128, .f32⟩ : BufTy).Contents (Elt F) → (⟨S100000x128, .f32⟩ : BufTy).Contents (Elt F)),
    binary main_v108 main_v73 main_v109 (subf : (⟨S100000x128, .f32⟩ : BufTy).Contents (Elt F) → (⟨S100000x128, .f32⟩ : BufTy).Contents (Elt F) → (⟨S100000x128, .f32⟩ : BufTy).Contents (Elt F)),
    unary main_arg4 main_v110 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v110 main_v111 rfl shapeCasts_S1x128x128_S128x128,
    binary main_v109 main_v111 main_v112 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v93 main_v112 main_v113 (addf : (⟨S100000x128, .f32⟩ : BufTy).Contents (Elt F) → (⟨S100000x128, .f32⟩ : BufTy).Contents (Elt F) → (⟨S100000x128, .f32⟩ : BufTy).Contents (Elt F)),
    unary main_arg5 main_v114 (broadcastInDim S1x128 ![1] bcast_S128_S1x128_1 : (⟨S128, .f32⟩ : BufTy).Contents (Elt F) → (⟨S1x128, .f32⟩ : BufTy).Contents (Elt F)),
    unary main_v114 main_v115 (broadcastInDim S100000x128 ![0, 1] bcast_S1x128_S100000x128_0_1 : (⟨S1x128, .f32⟩ : BufTy).Contents (Elt F) → (⟨S100000x128, .f32⟩ : BufTy).Contents (Elt F)),
    binary main_v113 main_v115 main_v116 (addf : (⟨S100000x128, .f32⟩ : BufTy).Contents (Elt F) → (⟨S100000x128, .f32⟩ : BufTy).Contents (Elt F) → (⟨S100000x128, .f32⟩ : BufTy).Contents (Elt F)),
    nullary main_cst_23 (constant S_ .f32 0x00000000#32),
    nullary main_cst_24 (constant S_ .f32 0x40C00000#32),
    TRef.unary (TRef.of (T := ⟨S_, .f32⟩) main_cst_23) (TRef.of (T := ⟨S_, .f32⟩) main_call2_v0) id,
    TRef.unary (TRef.of (T := ⟨S_, .f32⟩) main_call2_v0) (TRef.of (T := ⟨S100000x128, .f32⟩) main_call2_v1) (broadcastInDim S100000x128 ![] bcast_S_S100000x128),
    TRef.binary (TRef.of (T := ⟨S100000x128, .f32⟩) main_call2_v1) (TRef.of (T := ⟨S100000x128, .f32⟩) main_v116) (TRef.of (T := ⟨S100000x128, .f32⟩) main_call2_v2) maximumf,
    TRef.unary (TRef.of (T := ⟨S_, .f32⟩) main_cst_24) (TRef.of (T := ⟨S_, .f32⟩) main_call2_v3) id,
    TRef.unary (TRef.of (T := ⟨S_, .f32⟩) main_call2_v3) (TRef.of (T := ⟨S100000x128, .f32⟩) main_call2_v4) (broadcastInDim S100000x128 ![] bcast_S_S100000x128),
    TRef.binary (TRef.of (T := ⟨S100000x128, .f32⟩) main_call2_v4) (TRef.of (T := ⟨S100000x128, .f32⟩) main_call2_v2) (TRef.of (T := ⟨S100000x128, .f32⟩) main_v117) minimumf,
    unary main_arg6 main_v118 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v118 main_v119 rfl shapeCasts_S1x128x128_S128x128,
    binary main_v117 main_v119 main_v120 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_25 (constantI S_ 32 0#32),
    unary main_c_25 main_v121 (broadcastInDim S625000 ![] bcast_S_S625000 : (⟨S_, .i32⟩ : BufTy).Contents (Elt F) → (⟨S625000, .i32⟩ : BufTy).Contents (Elt F)),
    binary main_v1 main_v121 main_v122 (cmpi .slt : (⟨S625000, .i32⟩ : BufTy).Contents (Elt F) → (⟨S625000, .i32⟩ : BufTy).Contents (Elt F) → (⟨S625000, .i1⟩ : BufTy).Contents (Elt F)),
    nullary main_c_26 (constantI S_ 32 100000#32),
    unary main_c_26 main_v123 (broadcastInDim S625000 ![] bcast_S_S625000 : (⟨S_, .i32⟩ : BufTy).Contents (Elt F) → (⟨S625000, .i32⟩ : BufTy).Contents (Elt F)),
    binary main_v1 main_v123 main_v124 (addi : (⟨S625000, .i32⟩ : BufTy).Contents (Elt F) → (⟨S625000, .i32⟩ : BufTy).Contents (Elt F) → (⟨S625000, .i32⟩ : BufTy).Contents (Elt F)),
    ternary main_v122 main_v124 main_v1 main_v125 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v125 main_v126 (broadcastInDim S625000x1 ![0] bcast_S625000_S625000x1_0 : (⟨S625000, .i32⟩ : BufTy).Contents (Elt F) → (⟨S625000x1, .i32⟩ : BufTy).Contents (Elt F)),
    binary main_v117 main_v126 main_v127 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    unary main_v29 main_v128 (broadcastInDim S625000x1 ![0] bcast_S625000_S625000x1_0 : (⟨S625000, .f32⟩ : BufTy).Contents (Elt F) → (⟨S625000x1, .f32⟩ : BufTy).Contents (Elt F)),
    unary main_v128 main_v129 (broadcastInDim S625000x128 ![0, 1] bcast_S625000x1_S625000x128_0_1 : (⟨S625000x1, .f32⟩ : BufTy).Contents (Elt F) → (⟨S625000x128, .f32⟩ : BufTy).Contents (Elt F)),
    binary main_v127 main_v129 main_v130 (mulf : (⟨S625000x128, .f32⟩ : BufTy).Contents (Elt F) → (⟨S625000x128, .f32⟩ : BufTy).Contents (Elt F) → (⟨S625000x128, .f32⟩ : BufTy).Contents (Elt F)),
    nullary main_cst_27 (constant S_ .f32 0x00000000#32),
    unary main_cst_27 main_v131 (broadcastInDim S100000x128 ![] bcast_S_S100000x128 : (⟨S_, .f32⟩ : BufTy).Contents (Elt F) → (⟨S100000x128, .f32⟩ : BufTy).Contents (Elt F)),
    unary main_v3 main_v132 (broadcastInDim S625000x1 ![0] bcast_S625000_S625000x1_0 : (⟨S625000, .i32⟩ : BufTy).Contents (Elt F) → (⟨S625000x1, .i32⟩ : BufTy).Contents (Elt F)),
    ternary main_v131 main_v132 main_v130 main_v133 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    unary main_arg6 main_v134 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v134 main_v135 rfl shapeCasts_S1x128x128_S128x128,
    binary main_v133 main_v135 main_v136 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v120 main_v136 main_v137 (addf : (⟨S100000x128, .f32⟩ : BufTy).Contents (Elt F) → (⟨S100000x128, .f32⟩ : BufTy).Contents (Elt F) → (⟨S100000x128, .f32⟩ : BufTy).Contents (Elt F)),
    nullary main_c_28 (constantI S_ 32 0#32),
    unary main_c_28 main_v138 (broadcastInDim S625000 ![] bcast_S_S625000 : (⟨S_, .i32⟩ : BufTy).Contents (Elt F) → (⟨S625000, .i32⟩ : BufTy).Contents (Elt F)),
    binary main_v1 main_v138 main_v139 (cmpi .slt : (⟨S625000, .i32⟩ : BufTy).Contents (Elt F) → (⟨S625000, .i32⟩ : BufTy).Contents (Elt F) → (⟨S625000, .i1⟩ : BufTy).Contents (Elt F)),
    nullary main_c_29 (constantI S_ 32 100000#32),
    unary main_c_29 main_v140 (broadcastInDim S625000 ![] bcast_S_S625000 : (⟨S_, .i32⟩ : BufTy).Contents (Elt F) → (⟨S625000, .i32⟩ : BufTy).Contents (Elt F)),
    binary main_v1 main_v140 main_v141 (addi : (⟨S625000, .i32⟩ : BufTy).Contents (Elt F) → (⟨S625000, .i32⟩ : BufTy).Contents (Elt F) → (⟨S625000, .i32⟩ : BufTy).Contents (Elt F)),
    ternary main_v139 main_v141 main_v1 main_v142 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v142 main_v143 (broadcastInDim S625000x1 ![0] bcast_S625000_S625000x1_0 : (⟨S625000, .i32⟩ : BufTy).Contents (Elt F) → (⟨S625000x1, .i32⟩ : BufTy).Contents (Elt F)),
    binary main_v133 main_v143 main_v144 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    unary main_v29 main_v145 (broadcastInDim S625000x1 ![0] bcast_S625000_S625000x1_0 : (⟨S625000, .f32⟩ : BufTy).Contents (Elt F) → (⟨S625000x1, .f32⟩ : BufTy).Contents (Elt F)),
    unary main_v145 main_v146 (broadcastInDim S625000x128 ![0, 1] bcast_S625000x1_S625000x128_0_1 : (⟨S625000x1, .f32⟩ : BufTy).Contents (Elt F) → (⟨S625000x128, .f32⟩ : BufTy).Contents (Elt F)),
    binary main_v144 main_v146 main_v147 (mulf : (⟨S625000x128, .f32⟩ : BufTy).Contents (Elt F) → (⟨S625000x128, .f32⟩ : BufTy).Contents (Elt F) → (⟨S625000x128, .f32⟩ : BufTy).Contents (Elt F)),
    nullary main_cst_30 (constant S_ .f32 0x00000000#32),
    unary main_cst_30 main_v148 (broadcastInDim S100000x128 ![] bcast_S_S100000x128 : (⟨S_, .f32⟩ : BufTy).Contents (Elt F) → (⟨S100000x128, .f32⟩ : BufTy).Contents (Elt F)),
    unary main_v3 main_v149 (broadcastInDim S625000x1 ![0] bcast_S625000_S625000x1_0 : (⟨S625000, .i32⟩ : BufTy).Contents (Elt F) → (⟨S625000x1, .i32⟩ : BufTy).Contents (Elt F)),
    ternary main_v148 main_v149 main_v147 main_v150 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    nullary main_cst_31 (constant S_ .f32 0x40000000#32),
    unary main_cst_31 main_v151 (broadcastInDim S100000x128 ![] bcast_S_S100000x128 : (⟨S_, .f32⟩ : BufTy).Contents (Elt F) → (⟨S100000x128, .f32⟩ : BufTy).Contents (Elt F)),
    binary main_v151 main_v150 main_v152 (mulf : (⟨S100000x128, .f32⟩ : BufTy).Contents (Elt F) → (⟨S100000x128, .f32⟩ : BufTy).Contents (Elt F) → (⟨S100000x128, .f32⟩ : BufTy).Contents (Elt F)),
    binary main_v152 main_v117 main_v153 (subf : (⟨S100000x128, .f32⟩ : BufTy).Contents (Elt F) → (⟨S100000x128, .f32⟩ : BufTy).Contents (Elt F) → (⟨S100000x128, .f32⟩ : BufTy).Contents (Elt F)),
    unary main_arg6 main_v154 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v154 main_v155 rfl shapeCasts_S1x128x128_S128x128,
    binary main_v153 main_v155 main_v156 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v137 main_v156 main_v157 (addf : (⟨S100000x128, .f32⟩ : BufTy).Contents (Elt F) → (⟨S100000x128, .f32⟩ : BufTy).Contents (Elt F) → (⟨S100000x128, .f32⟩ : BufTy).Contents (Elt F)),
    unary main_arg7 main_v158 (broadcastInDim S1x128 ![1] bcast_S128_S1x128_1 : (⟨S128, .f32⟩ : BufTy).Contents (Elt F) → (⟨S1x128, .f32⟩ : BufTy).Contents (Elt F)),
    unary main_v158 main_v159 (broadcastInDim S100000x128 ![0, 1] bcast_S1x128_S100000x128_0_1 : (⟨S1x128, .f32⟩ : BufTy).Contents (Elt F) → (⟨S100000x128, .f32⟩ : BufTy).Contents (Elt F)),
    binary main_v157 main_v159 main_v160 (addf : (⟨S100000x128, .f32⟩ : BufTy).Contents (Elt F) → (⟨S100000x128, .f32⟩ : BufTy).Contents (Elt F) → (⟨S100000x128, .f32⟩ : BufTy).Contents (Elt F)),
    nullary main_cst_32 (constant S_ .f32 0x00000000#32),
    nullary main_cst_33 (constant S_ .f32 0x40C00000#32),
    TRef.unary (TRef.of (T := ⟨S_, .f32⟩) main_cst_32) (TRef.of (T := ⟨S_, .f32⟩) main_call3_v0) id,
    TRef.unary (TRef.of (T := ⟨S_, .f32⟩) main_call3_v0) (TRef.of (T := ⟨S100000x128, .f32⟩) main_call3_v1) (broadcastInDim S100000x128 ![] bcast_S_S100000x128),
    TRef.binary (TRef.of (T := ⟨S100000x128, .f32⟩) main_call3_v1) (TRef.of (T := ⟨S100000x128, .f32⟩) main_v160) (TRef.of (T := ⟨S100000x128, .f32⟩) main_call3_v2) maximumf,
    TRef.unary (TRef.of (T := ⟨S_, .f32⟩) main_cst_33) (TRef.of (T := ⟨S_, .f32⟩) main_call3_v3) id,
    TRef.unary (TRef.of (T := ⟨S_, .f32⟩) main_call3_v3) (TRef.of (T := ⟨S100000x128, .f32⟩) main_call3_v4) (broadcastInDim S100000x128 ![] bcast_S_S100000x128),
    TRef.binary (TRef.of (T := ⟨S100000x128, .f32⟩) main_call3_v4) (TRef.of (T := ⟨S100000x128, .f32⟩) main_call3_v2) (TRef.of (T := ⟨S100000x128, .f32⟩) main_v161) minimumf,
    unary main_arg8 main_v162 ((extractStridedSlice S1x128x2 ![0, 0, 0] · slices_S3x128x2_S1x128x2_0_0_0) : (⟨S3x128x2, .f32⟩ : BufTy).Contents (Elt F) → (⟨S1x128x2, .f32⟩ : BufTy).Contents (Elt F)),
    reshape main_v162 main_v163 rfl shapeCasts_S1x128x2_S128x2,
    binary main_v161 main_v163 main_v164 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    nullary main_c_34 (constantI S_ 32 0#32),
    unary main_c_34 main_v165 (broadcastInDim S625000 ![] bcast_S_S625000 : (⟨S_, .i32⟩ : BufTy).Contents (Elt F) → (⟨S625000, .i32⟩ : BufTy).Contents (Elt F)),
    binary main_v1 main_v165 main_v166 (cmpi .slt : (⟨S625000, .i32⟩ : BufTy).Contents (Elt F) → (⟨S625000, .i32⟩ : BufTy).Contents (Elt F) → (⟨S625000, .i1⟩ : BufTy).Contents (Elt F)),
    nullary main_c_35 (constantI S_ 32 100000#32),
    unary main_c_35 main_v167 (broadcastInDim S625000 ![] bcast_S_S625000 : (⟨S_, .i32⟩ : BufTy).Contents (Elt F) → (⟨S625000, .i32⟩ : BufTy).Contents (Elt F)),
    binary main_v1 main_v167 main_v168 (addi : (⟨S625000, .i32⟩ : BufTy).Contents (Elt F) → (⟨S625000, .i32⟩ : BufTy).Contents (Elt F) → (⟨S625000, .i32⟩ : BufTy).Contents (Elt F)),
    ternary main_v166 main_v168 main_v1 main_v169 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v169 main_v170 (broadcastInDim S625000x1 ![0] bcast_S625000_S625000x1_0 : (⟨S625000, .i32⟩ : BufTy).Contents (Elt F) → (⟨S625000x1, .i32⟩ : BufTy).Contents (Elt F)),
    binary main_v161 main_v170 main_v171 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    unary main_v29 main_v172 (broadcastInDim S625000x1 ![0] bcast_S625000_S625000x1_0 : (⟨S625000, .f32⟩ : BufTy).Contents (Elt F) → (⟨S625000x1, .f32⟩ : BufTy).Contents (Elt F)),
    unary main_v172 main_v173 (broadcastInDim S625000x128 ![0, 1] bcast_S625000x1_S625000x128_0_1 : (⟨S625000x1, .f32⟩ : BufTy).Contents (Elt F) → (⟨S625000x128, .f32⟩ : BufTy).Contents (Elt F)),
    binary main_v171 main_v173 main_v174 (mulf : (⟨S625000x128, .f32⟩ : BufTy).Contents (Elt F) → (⟨S625000x128, .f32⟩ : BufTy).Contents (Elt F) → (⟨S625000x128, .f32⟩ : BufTy).Contents (Elt F)),
    nullary main_cst_36 (constant S_ .f32 0x00000000#32),
    unary main_cst_36 main_v175 (broadcastInDim S100000x128 ![] bcast_S_S100000x128 : (⟨S_, .f32⟩ : BufTy).Contents (Elt F) → (⟨S100000x128, .f32⟩ : BufTy).Contents (Elt F)),
    unary main_v3 main_v176 (broadcastInDim S625000x1 ![0] bcast_S625000_S625000x1_0 : (⟨S625000, .i32⟩ : BufTy).Contents (Elt F) → (⟨S625000x1, .i32⟩ : BufTy).Contents (Elt F)),
    ternary main_v175 main_v176 main_v174 main_v177 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    unary main_arg8 main_v178 ((extractStridedSlice S1x128x2 ![1, 0, 0] · slices_S3x128x2_S1x128x2_1_0_0) : (⟨S3x128x2, .f32⟩ : BufTy).Contents (Elt F) → (⟨S1x128x2, .f32⟩ : BufTy).Contents (Elt F)),
    reshape main_v178 main_v179 rfl shapeCasts_S1x128x2_S128x2,
    binary main_v177 main_v179 main_v180 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    binary main_v164 main_v180 main_v181 (addf : (⟨S100000x2, .f32⟩ : BufTy).Contents (Elt F) → (⟨S100000x2, .f32⟩ : BufTy).Contents (Elt F) → (⟨S100000x2, .f32⟩ : BufTy).Contents (Elt F)),
    nullary main_c_37 (constantI S_ 32 0#32),
    unary main_c_37 main_v182 (broadcastInDim S625000 ![] bcast_S_S625000 : (⟨S_, .i32⟩ : BufTy).Contents (Elt F) → (⟨S625000, .i32⟩ : BufTy).Contents (Elt F)),
    binary main_v1 main_v182 main_v183 (cmpi .slt : (⟨S625000, .i32⟩ : BufTy).Contents (Elt F) → (⟨S625000, .i32⟩ : BufTy).Contents (Elt F) → (⟨S625000, .i1⟩ : BufTy).Contents (Elt F)),
    nullary main_c_38 (constantI S_ 32 100000#32),
    unary main_c_38 main_v184 (broadcastInDim S625000 ![] bcast_S_S625000 : (⟨S_, .i32⟩ : BufTy).Contents (Elt F) → (⟨S625000, .i32⟩ : BufTy).Contents (Elt F)),
    binary main_v1 main_v184 main_v185 (addi : (⟨S625000, .i32⟩ : BufTy).Contents (Elt F) → (⟨S625000, .i32⟩ : BufTy).Contents (Elt F) → (⟨S625000, .i32⟩ : BufTy).Contents (Elt F)),
    ternary main_v183 main_v185 main_v1 main_v186 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v186 main_v187 (broadcastInDim S625000x1 ![0] bcast_S625000_S625000x1_0 : (⟨S625000, .i32⟩ : BufTy).Contents (Elt F) → (⟨S625000x1, .i32⟩ : BufTy).Contents (Elt F)),
    binary main_v177 main_v187 main_v188 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    unary main_v29 main_v189 (broadcastInDim S625000x1 ![0] bcast_S625000_S625000x1_0 : (⟨S625000, .f32⟩ : BufTy).Contents (Elt F) → (⟨S625000x1, .f32⟩ : BufTy).Contents (Elt F)),
    unary main_v189 main_v190 (broadcastInDim S625000x128 ![0, 1] bcast_S625000x1_S625000x128_0_1 : (⟨S625000x1, .f32⟩ : BufTy).Contents (Elt F) → (⟨S625000x128, .f32⟩ : BufTy).Contents (Elt F)),
    binary main_v188 main_v190 main_v191 (mulf : (⟨S625000x128, .f32⟩ : BufTy).Contents (Elt F) → (⟨S625000x128, .f32⟩ : BufTy).Contents (Elt F) → (⟨S625000x128, .f32⟩ : BufTy).Contents (Elt F)),
    nullary main_cst_39 (constant S_ .f32 0x00000000#32),
    unary main_cst_39 main_v192 (broadcastInDim S100000x128 ![] bcast_S_S100000x128 : (⟨S_, .f32⟩ : BufTy).Contents (Elt F) → (⟨S100000x128, .f32⟩ : BufTy).Contents (Elt F)),
    unary main_v3 main_v193 (broadcastInDim S625000x1 ![0] bcast_S625000_S625000x1_0 : (⟨S625000, .i32⟩ : BufTy).Contents (Elt F) → (⟨S625000x1, .i32⟩ : BufTy).Contents (Elt F)),
    ternary main_v192 main_v193 main_v191 main_v194 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    nullary main_cst_40 (constant S_ .f32 0x40000000#32),
    unary main_cst_40 main_v195 (broadcastInDim S100000x128 ![] bcast_S_S100000x128 : (⟨S_, .f32⟩ : BufTy).Contents (Elt F) → (⟨S100000x128, .f32⟩ : BufTy).Contents (Elt F)),
    binary main_v195 main_v194 main_v196 (mulf : (⟨S100000x128, .f32⟩ : BufTy).Contents (Elt F) → (⟨S100000x128, .f32⟩ : BufTy).Contents (Elt F) → (⟨S100000x128, .f32⟩ : BufTy).Contents (Elt F)),
    binary main_v196 main_v161 main_v197 (subf : (⟨S100000x128, .f32⟩ : BufTy).Contents (Elt F) → (⟨S100000x128, .f32⟩ : BufTy).Contents (Elt F) → (⟨S100000x128, .f32⟩ : BufTy).Contents (Elt F)),
    unary main_arg8 main_v198 ((extractStridedSlice S1x128x2 ![2, 0, 0] · slices_S3x128x2_S1x128x2_2_0_0) : (⟨S3x128x2, .f32⟩ : BufTy).Contents (Elt F) → (⟨S1x128x2, .f32⟩ : BufTy).Contents (Elt F)),
    reshape main_v198 main_v199 rfl shapeCasts_S1x128x2_S128x2,
    binary main_v197 main_v199 main_v200 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    binary main_v181 main_v200 main_v201 (addf : (⟨S100000x2, .f32⟩ : BufTy).Contents (Elt F) → (⟨S100000x2, .f32⟩ : BufTy).Contents (Elt F) → (⟨S100000x2, .f32⟩ : BufTy).Contents (Elt F)),
    unary main_arg9 main_v202 (broadcastInDim S1x2 ![1] bcast_S2_S1x2_1 : (⟨S2, .f32⟩ : BufTy).Contents (Elt F) → (⟨S1x2, .f32⟩ : BufTy).Contents (Elt F)),
    unary main_v202 main_v203 (broadcastInDim S100000x2 ![0, 1] bcast_S1x2_S100000x2_0_1 : (⟨S1x2, .f32⟩ : BufTy).Contents (Elt F) → (⟨S100000x2, .f32⟩ : BufTy).Contents (Elt F)),
    binary main_v201 main_v203 main_v204 (addf : (⟨S100000x2, .f32⟩ : BufTy).Contents (Elt F) → (⟨S100000x2, .f32⟩ : BufTy).Contents (Elt F) → (⟨S100000x2, .f32⟩ : BufTy).Contents (Elt F)) ]

set_option maxRecDepth 8192 in
/-- The whole list is the five stages laid end to end. -/
theorem opsAll_eq : (opsAll : List (HloOp τ sig (Elt F))) = ops1 ++ ops2 ++ ops3 ++ ops4 ++ ops5 := rfl

set_option maxRecDepth 8192 in
set_option maxHeartbeats 4000000 in
/-- @main is the straight line of these operations. -/
theorem main_eq_all (c : Dev nD) : main (F := F) c = seq opsAll := rfl
/-- The signature scopes no buffer … -/
theorem scopedRefs_none : (Finset.univ.filter fun b : Ref sig .tc => b.isScoped) = ∅ := by decide
/-- … and no semaphore. -/
theorem scopedSems_none : (Finset.univ.filter fun sm : SemLoc sig => sm.isScoped .tc) = ∅ := by decide
set_option maxRecDepth 8192 in
/-- Every operation touches TensorCore references only. -/
theorem opsAll_sub : (opsAll : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub ..⟩

end Cert.RefSide

end
-- ==== Proof.RefStagedKeep.lean ====
/-
  What each stage of the reference leaves alone: the ten arguments, and after the first stage also the two edge-index
  vectors (`main_v1`, `main_v3`) and the edge weights (`main_v29`), are written by no operation of a later stage, so each
  holds after the stage what it held before.
-/
import proofs.«104839_j69879117905989_1_alg».proof.Proof.RefStagedOps

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem keep1_arg0 (V : Valuation τ sig (Elt F)) : after ops1 V (Proc.devRef .tc main_arg0) = V (Proc.devRef .tc main_arg0) := by
  after_results_simp
set_option maxRecDepth 8192 in
theorem keep1_arg1 (V : Valuation τ sig (Elt F)) : after ops1 V (Proc.devRef .tc main_arg1) = V (Proc.devRef .tc main_arg1) := by
  after_results_simp
set_option maxRecDepth 8192 in
theorem keep1_arg2 (V : Valuation τ sig (Elt F)) : after ops1 V (Proc.devRef .tc main_arg2) = V (Proc.devRef .tc main_arg2) := by
  after_results_simp
set_option maxRecDepth 8192 in
theorem keep1_arg3 (V : Valuation τ sig (Elt F)) : after ops1 V (Proc.devRef .tc main_arg3) = V (Proc.devRef .tc main_arg3) := by
  after_results_simp
set_option maxRecDepth 8192 in
theorem keep1_arg4 (V : Valuation τ sig (Elt F)) : after ops1 V (Proc.devRef .tc main_arg4) = V (Proc.devRef .tc main_arg4) := by
  after_results_simp
set_option maxRecDepth 8192 in
theorem keep1_arg5 (V : Valuation τ sig (Elt F)) : after ops1 V (Proc.devRef .tc main_arg5) = V (Proc.devRef .tc main_arg5) := by
  after_results_simp
set_option maxRecDepth 8192 in
theorem keep1_arg6 (V : Valuation τ sig (Elt F)) : after ops1 V (Proc.devRef .tc main_arg6) = V (Proc.devRef .tc main_arg6) := by
  after_results_simp
set_option maxRecDepth 8192 in
theorem keep1_arg7 (V : Valuation τ sig (Elt F)) : after ops1 V (Proc.devRef .tc main_arg7) = V (Proc.devRef .tc main_arg7) := by
  after_results_simp
set_option maxRecDepth 8192 in
theorem keep1_arg8 (V : Valuation τ sig (Elt F)) : after ops1 V (Proc.devRef .tc main_arg8) = V (Proc.devRef .tc main_arg8) := by
  after_results_simp
set_option maxRecDepth 8192 in
theorem keep1_arg9 (V : Valuation τ sig (Elt F)) : after ops1 V (Proc.devRef .tc main_arg9) = V (Proc.devRef .tc main_arg9) := by
  after_results_simp
set_option maxRecDepth 8192 in
theorem keep2_arg0 (V : Valuation τ sig (Elt F)) : after ops2 V (Proc.devRef .tc main_arg0) = V (Proc.devRef .tc main_arg0) := by
  after_results_simp
set_option maxRecDepth 8192 in
theorem keep2_arg1 (V : Valuation τ sig (Elt F)) : after ops2 V (Proc.devRef .tc main_arg1) = V (Proc.devRef .tc main_arg1) := by
  after_results_simp
set_option maxRecDepth 8192 in
theorem keep2_arg2 (V : Valuation τ sig (Elt F)) : after ops2 V (Proc.devRef .tc main_arg2) = V (Proc.devRef .tc main_arg2) := by
  after_results_simp
set_option maxRecDepth 8192 in
theorem keep2_arg3 (V : Valuation τ sig (Elt F)) : after ops2 V (Proc.devRef .tc main_arg3) = V (Proc.devRef .tc main_arg3) := by
  after_results_simp
set_option maxRecDepth 8192 in
theorem keep2_arg4 (V : Valuation τ sig (Elt F)) : after ops2 V (Proc.devRef .tc main_arg4) = V (Proc.devRef .tc main_arg4) := by
  after_results_simp
set_option maxRecDepth 8192 in
theorem keep2_arg5 (V : Valuation τ sig (Elt F)) : after ops2 V (Proc.devRef .tc main_arg5) = V (Proc.devRef .tc main_arg5) := by
  after_results_simp
set_option maxRecDepth 8192 in
theorem keep2_arg6 (V : Valuation τ sig (Elt F)) : after ops2 V (Proc.devRef .tc main_arg6) = V (Proc.devRef .tc main_arg6) := by
  after_results_simp
set_option maxRecDepth 8192 in
theorem keep2_arg7 (V : Valuation τ sig (Elt F)) : after ops2 V (Proc.devRef .tc main_arg7) = V (Proc.devRef .tc main_arg7) := by
  after_results_simp
set_option maxRecDepth 8192 in
theorem keep2_arg8 (V : Valuation τ sig (Elt F)) : after ops2 V (Proc.devRef .tc main_arg8) = V (Proc.devRef .tc main_arg8) := by
  after_results_simp
set_option maxRecDepth 8192 in
theorem keep2_arg9 (V : Valuation τ sig (Elt F)) : after ops2 V (Proc.devRef .tc main_arg9) = V (Proc.devRef .tc main_arg9) := by
  after_results_simp
set_option maxRecDepth 8192 in
theorem keep2_v1 (V : Valuation τ sig (Elt F)) : after ops2 V (Proc.devRef .tc main_v1) = V (Proc.devRef .tc main_v1) := by
  after_results_simp
set_option maxRecDepth 8192 in
theorem keep2_v3 (V : Valuation τ sig (Elt F)) : after ops2 V (Proc.devRef .tc main_v3) = V (Proc.devRef .tc main_v3) := by
  after_results_simp
set_option maxRecDepth 8192 in
theorem keep2_v29 (V : Valuation τ sig (Elt F)) : after ops2 V (Proc.devRef .tc main_v29) = V (Proc.devRef .tc main_v29) := by
  after_results_simp
set_option maxRecDepth 8192 in
theorem keep3_arg0 (V : Valuation τ sig (Elt F)) : after ops3 V (Proc.devRef .tc main_arg0) = V (Proc.devRef .tc main_arg0) := by
  after_results_simp
set_option maxRecDepth 8192 in
theorem keep3_arg1 (V : Valuation τ sig (Elt F)) : after ops3 V (Proc.devRef .tc main_arg1) = V (Proc.devRef .tc main_arg1) := by
  after_results_simp
set_option maxRecDepth 8192 in
theorem keep3_arg2 (V : Valuation τ sig (Elt F)) : after ops3 V (Proc.devRef .tc main_arg2) = V (Proc.devRef .tc main_arg2) := by
  after_results_simp
set_option maxRecDepth 8192 in
theorem keep3_arg3 (V : Valuation τ sig (Elt F)) : after ops3 V (Proc.devRef .tc main_arg3) = V (Proc.devRef .tc main_arg3) := by
  after_results_simp
set_option maxRecDepth 8192 in
theorem keep3_arg4 (V : Valuation τ sig (Elt F)) : after ops3 V (Proc.devRef .tc main_arg4) = V (Proc.devRef .tc main_arg4) := by
  after_results_simp
set_option maxRecDepth 8192 in
theorem keep3_arg5 (V : Valuation τ sig (Elt F)) : after ops3 V (Proc.devRef .tc main_arg5) = V (Proc.devRef .tc main_arg5) := by
  after_results_simp
set_option maxRecDepth 8192 in
theorem keep3_arg6 (V : Valuation τ sig (Elt F)) : after ops3 V (Proc.devRef .tc main_arg6) = V (Proc.devRef .tc main_arg6) := by
  after_results_simp
set_option maxRecDepth 8192 in
theorem keep3_arg7 (V : Valuation τ sig (Elt F)) : after ops3 V (Proc.devRef .tc main_arg7) = V (Proc.devRef .tc main_arg7) := by
  after_results_simp
set_option maxRecDepth 8192 in
theorem keep3_arg8 (V : Valuation τ sig (Elt F)) : after ops3 V (Proc.devRef .tc main_arg8) = V (Proc.devRef .tc main_arg8) := by
  after_results_simp
set_option maxRecDepth 8192 in
theorem keep3_arg9 (V : Valuation τ sig (Elt F)) : after ops3 V (Proc.devRef .tc main_arg9) = V (Proc.devRef .tc main_arg9) := by
  after_results_simp
set_option maxRecDepth 8192 in
theorem keep3_v1 (V : Valuation τ sig (Elt F)) : after ops3 V (Proc.devRef .tc main_v1) = V (Proc.devRef .tc main_v1) := by
  after_results_simp
set_option maxRecDepth 8192 in
theorem keep3_v3 (V : Valuation τ sig (Elt F)) : after ops3 V (Proc.devRef .tc main_v3) = V (Proc.devRef .tc main_v3) := by
  after_results_simp
set_option maxRecDepth 8192 in
theorem keep3_v29 (V : Valuation τ sig (Elt F)) : after ops3 V (Proc.devRef .tc main_v29) = V (Proc.devRef .tc main_v29) := by
  after_results_simp
set_option maxRecDepth 8192 in
theorem keep4_arg0 (V : Valuation τ sig (Elt F)) : after ops4 V (Proc.devRef .tc main_arg0) = V (Proc.devRef .tc main_arg0) := by
  after_results_simp
set_option maxRecDepth 8192 in
theorem keep4_arg1 (V : Valuation τ sig (Elt F)) : after ops4 V (Proc.devRef .tc main_arg1) = V (Proc.devRef .tc main_arg1) := by
  after_results_simp
set_option maxRecDepth 8192 in
theorem keep4_arg2 (V : Valuation τ sig (Elt F)) : after ops4 V (Proc.devRef .tc main_arg2) = V (Proc.devRef .tc main_arg2) := by
  after_results_simp
set_option maxRecDepth 8192 in
theorem keep4_arg3 (V : Valuation τ sig (Elt F)) : after ops4 V (Proc.devRef .tc main_arg3) = V (Proc.devRef .tc main_arg3) := by
  after_results_simp
set_option maxRecDepth 8192 in
theorem keep4_arg4 (V : Valuation τ sig (Elt F)) : after ops4 V (Proc.devRef .tc main_arg4) = V (Proc.devRef .tc main_arg4) := by
  after_results_simp
set_option maxRecDepth 8192 in
theorem keep4_arg5 (V : Valuation τ sig (Elt F)) : after ops4 V (Proc.devRef .tc main_arg5) = V (Proc.devRef .tc main_arg5) := by
  after_results_simp
set_option maxRecDepth 8192 in
theorem keep4_arg6 (V : Valuation τ sig (Elt F)) : after ops4 V (Proc.devRef .tc main_arg6) = V (Proc.devRef .tc main_arg6) := by
  after_results_simp
set_option maxRecDepth 8192 in
theorem keep4_arg7 (V : Valuation τ sig (Elt F)) : after ops4 V (Proc.devRef .tc main_arg7) = V (Proc.devRef .tc main_arg7) := by
  after_results_simp
set_option maxRecDepth 8192 in
theorem keep4_arg8 (V : Valuation τ sig (Elt F)) : after ops4 V (Proc.devRef .tc main_arg8) = V (Proc.devRef .tc main_arg8) := by
  after_results_simp
set_option maxRecDepth 8192 in
theorem keep4_arg9 (V : Valuation τ sig (Elt F)) : after ops4 V (Proc.devRef .tc main_arg9) = V (Proc.devRef .tc main_arg9) := by
  after_results_simp
set_option maxRecDepth 8192 in
theorem keep4_v1 (V : Valuation τ sig (Elt F)) : after ops4 V (Proc.devRef .tc main_v1) = V (Proc.devRef .tc main_v1) := by
  after_results_simp
set_option maxRecDepth 8192 in
theorem keep4_v3 (V : Valuation τ sig (Elt F)) : after ops4 V (Proc.devRef .tc main_v3) = V (Proc.devRef .tc main_v3) := by
  after_results_simp
set_option maxRecDepth 8192 in
theorem keep4_v29 (V : Valuation τ sig (Elt F)) : after ops4 V (Proc.devRef .tc main_v29) = V (Proc.devRef .tc main_v29) := by
  after_results_simp
set_option maxRecDepth 8192 in
theorem keep5_arg0 (V : Valuation τ sig (Elt F)) : after ops5 V (Proc.devRef .tc main_arg0) = V (Proc.devRef .tc main_arg0) := by
  after_results_simp
set_option maxRecDepth 8192 in
theorem keep5_arg1 (V : Valuation τ sig (Elt F)) : after ops5 V (Proc.devRef .tc main_arg1) = V (Proc.devRef .tc main_arg1) := by
  after_results_simp
set_option maxRecDepth 8192 in
theorem keep5_arg2 (V : Valuation τ sig (Elt F)) : after ops5 V (Proc.devRef .tc main_arg2) = V (Proc.devRef .tc main_arg2) := by
  after_results_simp
set_option maxRecDepth 8192 in
theorem keep5_arg3 (V : Valuation τ sig (Elt F)) : after ops5 V (Proc.devRef .tc main_arg3) = V (Proc.devRef .tc main_arg3) := by
  after_results_simp
set_option maxRecDepth 8192 in
theorem keep5_arg4 (V : Valuation τ sig (Elt F)) : after ops5 V (Proc.devRef .tc main_arg4) = V (Proc.devRef .tc main_arg4) := by
  after_results_simp
set_option maxRecDepth 8192 in
theorem keep5_arg5 (V : Valuation τ sig (Elt F)) : after ops5 V (Proc.devRef .tc main_arg5) = V (Proc.devRef .tc main_arg5) := by
  after_results_simp
set_option maxRecDepth 8192 in
theorem keep5_arg6 (V : Valuation τ sig (Elt F)) : after ops5 V (Proc.devRef .tc main_arg6) = V (Proc.devRef .tc main_arg6) := by
  after_results_simp
set_option maxRecDepth 8192 in
theorem keep5_arg7 (V : Valuation τ sig (Elt F)) : after ops5 V (Proc.devRef .tc main_arg7) = V (Proc.devRef .tc main_arg7) := by
  after_results_simp
set_option maxRecDepth 8192 in
theorem keep5_arg8 (V : Valuation τ sig (Elt F)) : after ops5 V (Proc.devRef .tc main_arg8) = V (Proc.devRef .tc main_arg8) := by
  after_results_simp
set_option maxRecDepth 8192 in
theorem keep5_arg9 (V : Valuation τ sig (Elt F)) : after ops5 V (Proc.devRef .tc main_arg9) = V (Proc.devRef .tc main_arg9) := by
  after_results_simp
set_option maxRecDepth 8192 in
theorem keep5_v1 (V : Valuation τ sig (Elt F)) : after ops5 V (Proc.devRef .tc main_v1) = V (Proc.devRef .tc main_v1) := by
  after_results_simp
set_option maxRecDepth 8192 in
theorem keep5_v3 (V : Valuation τ sig (Elt F)) : after ops5 V (Proc.devRef .tc main_v3) = V (Proc.devRef .tc main_v3) := by
  after_results_simp
set_option maxRecDepth 8192 in
theorem keep5_v29 (V : Valuation τ sig (Elt F)) : after ops5 V (Proc.devRef .tc main_v29) = V (Proc.devRef .tc main_v29) := by
  after_results_simp

end Cert.RefSide

end
-- ==== Proof.RefStaged.lean ====
/-
  The reference's run, stage by stage. After the first stage the edge-index vectors and the edge weights are the
  reference's values `val_main_v1`, `val_main_v3`, `val_main_v29` of the edge list; each later stage, started from a
  valuation that holds these, the arguments and the previous layer's output, ends with its layer's output at the
  reference's value of the arguments (`val_main_v73`, `val_main_v117`, `val_main_v161`, `val_main_v204`). An earlier
  stage's results enter a later one as the contents of their buffers, never as their terms, so each stage's equation is
  one layer long. Chained over the five stages, this is the run of the whole program.
-/
import proofs.«104839_j69879117905989_1_alg».proof.Proof.RefRead
import proofs.«104839_j69879117905989_1_alg».proof.Proof.RefStagedKeep
import Idealize.ShloMosaic.Lib.Pipeline.Frame

noncomputable section

namespace Cert.RefSide

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- What every later stage needs of a valuation: the ten arguments, the two edge-index vectors and the edge weights,
    each at its value in terms of the arguments. -/
structure St (V : Valuation τ sig (Elt F)) (x0 : (⟨S100000x165, .f32⟩ : BufTy).Contents (Elt F)) (x1 : (⟨S2x625000, .i32⟩ : BufTy).Contents (Elt F)) (x2 : (⟨S3x165x128, .f32⟩ : BufTy).Contents (Elt F)) (x3 : (⟨S128, .f32⟩ : BufTy).Contents (Elt F)) (x4 : (⟨S3x128x128, .f32⟩ : BufTy).Contents (Elt F)) (x5 : (⟨S128, .f32⟩ : BufTy).Contents (Elt F)) (x6 : (⟨S3x128x128, .f32⟩ : BufTy).Contents (Elt F)) (x7 : (⟨S128, .f32⟩ : BufTy).Contents (Elt F)) (x8 : (⟨S3x128x2, .f32⟩ : BufTy).Contents (Elt F)) (x9 : (⟨S2, .f32⟩ : BufTy).Contents (Elt F)) : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5
  arg6 : V (Proc.devRef .tc main_arg6) = x6
  arg7 : V (Proc.devRef .tc main_arg7) = x7
  arg8 : V (Proc.devRef .tc main_arg8) = x8
  arg9 : V (Proc.devRef .tc main_arg9) = x9
  v1 : V (Proc.devRef .tc main_v1) = val_main_v1 (F := F) x1
  v3 : V (Proc.devRef .tc main_v3) = val_main_v3 (F := F) x1
  v29 : V (Proc.devRef .tc main_v29) = val_main_v29 (F := F) x1

set_option maxRecDepth 8192 in
/-- The sources of the edges after the first stage. -/
theorem stage1_v1 (V : Valuation τ sig (Elt F)) :
    after ops1 V (Proc.devRef .tc main_v1) = val_main_v1 (F := F) (V (Proc.devRef .tc main_arg1)) := by
  after_results_simp <;> rfl
set_option maxRecDepth 8192 in
/-- The targets of the edges after the first stage. -/
theorem stage1_v3 (V : Valuation τ sig (Elt F)) :
    after ops1 V (Proc.devRef .tc main_v3) = val_main_v3 (F := F) (V (Proc.devRef .tc main_arg1)) := by
  after_results_simp <;> rfl
set_option maxRecDepth 8192 in
/-- The edge weights after the first stage. -/
theorem stage1_v29 (V : Valuation τ sig (Elt F)) :
    after ops1 V (Proc.devRef .tc main_v29) = val_main_v29 (F := F) (V (Proc.devRef .tc main_arg1)) := by
  after_results_simp <;> rfl

/-- After the first stage the state holds. -/
theorem st1 (V : Valuation τ sig (Elt F)) (x0 : (⟨S100000x165, .f32⟩ : BufTy).Contents (Elt F)) (x1 : (⟨S2x625000, .i32⟩ : BufTy).Contents (Elt F)) (x2 : (⟨S3x165x128, .f32⟩ : BufTy).Contents (Elt F)) (x3 : (⟨S128, .f32⟩ : BufTy).Contents (Elt F)) (x4 : (⟨S3x128x128, .f32⟩ : BufTy).Contents (Elt F)) (x5 : (⟨S128, .f32⟩ : BufTy).Contents (Elt F)) (x6 : (⟨S3x128x128, .f32⟩ : BufTy).Contents (Elt F)) (x7 : (⟨S128, .f32⟩ : BufTy).Contents (Elt F)) (x8 : (⟨S3x128x2, .f32⟩ : BufTy).Contents (Elt F)) (x9 : (⟨S2, .f32⟩ : BufTy).Contents (Elt F))
    (h0 : V (Proc.devRef .tc main_arg0) = x0)
    (h1 : V (Proc.devRef .tc main_arg1) = x1)
    (h2 : V (Proc.devRef .tc main_arg2) = x2)
    (h3 : V (Proc.devRef .tc main_arg3) = x3)
    (h4 : V (Proc.devRef .tc main_arg4) = x4)
    (h5 : V (Proc.devRef .tc main_arg5) = x5)
    (h6 : V (Proc.devRef .tc main_arg6) = x6)
    (h7 : V (Proc.devRef .tc main_arg7) = x7)
    (h8 : V (Proc.devRef .tc main_arg8) = x8)
    (h9 : V (Proc.devRef .tc main_arg9) = x9) :
    St (after ops1 V) x0 x1 x2 x3 x4 x5 x6 x7 x8 x9 :=
  ⟨(keep1_arg0 V).trans h0, (keep1_arg1 V).trans h1, (keep1_arg2 V).trans h2, (keep1_arg3 V).trans h3, (keep1_arg4 V).trans h4, (keep1_arg5 V).trans h5, (keep1_arg6 V).trans h6, (keep1_arg7 V).trans h7, (keep1_arg8 V).trans h8, (keep1_arg9 V).trans h9,
    (stage1_v1 V).trans (by rw [h1]), (stage1_v3 V).trans (by rw [h1]), (stage1_v29 V).trans (by rw [h1])⟩

set_option maxRecDepth 8192 in
/-- Stage 2: from the state, the layer's output is the reference's `val_main_v73` of the arguments. -/
theorem stage2_out (V : Valuation τ sig (Elt F)) (x0 : (⟨S100000x165, .f32⟩ : BufTy).Contents (Elt F)) (x1 : (⟨S2x625000, .i32⟩ : BufTy).Contents (Elt F)) (x2 : (⟨S3x165x128, .f32⟩ : BufTy).Contents (Elt F)) (x3 : (⟨S128, .f32⟩ : BufTy).Contents (Elt F)) (x4 : (⟨S3x128x128, .f32⟩ : BufTy).Contents (Elt F)) (x5 : (⟨S128, .f32⟩ : BufTy).Contents (Elt F)) (x6 : (⟨S3x128x128, .f32⟩ : BufTy).Contents (Elt F)) (x7 : (⟨S128, .f32⟩ : BufTy).Contents (Elt F)) (x8 : (⟨S3x128x2, .f32⟩ : BufTy).Contents (Elt F)) (x9 : (⟨S2, .f32⟩ : BufTy).Contents (Elt F))
    (h : St V x0 x1 x2 x3 x4 x5 x6 x7 x8 x9)  :
    after ops2 V (Proc.devRef .tc main_v73) = val_main_v73 (F := F) x0 x1 x2 x3 := by
  after_results_simp
  rw [h.arg0, h.arg2, h.arg3, h.v1, h.v3, h.v29]
  rfl
/-- … and the state still holds. -/
theorem st2 (V : Valuation τ sig (Elt F)) (x0 : (⟨S100000x165, .f32⟩ : BufTy).Contents (Elt F)) (x1 : (⟨S2x625000, .i32⟩ : BufTy).Contents (Elt F)) (x2 : (⟨S3x165x128, .f32⟩ : BufTy).Contents (Elt F)) (x3 : (⟨S128, .f32⟩ : BufTy).Contents (Elt F)) (x4 : (⟨S3x128x128, .f32⟩ : BufTy).Contents (Elt F)) (x5 : (⟨S128, .f32⟩ : BufTy).Contents (Elt F)) (x6 : (⟨S3x128x128, .f32⟩ : BufTy).Contents (Elt F)) (x7 : (⟨S128, .f32⟩ : BufTy).Contents (Elt F)) (x8 : (⟨S3x128x2, .f32⟩ : BufTy).Contents (Elt F)) (x9 : (⟨S2, .f32⟩ : BufTy).Contents (Elt F)) (h : St V x0 x1 x2 x3 x4 x5 x6 x7 x8 x9) : St (after ops2 V) x0 x1 x2 x3 x4 x5 x6 x7 x8 x9 :=
  ⟨(keep2_arg0 V).trans h.arg0, (keep2_arg1 V).trans h.arg1, (keep2_arg2 V).trans h.arg2, (keep2_arg3 V).trans h.arg3, (keep2_arg4 V).trans h.arg4, (keep2_arg5 V).trans h.arg5, (keep2_arg6 V).trans h.arg6, (keep2_arg7 V).trans h.arg7, (keep2_arg8 V).trans h.arg8, (keep2_arg9 V).trans h.arg9, (keep2_v1 V).trans h.v1, (keep2_v3 V).trans h.v3, (keep2_v29 V).trans h.v29⟩

set_option maxRecDepth 8192 in
/-- Stage 3: from the state and the previous layer's output, the layer's output is the reference's `val_main_v117` of the arguments. -/
theorem stage3_out (V : Valuation τ sig (Elt F)) (x0 : (⟨S100000x165, .f32⟩ : BufTy).Contents (Elt F)) (x1 : (⟨S2x625000, .i32⟩ : BufTy).Contents (Elt F)) (x2 : (⟨S3x165x128, .f32⟩ : BufTy).Contents (Elt F)) (x3 : (⟨S128, .f32⟩ : BufTy).Contents (Elt F)) (x4 : (⟨S3x128x128, .f32⟩ : BufTy).Contents (Elt F)) (x5 : (⟨S128, .f32⟩ : BufTy).Contents (Elt F)) (x6 : (⟨S3x128x128, .f32⟩ : BufTy).Contents (Elt F)) (x7 : (⟨S128, .f32⟩ : BufTy).Contents (Elt F)) (x8 : (⟨S3x128x2, .f32⟩ : BufTy).Contents (Elt F)) (x9 : (⟨S2, .f32⟩ : BufTy).Contents (Elt F))
    (h : St V x0 x1 x2 x3 x4 x5 x6 x7 x8 x9) (hin : V (Proc.devRef .tc main_v73) = val_main_v73 (F := F) x0 x1 x2 x3) :
    after ops3 V (Proc.devRef .tc main_v117) = val_main_v117 (F := F) x0 x1 x2 x3 x4 x5 := by
  after_results_simp
  rw [hin, h.arg4, h.arg5, h.v1, h.v3, h.v29]
  rfl
/-- … and the state still holds. -/
theorem st3 (V : Valuation τ sig (Elt F)) (x0 : (⟨S100000x165, .f32⟩ : BufTy).Contents (Elt F)) (x1 : (⟨S2x625000, .i32⟩ : BufTy).Contents (Elt F)) (x2 : (⟨S3x165x128, .f32⟩ : BufTy).Contents (Elt F)) (x3 : (⟨S128, .f32⟩ : BufTy).Contents (Elt F)) (x4 : (⟨S3x128x128, .f32⟩ : BufTy).Contents (Elt F)) (x5 : (⟨S128, .f32⟩ : BufTy).Contents (Elt F)) (x6 : (⟨S3x128x128, .f32⟩ : BufTy).Contents (Elt F)) (x7 : (⟨S128, .f32⟩ : BufTy).Contents (Elt F)) (x8 : (⟨S3x128x2, .f32⟩ : BufTy).Contents (Elt F)) (x9 : (⟨S2, .f32⟩ : BufTy).Contents (Elt F)) (h : St V x0 x1 x2 x3 x4 x5 x6 x7 x8 x9) : St (after ops3 V) x0 x1 x2 x3 x4 x5 x6 x7 x8 x9 :=
  ⟨(keep3_arg0 V).trans h.arg0, (keep3_arg1 V).trans h.arg1, (keep3_arg2 V).trans h.arg2, (keep3_arg3 V).trans h.arg3, (keep3_arg4 V).trans h.arg4, (keep3_arg5 V).trans h.arg5, (keep3_arg6 V).trans h.arg6, (keep3_arg7 V).trans h.arg7, (keep3_arg8 V).trans h.arg8, (keep3_arg9 V).trans h.arg9, (keep3_v1 V).trans h.v1, (keep3_v3 V).trans h.v3, (keep3_v29 V).trans h.v29⟩

set_option maxRecDepth 8192 in
/-- Stage 4: from the state and the previous layer's output, the layer's output is the reference's `val_main_v161` of the arguments. -/
theorem stage4_out (V : Valuation τ sig (Elt F)) (x0 : (⟨S100000x165, .f32⟩ : BufTy).Contents (Elt F)) (x1 : (⟨S2x625000, .i32⟩ : BufTy).Contents (Elt F)) (x2 : (⟨S3x165x128, .f32⟩ : BufTy).Contents (Elt F)) (x3 : (⟨S128, .f32⟩ : BufTy).Contents (Elt F)) (x4 : (⟨S3x128x128, .f32⟩ : BufTy).Contents (Elt F)) (x5 : (⟨S128, .f32⟩ : BufTy).Contents (Elt F)) (x6 : (⟨S3x128x128, .f32⟩ : BufTy).Contents (Elt F)) (x7 : (⟨S128, .f32⟩ : BufTy).Contents (Elt F)) (x8 : (⟨S3x128x2, .f32⟩ : BufTy).Contents (Elt F)) (x9 : (⟨S2, .f32⟩ : BufTy).Contents (Elt F))
    (h : St V x0 x1 x2 x3 x4 x5 x6 x7 x8 x9) (hin : V (Proc.devRef .tc main_v117) = val_main_v117 (F := F) x0 x1 x2 x3 x4 x5) :
    after ops4 V (Proc.devRef .tc main_v161) = val_main_v161 (F := F) x0 x1 x2 x3 x4 x5 x6 x7 := by
  after_results_simp
  rw [hin, h.arg6, h.arg7, h.v1, h.v3, h.v29]
  rfl
/-- … and the state still holds. -/
theorem st4 (V : Valuation τ sig (Elt F)) (x0 : (⟨S100000x165, .f32⟩ : BufTy).Contents (Elt F)) (x1 : (⟨S2x625000, .i32⟩ : BufTy).Contents (Elt F)) (x2 : (⟨S3x165x128, .f32⟩ : BufTy).Contents (Elt F)) (x3 : (⟨S128, .f32⟩ : BufTy).Contents (Elt F)) (x4 : (⟨S3x128x128, .f32⟩ : BufTy).Contents (Elt F)) (x5 : (⟨S128, .f32⟩ : BufTy).Contents (Elt F)) (x6 : (⟨S3x128x128, .f32⟩ : BufTy).Contents (Elt F)) (x7 : (⟨S128, .f32⟩ : BufTy).Contents (Elt F)) (x8 : (⟨S3x128x2, .f32⟩ : BufTy).Contents (Elt F)) (x9 : (⟨S2, .f32⟩ : BufTy).Contents (Elt F)) (h : St V x0 x1 x2 x3 x4 x5 x6 x7 x8 x9) : St (after ops4 V) x0 x1 x2 x3 x4 x5 x6 x7 x8 x9 :=
  ⟨(keep4_arg0 V).trans h.arg0, (keep4_arg1 V).trans h.arg1, (keep4_arg2 V).trans h.arg2, (keep4_arg3 V).trans h.arg3, (keep4_arg4 V).trans h.arg4, (keep4_arg5 V).trans h.arg5, (keep4_arg6 V).trans h.arg6, (keep4_arg7 V).trans h.arg7, (keep4_arg8 V).trans h.arg8, (keep4_arg9 V).trans h.arg9, (keep4_v1 V).trans h.v1, (keep4_v3 V).trans h.v3, (keep4_v29 V).trans h.v29⟩

set_option maxRecDepth 8192 in
/-- Stage 5: from the state and the previous layer's output, the layer's output is the reference's `val_main_v204` of the arguments. -/
theorem stage5_out (V : Valuation τ sig (Elt F)) (x0 : (⟨S100000x165, .f32⟩ : BufTy).Contents (Elt F)) (x1 : (⟨S2x625000, .i32⟩ : BufTy).Contents (Elt F)) (x2 : (⟨S3x165x128, .f32⟩ : BufTy).Contents (Elt F)) (x3 : (⟨S128, .f32⟩ : BufTy).Contents (Elt F)) (x4 : (⟨S3x128x128, .f32⟩ : BufTy).Contents (Elt F)) (x5 : (⟨S128, .f32⟩ : BufTy).Contents (Elt F)) (x6 : (⟨S3x128x128, .f32⟩ : BufTy).Contents (Elt F)) (x7 : (⟨S128, .f32⟩ : BufTy).Contents (Elt F)) (x8 : (⟨S3x128x2, .f32⟩ : BufTy).Contents (Elt F)) (x9 : (⟨S2, .f32⟩ : BufTy).Contents (Elt F))
    (h : St V x0 x1 x2 x3 x4 x5 x6 x7 x8 x9) (hin : V (Proc.devRef .tc main_v161) = val_main_v161 (F := F) x0 x1 x2 x3 x4 x5 x6 x7) :
    after ops5 V (Proc.devRef .tc main_v204) = val_main_v204 (F := F) x0 x1 x2 x3 x4 x5 x6 x7 x8 x9 := by
  after_results_simp
  rw [hin, h.arg8, h.arg9, h.v1, h.v3, h.v29]
  rfl
/-- … and the state still holds. -/
theorem st5 (V : Valuation τ sig (Elt F)) (x0 : (⟨S100000x165, .f32⟩ : BufTy).Contents (Elt F)) (x1 : (⟨S2x625000, .i32⟩ : BufTy).Contents (Elt F)) (x2 : (⟨S3x165x128, .f32⟩ : BufTy).Contents (Elt F)) (x3 : (⟨S128, .f32⟩ : BufTy).Contents (Elt F)) (x4 : (⟨S3x128x128, .f32⟩ : BufTy).Contents (Elt F)) (x5 : (⟨S128, .f32⟩ : BufTy).Contents (Elt F)) (x6 : (⟨S3x128x128, .f32⟩ : BufTy).Contents (Elt F)) (x7 : (⟨S128, .f32⟩ : BufTy).Contents (Elt F)) (x8 : (⟨S3x128x2, .f32⟩ : BufTy).Contents (Elt F)) (x9 : (⟨S2, .f32⟩ : BufTy).Contents (Elt F)) (h : St V x0 x1 x2 x3 x4 x5 x6 x7 x8 x9) : St (after ops5 V) x0 x1 x2 x3 x4 x5 x6 x7 x8 x9 :=
  ⟨(keep5_arg0 V).trans h.arg0, (keep5_arg1 V).trans h.arg1, (keep5_arg2 V).trans h.arg2, (keep5_arg3 V).trans h.arg3, (keep5_arg4 V).trans h.arg4, (keep5_arg5 V).trans h.arg5, (keep5_arg6 V).trans h.arg6, (keep5_arg7 V).trans h.arg7, (keep5_arg8 V).trans h.arg8, (keep5_arg9 V).trans h.arg9, (keep5_v1 V).trans h.v1, (keep5_v3 V).trans h.v3, (keep5_v29 V).trans h.v29⟩

/-- THE WHOLE LINE: from any valuation with the arguments at `x0 … x9`, the result buffer ends at the reference's value of
    the arguments, and the arguments are unchanged. -/
theorem after_opsAll (V : Valuation τ sig (Elt F)) (x0 : (⟨S100000x165, .f32⟩ : BufTy).Contents (Elt F)) (x1 : (⟨S2x625000, .i32⟩ : BufTy).Contents (Elt F)) (x2 : (⟨S3x165x128, .f32⟩ : BufTy).Contents (Elt F)) (x3 : (⟨S128, .f32⟩ : BufTy).Contents (Elt F)) (x4 : (⟨S3x128x128, .f32⟩ : BufTy).Contents (Elt F)) (x5 : (⟨S128, .f32⟩ : BufTy).Contents (Elt F)) (x6 : (⟨S3x128x128, .f32⟩ : BufTy).Contents (Elt F)) (x7 : (⟨S128, .f32⟩ : BufTy).Contents (Elt F)) (x8 : (⟨S3x128x2, .f32⟩ : BufTy).Contents (Elt F)) (x9 : (⟨S2, .f32⟩ : BufTy).Contents (Elt F))
    (h0 : V (Proc.devRef .tc main_arg0) = x0)
    (h1 : V (Proc.devRef .tc main_arg1) = x1)
    (h2 : V (Proc.devRef .tc main_arg2) = x2)
    (h3 : V (Proc.devRef .tc main_arg3) = x3)
    (h4 : V (Proc.devRef .tc main_arg4) = x4)
    (h5 : V (Proc.devRef .tc main_arg5) = x5)
    (h6 : V (Proc.devRef .tc main_arg6) = x6)
    (h7 : V (Proc.devRef .tc main_arg7) = x7)
    (h8 : V (Proc.devRef .tc main_arg8) = x8)
    (h9 : V (Proc.devRef .tc main_arg9) = x9) :
    after opsAll V (Proc.devRef .tc main_v204) = val_main_v204 (F := F) x0 x1 x2 x3 x4 x5 x6 x7 x8 x9
      ∧ St (after opsAll V) x0 x1 x2 x3 x4 x5 x6 x7 x8 x9 := by
  rw [opsAll_eq, StableHlo.after_append, StableHlo.after_append, StableHlo.after_append, StableHlo.after_append]
  have s1 := st1 V x0 x1 x2 x3 x4 x5 x6 x7 x8 x9 h0 h1 h2 h3 h4 h5 h6 h7 h8 h9
  have o2 := stage2_out _ x0 x1 x2 x3 x4 x5 x6 x7 x8 x9 s1
  have s2 := st2 _ x0 x1 x2 x3 x4 x5 x6 x7 x8 x9 s1
  have o3 := stage3_out _ x0 x1 x2 x3 x4 x5 x6 x7 x8 x9 s2 o2
  have s3 := st3 _ x0 x1 x2 x3 x4 x5 x6 x7 x8 x9 s2
  have o4 := stage4_out _ x0 x1 x2 x3 x4 x5 x6 x7 x8 x9 s3 o3
  have s4 := st4 _ x0 x1 x2 x3 x4 x5 x6 x7 x8 x9 s3
  have o5 := stage5_out _ x0 x1 x2 x3 x4 x5 x6 x7 x8 x9 s4 o4
  exact ⟨o5, st5 _ x0 x1 x2 x3 x4 x5 x6 x7 x8 x9 s4⟩

/-- On every device, for any float values, from any memory with zero counters: every weakly fair execution of @main
    terminates with the result at the reference's value `val_main_v204` of the arguments' launch contents, and the
    arguments unchanged. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v204)
          = val_main_v204 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
      have A := after_opsAll (F := F) (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        rfl rfl rfl rfl rfl rfl rfl rfl rfl rfl
      exact ⟨(h c main_v204).trans A.1, (h c main_arg1).trans A.2.arg1, (h c main_arg0).trans A.2.arg0, (h c main_arg1).trans A.2.arg1, (h c main_arg2).trans A.2.arg2, (h c main_arg3).trans A.2.arg3, (h c main_arg4).trans A.2.arg4, (h c main_arg5).trans A.2.arg5, (h c main_arg6).trans A.2.arg6, (h c main_arg7).trans A.2.arg7, (h c main_arg8).trans A.2.arg8, (h c main_arg9).trans A.2.arg9⟩)
    (run_seq scopedRefs_none scopedSems_none defs main (fun _ => opsAll) main_eq_all (fun _ => opsAll_sub) m ρ)

end Cert.RefSide

end
-- ==== Proof.Claims.lean ====
/- The reference program's frame claim from its run; the value claim from ONE equation between the kernel's last
   valuation at its result buffer and the reference's result term; and the whole certificate from that equation. -/
import proofs.«104839_j69879117905989_1_alg».proof.Proof.Frames
import proofs.«104839_j69879117905989_1_alg».proof.Proof.RefRead
import proofs.«104839_j69879117905989_1_alg».proof.Proof.RefStaged
import proofs.«104839_j69879117905989_1_alg».proof.Proof.Gen.ReferenceIdeal

set_option maxRecDepth 16384

noncomputable section

namespace Cert.Proof.Hand

open Idealize.ShloMosaic Idealize.ShloMosaic.TcCoe Idealize.SL.Sem

/-- The reference program terminates and leaves its ten argument arrays as launched: its run's post, weakened. -/
theorem frame_ri : Cert.frame_ReferenceIdeal := fun m ρ _ =>
  OrdCont.mono (θ_run (Cert.ReferenceIdeal.defs (F := Ideal)) (onTc (τ := Cert.ReferenceIdeal.τ) (Cert.ReferenceIdeal.main (F := Ideal))) ⟨m, fun _ => 0, ρ⟩)
    (fun _ h c => (h c).2.2) (Cert.RefSide.run_ref m ρ)

/-- The reference's result term at equal arguments is equal. -/
theorem val_main_v204_congr
    {a0 b0 : (⟨Cert.ReferenceIdeal.S100000x165, .f32⟩ : BufTy).Contents (Elt Ideal)}
    {a1 b1 : (⟨Cert.ReferenceIdeal.S2x625000, .i32⟩ : BufTy).Contents (Elt Ideal)}
    {a2 b2 : (⟨Cert.ReferenceIdeal.S3x165x128, .f32⟩ : BufTy).Contents (Elt Ideal)}
    {a3 b3 : (⟨Cert.ReferenceIdeal.S128, .f32⟩ : BufTy).Contents (Elt Ideal)}
    {a4 b4 : (⟨Cert.ReferenceIdeal.S3x128x128, .f32⟩ : BufTy).Contents (Elt Ideal)}
    {a5 b5 : (⟨Cert.ReferenceIdeal.S128, .f32⟩ : BufTy).Contents (Elt Ideal)}
    {a6 b6 : (⟨Cert.ReferenceIdeal.S3x128x128, .f32⟩ : BufTy).Contents (Elt Ideal)}
    {a7 b7 : (⟨Cert.ReferenceIdeal.S128, .f32⟩ : BufTy).Contents (Elt Ideal)}
    {a8 b8 : (⟨Cert.ReferenceIdeal.S3x128x2, .f32⟩ : BufTy).Contents (Elt Ideal)}
    {a9 b9 : (⟨Cert.ReferenceIdeal.S2, .f32⟩ : BufTy).Contents (Elt Ideal)}
    (h0 : a0 = b0) (h1 : a1 = b1) (h2 : a2 = b2) (h3 : a3 = b3) (h4 : a4 = b4) (h5 : a5 = b5) (h6 : a6 = b6) (h7 : a7 = b7) (h8 : a8 = b8) (h9 : a9 = b9) :
    Cert.ReferenceIdeal.Read.val_main_v204 (F := Ideal) a0 a1 a2 a3 a4 a5 a6 a7 a8 a9
      = Cert.ReferenceIdeal.Read.val_main_v204 (F := Ideal) b0 b1 b2 b3 b4 b5 b6 b7 b8 b9 := by
  subst h0 h1 h2 h3 h4 h5 h6 h7 h8 h9; rfl

/-- The value claim, from ONE equation: what the kernel's last valuation holds at its result buffer is the reference's
    result term of the kernel memory's ten arguments. Both programs run; the kernel ends with its result at that term
    (its run), the reference with its result at the same term of its own arguments, which are the kernel's. -/
theorem algebraic
    (hres : ∀ (m : (ℓ : Loc Cert.KernelIdeal.nD Cert.KernelIdeal.τ Cert.KernelIdeal.sig) → Buf (Elt Ideal) ℓ) (c : Dev Cert.KernelIdeal.nD),
      Cert.KernelIdeal.Gen.V10 m (Cert.KernelIdeal.Hand.outs m) c Cert.KernelIdeal.main_v161
        = Cert.ReferenceIdeal.Read.val_main_v204 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) :
    Cert.algebraic_KernelIdeal_ReferenceIdeal := by
  intro m ρ m' ρ' _ hagree
  refine ⟨fun c => Cert.ReferenceIdeal.Read.val_main_v204 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => m ((c.tc : Thread Cert.KernelIdeal.nD Cert.KernelIdeal.τ).loc Cert.KernelIdeal.main_arg1), kernel_half m ρ _ (hres m), ?_⟩
  exact OrdCont.mono (θ_run (Cert.ReferenceIdeal.defs (F := Ideal)) (onTc (τ := Cert.ReferenceIdeal.τ) (Cert.ReferenceIdeal.main (F := Ideal))) ⟨m', fun _ => 0, ρ'⟩)
    (fun _ h c => ⟨(h c).1.trans (val_main_v204_congr (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2),
      (h c).2.1.trans (hagree c).2.1, (h c).2.2⟩)
    (Cert.RefSide.run_ref m' ρ')

/-- Everything the certificate claims, from that one equation. -/
theorem claim_of
    (hres : ∀ (m : (ℓ : Loc Cert.KernelIdeal.nD Cert.KernelIdeal.τ Cert.KernelIdeal.sig) → Buf (Elt Ideal) ℓ) (c : Dev Cert.KernelIdeal.nD),
      Cert.KernelIdeal.Gen.V10 m (Cert.KernelIdeal.Hand.outs m) c Cert.KernelIdeal.main_v161
        = Cert.ReferenceIdeal.Read.val_main_v204 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) :
    Cert.Claim :=
  ⟨Cert.Kernel.Gen.facts, Cert.KernelIdeal.Gen.facts, Cert.ReferenceIdeal.Gen.facts, Cert.Pre_finite_inputs.Gen.facts,
    frame_k, frame_ki, frame_ri, trivial, algebraic hres⟩

end Cert.Proof.Hand

end
-- ==== Proof.KPay.lean ====
/-
  The arithmetic of the four matmul bodies on the extended reals, read at one entry of the stored block: the sum over
  the contracted axis of block-row times weight-column, plus the bias entry, clamped to [0, 6] in layers 1-3.
-/
import proofs.«104839_j69879117905989_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.HandValue

open Cert.KernelIdeal Cert.KernelIdeal.Gen Idealize.ShloMosaic Idealize.ShloMosaic.TcCoe Idealize.ShloMosaic.ValueIdx

/-! ## Layer 1: a 2000 × 495 block times the 495 × 128 weights -/

theorem lhs0_0 (j : S2000x128.Idx) (κ : dot_S2000x495_S495x128_S2000x128_1_0_0_1_n_n.contr.Idx) : (dot_S2000x495_S495x128_S2000x128_1_0_0_1_n_n.lhsIdx j κ 0).val = (j 0).val := by
  unfold DotDims.lhsIdx
  rw [dif_neg (show ¬(0 : Fin S2000x495.rank) ∈ dot_S2000x495_S495x128_S2000x128_1_0_0_1_n_n.lhsBatch by decide), dif_pos (show (0 : Fin S2000x495.rank) ∈ dot_S2000x495_S495x128_S2000x128_1_0_0_1_n_n.lhsNonContracting by decide)]
  rfl
theorem lhs0_1 (j : S2000x128.Idx) (κ : dot_S2000x495_S495x128_S2000x128_1_0_0_1_n_n.contr.Idx) : (dot_S2000x495_S495x128_S2000x128_1_0_0_1_n_n.lhsIdx j κ 1).val = (κ ⟨0, by decide⟩).val :=
  dot_S2000x495_S495x128_S2000x128_1_0_0_1_n_n.lhsIdx_val_of_single rfl j κ
theorem rhs0_0 (j : S2000x128.Idx) (κ : dot_S2000x495_S495x128_S2000x128_1_0_0_1_n_n.contr.Idx) : (dot_S2000x495_S495x128_S2000x128_1_0_0_1_n_n.rhsIdx j κ 0).val = (κ ⟨0, by decide⟩).val :=
  dot_S2000x495_S495x128_S2000x128_1_0_0_1_n_n.rhsIdx_val_of_single rfl j κ
theorem rhs0_1 (j : S2000x128.Idx) (κ : dot_S2000x495_S495x128_S2000x128_1_0_0_1_n_n.contr.Idx) : (dot_S2000x495_S495x128_S2000x128_1_0_0_1_n_n.rhsIdx j κ 1).val = (j 1).val := by
  unfold DotDims.rhsIdx
  rw [dif_neg (show ¬(1 : Fin S495x128.rank) ∈ dot_S2000x495_S495x128_S2000x128_1_0_0_1_n_n.rhsBatch by decide), dif_pos (show (1 : Fin S495x128.rank) ∈ dot_S2000x495_S495x128_S2000x128_1_0_0_1_n_n.rhsNonContracting by decide)]
  rfl

/-- The matrix product into a zero accumulator, entry (p, q): the sum over the 495 contracted columns. -/
theorem matmul0_apply (l : FVec Ideal S2000x495 .bf16) (r : FVec Ideal S495x128 .bf16) (p : Fin 2000) (q : Fin 128) :
    matmul dot_S2000x495_S495x128_S2000x128_1_0_0_1_n_n none l r (constant S2000x128 .f32 0x00000000#32) (ix2 p q) = ∑ k : Fin 495, l (ix2 p k) * r (ix2 k q) := by
  refine (Ideal.matmul_constant_zero_apply dot_S2000x495_S495x128_S2000x128_1_0_0_1_n_n none l r (ix2 p q)).trans ?_
  rw [← Equiv.sum_comp (ValueIdx.contrEquiv1 dot_S2000x495_S495x128_S2000x128_1_0_0_1_n_n 495 rfl rfl).symm]
  refine Finset.sum_congr rfl fun k _ => ?_
  have hk := ValueIdx.contrEquiv1_symm_val dot_S2000x495_S495x128_S2000x128_1_0_0_1_n_n 495 rfl rfl k
  have el : dot_S2000x495_S495x128_S2000x128_1_0_0_1_n_n.lhsIdx (ix2 p q) ((ValueIdx.contrEquiv1 dot_S2000x495_S495x128_S2000x128_1_0_0_1_n_n 495 rfl rfl).symm k) = ix2 p k := funext fun a => Fin.ext (by
    match a with
    | ⟨0, _⟩ => exact lhs0_0 _ _
    | ⟨1, _⟩ => exact (lhs0_1 _ _).trans hk)
  have er : dot_S2000x495_S495x128_S2000x128_1_0_0_1_n_n.rhsIdx (ix2 p q) ((ValueIdx.contrEquiv1 dot_S2000x495_S495x128_S2000x128_1_0_0_1_n_n 495 rfl rfl).symm k) = ix2 k q := funext fun a => Fin.ext (by
    match a with
    | ⟨0, _⟩ => exact (rhs0_0 _ _).trans hk
    | ⟨1, _⟩ => exact rhs0_1 _ _)
  rw [el, er]

/-- The bias row broadcast down the 2000 rows, entry (p, q): the row's entry q. -/
theorem bias0_apply (x2 : FVec Ideal S1x128 .f32) (p : Fin 2000) (q : Fin 128) :
    broadcastTo S2000x128 (shapeCast S1x128 x2 shapeCasts_S1x128_S1x128) broadcasts_S1x128_S2000x128 (ix2 p q) = x2 (ix2 0 q) := by
  rw [shapeCast_self]
  exact broadcastTo_apply x2 broadcasts_S1x128_S2000x128 (ix2 p q) (ix2 0 q) (fun a => by
    match a with
    | ⟨0, _⟩ => rfl
    | ⟨1, _⟩ => rfl)

/-- The body's stored value, entry (p, q) of the block: the row-p-times-column-q sum plus the bias entry q, clamped to [0, 6]
    (the changes of float format are the identity on the extended reals). -/
theorem pay0_apply (x0 : Vec Ideal S2000x495 .f32) (x1 : Vec Ideal S495x128 .f32) (x2 : Vec Ideal S1x128 .f32) (p : Fin 2000) (q : Fin 128) :
    k0_pay1 (F := Ideal) x0 x1 x2 (ix2 p q) = min (Ideal.ofBits .f32 0x40C00000#32) (max (Ideal.ofBits .f32 0x00000000#32) ((∑ k : Fin 495, x0 (ix2 p k) * x1 (ix2 k q)) + x2 (ix2 0 q))) := by
  unfold k0_pay1
  refine (minimumf_apply _ _ _).trans ?_
  refine congrArg (min _) ?_
  refine (maximumf_apply _ _ _).trans ?_
  refine congrArg (max _) ?_
  refine (addf_apply _ _ _).trans ?_
  refine congrArg₂ (· + ·) ?_ (bias0_apply x2 p q)
  refine (matmul0_apply _ _ p q).trans ?_
  simp only [shapeCast_self]
  rfl

/-! ## Layer 2: a 2000 × 384 block times the 384 × 128 weights -/

theorem lhs1_0 (j : S2000x128.Idx) (κ : dot_S2000x384_S384x128_S2000x128_1_0_0_1_n_n.contr.Idx) : (dot_S2000x384_S384x128_S2000x128_1_0_0_1_n_n.lhsIdx j κ 0).val = (j 0).val := by
  unfold DotDims.lhsIdx
  rw [dif_neg (show ¬(0 : Fin S2000x384.rank) ∈ dot_S2000x384_S384x128_S2000x128_1_0_0_1_n_n.lhsBatch by decide), dif_pos (show (0 : Fin S2000x384.rank) ∈ dot_S2000x384_S384x128_S2000x128_1_0_0_1_n_n.lhsNonContracting by decide)]
  rfl
theorem lhs1_1 (j : S2000x128.Idx) (κ : dot_S2000x384_S384x128_S2000x128_1_0_0_1_n_n.contr.Idx) : (dot_S2000x384_S384x128_S2000x128_1_0_0_1_n_n.lhsIdx j κ 1).val = (κ ⟨0, by decide⟩).val :=
  dot_S2000x384_S384x128_S2000x128_1_0_0_1_n_n.lhsIdx_val_of_single rfl j κ
theorem rhs1_0 (j : S2000x128.Idx) (κ : dot_S2000x384_S384x128_S2000x128_1_0_0_1_n_n.contr.Idx) : (dot_S2000x384_S384x128_S2000x128_1_0_0_1_n_n.rhsIdx j κ 0).val = (κ ⟨0, by decide⟩).val :=
  dot_S2000x384_S384x128_S2000x128_1_0_0_1_n_n.rhsIdx_val_of_single rfl j κ
theorem rhs1_1 (j : S2000x128.Idx) (κ : dot_S2000x384_S384x128_S2000x128_1_0_0_1_n_n.contr.Idx) : (dot_S2000x384_S384x128_S2000x128_1_0_0_1_n_n.rhsIdx j κ 1).val = (j 1).val := by
  unfold DotDims.rhsIdx
  rw [dif_neg (show ¬(1 : Fin S384x128.rank) ∈ dot_S2000x384_S384x128_S2000x128_1_0_0_1_n_n.rhsBatch by decide), dif_pos (show (1 : Fin S384x128.rank) ∈ dot_S2000x384_S384x128_S2000x128_1_0_0_1_n_n.rhsNonContracting by decide)]
  rfl

/-- The matrix product into a zero accumulator, entry (p, q): the sum over the 384 contracted columns. -/
theorem matmul1_apply (l : FVec Ideal S2000x384 .bf16) (r : FVec Ideal S384x128 .bf16) (p : Fin 2000) (q : Fin 128) :
    matmul dot_S2000x384_S384x128_S2000x128_1_0_0_1_n_n none l r (constant S2000x128 .f32 0x00000000#32) (ix2 p q) = ∑ k : Fin 384, l (ix2 p k) * r (ix2 k q) := by
  refine (Ideal.matmul_constant_zero_apply dot_S2000x384_S384x128_S2000x128_1_0_0_1_n_n none l r (ix2 p q)).trans ?_
  rw [← Equiv.sum_comp (ValueIdx.contrEquiv1 dot_S2000x384_S384x128_S2000x128_1_0_0_1_n_n 384 rfl rfl).symm]
  refine Finset.sum_congr rfl fun k _ => ?_
  have hk := ValueIdx.contrEquiv1_symm_val dot_S2000x384_S384x128_S2000x128_1_0_0_1_n_n 384 rfl rfl k
  have el : dot_S2000x384_S384x128_S2000x128_1_0_0_1_n_n.lhsIdx (ix2 p q) ((ValueIdx.contrEquiv1 dot_S2000x384_S384x128_S2000x128_1_0_0_1_n_n 384 rfl rfl).symm k) = ix2 p k := funext fun a => Fin.ext (by
    match a with
    | ⟨0, _⟩ => exact lhs1_0 _ _
    | ⟨1, _⟩ => exact (lhs1_1 _ _).trans hk)
  have er : dot_S2000x384_S384x128_S2000x128_1_0_0_1_n_n.rhsIdx (ix2 p q) ((ValueIdx.contrEquiv1 dot_S2000x384_S384x128_S2000x128_1_0_0_1_n_n 384 rfl rfl).symm k) = ix2 k q := funext fun a => Fin.ext (by
    match a with
    | ⟨0, _⟩ => exact (rhs1_0 _ _).trans hk
    | ⟨1, _⟩ => exact rhs1_1 _ _)
  rw [el, er]

/-- The bias row broadcast down the 2000 rows, entry (p, q): the row's entry q. -/
theorem bias1_apply (x2 : FVec Ideal S1x128 .f32) (p : Fin 2000) (q : Fin 128) :
    broadcastTo S2000x128 (shapeCast S1x128 x2 shapeCasts_S1x128_S1x128) broadcasts_S1x128_S2000x128 (ix2 p q) = x2 (ix2 0 q) := by
  rw [shapeCast_self]
  exact broadcastTo_apply x2 broadcasts_S1x128_S2000x128 (ix2 p q) (ix2 0 q) (fun a => by
    match a with
    | ⟨0, _⟩ => rfl
    | ⟨1, _⟩ => rfl)

/-- The body's stored value, entry (p, q) of the block: the row-p-times-column-q sum plus the bias entry q, clamped to [0, 6]
    (the changes of float format are the identity on the extended reals). -/
theorem pay1_apply (x0 : Vec Ideal S2000x384 .f32) (x1 : Vec Ideal S384x128 .f32) (x2 : Vec Ideal S1x128 .f32) (p : Fin 2000) (q : Fin 128) :
    k1_pay1 (F := Ideal) x0 x1 x2 (ix2 p q) = min (Ideal.ofBits .f32 0x40C00000#32) (max (Ideal.ofBits .f32 0x00000000#32) ((∑ k : Fin 384, x0 (ix2 p k) * x1 (ix2 k q)) + x2 (ix2 0 q))) := by
  unfold k1_pay1
  refine (minimumf_apply _ _ _).trans ?_
  refine congrArg (min _) ?_
  refine (maximumf_apply _ _ _).trans ?_
  refine congrArg (max _) ?_
  refine (addf_apply _ _ _).trans ?_
  refine congrArg₂ (· + ·) ?_ (bias1_apply x2 p q)
  refine (matmul1_apply _ _ p q).trans ?_
  simp only [shapeCast_self]
  rfl

/-! ## Layer 3: a 2000 × 384 block times the 384 × 128 weights -/

theorem lhs2_0 (j : S2000x128.Idx) (κ : dot_S2000x384_S384x128_S2000x128_1_0_0_1_n_n.contr.Idx) : (dot_S2000x384_S384x128_S2000x128_1_0_0_1_n_n.lhsIdx j κ 0).val = (j 0).val := by
  unfold DotDims.lhsIdx
  rw [dif_neg (show ¬(0 : Fin S2000x384.rank) ∈ dot_S2000x384_S384x128_S2000x128_1_0_0_1_n_n.lhsBatch by decide), dif_pos (show (0 : Fin S2000x384.rank) ∈ dot_S2000x384_S384x128_S2000x128_1_0_0_1_n_n.lhsNonContracting by decide)]
  rfl
theorem lhs2_1 (j : S2000x128.Idx) (κ : dot_S2000x384_S384x128_S2000x128_1_0_0_1_n_n.contr.Idx) : (dot_S2000x384_S384x128_S2000x128_1_0_0_1_n_n.lhsIdx j κ 1).val = (κ ⟨0, by decide⟩).val :=
  dot_S2000x384_S384x128_S2000x128_1_0_0_1_n_n.lhsIdx_val_of_single rfl j κ
theorem rhs2_0 (j : S2000x128.Idx) (κ : dot_S2000x384_S384x128_S2000x128_1_0_0_1_n_n.contr.Idx) : (dot_S2000x384_S384x128_S2000x128_1_0_0_1_n_n.rhsIdx j κ 0).val = (κ ⟨0, by decide⟩).val :=
  dot_S2000x384_S384x128_S2000x128_1_0_0_1_n_n.rhsIdx_val_of_single rfl j κ
theorem rhs2_1 (j : S2000x128.Idx) (κ : dot_S2000x384_S384x128_S2000x128_1_0_0_1_n_n.contr.Idx) : (dot_S2000x384_S384x128_S2000x128_1_0_0_1_n_n.rhsIdx j κ 1).val = (j 1).val := by
  unfold DotDims.rhsIdx
  rw [dif_neg (show ¬(1 : Fin S384x128.rank) ∈ dot_S2000x384_S384x128_S2000x128_1_0_0_1_n_n.rhsBatch by decide), dif_pos (show (1 : Fin S384x128.rank) ∈ dot_S2000x384_S384x128_S2000x128_1_0_0_1_n_n.rhsNonContracting by decide)]
  rfl

/-- The matrix product into a zero accumulator, entry (p, q): the sum over the 384 contracted columns. -/
theorem matmul2_apply (l : FVec Ideal S2000x384 .bf16) (r : FVec Ideal S384x128 .bf16) (p : Fin 2000) (q : Fin 128) :
    matmul dot_S2000x384_S384x128_S2000x128_1_0_0_1_n_n none l r (constant S2000x128 .f32 0x00000000#32) (ix2 p q) = ∑ k : Fin 384, l (ix2 p k) * r (ix2 k q) := by
  refine (Ideal.matmul_constant_zero_apply dot_S2000x384_S384x128_S2000x128_1_0_0_1_n_n none l r (ix2 p q)).trans ?_
  rw [← Equiv.sum_comp (ValueIdx.contrEquiv1 dot_S2000x384_S384x128_S2000x128_1_0_0_1_n_n 384 rfl rfl).symm]
  refine Finset.sum_congr rfl fun k _ => ?_
  have hk := ValueIdx.contrEquiv1_symm_val dot_S2000x384_S384x128_S2000x128_1_0_0_1_n_n 384 rfl rfl k
  have el : dot_S2000x384_S384x128_S2000x128_1_0_0_1_n_n.lhsIdx (ix2 p q) ((ValueIdx.contrEquiv1 dot_S2000x384_S384x128_S2000x128_1_0_0_1_n_n 384 rfl rfl).symm k) = ix2 p k := funext fun a => Fin.ext (by
    match a with
    | ⟨0, _⟩ => exact lhs2_0 _ _
    | ⟨1, _⟩ => exact (lhs2_1 _ _).trans hk)
  have er : dot_S2000x384_S384x128_S2000x128_1_0_0_1_n_n.rhsIdx (ix2 p q) ((ValueIdx.contrEquiv1 dot_S2000x384_S384x128_S2000x128_1_0_0_1_n_n 384 rfl rfl).symm k) = ix2 k q := funext fun a => Fin.ext (by
    match a with
    | ⟨0, _⟩ => exact (rhs2_0 _ _).trans hk
    | ⟨1, _⟩ => exact rhs2_1 _ _)
  rw [el, er]

/-- The bias row broadcast down the 2000 rows, entry (p, q): the row's entry q. -/
theorem bias2_apply (x2 : FVec Ideal S1x128 .f32) (p : Fin 2000) (q : Fin 128) :
    broadcastTo S2000x128 (shapeCast S1x128 x2 shapeCasts_S1x128_S1x128) broadcasts_S1x128_S2000x128 (ix2 p q) = x2 (ix2 0 q) := by
  rw [shapeCast_self]
  exact broadcastTo_apply x2 broadcasts_S1x128_S2000x128 (ix2 p q) (ix2 0 q) (fun a => by
    match a with
    | ⟨0, _⟩ => rfl
    | ⟨1, _⟩ => rfl)

/-- The body's stored value, entry (p, q) of the block: the row-p-times-column-q sum plus the bias entry q, clamped to [0, 6]
    (the changes of float format are the identity on the extended reals). -/
theorem pay2_apply (x0 : Vec Ideal S2000x384 .f32) (x1 : Vec Ideal S384x128 .f32) (x2 : Vec Ideal S1x128 .f32) (p : Fin 2000) (q : Fin 128) :
    k2_pay1 (F := Ideal) x0 x1 x2 (ix2 p q) = min (Ideal.ofBits .f32 0x40C00000#32) (max (Ideal.ofBits .f32 0x00000000#32) ((∑ k : Fin 384, x0 (ix2 p k) * x1 (ix2 k q)) + x2 (ix2 0 q))) := by
  unfold k2_pay1
  refine (minimumf_apply _ _ _).trans ?_
  refine congrArg (min _) ?_
  refine (maximumf_apply _ _ _).trans ?_
  refine congrArg (max _) ?_
  refine (addf_apply _ _ _).trans ?_
  refine congrArg₂ (· + ·) ?_ (bias2_apply x2 p q)
  refine (matmul2_apply _ _ p q).trans ?_
  simp only [shapeCast_self]
  rfl

/-! ## Layer 4: a 2000 × 384 block times the 384 × 2 weights -/

theorem lhs3_0 (j : S2000x2.Idx) (κ : dot_S2000x384_S384x2_S2000x2_1_0_0_1_n_n.contr.Idx) : (dot_S2000x384_S384x2_S2000x2_1_0_0_1_n_n.lhsIdx j κ 0).val = (j 0).val := by
  unfold DotDims.lhsIdx
  rw [dif_neg (show ¬(0 : Fin S2000x384.rank) ∈ dot_S2000x384_S384x2_S2000x2_1_0_0_1_n_n.lhsBatch by decide), dif_pos (show (0 : Fin S2000x384.rank) ∈ dot_S2000x384_S384x2_S2000x2_1_0_0_1_n_n.lhsNonContracting by decide)]
  rfl
theorem lhs3_1 (j : S2000x2.Idx) (κ : dot_S2000x384_S384x2_S2000x2_1_0_0_1_n_n.contr.Idx) : (dot_S2000x384_S384x2_S2000x2_1_0_0_1_n_n.lhsIdx j κ 1).val = (κ ⟨0, by decide⟩).val :=
  dot_S2000x384_S384x2_S2000x2_1_0_0_1_n_n.lhsIdx_val_of_single rfl j κ
theorem rhs3_0 (j : S2000x2.Idx) (κ : dot_S2000x384_S384x2_S2000x2_1_0_0_1_n_n.contr.Idx) : (dot_S2000x384_S384x2_S2000x2_1_0_0_1_n_n.rhsIdx j κ 0).val = (κ ⟨0, by decide⟩).val :=
  dot_S2000x384_S384x2_S2000x2_1_0_0_1_n_n.rhsIdx_val_of_single rfl j κ
theorem rhs3_1 (j : S2000x2.Idx) (κ : dot_S2000x384_S384x2_S2000x2_1_0_0_1_n_n.contr.Idx) : (dot_S2000x384_S384x2_S2000x2_1_0_0_1_n_n.rhsIdx j κ 1).val = (j 1).val := by
  unfold DotDims.rhsIdx
  rw [dif_neg (show ¬(1 : Fin S384x2.rank) ∈ dot_S2000x384_S384x2_S2000x2_1_0_0_1_n_n.rhsBatch by decide), dif_pos (show (1 : Fin S384x2.rank) ∈ dot_S2000x384_S384x2_S2000x2_1_0_0_1_n_n.rhsNonContracting by decide)]
  rfl

/-- The matrix product into a zero accumulator, entry (p, q): the sum over the 384 contracted columns. -/
theorem matmul3_apply (l : FVec Ideal S2000x384 .bf16) (r : FVec Ideal S384x2 .bf16) (p : Fin 2000) (q : Fin 2) :
    matmul dot_S2000x384_S384x2_S2000x2_1_0_0_1_n_n none l r (constant S2000x2 .f32 0x00000000#32) (ix2 p q) = ∑ k : Fin 384, l (ix2 p k) * r (ix2 k q) := by
  refine (Ideal.matmul_constant_zero_apply dot_S2000x384_S384x2_S2000x2_1_0_0_1_n_n none l r (ix2 p q)).trans ?_
  rw [← Equiv.sum_comp (ValueIdx.contrEquiv1 dot_S2000x384_S384x2_S2000x2_1_0_0_1_n_n 384 rfl rfl).symm]
  refine Finset.sum_congr rfl fun k _ => ?_
  have hk := ValueIdx.contrEquiv1_symm_val dot_S2000x384_S384x2_S2000x2_1_0_0_1_n_n 384 rfl rfl k
  have el : dot_S2000x384_S384x2_S2000x2_1_0_0_1_n_n.lhsIdx (ix2 p q) ((ValueIdx.contrEquiv1 dot_S2000x384_S384x2_S2000x2_1_0_0_1_n_n 384 rfl rfl).symm k) = ix2 p k := funext fun a => Fin.ext (by
    match a with
    | ⟨0, _⟩ => exact lhs3_0 _ _
    | ⟨1, _⟩ => exact (lhs3_1 _ _).trans hk)
  have er : dot_S2000x384_S384x2_S2000x2_1_0_0_1_n_n.rhsIdx (ix2 p q) ((ValueIdx.contrEquiv1 dot_S2000x384_S384x2_S2000x2_1_0_0_1_n_n 384 rfl rfl).symm k) = ix2 k q := funext fun a => Fin.ext (by
    match a with
    | ⟨0, _⟩ => exact (rhs3_0 _ _).trans hk
    | ⟨1, _⟩ => exact rhs3_1 _ _)
  rw [el, er]

/-- The bias row broadcast down the 2000 rows, entry (p, q): the row's entry q. -/
theorem bias3_apply (x2 : FVec Ideal S1x2 .f32) (p : Fin 2000) (q : Fin 2) :
    broadcastTo S2000x2 (shapeCast S1x2 x2 shapeCasts_S1x2_S1x2) broadcasts_S1x2_S2000x2 (ix2 p q) = x2 (ix2 0 q) := by
  rw [shapeCast_self]
  exact broadcastTo_apply x2 broadcasts_S1x2_S2000x2 (ix2 p q) (ix2 0 q) (fun a => by
    match a with
    | ⟨0, _⟩ => rfl
    | ⟨1, _⟩ => rfl)

/-- The body's stored value, entry (p, q) of the block: the row-p-times-column-q sum plus the bias entry q
    (the changes of float format are the identity on the extended reals). -/
theorem pay3_apply (x0 : Vec Ideal S2000x384 .f32) (x1 : Vec Ideal S384x2 .f32) (x2 : Vec Ideal S1x2 .f32) (p : Fin 2000) (q : Fin 2) :
    k3_pay1 (F := Ideal) x0 x1 x2 (ix2 p q) = (∑ k : Fin 384, x0 (ix2 p k) * x1 (ix2 k q)) + x2 (ix2 0 q) := by
  unfold k3_pay1
  refine (addf_apply _ _ _).trans ?_
  refine congrArg₂ (· + ·) ?_ (bias3_apply x2 p q)
  refine (matmul3_apply _ _ p q).trans ?_
  simp only [shapeCast_self]
  rfl

end Cert.KernelIdeal.HandValue

end
-- ==== Proof.KFinal.lean ====
/-
  Each matmul launch's result array as ONE function of the three arrays it reads, for a launch entered with the buffers
  at `V`: entry (r, q) is the sum over the contracted axis of row r of the concatenated terms times column q of the
  weights, plus the bias entry q (clamped to [0, 6] in layers 1-3). Point t of the grid writes rows 2000 t … 2000 t + 1999,
  and the fifty points cover the hundred thousand rows.
-/
import proofs.«104839_j69879117905989_1_alg».proof.Proof.KRegions
import proofs.«104839_j69879117905989_1_alg».proof.Proof.KPay
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## Layer 1 -/

section Layer0
variable (V : (c : Dev nD) → (b : Ref sig .tc) → Buf (Elt Ideal) ((c : Thread nD τ).loc b))

/-- Entry (a, b) of the layer's result from the concatenated terms `X`, the reshaped weights `Wc` and the bias row `bc`. -/
def entry0 (X : S100000x495.Idx → EReal) (Wc : S495x128.Idx → EReal) (bc : S1x128.Idx → EReal) (a : Fin 100000) (b : Fin 128) : EReal :=
  min (Ideal.ofBits .f32 0x40C00000#32) (max (Ideal.ofBits .f32 0x00000000#32) ((∑ k : Fin 495, X (ix2 a k) * Wc (ix2 k b)) + bc (ix2 0 b)))

/-- The layer's result array. -/
def layer0 (X : S100000x495.Idx → EReal) (Wc : S495x128.Idx → EReal) (bc : S1x128.Idx → EReal) : S100000x128.Idx → EReal :=
  fun i => entry0 X Wc bc ⟨(i 0).val, (i 0).isLt⟩ ⟨(i 1).val, (i 1).isLt⟩

theorem layer0_ix (X : S100000x495.Idx → EReal) (Wc : S495x128.Idx → EReal) (bc : S1x128.Idx → EReal) (a : Fin 100000) (b : Fin 128) :
    layer0 X Wc bc (ix2 a b) = entry0 X Wc bc a b := rfl

/-- The printed index maps over the grid: the row windows sit at block (t, 0), the weights and the bias at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's block is row 2000 t + p of the array. -/
def row0 (t : Fin cfg0.N) (p : Fin 2000) : Fin 100000 :=
  ⟨2000 * t.val + p.val, by have h : t.val < 50 := Nat.lt_of_lt_of_eq t.isLt (show cfg0.N = 50 from N_0); have := p.isLt; omega⟩

theorem blk0_0 (c : Dev nD) (t : Fin cfg0.N) (p : Fin 2000) (k : Fin 495) :
    (iblk0 V c 0 t : Vec Ideal S2000x495 .f32) (ix2 p k) = (V c main_v59 : S100000x495.Idx → EReal) (ix2 (row0 t p) k) := by
  obtain ⟨e0, e1, -⟩ := idx0 t
  unfold iblk0
  rw [View.read_apply]
  show V c main_v59 _ = V c main_v59 _
  congr 1
  funext a
  apply Fin.ext
  match a with
  | ⟨0, _⟩ => show win0_0.index t 0 * 2000 + 1 * p.val = 2000 * t.val + p.val; rw [e0]; omega
  | ⟨1, _⟩ => show win0_0.index t 1 * 495 + 1 * k.val = k.val; rw [e1]; omega

theorem blk0_1 (c : Dev nD) (t : Fin cfg0.N) (k : Fin 495) (q : Fin 128) :
    (iblk0 V c 1 t : Vec Ideal S495x128 .f32) (ix2 k q) = (V c main_v60 : S495x128.Idx → EReal) (ix2 k q) := by
  obtain ⟨-, -, e2, e3, -⟩ := idx0 t
  unfold iblk0
  rw [View.read_apply]
  show V c main_v60 _ = V c main_v60 _
  congr 1
  funext a
  apply Fin.ext
  match a with
  | ⟨0, _⟩ => show win0_1.index t 0 * 495 + 1 * k.val = k.val; rw [e2]; omega
  | ⟨1, _⟩ => show win0_1.index t 1 * 128 + 1 * q.val = q.val; rw [e3]; omega

theorem blk0_2 (c : Dev nD) (t : Fin cfg0.N) (q : Fin 128) :
    (iblk0 V c 2 t : Vec Ideal S1x128 .f32) (ix2 0 q) = (V c main_v61 : S1x128.Idx → EReal) (ix2 0 q) := by
  obtain ⟨-, -, -, -, e4, e5, -⟩ := idx0 t
  unfold iblk0
  rw [View.read_apply]
  show V c main_v61 _ = V c main_v61 _
  congr 1
  funext a
  apply Fin.ext
  match a with
  | ⟨0, _⟩ => show win0_2.index t 0 * 1 + 1 * 0 = 0; rw [e4]
  | ⟨1, _⟩ => show win0_2.index t 1 * 128 + 1 * q.val = q.val; rw [e5]; omega

theorem emb0 (t : Fin cfg0.N) (p : Fin 2000) (q : Fin 128) :
    ((cfg0.win 3).blk t).view.emb (ix2 p q) = (ix2 (row0 t p) q : S100000x128.Idx) := by
  obtain ⟨-, -, -, -, -, -, e6, e7⟩ := idx0 t
  funext a
  apply Fin.ext
  match a with
  | ⟨0, _⟩ => show win0_3.index t 0 * 2000 + 1 * p.val = 2000 * t.val + p.val; rw [e6]; omega
  | ⟨1, _⟩ => show win0_3.index t 1 * 128 + 1 * q.val = q.val; rw [e7]; omega

/-- What point t writes back is block t of `layer0` of the three arrays as the launch finds them. -/
theorem flushed0_eq (c : Dev nD) (t : Fin cfg0.N) :
    (dat0 V c).flushed 3 t = ((cfg0.win 3).blk t).view.read (Elt Ideal) (layer0 (V c main_v59) (V c main_v60) (V c main_v61)) := by
  show (cfg0.win 3).cut (grid0.coords t) ((dat0 V c).after 3 t) = _
  rw [after0_3]
  unfold out0
  rw [View.canon_unit_zero hz]
  simp only [View.ld_unit_zero (S := S2000x495) hz, View.ld_unit_zero (S := S495x128) hz, View.ld_unit_zero (S := S1x128) hz]
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (ix2 p q)
    = layer0 (V c main_v59) (V c main_v60) (V c main_v61) (((cfg0.win 3).blk t).view.emb (ix2 p q))
  rw [emb0 t p q, layer0_ix]
  refine (pay0_apply (iblk0 V c 0 t) (iblk0 V c 1 t) (iblk0 V c 2 t) p q).trans ?_
  unfold entry0
  rw [blk0_2 V c t q]
  simp only [blk0_0 V c t p, blk0_1 V c t]

/-- An index is in point t's block iff each coordinate is in the block's range on its axis. -/
theorem mem_blk0 (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v62).slice (win0_3.rect t)).set ↔ _
  rw [View.set_slice_whole, Rect.mem_set_unit]
  exact Iff.rfl

/-- Row r lies in the block of point r / 2000. -/
theorem cover0_all (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨-, -, -, -, -, -, e6, e7⟩ := idx0 t
  refine ⟨t, flush0_3 t, ?_⟩
  rw [mem_blk0]
  intro a
  have ht : t.val = (i 0).val / 2000 := rfl
  match a with
  | ⟨0, _⟩ => show win0_3.index t (0 : Fin 2) * 2000 ≤ (i 0).val ∧ (i 0).val < win0_3.index t (0 : Fin 2) * 2000 + 2000; rw [e6, ht]; omega
  | ⟨1, _⟩ => show win0_3.index t (1 : Fin 2) * 128 ≤ (i 1).val ∧ (i 1).val < win0_3.index t (1 : Fin 2) * 128 + 128; rw [e7]; omega

/-- The result array after the launch. -/
theorem final0 (c : Dev nD) : (dat0 V c).arrAt 3 cfg0.N = layer0 (V c main_v59) (V c main_v60) (V c main_v61) :=
  (dat0 V c).arrAt_eq_of_cover 3 (layer0 (V c main_v59) (V c main_v60) (V c main_v61)) (fun t _ => flushed0_eq V c t) (cover0_all)

end Layer0

/-! ## Layer 2 -/

section Layer1
variable (V : (c : Dev nD) → (b : Ref sig .tc) → Buf (Elt Ideal) ((c : Thread nD τ).loc b))

/-- Entry (a, b) of the layer's result from the concatenated terms `X`, the reshaped weights `Wc` and the bias row `bc`. -/
def entry1 (X : S100000x384.Idx → EReal) (Wc : S384x128.Idx → EReal) (bc : S1x128.Idx → EReal) (a : Fin 100000) (b : Fin 128) : EReal :=
  min (Ideal.ofBits .f32 0x40C00000#32) (max (Ideal.ofBits .f32 0x00000000#32) ((∑ k : Fin 384, X (ix2 a k) * Wc (ix2 k b)) + bc (ix2 0 b)))

/-- The layer's result array. -/
def layer1 (X : S100000x384.Idx → EReal) (Wc : S384x128.Idx → EReal) (bc : S1x128.Idx → EReal) : S100000x128.Idx → EReal :=
  fun i => entry1 X Wc bc ⟨(i 0).val, (i 0).isLt⟩ ⟨(i 1).val, (i 1).isLt⟩

theorem layer1_ix (X : S100000x384.Idx → EReal) (Wc : S384x128.Idx → EReal) (bc : S1x128.Idx → EReal) (a : Fin 100000) (b : Fin 128) :
    layer1 X Wc bc (ix2 a b) = entry1 X Wc bc a b := rfl

/-- The printed index maps over the grid: the row windows sit at block (t, 0), the weights and the bias at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of point t's block is row 2000 t + p of the array. -/
def row1 (t : Fin cfg1.N) (p : Fin 2000) : Fin 100000 :=
  ⟨2000 * t.val + p.val, by have h : t.val < 50 := Nat.lt_of_lt_of_eq t.isLt (show cfg1.N = 50 from N_1); have := p.isLt; omega⟩

theorem blk1_0 (c : Dev nD) (t : Fin cfg1.N) (p : Fin 2000) (k : Fin 384) :
    (iblk1 V c 0 t : Vec Ideal S2000x384 .f32) (ix2 p k) = (V c main_v92 : S100000x384.Idx → EReal) (ix2 (row1 t p) k) := by
  obtain ⟨e0, e1, -⟩ := idx1 t
  unfold iblk1
  rw [View.read_apply]
  show V c main_v92 _ = V c main_v92 _
  congr 1
  funext a
  apply Fin.ext
  match a with
  | ⟨0, _⟩ => show win1_0.index t 0 * 2000 + 1 * p.val = 2000 * t.val + p.val; rw [e0]; omega
  | ⟨1, _⟩ => show win1_0.index t 1 * 384 + 1 * k.val = k.val; rw [e1]; omega

theorem blk1_1 (c : Dev nD) (t : Fin cfg1.N) (k : Fin 384) (q : Fin 128) :
    (iblk1 V c 1 t : Vec Ideal S384x128 .f32) (ix2 k q) = (V c main_v93 : S384x128.Idx → EReal) (ix2 k q) := by
  obtain ⟨-, -, e2, e3, -⟩ := idx1 t
  unfold iblk1
  rw [View.read_apply]
  show V c main_v93 _ = V c main_v93 _
  congr 1
  funext a
  apply Fin.ext
  match a with
  | ⟨0, _⟩ => show win1_1.index t 0 * 384 + 1 * k.val = k.val; rw [e2]; omega
  | ⟨1, _⟩ => show win1_1.index t 1 * 128 + 1 * q.val = q.val; rw [e3]; omega

theorem blk1_2 (c : Dev nD) (t : Fin cfg1.N) (q : Fin 128) :
    (iblk1 V c 2 t : Vec Ideal S1x128 .f32) (ix2 0 q) = (V c main_v94 : S1x128.Idx → EReal) (ix2 0 q) := by
  obtain ⟨-, -, -, -, e4, e5, -⟩ := idx1 t
  unfold iblk1
  rw [View.read_apply]
  show V c main_v94 _ = V c main_v94 _
  congr 1
  funext a
  apply Fin.ext
  match a with
  | ⟨0, _⟩ => show win1_2.index t 0 * 1 + 1 * 0 = 0; rw [e4]
  | ⟨1, _⟩ => show win1_2.index t 1 * 128 + 1 * q.val = q.val; rw [e5]; omega

theorem emb1 (t : Fin cfg1.N) (p : Fin 2000) (q : Fin 128) :
    ((cfg1.win 3).blk t).view.emb (ix2 p q) = (ix2 (row1 t p) q : S100000x128.Idx) := by
  obtain ⟨-, -, -, -, -, -, e6, e7⟩ := idx1 t
  funext a
  apply Fin.ext
  match a with
  | ⟨0, _⟩ => show win1_3.index t 0 * 2000 + 1 * p.val = 2000 * t.val + p.val; rw [e6]; omega
  | ⟨1, _⟩ => show win1_3.index t 1 * 128 + 1 * q.val = q.val; rw [e7]; omega

/-- What point t writes back is block t of `layer1` of the three arrays as the launch finds them. -/
theorem flushed1_eq (c : Dev nD) (t : Fin cfg1.N) :
    (dat1 V c).flushed 3 t = ((cfg1.win 3).blk t).view.read (Elt Ideal) (layer1 (V c main_v92) (V c main_v93) (V c main_v94)) := by
  show (cfg1.win 3).cut (grid1.coords t) ((dat1 V c).after 3 t) = _
  rw [after1_3]
  unfold out1
  rw [View.canon_unit_zero hz]
  simp only [View.ld_unit_zero (S := S2000x384) hz, View.ld_unit_zero (S := S384x128) hz, View.ld_unit_zero (S := S1x128) hz]
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (ix2 p q)
    = layer1 (V c main_v92) (V c main_v93) (V c main_v94) (((cfg1.win 3).blk t).view.emb (ix2 p q))
  rw [emb1 t p q, layer1_ix]
  refine (pay1_apply (iblk1 V c 0 t) (iblk1 V c 1 t) (iblk1 V c 2 t) p q).trans ?_
  unfold entry1
  rw [blk1_2 V c t q]
  simp only [blk1_0 V c t p, blk1_1 V c t]

/-- An index is in point t's block iff each coordinate is in the block's range on its axis. -/
theorem mem_blk1 (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v95).slice (win1_3.rect t)).set ↔ _
  rw [View.set_slice_whole, Rect.mem_set_unit]
  exact Iff.rfl

/-- Row r lies in the block of point r / 2000. -/
theorem cover1_all (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := N_1
  let t : Fin cfg1.N := ⟨(i 0).val / 2000, by rw [hN]; omega⟩
  obtain ⟨-, -, -, -, -, -, e6, e7⟩ := idx1 t
  refine ⟨t, flush1_3 t, ?_⟩
  rw [mem_blk1]
  intro a
  have ht : t.val = (i 0).val / 2000 := rfl
  match a with
  | ⟨0, _⟩ => show win1_3.index t (0 : Fin 2) * 2000 ≤ (i 0).val ∧ (i 0).val < win1_3.index t (0 : Fin 2) * 2000 + 2000; rw [e6, ht]; omega
  | ⟨1, _⟩ => show win1_3.index t (1 : Fin 2) * 128 ≤ (i 1).val ∧ (i 1).val < win1_3.index t (1 : Fin 2) * 128 + 128; rw [e7]; omega

/-- The result array after the launch. -/
theorem final1 (c : Dev nD) : (dat1 V c).arrAt 3 cfg1.N = layer1 (V c main_v92) (V c main_v93) (V c main_v94) :=
  (dat1 V c).arrAt_eq_of_cover 3 (layer1 (V c main_v92) (V c main_v93) (V c main_v94)) (fun t _ => flushed1_eq V c t) (cover1_all)

end Layer1

/-! ## Layer 3 -/

section Layer2
variable (V : (c : Dev nD) → (b : Ref sig .tc) → Buf (Elt Ideal) ((c : Thread nD τ).loc b))

/-- Entry (a, b) of the layer's result from the concatenated terms `X`, the reshaped weights `Wc` and the bias row `bc`. -/
def entry2 (X : S100000x384.Idx → EReal) (Wc : S384x128.Idx → EReal) (bc : S1x128.Idx → EReal) (a : Fin 100000) (b : Fin 128) : EReal :=
  min (Ideal.ofBits .f32 0x40C00000#32) (max (Ideal.ofBits .f32 0x00000000#32) ((∑ k : Fin 384, X (ix2 a k) * Wc (ix2 k b)) + bc (ix2 0 b)))

/-- The layer's result array. -/
def layer2 (X : S100000x384.Idx → EReal) (Wc : S384x128.Idx → EReal) (bc : S1x128.Idx → EReal) : S100000x128.Idx → EReal :=
  fun i => entry2 X Wc bc ⟨(i 0).val, (i 0).isLt⟩ ⟨(i 1).val, (i 1).isLt⟩

theorem layer2_ix (X : S100000x384.Idx → EReal) (Wc : S384x128.Idx → EReal) (bc : S1x128.Idx → EReal) (a : Fin 100000) (b : Fin 128) :
    layer2 X Wc bc (ix2 a b) = entry2 X Wc bc a b := rfl

/-- The printed index maps over the grid: the row windows sit at block (t, 0), the weights and the bias at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of point t's block is row 2000 t + p of the array. -/
def row2 (t : Fin cfg2.N) (p : Fin 2000) : Fin 100000 :=
  ⟨2000 * t.val + p.val, by have h : t.val < 50 := Nat.lt_of_lt_of_eq t.isLt (show cfg2.N = 50 from N_2); have := p.isLt; omega⟩

theorem blk2_0 (c : Dev nD) (t : Fin cfg2.N) (p : Fin 2000) (k : Fin 384) :
    (iblk2 V c 0 t : Vec Ideal S2000x384 .f32) (ix2 p k) = (V c main_v125 : S100000x384.Idx → EReal) (ix2 (row2 t p) k) := by
  obtain ⟨e0, e1, -⟩ := idx2 t
  unfold iblk2
  rw [View.read_apply]
  show V c main_v125 _ = V c main_v125 _
  congr 1
  funext a
  apply Fin.ext
  match a with
  | ⟨0, _⟩ => show win2_0.index t 0 * 2000 + 1 * p.val = 2000 * t.val + p.val; rw [e0]; omega
  | ⟨1, _⟩ => show win2_0.index t 1 * 384 + 1 * k.val = k.val; rw [e1]; omega

theorem blk2_1 (c : Dev nD) (t : Fin cfg2.N) (k : Fin 384) (q : Fin 128) :
    (iblk2 V c 1 t : Vec Ideal S384x128 .f32) (ix2 k q) = (V c main_v126 : S384x128.Idx → EReal) (ix2 k q) := by
  obtain ⟨-, -, e2, e3, -⟩ := idx2 t
  unfold iblk2
  rw [View.read_apply]
  show V c main_v126 _ = V c main_v126 _
  congr 1
  funext a
  apply Fin.ext
  match a with
  | ⟨0, _⟩ => show win2_1.index t 0 * 384 + 1 * k.val = k.val; rw [e2]; omega
  | ⟨1, _⟩ => show win2_1.index t 1 * 128 + 1 * q.val = q.val; rw [e3]; omega

theorem blk2_2 (c : Dev nD) (t : Fin cfg2.N) (q : Fin 128) :
    (iblk2 V c 2 t : Vec Ideal S1x128 .f32) (ix2 0 q) = (V c main_v127 : S1x128.Idx → EReal) (ix2 0 q) := by
  obtain ⟨-, -, -, -, e4, e5, -⟩ := idx2 t
  unfold iblk2
  rw [View.read_apply]
  show V c main_v127 _ = V c main_v127 _
  congr 1
  funext a
  apply Fin.ext
  match a with
  | ⟨0, _⟩ => show win2_2.index t 0 * 1 + 1 * 0 = 0; rw [e4]
  | ⟨1, _⟩ => show win2_2.index t 1 * 128 + 1 * q.val = q.val; rw [e5]; omega

theorem emb2 (t : Fin cfg2.N) (p : Fin 2000) (q : Fin 128) :
    ((cfg2.win 3).blk t).view.emb (ix2 p q) = (ix2 (row2 t p) q : S100000x128.Idx) := by
  obtain ⟨-, -, -, -, -, -, e6, e7⟩ := idx2 t
  funext a
  apply Fin.ext
  match a with
  | ⟨0, _⟩ => show win2_3.index t 0 * 2000 + 1 * p.val = 2000 * t.val + p.val; rw [e6]; omega
  | ⟨1, _⟩ => show win2_3.index t 1 * 128 + 1 * q.val = q.val; rw [e7]; omega

/-- What point t writes back is block t of `layer2` of the three arrays as the launch finds them. -/
theorem flushed2_eq (c : Dev nD) (t : Fin cfg2.N) :
    (dat2 V c).flushed 3 t = ((cfg2.win 3).blk t).view.read (Elt Ideal) (layer2 (V c main_v125) (V c main_v126) (V c main_v127)) := by
  show (cfg2.win 3).cut (grid2.coords t) ((dat2 V c).after 3 t) = _
  rw [after2_3]
  unfold out2
  rw [View.canon_unit_zero hz]
  simp only [View.ld_unit_zero (S := S2000x384) hz, View.ld_unit_zero (S := S384x128) hz, View.ld_unit_zero (S := S1x128) hz]
  funext j
  obtain ⟨p, q, rfl⟩ : ∃ (p : Fin 2000) (q : Fin 128), j = ix2 p q := ⟨j 0, j 1, eq_ix2 j⟩
  show k2_pay1 (F := Ideal) (iblk2 V c 0 t) (iblk2 V c 1 t) (iblk2 V c 2 t) (ix2 p q)
    = layer2 (V c main_v125) (V c main_v126) (V c main_v127) (((cfg2.win 3).blk t).view.emb (ix2 p q))
  rw [emb2 t p q, layer2_ix]
  refine (pay2_apply (iblk2 V c 0 t) (iblk2 V c 1 t) (iblk2 V c 2 t) p q).trans ?_
  unfold entry2
  rw [blk2_2 V c t q]
  simp only [blk2_0 V c t p, blk2_1 V c t]

/-- An index is in point t's block iff each coordinate is in the block's range on its axis. -/
theorem mem_blk2 (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v128).slice (win2_3.rect t)).set ↔ _
  rw [View.set_slice_whole, Rect.mem_set_unit]
  exact Iff.rfl

/-- Row r lies in the block of point r / 2000. -/
theorem cover2_all (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 50 := N_2
  let t : Fin cfg2.N := ⟨(i 0).val / 2000, by rw [hN]; omega⟩
  obtain ⟨-, -, -, -, -, -, e6, e7⟩ := idx2 t
  refine ⟨t, flush2_3 t, ?_⟩
  rw [mem_blk2]
  intro a
  have ht : t.val = (i 0).val / 2000 := rfl
  match a with
  | ⟨0, _⟩ => show win2_3.index t (0 : Fin 2) * 2000 ≤ (i 0).val ∧ (i 0).val < win2_3.index t (0 : Fin 2) * 2000 + 2000; rw [e6, ht]; omega
  | ⟨1, _⟩ => show win2_3.index t (1 : Fin 2) * 128 ≤ (i 1).val ∧ (i 1).val < win2_3.index t (1 : Fin 2) * 128 + 128; rw [e7]; omega

/-- The result array after the launch. -/
theorem final2 (c : Dev nD) : (dat2 V c).arrAt 3 cfg2.N = layer2 (V c main_v125) (V c main_v126) (V c main_v127) :=
  (dat2 V c).arrAt_eq_of_cover 3 (layer2 (V c main_v125) (V c main_v126) (V c main_v127)) (fun t _ => flushed2_eq V c t) (cover2_all)

end Layer2

/-! ## Layer 4 -/

section Layer3
variable (V : (c : Dev nD) → (b : Ref sig .tc) → Buf (Elt Ideal) ((c : Thread nD τ).loc b))

/-- Entry (a, b) of the layer's result from the concatenated terms `X`, the reshaped weights `Wc` and the bias row `bc`. -/
def entry3 (X : S100000x384.Idx → EReal) (Wc : S384x2.Idx → EReal) (bc : S1x2.Idx → EReal) (a : Fin 100000) (b : Fin 2) : EReal :=
  (∑ k : Fin 384, X (ix2 a k) * Wc (ix2 k b)) + bc (ix2 0 b)

/-- The layer's result array. -/
def layer3 (X : S100000x384.Idx → EReal) (Wc : S384x2.Idx → EReal) (bc : S1x2.Idx → EReal) : S100000x2.Idx → EReal :=
  fun i => entry3 X Wc bc ⟨(i 0).val, (i 0).isLt⟩ ⟨(i 1).val, (i 1).isLt⟩

theorem layer3_ix (X : S100000x384.Idx → EReal) (Wc : S384x2.Idx → EReal) (bc : S1x2.Idx → EReal) (a : Fin 100000) (b : Fin 2) :
    layer3 X Wc bc (ix2 a b) = entry3 X Wc bc a b := rfl

/-- The printed index maps over the grid: the row windows sit at block (t, 0), the weights and the bias at block (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row p of point t's block is row 2000 t + p of the array. -/
def row3 (t : Fin cfg3.N) (p : Fin 2000) : Fin 100000 :=
  ⟨2000 * t.val + p.val, by have h : t.val < 50 := Nat.lt_of_lt_of_eq t.isLt (show cfg3.N = 50 from N_3); have := p.isLt; omega⟩

theorem blk3_0 (c : Dev nD) (t : Fin cfg3.N) (p : Fin 2000) (k : Fin 384) :
    (iblk3 V c 0 t : Vec Ideal S2000x384 .f32) (ix2 p k) = (V c main_v158 : S100000x384.Idx → EReal) (ix2 (row3 t p) k) := by
  obtain ⟨e0, e1, -⟩ := idx3 t
  unfold iblk3
  rw [View.read_apply]
  show V c main_v158 _ = V c main_v158 _
  congr 1
  funext a
  apply Fin.ext
  match a with
  | ⟨0, _⟩ => show win3_0.index t 0 * 2000 + 1 * p.val = 2000 * t.val + p.val; rw [e0]; omega
  | ⟨1, _⟩ => show win3_0.index t 1 * 384 + 1 * k.val = k.val; rw [e1]; omega

theorem blk3_1 (c : Dev nD) (t : Fin cfg3.N) (k : Fin 384) (q : Fin 2) :
    (iblk3 V c 1 t : Vec Ideal S384x2 .f32) (ix2 k q) = (V c main_v159 : S384x2.Idx → EReal) (ix2 k q) := by
  obtain ⟨-, -, e2, e3, -⟩ := idx3 t
  unfold iblk3
  rw [View.read_apply]
  show V c main_v159 _ = V c main_v159 _
  congr 1
  funext a
  apply Fin.ext
  match a with
  | ⟨0, _⟩ => show win3_1.index t 0 * 384 + 1 * k.val = k.val; rw [e2]; omega
  | ⟨1, _⟩ => show win3_1.index t 1 * 2 + 1 * q.val = q.val; rw [e3]; omega

theorem blk3_2 (c : Dev nD) (t : Fin cfg3.N) (q : Fin 2) :
    (iblk3 V c 2 t : Vec Ideal S1x2 .f32) (ix2 0 q) = (V c main_v160 : S1x2.Idx → EReal) (ix2 0 q) := by
  obtain ⟨-, -, -, -, e4, e5, -⟩ := idx3 t
  unfold iblk3
  rw [View.read_apply]
  show V c main_v160 _ = V c main_v160 _
  congr 1
  funext a
  apply Fin.ext
  match a with
  | ⟨0, _⟩ => show win3_2.index t 0 * 1 + 1 * 0 = 0; rw [e4]
  | ⟨1, _⟩ => show win3_2.index t 1 * 2 + 1 * q.val = q.val; rw [e5]; omega

theorem emb3 (t : Fin cfg3.N) (p : Fin 2000) (q : Fin 2) :
    ((cfg3.win 3).blk t).view.emb (ix2 p q) = (ix2 (row3 t p) q : S100000x2.Idx) := by
  obtain ⟨-, -, -, -, -, -, e6, e7⟩ := idx3 t
  funext a
  apply Fin.ext
  match a with
  | ⟨0, _⟩ => show win3_3.index t 0 * 2000 + 1 * p.val = 2000 * t.val + p.val; rw [e6]; omega
  | ⟨1, _⟩ => show win3_3.index t 1 * 2 + 1 * q.val = q.val; rw [e7]; omega

/-- What point t writes back is block t of `layer3` of the three arrays as the launch finds them. -/
theorem flushed3_eq (c : Dev nD) (t : Fin cfg3.N) :
    (dat3 V c).flushed 3 t = ((cfg3.win 3).blk t).view.read (Elt Ideal) (layer3 (V c main_v158) (V c main_v159) (V c main_v160)) := by
  show (cfg3.win 3).cut (grid3.coords t) ((dat3 V c).after 3 t) = _
  rw [after3_3]
  unfold out3
  rw [View.canon_unit_zero hz]
  simp only [View.ld_unit_zero (S := S2000x384) hz, View.ld_unit_zero (S := S384x2) hz, View.ld_unit_zero (S := S1x2) hz]
  funext j
  obtain ⟨p, q, rfl⟩ : ∃ (p : Fin 2000) (q : Fin 2), j = ix2 p q := ⟨j 0, j 1, eq_ix2 j⟩
  show k3_pay1 (F := Ideal) (iblk3 V c 0 t) (iblk3 V c 1 t) (iblk3 V c 2 t) (ix2 p q)
    = layer3 (V c main_v158) (V c main_v159) (V c main_v160) (((cfg3.win 3).blk t).view.emb (ix2 p q))
  rw [emb3 t p q, layer3_ix]
  refine (pay3_apply (iblk3 V c 0 t) (iblk3 V c 1 t) (iblk3 V c 2 t) p q).trans ?_
  unfold entry3
  rw [blk3_2 V c t q]
  simp only [blk3_0 V c t p, blk3_1 V c t]

/-- An index is in point t's block iff each coordinate is in the block's range on its axis. -/
theorem mem_blk3 (t : Fin cfg3.N) (i : S100000x2.Idx) :
    i ∈ ((cfg3.win 3).blk t).view.set ↔ ∀ a : Fin 2, win3_3.index t a * S2000x2.size a ≤ (i a).val ∧ (i a).val < win3_3.index t a * S2000x2.size a + S2000x2.size a := by
  show i ∈ ((View.whole main_v161).slice (win3_3.rect t)).set ↔ _
  rw [View.set_slice_whole, Rect.mem_set_unit]
  exact Iff.rfl

/-- Row r lies in the block of point r / 2000. -/
theorem cover3_all (i : S100000x2.Idx) : ∃ t : Fin cfg3.N, (cfg3.win 3).flush t = true ∧ i ∈ ((cfg3.win 3).blk t).view.set := by
  have hi0 : (i 0).val < 100000 := (i 0).isLt
  have hi1 : (i 1).val < 2 := (i 1).isLt
  have hN : cfg3.N = 50 := N_3
  let t : Fin cfg3.N := ⟨(i 0).val / 2000, by rw [hN]; omega⟩
  obtain ⟨-, -, -, -, -, -, e6, e7⟩ := idx3 t
  refine ⟨t, flush3_3 t, ?_⟩
  rw [mem_blk3]
  intro a
  have ht : t.val = (i 0).val / 2000 := rfl
  match a with
  | ⟨0, _⟩ => show win3_3.index t (0 : Fin 2) * 2000 ≤ (i 0).val ∧ (i 0).val < win3_3.index t (0 : Fin 2) * 2000 + 2000; rw [e6, ht]; omega
  | ⟨1, _⟩ => show win3_3.index t (1 : Fin 2) * 2 ≤ (i 1).val ∧ (i 1).val < win3_3.index t (1 : Fin 2) * 2 + 2; rw [e7]; omega

/-- The result array after the launch. -/
theorem final3 (c : Dev nD) : (dat3 V c).arrAt 3 cfg3.N = layer3 (V c main_v158) (V c main_v159) (V c main_v160) :=
  (dat3 V c).arrAt_eq_of_cover 3 (layer3 (V c main_v158) (V c main_v159) (V c main_v160)) (fun t _ => flushed3_eq V c t) (cover3_all)

end Layer3

end Cert.KernelIdeal.HandValue

end
-- ==== Proof.Bridge0.lean ====
/-
  The kernel program's buffers, read in the reference's own terms. The launch memory's ten argument arrays are a0 … a9.
  Both programs compute the edge sources, the edge targets and the normalised edge weights from the edge list by the
  same operations; here the kernel's three buffers are identified with the reference's three terms, and each
  argument array and each of the three is followed unchanged through the later items that do not write it.
-/
import proofs.«104839_j69879117905989_1_alg».proof.Proof.KRunA
import proofs.«104839_j69879117905989_1_alg».proof.Proof.KFinal
import proofs.«104839_j69879117905989_1_alg».proof.Proof.RefRead
import Idealize.ShloMosaic.Lib.StableHlo.Run

set_option maxRecDepth 16384

noncomputable section

namespace Cert.Bridge

open Cert.KernelIdeal Cert.KernelIdeal.Gen Cert.KernelIdeal.Hand Cert.KernelIdeal.HandValue
open Idealize.ShloMosaic Idealize.ShloMosaic.TcCoe Idealize.SL.Sem Idealize.ShloMosaic.StableHlo Idealize.ShloMosaic.ValueIdx
open Cert.ReferenceIdeal.Read (val_main_v1 val_main_v3 val_main_v29 val_main_v45 val_main_v65 val_main_v73 val_main_v89 val_main_v109
  val_main_v117 val_main_v133 val_main_v153 val_main_v161 val_main_v177 val_main_v197 val_main_v204)

variable (m : (ℓ : Loc nD τ sig) → Buf (Elt Ideal) ℓ) (c : Dev nD)

/-- The argument arrays at launch. -/
abbrev a0 : (⟨S100000x165, .f32⟩ : BufTy).Contents (Elt Ideal) := m ((c.tc : Thread nD τ).loc main_arg0)
abbrev a1 : (⟨S2x625000, .i32⟩ : BufTy).Contents (Elt Ideal) := m ((c.tc : Thread nD τ).loc main_arg1)
abbrev a2 : (⟨S3x165x128, .f32⟩ : BufTy).Contents (Elt Ideal) := m ((c.tc : Thread nD τ).loc main_arg2)
abbrev a3 : (⟨S128, .f32⟩ : BufTy).Contents (Elt Ideal) := m ((c.tc : Thread nD τ).loc main_arg3)
abbrev a4 : (⟨S3x128x128, .f32⟩ : BufTy).Contents (Elt Ideal) := m ((c.tc : Thread nD τ).loc main_arg4)
abbrev a5 : (⟨S128, .f32⟩ : BufTy).Contents (Elt Ideal) := m ((c.tc : Thread nD τ).loc main_arg5)
abbrev a6 : (⟨S3x128x128, .f32⟩ : BufTy).Contents (Elt Ideal) := m ((c.tc : Thread nD τ).loc main_arg6)
abbrev a7 : (⟨S128, .f32⟩ : BufTy).Contents (Elt Ideal) := m ((c.tc : Thread nD τ).loc main_arg7)
abbrev a8 : (⟨S3x128x2, .f32⟩ : BufTy).Contents (Elt Ideal) := m ((c.tc : Thread nD τ).loc main_arg8)
abbrev a9 : (⟨S2, .f32⟩ : BufTy).Contents (Elt Ideal) := m ((c.tc : Thread nD τ).loc main_arg9)

/-! ## Before the first launch -/

/-- The edge sources, after the first two host stretches. -/
theorem src2 : Gen.V2 m c main_v1 = val_main_v1 (F := Ideal) (a1 m c) := by
  dsimp only [Gen.V2, Gen.V1, Gen.V0, hostOps0_1, hostOps0]
  after_results_simp <;> rfl
/-- The edge targets. -/
theorem dst2 : Gen.V2 m c main_v3 = val_main_v3 (F := Ideal) (a1 m c) := by
  dsimp only [Gen.V2, Gen.V1, Gen.V0, hostOps0_1, hostOps0]
  after_results_simp <;> rfl
/-! The outlined `where` moves each value between its buffer's type and the value's own type; for a literal buffer the
    two types compute to one and the move is the identity. -/
theorem ob_v9 (v : (⟨S100000, .i1⟩ : BufTy).Contents (Elt Ideal)) : (TRef.of (sig := sig) (T := ⟨S100000, .i1⟩) main_v9).ofBuf v = v := rfl
theorem ob_v12 (v : (⟨S100000, .f32⟩ : BufTy).Contents (Elt Ideal)) : (TRef.of (sig := sig) (T := ⟨S100000, .f32⟩) main_v12).ofBuf v = v := rfl
theorem ob_cst3 (v : (⟨S_, .f32⟩ : BufTy).Contents (Elt Ideal)) : (TRef.of (sig := sig) (T := ⟨S_, .f32⟩) main_cst_3).ofBuf v = v := rfl
theorem ob_c0 (v : (⟨S_, .f32⟩ : BufTy).Contents (Elt Ideal)) : (TRef.of (sig := sig) (T := ⟨S_, .f32⟩) main_call0_v0).ofBuf v = v := rfl
theorem tb_c0 (v : (⟨S_, .f32⟩ : BufTy).Contents (Elt Ideal)) : (TRef.of (sig := sig) (T := ⟨S_, .f32⟩) main_call0_v0).toBuf v = v := rfl
theorem ob_c1 (v : (⟨S100000, .f32⟩ : BufTy).Contents (Elt Ideal)) : (TRef.of (sig := sig) (T := ⟨S100000, .f32⟩) main_call0_v1).ofBuf v = v := rfl
theorem tb_c1 (v : (⟨S100000, .f32⟩ : BufTy).Contents (Elt Ideal)) : (TRef.of (sig := sig) (T := ⟨S100000, .f32⟩) main_call0_v1).toBuf v = v := rfl
theorem tb_v13 (v : (⟨S100000, .f32⟩ : BufTy).Contents (Elt Ideal)) : (TRef.of (sig := sig) (T := ⟨S100000, .f32⟩) main_v13).toBuf v = v := rfl

/-- Whether a node has an incoming edge. -/
theorem pos1 : Gen.V1 m c main_v9 = Cert.ReferenceIdeal.Read.val_main_v9 (F := Ideal) (a1 m c) := by
  dsimp only [Gen.V1, Gen.V0, hostOps0]
  after_results_simp <;> rfl
/-- The inverse square root of the in-degree (of 1e-12 where the degree is 0). -/
theorem rsq1 : Gen.V1 m c main_v12 = Cert.ReferenceIdeal.Read.val_main_v12 (F := Ideal) (a1 m c) := by
  dsimp only [Gen.V1, Gen.V0, hostOps0]
  after_results_simp <;> rfl
theorem zero1 : Gen.V1 m c main_cst_3 = Cert.ReferenceIdeal.Read.val_main_cst_3 (F := Ideal) := by
  dsimp only [Gen.V1, Gen.V0, hostOps0]
  after_results_simp <;> rfl
/-- The inverse square root of the in-degree, 0 where the degree is 0. -/
theorem dis2 : Gen.V2 m c main_v13 = Cert.ReferenceIdeal.Read.val_main_v13 (F := Ideal) (a1 m c) := by
  have h9 := pos1 m c
  have h12 := rsq1 m c
  have hz := zero1 m c
  dsimp only [Gen.V2, hostOps0_1]
  generalize Gen.V1 m c = W at h9 h12 hz ⊢
  after_results_simp
  rw [h9, h12, hz]
  simp only [ob_v9, ob_v12, ob_cst3, ob_c0, tb_c0, ob_c1, tb_c1, tb_v13]
  rfl
/-- The third stretch writes neither the sources nor the targets. -/
theorem src3 : Gen.V3 m c main_v1 = val_main_v1 (F := Ideal) (a1 m c) := (Gen.V3_of m c main_v1 (by decide)).trans (src2 m c)
theorem dst3 : Gen.V3 m c main_v3 = val_main_v3 (F := Ideal) (a1 m c) := (Gen.V3_of m c main_v3 (by decide)).trans (dst2 m c)
set_option maxRecDepth 100000 in
/-- The normalised edge weights −d(src)·d(dst). -/
theorem wgt3 : Gen.V3 m c main_v29 = val_main_v29 (F := Ideal) (a1 m c) := by
  have h13 := dis2 m c
  have h1 := src2 m c
  have h3 := dst2 m c
  dsimp only [Gen.V3, hostOps0_2]
  generalize Gen.V2 m c = W at h13 h1 h3 ⊢
  after_results_simp
  rw [h13, h1, h3]
  rfl
/-- An argument array after the first two stretches. -/
theorem arg2 (r : Ref sig .tc) (h0 : r ∉ hostOps0_W) (h1 : r ∉ hostOps0_1_W) : Gen.V2 m c r = m ((c.tc : Thread nD τ).loc r) :=
  (Gen.V2_of m c r h1).trans (Gen.V1_of m c r h0)

/-! ## Through the later items: none of them writes these buffers -/

theorem src4 : Gen.V4 m (outs m) c main_v1 = val_main_v1 (F := Ideal) (a1 m c) := (Gen.V4_of m (outs m) c main_v1 (by decide)).trans (src3 m c)
theorem src6 : Gen.V6 m (outs m) c main_v1 = val_main_v1 (F := Ideal) (a1 m c) :=
  (Gen.V6_of m (outs m) c main_v1 (by decide)).trans ((Gen.V5_of m (outs m) c main_v1 (by decide)).trans (src4 m c))
theorem src8 : Gen.V8 m (outs m) c main_v1 = val_main_v1 (F := Ideal) (a1 m c) :=
  (Gen.V8_of m (outs m) c main_v1 (by decide)).trans ((Gen.V7_of m (outs m) c main_v1 (by decide)).trans (src6 m c))
theorem dst4 : Gen.V4 m (outs m) c main_v3 = val_main_v3 (F := Ideal) (a1 m c) := (Gen.V4_of m (outs m) c main_v3 (by decide)).trans (dst3 m c)
theorem dst6 : Gen.V6 m (outs m) c main_v3 = val_main_v3 (F := Ideal) (a1 m c) :=
  (Gen.V6_of m (outs m) c main_v3 (by decide)).trans ((Gen.V5_of m (outs m) c main_v3 (by decide)).trans (dst4 m c))
theorem dst8 : Gen.V8 m (outs m) c main_v3 = val_main_v3 (F := Ideal) (a1 m c) :=
  (Gen.V8_of m (outs m) c main_v3 (by decide)).trans ((Gen.V7_of m (outs m) c main_v3 (by decide)).trans (dst6 m c))
theorem wgt4 : Gen.V4 m (outs m) c main_v29 = val_main_v29 (F := Ideal) (a1 m c) := (Gen.V4_of m (outs m) c main_v29 (by decide)).trans (wgt3 m c)
theorem wgt6 : Gen.V6 m (outs m) c main_v29 = val_main_v29 (F := Ideal) (a1 m c) :=
  (Gen.V6_of m (outs m) c main_v29 (by decide)).trans ((Gen.V5_of m (outs m) c main_v29 (by decide)).trans (wgt4 m c))
theorem wgt8 : Gen.V8 m (outs m) c main_v29 = val_main_v29 (F := Ideal) (a1 m c) :=
  (Gen.V8_of m (outs m) c main_v29 (by decide)).trans ((Gen.V7_of m (outs m) c main_v29 (by decide)).trans (wgt6 m c))

/-- An argument array is never written: at the first launch's entry it is the launch memory's. -/
theorem arg3 (r : Ref sig .tc) (h0 : r ∉ hostOps0_W) (h1 : r ∉ hostOps0_1_W) (h2 : r ∉ hostOps0_2_W) :
    Gen.V3 m c r = m ((c.tc : Thread nD τ).loc r) :=
  (Gen.V3_of m c r h2).trans ((Gen.V2_of m c r h1).trans (Gen.V1_of m c r h0))
theorem arg4 (r : Ref sig .tc) (h0 : r ∉ hostOps0_W) (h1 : r ∉ hostOps0_1_W) (h2 : r ∉ hostOps0_2_W)
    (h3 : r ∉ ([main_v62] : List (Ref sig .tc))) : Gen.V4 m (outs m) c r = m ((c.tc : Thread nD τ).loc r) :=
  (Gen.V4_of m (outs m) c r h3).trans (arg3 m c r h0 h1 h2)
theorem arg6 (r : Ref sig .tc) (h0 : r ∉ hostOps0_W) (h1 : r ∉ hostOps0_1_W) (h2 : r ∉ hostOps0_2_W)
    (h3 : r ∉ ([main_v62] : List (Ref sig .tc))) (h4 : r ∉ hostOps1_W) (h5 : r ∉ ([main_v95] : List (Ref sig .tc))) :
    Gen.V6 m (outs m) c r = m ((c.tc : Thread nD τ).loc r) :=
  (Gen.V6_of m (outs m) c r h5).trans ((Gen.V5_of m (outs m) c r h4).trans (arg4 m c r h0 h1 h2 h3))
theorem arg8 (r : Ref sig .tc) (h0 : r ∉ hostOps0_W) (h1 : r ∉ hostOps0_1_W) (h2 : r ∉ hostOps0_2_W)
    (h3 : r ∉ ([main_v62] : List (Ref sig .tc))) (h4 : r ∉ hostOps1_W) (h5 : r ∉ ([main_v95] : List (Ref sig .tc)))
    (h6 : r ∉ hostOps2_W) (h7 : r ∉ ([main_v128] : List (Ref sig .tc))) :
    Gen.V8 m (outs m) c r = m ((c.tc : Thread nD τ).loc r) :=
  (Gen.V8_of m (outs m) c r h7).trans ((Gen.V7_of m (outs m) c r h6).trans (arg6 m c r h0 h1 h2 h3 h4 h5))

end Cert.Bridge

end
-- ==== Proof.RefLayer1.lean ====
/-
  The reference's layer 1 read at one element: the clipped sum of the three matrix products (of the layer's input, of its
  first and of its second Chebyshev transform, each with one slice of the layer's weight) and the bias. The input and the
  two transforms are left as the reference's own values; only the dense part of the layer is opened.
-/
import proofs.«104839_j69879117905989_1_alg».proof.Proof.RefRead
import Idealize.ShloMosaic.Lib.ValueIdx
import Idealize.ShloMosaic.PureOps.Ideal.Laws

noncomputable section

open scoped BigOperators

namespace Cert.RefSide

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The left operand's index of the first product at output `(a, b)` and contraction coordinate `k` is `(a, k)`. -/
theorem l1_lidx0 (a : Fin 100000) (b : Fin 128) (k : Fin 165) : lidx_main_v32 (ix2 a b) k = ix2 a k := by
  funext d; match d with | ⟨0, _⟩ => rfl | ⟨1, _⟩ => rfl
/-- The left operand's index of the second product at output `(a, b)` and contraction coordinate `k` is `(a, k)`. -/
theorem l1_lidx1 (a : Fin 100000) (b : Fin 128) (k : Fin 165) : lidx_main_v48 (ix2 a b) k = ix2 a k := by
  funext d; match d with | ⟨0, _⟩ => rfl | ⟨1, _⟩ => rfl
/-- The left operand's index of the third product at output `(a, b)` and contraction coordinate `k` is `(a, k)`. -/
theorem l1_lidx2 (a : Fin 100000) (b : Fin 128) (k : Fin 165) : lidx_main_v68 (ix2 a b) k = ix2 a k := by
  funext d; match d with | ⟨0, _⟩ => rfl | ⟨1, _⟩ => rfl
/-- The weight element the first product reads at `(a, b)`, `k`: slice 0 of the weight at `(k, b)` (the slice is flattened and
    unflattened by a reshape: `(k·128 + b) / 128 % 165 = k` and `(k·128 + b) % 128 = b`). -/
theorem l1_ridx0 (a : Fin 100000) (b : Fin 128) (k : Fin 165) :
    idx_main_v30 (idx_main_v31 (ridx_main_v32 (ix2 a b) k)) = ix3 (0 : Fin 3) k b := by
  funext d; refine Fin.ext ?_
  have hk := k.isLt; have hb := b.isLt
  match d with
  | ⟨0, _⟩ => rfl
  | ⟨1, _⟩ => show (k.val * 128 + b.val) / 128 % 165 = k.val; omega
  | ⟨2, _⟩ => show (k.val * 128 + b.val) % 128 = b.val; omega
/-- The weight element the second product reads at `(a, b)`, `k`: slice 1 of the weight at `(k, b)` (the slice is flattened and
    unflattened by a reshape: `(k·128 + b) / 128 % 165 = k` and `(k·128 + b) % 128 = b`). -/
theorem l1_ridx1 (a : Fin 100000) (b : Fin 128) (k : Fin 165) :
    idx_main_v46 (idx_main_v47 (ridx_main_v48 (ix2 a b) k)) = ix3 (1 : Fin 3) k b := by
  funext d; refine Fin.ext ?_
  have hk := k.isLt; have hb := b.isLt
  match d with
  | ⟨0, _⟩ => rfl
  | ⟨1, _⟩ => show (k.val * 128 + b.val) / 128 % 165 = k.val; omega
  | ⟨2, _⟩ => show (k.val * 128 + b.val) % 128 = b.val; omega
/-- The weight element the third product reads at `(a, b)`, `k`: slice 2 of the weight at `(k, b)` (the slice is flattened and
    unflattened by a reshape: `(k·128 + b) / 128 % 165 = k` and `(k·128 + b) % 128 = b`). -/
theorem l1_ridx2 (a : Fin 100000) (b : Fin 128) (k : Fin 165) :
    idx_main_v66 (idx_main_v67 (ridx_main_v68 (ix2 a b) k)) = ix3 (2 : Fin 3) k b := by
  funext d; refine Fin.ext ?_
  have hk := k.isLt; have hb := b.isLt
  match d with
  | ⟨0, _⟩ => rfl
  | ⟨1, _⟩ => show (k.val * 128 + b.val) / 128 % 165 = k.val; omega
  | ⟨2, _⟩ => show (k.val * 128 + b.val) % 128 = b.val; omega
/-- The bias element added at `(a, b)` is the bias at `b`. -/
theorem l1_bidx (a : Fin 100000) (b : Fin 128) : idx_main_v70 (idx_main_v71 (ix2 a b)) = ix1 b := by
  funext d; match d with | ⟨0, _⟩ => rfl

/-- The first product at `(a, b)`: row `a` of its left operand against column `b` of the weight's slice 0. -/
theorem l1_prod0 (x0 : (⟨S100000x165, .f32⟩ : BufTy).Contents (Elt Ideal)) (x2 : (⟨S3x165x128, .f32⟩ : BufTy).Contents (Elt Ideal))
    (a : Fin 100000) (b : Fin 128) :
    val_main_v32 (F := Ideal) x0 x2 (ix2 a b)
      = ∑ k : Fin 165, x0 (ix2 a k) * x2 (ix3 (0 : Fin 3) k b) := by
  rw [val_main_v32_apply]
  refine Finset.sum_congr rfl fun k _ => ?_
  rw [val_main_v31_apply, val_main_v30_apply, l1_ridx0, l1_lidx0]
/-- The second product at `(a, b)`: row `a` of its left operand against column `b` of the weight's slice 1. -/
theorem l1_prod1 (x0 : (⟨S100000x165, .f32⟩ : BufTy).Contents (Elt Ideal)) (x1 : (⟨S2x625000, .i32⟩ : BufTy).Contents (Elt Ideal)) (x2 : (⟨S3x165x128, .f32⟩ : BufTy).Contents (Elt Ideal))
    (a : Fin 100000) (b : Fin 128) :
    val_main_v48 (F := Ideal) x0 x1 x2 (ix2 a b)
      = ∑ k : Fin 165, (val_main_v45 (F := Ideal) x0 x1) (ix2 a k) * x2 (ix3 (1 : Fin 3) k b) := by
  rw [val_main_v48_apply]
  refine Finset.sum_congr rfl fun k _ => ?_
  rw [val_main_v47_apply, val_main_v46_apply, l1_ridx1, l1_lidx1]
/-- The third product at `(a, b)`: row `a` of its left operand against column `b` of the weight's slice 2. -/
theorem l1_prod2 (x0 : (⟨S100000x165, .f32⟩ : BufTy).Contents (Elt Ideal)) (x1 : (⟨S2x625000, .i32⟩ : BufTy).Contents (Elt Ideal)) (x2 : (⟨S3x165x128, .f32⟩ : BufTy).Contents (Elt Ideal))
    (a : Fin 100000) (b : Fin 128) :
    val_main_v68 (F := Ideal) x0 x1 x2 (ix2 a b)
      = ∑ k : Fin 165, (val_main_v65 (F := Ideal) x0 x1) (ix2 a k) * x2 (ix3 (2 : Fin 3) k b) := by
  rw [val_main_v68_apply]
  refine Finset.sum_congr rfl fun k _ => ?_
  rw [val_main_v67_apply, val_main_v66_apply, l1_ridx2, l1_lidx2]

/-- LAYER 1 AT `(a, b)`, the coordinates literal `Fin`s: `min 6 (max 0 (((P₀ + P₁) + P₂) + bias b))`, the two constants as the extended reals
    their words encode. -/
theorem ref_layer1_ix (x0 : (⟨S100000x165, .f32⟩ : BufTy).Contents (Elt Ideal)) (x1 : (⟨S2x625000, .i32⟩ : BufTy).Contents (Elt Ideal)) (x2 : (⟨S3x165x128, .f32⟩ : BufTy).Contents (Elt Ideal)) (x3 : (⟨S128, .f32⟩ : BufTy).Contents (Elt Ideal))
    (a : Fin 100000) (b : Fin 128) :
    val_main_v73 (F := Ideal) x0 x1 x2 x3 (ix2 a b)
      = min (Ideal.ofBits .f32 0x40C00000#32) (max (Ideal.ofBits .f32 0x00000000#32)
          (((∑ k : Fin 165, x0 (ix2 a k) * x2 (ix3 (0 : Fin 3) k b)
              + ∑ k : Fin 165, (val_main_v45 (F := Ideal) x0 x1) (ix2 a k) * x2 (ix3 (1 : Fin 3) k b))
              + ∑ k : Fin 165, (val_main_v65 (F := Ideal) x0 x1) (ix2 a k) * x2 (ix3 (2 : Fin 3) k b))
            + x3 (ix1 b))) := by
  rw [val_main_v73_apply, val_main_call1_v4_apply, val_main_call1_v3_apply, val_main_cst_15_apply,
    val_main_call1_v2_apply, val_main_call1_v1_apply, val_main_call1_v0_apply, val_main_cst_14_apply,
    val_main_v72_apply, val_main_v69_apply, val_main_v49_apply, l1_prod0, l1_prod1, l1_prod2,
    val_main_v71_apply, val_main_v70_apply, l1_bidx]
  rfl

/-- The same at an index `i` of the layer's output. -/
theorem ref_layer1_apply (x0 : (⟨S100000x165, .f32⟩ : BufTy).Contents (Elt Ideal)) (x1 : (⟨S2x625000, .i32⟩ : BufTy).Contents (Elt Ideal)) (x2 : (⟨S3x165x128, .f32⟩ : BufTy).Contents (Elt Ideal)) (x3 : (⟨S128, .f32⟩ : BufTy).Contents (Elt Ideal))
    (i : S100000x128.Idx) :
    val_main_v73 (F := Ideal) x0 x1 x2 x3 i
      = min (Ideal.ofBits .f32 0x40C00000#32) (max (Ideal.ofBits .f32 0x00000000#32)
          (((∑ k : Fin 165, x0 (ix2 (i 0) k) * x2 (ix3 (0 : Fin 3) k (i 1))
              + ∑ k : Fin 165, (val_main_v45 (F := Ideal) x0 x1) (ix2 (i 0) k) * x2 (ix3 (1 : Fin 3) k (i 1)))
              + ∑ k : Fin 165, (val_main_v65 (F := Ideal) x0 x1) (ix2 (i 0) k) * x2 (ix3 (2 : Fin 3) k (i 1)))
            + x3 (ix1 (i 1)))) :=
  (congrArg (val_main_v73 (F := Ideal) x0 x1 x2 x3) (eq_ix2 i)).trans (ref_layer1_ix x0 x1 x2 x3 (i 0) (i 1))

end Cert.RefSide
-- ==== Proof.SumSplit.lean ====
/-
  A sum over `Fin (n + n + n)` splits into its three consecutive blocks of length `n`, in any additive commutative
  monoid (the extended reals included: no finiteness is needed). Stated with the summands as the function applied to
  explicit `Fin` terms, and specialised to 495 = 3 · 165 and 384 = 3 · 128.
-/
import Mathlib.Algebra.BigOperators.Fin
import Mathlib.Data.EReal.Basic

open scoped BigOperators

namespace Cert.RefSide

/-- The sum over `Fin (n + n + n)` is the sum of the sums over its three blocks `[0, n)`, `[n, 2n)`, `[2n, 3n)`. -/
theorem sum_three_blocks {M : Type*} [AddCommMonoid M] (n : Nat) (f : Fin (n + n + n) → M) :
    ∑ j, f j
      = (∑ k : Fin n, f ⟨k.val, by have := k.isLt; omega⟩ + ∑ k : Fin n, f ⟨n + k.val, by have := k.isLt; omega⟩)
        + ∑ k : Fin n, f ⟨n + n + k.val, by have := k.isLt; omega⟩ := by
  rw [Fin.sum_univ_add, Fin.sum_univ_add]
  rfl

/-- 495 = 165 + 165 + 165: the three blocks start at 0, 165 and 330. -/
theorem sum_495 {M : Type*} [AddCommMonoid M] (f : Fin 495 → M) :
    ∑ j, f j
      = (∑ k : Fin 165, f ⟨k.val, by have := k.isLt; omega⟩ + ∑ k : Fin 165, f ⟨165 + k.val, by have := k.isLt; omega⟩)
        + ∑ k : Fin 165, f ⟨330 + k.val, by have := k.isLt; omega⟩ :=
  sum_three_blocks 165 f

/-- 384 = 128 + 128 + 128: the three blocks start at 0, 128 and 256. -/
theorem sum_384 {M : Type*} [AddCommMonoid M] (f : Fin 384 → M) :
    ∑ j, f j
      = (∑ k : Fin 128, f ⟨k.val, by have := k.isLt; omega⟩ + ∑ k : Fin 128, f ⟨128 + k.val, by have := k.isLt; omega⟩)
        + ∑ k : Fin 128, f ⟨256 + k.val, by have := k.isLt; omega⟩ :=
  sum_three_blocks 128 f

/-- The two at the extended reals, as the layer lemmas use them. -/
theorem sum_495_ereal (f : Fin 495 → EReal) :
    ∑ j, f j
      = (∑ k : Fin 165, f ⟨k.val, by have := k.isLt; omega⟩ + ∑ k : Fin 165, f ⟨165 + k.val, by have := k.isLt; omega⟩)
        + ∑ k : Fin 165, f ⟨330 + k.val, by have := k.isLt; omega⟩ :=
  sum_495 f

theorem sum_384_ereal (f : Fin 384 → EReal) :
    ∑ j, f j
      = (∑ k : Fin 128, f ⟨k.val, by have := k.isLt; omega⟩ + ∑ k : Fin 128, f ⟨128 + k.val, by have := k.isLt; omega⟩)
        + ∑ k : Fin 128, f ⟨256 + k.val, by have := k.isLt; omega⟩ :=
  sum_384 f

end Cert.RefSide
-- ==== Proof.LayerAlg.lean ====
/-
  The algebra of one dense layer, over abstract arrays of extended reals: a single product of the three side-by-side
  inputs with the three stacked weight slices is the sum of the three separate products. Three instances, by the sizes of
  the blocks and of the output.
-/
import proofs.«104839_j69879117905989_1_alg».proof.Proof.SumSplit
import Idealize.ShloMosaic.Lib.ValueIdx

open scoped BigOperators

namespace Cert.RefSide

open Idealize.ShloMosaic Idealize.ShloMosaic.ValueIdx

/-- One dense layer's algebra over abstract arrays, blocks of 165 in 495, 128 output columns: if `X` is the three arrays
    `T0 | T1 | T2` side by side along the columns, `Wc` the three slices of `W` stacked along the rows and `bc` the bias as a
    one-row array, then a row of `X` against a column of `Wc`, plus the bias, is the sum of the three separate products,
    plus the bias. The sum over the 495 columns splits into its three blocks; nothing else happens. -/
theorem bridge165 (X : (⟨2, ![100000, 495]⟩ : Shape).Idx → EReal) (Wc : (⟨2, ![495, 128]⟩ : Shape).Idx → EReal)
    (bc : (⟨2, ![1, 128]⟩ : Shape).Idx → EReal)
    (T0 T1 T2 : (⟨2, ![100000, 165]⟩ : Shape).Idx → EReal) (W : (⟨3, ![3, 165, 128]⟩ : Shape).Idx → EReal)
    (bias : (⟨1, ![128]⟩ : Shape).Idx → EReal)
    (hX0 : ∀ (a : Fin 100000) (k : Fin 165), X (ix2 a ⟨k.val, by have := k.isLt; omega⟩) = T0 (ix2 a k))
    (hX1 : ∀ (a : Fin 100000) (k : Fin 165), X (ix2 a ⟨165 + k.val, by have := k.isLt; omega⟩) = T1 (ix2 a k))
    (hX2 : ∀ (a : Fin 100000) (k : Fin 165), X (ix2 a ⟨330 + k.val, by have := k.isLt; omega⟩) = T2 (ix2 a k))
    (hW0 : ∀ (k : Fin 165) (b : Fin 128), Wc (ix2 ⟨k.val, by have := k.isLt; omega⟩ b) = W (ix3 (0 : Fin 3) k b))
    (hW1 : ∀ (k : Fin 165) (b : Fin 128), Wc (ix2 ⟨165 + k.val, by have := k.isLt; omega⟩ b) = W (ix3 (1 : Fin 3) k b))
    (hW2 : ∀ (k : Fin 165) (b : Fin 128), Wc (ix2 ⟨330 + k.val, by have := k.isLt; omega⟩ b) = W (ix3 (2 : Fin 3) k b))
    (hb : ∀ b : Fin 128, bc (ix2 (0 : Fin 1) b) = bias (ix1 b)) (a : Fin 100000) (b : Fin 128) :
    (∑ k : Fin 495, X (ix2 a k) * Wc (ix2 k b)) + bc (ix2 (0 : Fin 1) b)
      = ((∑ k : Fin 165, T0 (ix2 a k) * W (ix3 (0 : Fin 3) k b) + ∑ k : Fin 165, T1 (ix2 a k) * W (ix3 (1 : Fin 3) k b))
          + ∑ k : Fin 165, T2 (ix2 a k) * W (ix3 (2 : Fin 3) k b)) + bias (ix1 b) := by
  rw [sum_495_ereal (fun k => X (ix2 a k) * Wc (ix2 k b))]
  simp only [hX0, hX1, hX2, hW0, hW1, hW2, hb]

/-- One dense layer's algebra over abstract arrays, blocks of 128 in 384, 128 output columns: if `X` is the three arrays
    `T0 | T1 | T2` side by side along the columns, `Wc` the three slices of `W` stacked along the rows and `bc` the bias as a
    one-row array, then a row of `X` against a column of `Wc`, plus the bias, is the sum of the three separate products,
    plus the bias. The sum over the 384 columns splits into its three blocks; nothing else happens. -/
theorem bridge128 (X : (⟨2, ![100000, 384]⟩ : Shape).Idx → EReal) (Wc : (⟨2, ![384, 128]⟩ : Shape).Idx → EReal)
    (bc : (⟨2, ![1, 128]⟩ : Shape).Idx → EReal)
    (T0 T1 T2 : (⟨2, ![100000, 128]⟩ : Shape).Idx → EReal) (W : (⟨3, ![3, 128, 128]⟩ : Shape).Idx → EReal)
    (bias : (⟨1, ![128]⟩ : Shape).Idx → EReal)
    (hX0 : ∀ (a : Fin 100000) (k : Fin 128), X (ix2 a ⟨k.val, by have := k.isLt; omega⟩) = T0 (ix2 a k))
    (hX1 : ∀ (a : Fin 100000) (k : Fin 128), X (ix2 a ⟨128 + k.val, by have := k.isLt; omega⟩) = T1 (ix2 a k))
    (hX2 : ∀ (a : Fin 100000) (k : Fin 128), X (ix2 a ⟨256 + k.val, by have := k.isLt; omega⟩) = T2 (ix2 a k))
    (hW0 : ∀ (k : Fin 128) (b : Fin 128), Wc (ix2 ⟨k.val, by have := k.isLt; omega⟩ b) = W (ix3 (0 : Fin 3) k b))
    (hW1 : ∀ (k : Fin 128) (b : Fin 128), Wc (ix2 ⟨128 + k.val, by have := k.isLt; omega⟩ b) = W (ix3 (1 : Fin 3) k b))
    (hW2 : ∀ (k : Fin 128) (b : Fin 128), Wc (ix2 ⟨256 + k.val, by have := k.isLt; omega⟩ b) = W (ix3 (2 : Fin 3) k b))
    (hb : ∀ b : Fin 128, bc (ix2 (0 : Fin 1) b) = bias (ix1 b)) (a : Fin 100000) (b : Fin 128) :
    (∑ k : Fin 384, X (ix2 a k) * Wc (ix2 k b)) + bc (ix2 (0 : Fin 1) b)
      = ((∑ k : Fin 128, T0 (ix2 a k) * W (ix3 (0 : Fin 3) k b) + ∑ k : Fin 128, T1 (ix2 a k) * W (ix3 (1 : Fin 3) k b))
          + ∑ k : Fin 128, T2 (ix2 a k) * W (ix3 (2 : Fin 3) k b)) + bias (ix1 b) := by
  rw [sum_384_ereal (fun k => X (ix2 a k) * Wc (ix2 k b))]
  simp only [hX0, hX1, hX2, hW0, hW1, hW2, hb]

/-- One dense layer's algebra over abstract arrays, blocks of 128 in 384, 2 output columns: if `X` is the three arrays
    `T0 | T1 | T2` side by side along the columns, `Wc` the three slices of `W` stacked along the rows and `bc` the bias as a
    one-row array, then a row of `X` against a column of `Wc`, plus the bias, is the sum of the three separate products,
    plus the bias. The sum over the 384 columns splits into its three blocks; nothing else happens. -/
theorem bridge128x2 (X : (⟨2, ![100000, 384]⟩ : Shape).Idx → EReal) (Wc : (⟨2, ![384, 2]⟩ : Shape).Idx → EReal)
    (bc : (⟨2, ![1, 2]⟩ : Shape).Idx → EReal)
    (T0 T1 T2 : (⟨2, ![100000, 128]⟩ : Shape).Idx → EReal) (W : (⟨3, ![3, 128, 2]⟩ : Shape).Idx → EReal)
    (bias : (⟨1, ![2]⟩ : Shape).Idx → EReal)
    (hX0 : ∀ (a : Fin 100000) (k : Fin 128), X (ix2 a ⟨k.val, by have := k.isLt; omega⟩) = T0 (ix2 a k))
    (hX1 : ∀ (a : Fin 100000) (k : Fin 128), X (ix2 a ⟨128 + k.val, by have := k.isLt; omega⟩) = T1 (ix2 a k))
    (hX2 : ∀ (a : Fin 100000) (k : Fin 128), X (ix2 a ⟨256 + k.val, by have := k.isLt; omega⟩) = T2 (ix2 a k))
    (hW0 : ∀ (k : Fin 128) (b : Fin 2), Wc (ix2 ⟨k.val, by have := k.isLt; omega⟩ b) = W (ix3 (0 : Fin 3) k b))
    (hW1 : ∀ (k : Fin 128) (b : Fin 2), Wc (ix2 ⟨128 + k.val, by have := k.isLt; omega⟩ b) = W (ix3 (1 : Fin 3) k b))
    (hW2 : ∀ (k : Fin 128) (b : Fin 2), Wc (ix2 ⟨256 + k.val, by have := k.isLt; omega⟩ b) = W (ix3 (2 : Fin 3) k b))
    (hb : ∀ b : Fin 2, bc (ix2 (0 : Fin 1) b) = bias (ix1 b)) (a : Fin 100000) (b : Fin 2) :
    (∑ k : Fin 384, X (ix2 a k) * Wc (ix2 k b)) + bc (ix2 (0 : Fin 1) b)
      = ((∑ k : Fin 128, T0 (ix2 a k) * W (ix3 (0 : Fin 3) k b) + ∑ k : Fin 128, T1 (ix2 a k) * W (ix3 (1 : Fin 3) k b))
          + ∑ k : Fin 128, T2 (ix2 a k) * W (ix3 (2 : Fin 3) k b)) + bias (ix1 b) := by
  rw [sum_384_ereal (fun k => X (ix2 a k) * Wc (ix2 k b))]
  simp only [hX0, hX1, hX2, hW0, hW1, hW2, hb]

end Cert.RefSide
-- ==== Proof.LayoutReads.lean ====
/-
  The layout operations that prepare one dense layer's operands, read at an index, over abstract arrays of extended
  reals and literal shapes: three arrays laid side by side along the columns (a concatenation), the weight's three slices
  stacked along the rows (a reshape of `[3, F, H]` to `[3F, H]`), and the bias as a one-row array (a reshape of `[H]` to
  `[1, H]`). Each shape fact is a hypothesis, so a lemma applies to whatever proof a program carries for it.
-/
import Idealize.ShloMosaic.Lib.Pipeline.Value
import Idealize.ShloMosaic.Lib.ValueIdx
import Mathlib.Data.EReal.Basic

namespace Cert.RefSide

open Idealize.ShloMosaic Idealize.ShloMosaic.ValueIdx

/-- Three `[100000, 165]` arrays side by side along the columns, read at column `k` (`k < 165`): the first array at column `k`. -/
theorem concat165_0 (T0 T1 T2 : (⟨2, ![100000, 165]⟩ : Shape).Idx → EReal)
    (h : Shape.Concatenates [(⟨2, ![100000, 165]⟩ : Shape), (⟨2, ![100000, 165]⟩ : Shape), (⟨2, ![100000, 165]⟩ : Shape)] (⟨2, ![100000, 495]⟩ : Shape) 1) (a : Fin 100000) (k : Fin 165) :
    concatenate (⟨2, ![100000, 495]⟩ : Shape) 1 [⟨(⟨2, ![100000, 165]⟩ : Shape), T0⟩, ⟨(⟨2, ![100000, 165]⟩ : Shape), T1⟩, ⟨(⟨2, ![100000, 165]⟩ : Shape), T2⟩] h (ix2 a ⟨k.val, by have := k.isLt; omega⟩) = T0 (ix2 a k) :=
  concatenate_apply_piece (1 : Fin (⟨2, ![100000, 495]⟩ : Shape).rank) [⟨(⟨2, ![100000, 165]⟩ : Shape), T0⟩, ⟨(⟨2, ![100000, 165]⟩ : Shape), T1⟩, ⟨(⟨2, ![100000, 165]⟩ : Shape), T2⟩] h (ix2 a ⟨k.val, by have := k.isLt; omega⟩)
    0 (show (0 : Nat) < 3 by decide) (⟨2, ![100000, 165]⟩ : Shape) T0 rfl rfl 0 rfl (ix2 a k)
    (fun b hb => match b with
      | ⟨0, _⟩ => rfl
      | ⟨1, _⟩ => absurd rfl hb)
    (Nat.zero_add _)
/-- Three `[100000, 165]` arrays side by side along the columns, read at column `165 + k` (`k < 165`): the second array at column `k`. -/
theorem concat165_1 (T0 T1 T2 : (⟨2, ![100000, 165]⟩ : Shape).Idx → EReal)
    (h : Shape.Concatenates [(⟨2, ![100000, 165]⟩ : Shape), (⟨2, ![100000, 165]⟩ : Shape), (⟨2, ![100000, 165]⟩ : Shape)] (⟨2, ![100000, 495]⟩ : Shape) 1) (a : Fin 100000) (k : Fin 165) :
    concatenate (⟨2, ![100000, 495]⟩ : Shape) 1 [⟨(⟨2, ![100000, 165]⟩ : Shape), T0⟩, ⟨(⟨2, ![100000, 165]⟩ : Shape), T1⟩, ⟨(⟨2, ![100000, 165]⟩ : Shape), T2⟩] h (ix2 a ⟨165 + k.val, by have := k.isLt; omega⟩) = T1 (ix2 a k) :=
  concatenate_apply_piece (1 : Fin (⟨2, ![100000, 495]⟩ : Shape).rank) [⟨(⟨2, ![100000, 165]⟩ : Shape), T0⟩, ⟨(⟨2, ![100000, 165]⟩ : Shape), T1⟩, ⟨(⟨2, ![100000, 165]⟩ : Shape), T2⟩] h (ix2 a ⟨165 + k.val, by have := k.isLt; omega⟩)
    1 (show (1 : Nat) < 3 by decide) (⟨2, ![100000, 165]⟩ : Shape) T1 rfl rfl 165 rfl (ix2 a k)
    (fun b hb => match b with
      | ⟨0, _⟩ => rfl
      | ⟨1, _⟩ => absurd rfl hb)
    rfl
/-- Three `[100000, 165]` arrays side by side along the columns, read at column `330 + k` (`k < 165`): the third array at column `k`. -/
theorem concat165_2 (T0 T1 T2 : (⟨2, ![100000, 165]⟩ : Shape).Idx → EReal)
    (h : Shape.Concatenates [(⟨2, ![100000, 165]⟩ : Shape), (⟨2, ![100000, 165]⟩ : Shape), (⟨2, ![100000, 165]⟩ : Shape)] (⟨2, ![100000, 495]⟩ : Shape) 1) (a : Fin 100000) (k : Fin 165) :
    concatenate (⟨2, ![100000, 495]⟩ : Shape) 1 [⟨(⟨2, ![100000, 165]⟩ : Shape), T0⟩, ⟨(⟨2, ![100000, 165]⟩ : Shape), T1⟩, ⟨(⟨2, ![100000, 165]⟩ : Shape), T2⟩] h (ix2 a ⟨330 + k.val, by have := k.isLt; omega⟩) = T2 (ix2 a k) :=
  concatenate_apply_piece (1 : Fin (⟨2, ![100000, 495]⟩ : Shape).rank) [⟨(⟨2, ![100000, 165]⟩ : Shape), T0⟩, ⟨(⟨2, ![100000, 165]⟩ : Shape), T1⟩, ⟨(⟨2, ![100000, 165]⟩ : Shape), T2⟩] h (ix2 a ⟨330 + k.val, by have := k.isLt; omega⟩)
    2 (show (2 : Nat) < 3 by decide) (⟨2, ![100000, 165]⟩ : Shape) T2 rfl rfl 330 rfl (ix2 a k)
    (fun b hb => match b with
      | ⟨0, _⟩ => rfl
      | ⟨1, _⟩ => absurd rfl hb)
    rfl

/-- Three `[100000, 128]` arrays side by side along the columns, read at column `k` (`k < 128`): the first array at column `k`. -/
theorem concat128_0 (T0 T1 T2 : (⟨2, ![100000, 128]⟩ : Shape).Idx → EReal)
    (h : Shape.Concatenates [(⟨2, ![100000, 128]⟩ : Shape), (⟨2, ![100000, 128]⟩ : Shape), (⟨2, ![100000, 128]⟩ : Shape)] (⟨2, ![100000, 384]⟩ : Shape) 1) (a : Fin 100000) (k : Fin 128) :
    concatenate (⟨2, ![100000, 384]⟩ : Shape) 1 [⟨(⟨2, ![100000, 128]⟩ : Shape), T0⟩, ⟨(⟨2, ![100000, 128]⟩ : Shape), T1⟩, ⟨(⟨2, ![100000, 128]⟩ : Shape), T2⟩] h (ix2 a ⟨k.val, by have := k.isLt; omega⟩) = T0 (ix2 a k) :=
  concatenate_apply_piece (1 : Fin (⟨2, ![100000, 384]⟩ : Shape).rank) [⟨(⟨2, ![100000, 128]⟩ : Shape), T0⟩, ⟨(⟨2, ![100000, 128]⟩ : Shape), T1⟩, ⟨(⟨2, ![100000, 128]⟩ : Shape), T2⟩] h (ix2 a ⟨k.val, by have := k.isLt; omega⟩)
    0 (show (0 : Nat) < 3 by decide) (⟨2, ![100000, 128]⟩ : Shape) T0 rfl rfl 0 rfl (ix2 a k)
    (fun b hb => match b with
      | ⟨0, _⟩ => rfl
      | ⟨1, _⟩ => absurd rfl hb)
    (Nat.zero_add _)
/-- Three `[100000, 128]` arrays side by side along the columns, read at column `128 + k` (`k < 128`): the second array at column `k`. -/
theorem concat128_1 (T0 T1 T2 : (⟨2, ![100000, 128]⟩ : Shape).Idx → EReal)
    (h : Shape.Concatenates [(⟨2, ![100000, 128]⟩ : Shape), (⟨2, ![100000, 128]⟩ : Shape), (⟨2, ![100000, 128]⟩ : Shape)] (⟨2, ![100000, 384]⟩ : Shape) 1) (a : Fin 100000) (k : Fin 128) :
    concatenate (⟨2, ![100000, 384]⟩ : Shape) 1 [⟨(⟨2, ![100000, 128]⟩ : Shape), T0⟩, ⟨(⟨2, ![100000, 128]⟩ : Shape), T1⟩, ⟨(⟨2, ![100000, 128]⟩ : Shape), T2⟩] h (ix2 a ⟨128 + k.val, by have := k.isLt; omega⟩) = T1 (ix2 a k) :=
  concatenate_apply_piece (1 : Fin (⟨2, ![100000, 384]⟩ : Shape).rank) [⟨(⟨2, ![100000, 128]⟩ : Shape), T0⟩, ⟨(⟨2, ![100000, 128]⟩ : Shape), T1⟩, ⟨(⟨2, ![100000, 128]⟩ : Shape), T2⟩] h (ix2 a ⟨128 + k.val, by have := k.isLt; omega⟩)
    1 (show (1 : Nat) < 3 by decide) (⟨2, ![100000, 128]⟩ : Shape) T1 rfl rfl 128 rfl (ix2 a k)
    (fun b hb => match b with
      | ⟨0, _⟩ => rfl
      | ⟨1, _⟩ => absurd rfl hb)
    rfl
/-- Three `[100000, 128]` arrays side by side along the columns, read at column `256 + k` (`k < 128`): the third array at column `k`. -/
theorem concat128_2 (T0 T1 T2 : (⟨2, ![100000, 128]⟩ : Shape).Idx → EReal)
    (h : Shape.Concatenates [(⟨2, ![100000, 128]⟩ : Shape), (⟨2, ![100000, 128]⟩ : Shape), (⟨2, ![100000, 128]⟩ : Shape)] (⟨2, ![100000, 384]⟩ : Shape) 1) (a : Fin 100000) (k : Fin 128) :
    concatenate (⟨2, ![100000, 384]⟩ : Shape) 1 [⟨(⟨2, ![100000, 128]⟩ : Shape), T0⟩, ⟨(⟨2, ![100000, 128]⟩ : Shape), T1⟩, ⟨(⟨2, ![100000, 128]⟩ : Shape), T2⟩] h (ix2 a ⟨256 + k.val, by have := k.isLt; omega⟩) = T2 (ix2 a k) :=
  concatenate_apply_piece (1 : Fin (⟨2, ![100000, 384]⟩ : Shape).rank) [⟨(⟨2, ![100000, 128]⟩ : Shape), T0⟩, ⟨(⟨2, ![100000, 128]⟩ : Shape), T1⟩, ⟨(⟨2, ![100000, 128]⟩ : Shape), T2⟩] h (ix2 a ⟨256 + k.val, by have := k.isLt; omega⟩)
    2 (show (2 : Nat) < 3 by decide) (⟨2, ![100000, 128]⟩ : Shape) T2 rfl rfl 256 rfl (ix2 a k)
    (fun b hb => match b with
      | ⟨0, _⟩ => rfl
      | ⟨1, _⟩ => absurd rfl hb)
    rfl

/-- The weight `[3, 165, 128]` flattened to `[495, 128]`, read at row `k` (`k < 165`): slice 0 at row `k`
    (the two indices have the same row-major position). -/
theorem reshapeW165_0 (W : (⟨3, ![3, 165, 128]⟩ : Shape).Idx → EReal) (h : (⟨3, ![3, 165, 128]⟩ : Shape).ShapeCasts (⟨2, ![495, 128]⟩ : Shape)) (k : Fin 165) (b : Fin 128) :
    shapeCast (⟨2, ![495, 128]⟩ : Shape) W h (ix2 ⟨k.val, by have := k.isLt; omega⟩ b) = W (ix3 (0 : Fin 3) k b) :=
  shapeCast_apply W h _ _ (by
    rw [Shape.rowMajor_val_three, Shape.rowMajor_val_two]
    show (0 * 165 + k.val) * 128 + b.val = (k.val) * 128 + b.val
    omega)
/-- The weight `[3, 165, 128]` flattened to `[495, 128]`, read at row `165 + k` (`k < 165`): slice 1 at row `k`
    (the two indices have the same row-major position). -/
theorem reshapeW165_1 (W : (⟨3, ![3, 165, 128]⟩ : Shape).Idx → EReal) (h : (⟨3, ![3, 165, 128]⟩ : Shape).ShapeCasts (⟨2, ![495, 128]⟩ : Shape)) (k : Fin 165) (b : Fin 128) :
    shapeCast (⟨2, ![495, 128]⟩ : Shape) W h (ix2 ⟨165 + k.val, by have := k.isLt; omega⟩ b) = W (ix3 (1 : Fin 3) k b) :=
  shapeCast_apply W h _ _ (by
    rw [Shape.rowMajor_val_three, Shape.rowMajor_val_two]
    show (1 * 165 + k.val) * 128 + b.val = (165 + k.val) * 128 + b.val
    omega)
/-- The weight `[3, 165, 128]` flattened to `[495, 128]`, read at row `330 + k` (`k < 165`): slice 2 at row `k`
    (the two indices have the same row-major position). -/
theorem reshapeW165_2 (W : (⟨3, ![3, 165, 128]⟩ : Shape).Idx → EReal) (h : (⟨3, ![3, 165, 128]⟩ : Shape).ShapeCasts (⟨2, ![495, 128]⟩ : Shape)) (k : Fin 165) (b : Fin 128) :
    shapeCast (⟨2, ![495, 128]⟩ : Shape) W h (ix2 ⟨330 + k.val, by have := k.isLt; omega⟩ b) = W (ix3 (2 : Fin 3) k b) :=
  shapeCast_apply W h _ _ (by
    rw [Shape.rowMajor_val_three, Shape.rowMajor_val_two]
    show (2 * 165 + k.val) * 128 + b.val = (330 + k.val) * 128 + b.val
    omega)

/-- The weight `[3, 128, 128]` flattened to `[384, 128]`, read at row `k` (`k < 128`): slice 0 at row `k`
    (the two indices have the same row-major position). -/
theorem reshapeW128_0 (W : (⟨3, ![3, 128, 128]⟩ : Shape).Idx → EReal) (h : (⟨3, ![3, 128, 128]⟩ : Shape).ShapeCasts (⟨2, ![384, 128]⟩ : Shape)) (k : Fin 128) (b : Fin 128) :
    shapeCast (⟨2, ![384, 128]⟩ : Shape) W h (ix2 ⟨k.val, by have := k.isLt; omega⟩ b) = W (ix3 (0 : Fin 3) k b) :=
  shapeCast_apply W h _ _ (by
    rw [Shape.rowMajor_val_three, Shape.rowMajor_val_two]
    show (0 * 128 + k.val) * 128 + b.val = (k.val) * 128 + b.val
    omega)
/-- The weight `[3, 128, 128]` flattened to `[384, 128]`, read at row `128 + k` (`k < 128`): slice 1 at row `k`
    (the two indices have the same row-major position). -/
theorem reshapeW128_1 (W : (⟨3, ![3, 128, 128]⟩ : Shape).Idx → EReal) (h : (⟨3, ![3, 128, 128]⟩ : Shape).ShapeCasts (⟨2, ![384, 128]⟩ : Shape)) (k : Fin 128) (b : Fin 128) :
    shapeCast (⟨2, ![384, 128]⟩ : Shape) W h (ix2 ⟨128 + k.val, by have := k.isLt; omega⟩ b) = W (ix3 (1 : Fin 3) k b) :=
  shapeCast_apply W h _ _ (by
    rw [Shape.rowMajor_val_three, Shape.rowMajor_val_two]
    show (1 * 128 + k.val) * 128 + b.val = (128 + k.val) * 128 + b.val
    omega)
/-- The weight `[3, 128, 128]` flattened to `[384, 128]`, read at row `256 + k` (`k < 128`): slice 2 at row `k`
    (the two indices have the same row-major position). -/
theorem reshapeW128_2 (W : (⟨3, ![3, 128, 128]⟩ : Shape).Idx → EReal) (h : (⟨3, ![3, 128, 128]⟩ : Shape).ShapeCasts (⟨2, ![384, 128]⟩ : Shape)) (k : Fin 128) (b : Fin 128) :
    shapeCast (⟨2, ![384, 128]⟩ : Shape) W h (ix2 ⟨256 + k.val, by have := k.isLt; omega⟩ b) = W (ix3 (2 : Fin 3) k b) :=
  shapeCast_apply W h _ _ (by
    rw [Shape.rowMajor_val_three, Shape.rowMajor_val_two]
    show (2 * 128 + k.val) * 128 + b.val = (256 + k.val) * 128 + b.val
    omega)

/-- The weight `[3, 128, 2]` flattened to `[384, 2]`, read at row `k` (`k < 128`): slice 0 at row `k`
    (the two indices have the same row-major position). -/
theorem reshapeW128x2_0 (W : (⟨3, ![3, 128, 2]⟩ : Shape).Idx → EReal) (h : (⟨3, ![3, 128, 2]⟩ : Shape).ShapeCasts (⟨2, ![384, 2]⟩ : Shape)) (k : Fin 128) (b : Fin 2) :
    shapeCast (⟨2, ![384, 2]⟩ : Shape) W h (ix2 ⟨k.val, by have := k.isLt; omega⟩ b) = W (ix3 (0 : Fin 3) k b) :=
  shapeCast_apply W h _ _ (by
    rw [Shape.rowMajor_val_three, Shape.rowMajor_val_two]
    show (0 * 128 + k.val) * 2 + b.val = (k.val) * 2 + b.val
    omega)
/-- The weight `[3, 128, 2]` flattened to `[384, 2]`, read at row `128 + k` (`k < 128`): slice 1 at row `k`
    (the two indices have the same row-major position). -/
theorem reshapeW128x2_1 (W : (⟨3, ![3, 128, 2]⟩ : Shape).Idx → EReal) (h : (⟨3, ![3, 128, 2]⟩ : Shape).ShapeCasts (⟨2, ![384, 2]⟩ : Shape)) (k : Fin 128) (b : Fin 2) :
    shapeCast (⟨2, ![384, 2]⟩ : Shape) W h (ix2 ⟨128 + k.val, by have := k.isLt; omega⟩ b) = W (ix3 (1 : Fin 3) k b) :=
  shapeCast_apply W h _ _ (by
    rw [Shape.rowMajor_val_three, Shape.rowMajor_val_two]
    show (1 * 128 + k.val) * 2 + b.val = (128 + k.val) * 2 + b.val
    omega)
/-- The weight `[3, 128, 2]` flattened to `[384, 2]`, read at row `256 + k` (`k < 128`): slice 2 at row `k`
    (the two indices have the same row-major position). -/
theorem reshapeW128x2_2 (W : (⟨3, ![3, 128, 2]⟩ : Shape).Idx → EReal) (h : (⟨3, ![3, 128, 2]⟩ : Shape).ShapeCasts (⟨2, ![384, 2]⟩ : Shape)) (k : Fin 128) (b : Fin 2) :
    shapeCast (⟨2, ![384, 2]⟩ : Shape) W h (ix2 ⟨256 + k.val, by have := k.isLt; omega⟩ b) = W (ix3 (2 : Fin 3) k b) :=
  shapeCast_apply W h _ _ (by
    rw [Shape.rowMajor_val_three, Shape.rowMajor_val_two]
    show (2 * 128 + k.val) * 2 + b.val = (256 + k.val) * 2 + b.val
    omega)

/-- The bias `[128]` as a one-row array `[1, 128]`, read at `(0, b)`: the bias at `b`. -/
theorem reshapeB128 (bias : (⟨1, ![128]⟩ : Shape).Idx → EReal) (h : (⟨1, ![128]⟩ : Shape).ShapeCasts (⟨2, ![1, 128]⟩ : Shape)) (b : Fin 128) :
    shapeCast (⟨2, ![1, 128]⟩ : Shape) bias h (ix2 (0 : Fin 1) b) = bias (ix1 b) :=
  shapeCast_apply bias h _ _ (by
    rw [Shape.rowMajor_val_one, Shape.rowMajor_val_two]
    show b.val = 0 * 128 + b.val
    omega)

/-- The bias `[2]` as a one-row array `[1, 2]`, read at `(0, b)`: the bias at `b`. -/
theorem reshapeB2 (bias : (⟨1, ![2]⟩ : Shape).Idx → EReal) (h : (⟨1, ![2]⟩ : Shape).ShapeCasts (⟨2, ![1, 2]⟩ : Shape)) (b : Fin 2) :
    shapeCast (⟨2, ![1, 2]⟩ : Shape) bias h (ix2 (0 : Fin 1) b) = bias (ix1 b) :=
  shapeCast_apply bias h _ _ (by
    rw [Shape.rowMajor_val_one, Shape.rowMajor_val_two]
    show b.val = 0 * 2 + b.val
    omega)

end Cert.RefSide
-- ==== Proof.LayerEq1.lean ====
/-
  Layer 1 as the kernel computes it and as the reference computes it are one array. The kernel multiplies the
  concatenation [T0 | T1 | T2] (495 columns) by the weights reshaped to 495 rows; the reference adds the three
  products T0·W[0], T1·W[1], T2·W[2]. Entry by entry, the long sum splits into the three blocks of 165 columns; the
  bias entry and the clamp to [0, 6] are the same on both sides. Addition of extended reals is commutative and associative, so no
  finiteness is used.
-/
import proofs.«104839_j69879117905989_1_alg».proof.Proof.KFinal
import proofs.«104839_j69879117905989_1_alg».proof.Proof.RefRead
import proofs.«104839_j69879117905989_1_alg».proof.Proof.RefLayer1
import proofs.«104839_j69879117905989_1_alg».proof.Proof.LayerAlg
import proofs.«104839_j69879117905989_1_alg».proof.Proof.LayoutReads

set_option maxRecDepth 16384

noncomputable section

namespace Cert.Bridge

open Cert.KernelIdeal Cert.KernelIdeal.Gen Cert.KernelIdeal.HandValue
open Idealize.ShloMosaic Idealize.ShloMosaic.TcCoe Idealize.ShloMosaic.ValueIdx
open Cert.ReferenceIdeal.Read (val_main_v45 val_main_v65 val_main_v73 val_main_v89 val_main_v109
  val_main_v117 val_main_v133 val_main_v153 val_main_v161 val_main_v177 val_main_v197 val_main_v204)

theorem layer1_eq (x0 : (⟨S100000x165, .f32⟩ : BufTy).Contents (Elt Ideal)) (x1 : (⟨S2x625000, .i32⟩ : BufTy).Contents (Elt Ideal)) (x2 : (⟨S3x165x128, .f32⟩ : BufTy).Contents (Elt Ideal)) (x3 : (⟨S128, .f32⟩ : BufTy).Contents (Elt Ideal)) :
    layer0 (concatenate S100000x495 1 [⟨S100000x165, x0⟩, ⟨S100000x165, val_main_v45 (F := Ideal) x0 x1⟩, ⟨S100000x165, val_main_v65 (F := Ideal) x0 x1⟩] concatenates_S100000x165_S100000x165_S100000x165_S100000x495_d1)
        (shapeCast S495x128 x2 shapeCasts_S3x165x128_S495x128) (shapeCast S1x128 x3 shapeCasts_S128_S1x128)
      = val_main_v73 (F := Ideal) x0 x1 x2 x3 := by
  funext i
  obtain ⟨a, b, rfl⟩ : ∃ (a : Fin 100000) (b : Fin 128), i = ix2 a b := ⟨i 0, i 1, eq_ix2 i⟩
  rw [layer0_ix]
  refine Eq.trans ?_ (Cert.RefSide.ref_layer1_ix x0 x1 x2 x3 a b).symm
  unfold entry0
  exact congrArg (min _) (congrArg (max _) (Cert.RefSide.bridge165 _ _ _ _ _ _ _ _
    (Cert.RefSide.concat165_0 _ _ _ _) (Cert.RefSide.concat165_1 _ _ _ _) (Cert.RefSide.concat165_2 _ _ _ _)
    (Cert.RefSide.reshapeW165_0 _ _) (Cert.RefSide.reshapeW165_1 _ _) (Cert.RefSide.reshapeW165_2 _ _)
    (Cert.RefSide.reshapeB128 _ _) a b))

end Cert.Bridge

end
-- ==== Proof.LibNary3.lean ====
/-
  A host operation with three operands (a concatenation of three arrays), read after it has run: its function applied to
  the three operands' contents, each AT ITS OWN BUFFER — so that what wrote those buffers can be read in turn. (The
  operands come as a vector of three buffers; read through the vector under a binder, a buffer is not a literal and
  nothing about the operation that wrote it applies.) The four-operand case is the library's; this is the same statement
  for three. `host_results3` is the one simplification pass that reads a whole list of host operations with it.
-/
import Idealize.ShloMosaic.Lib.StableHlo.Run

namespace Idealize.ShloMosaic.StableHlo

open Idealize.SL.Sem

variable {nD : Nat} {τ : Topo} {sig : RefSig} {Val : EltTy → Type}
variable {x a b y : Ref sig .tc}

/-- The result of a three-operand operation at its own result buffer, the operands' contents named buffer by buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, stated for the simplifier (the result buffer un-indexed, as the library's `*_result'` lemmas are). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The same with the three operands' contents GIVEN: whatever the valuation holds at the three operand buffers (three
    equations, each a goal of its own), the operation's result is its function of those three values. -/
theorem nary3_result_of
    (f : ((k : Fin 3) → ((![x, a, b] : Fin 3 → Ref sig .tc) k).ty.Contents Val) → y.ty.Contents Val) (hxs hy)
    (F : Valuation τ sig Val) (A : x.ty.Contents Val) (B : a.ty.Contents Val) (C : b.ty.Contents Val)
    (hA : F (Proc.devRef .tc x) = A) (hB : F (Proc.devRef .tc a) = B) (hC : F (Proc.devRef .tc b) = C) :
    (nary (τ := τ) ![x, a, b] y f hxs hy).result F (Proc.devRef .tc y)
      = f (Fin.cons A (Fin.cons B (Fin.cons C (fun i => i.elim0)))) := by
  subst hA hB hC
  exact nary3_result f hxs hy F

/-- The third entry of a dependent triple built by `Fin.cons`: the literal index 2 is the successor of 1. -/
theorem cons_two_of_three {α : Fin 3 → Sort _} (x : α 0) (p : ∀ i : Fin 2, α i.succ) : (Fin.cons x p : ∀ k, α k) 2 = p 1 := rfl

/-- What a literal list of host operations leaves in one buffer, as one simplification pass: the library's pass with the
    three-operand statement above in place of the general n-ary one. -/
macro "host_results3" : tactic =>
  `(tactic| (simp (disch := decide) only [after_cons, after_nil,
      nullary_result', unary_result', binary_result', ternary_result', quaternary_result', reshape_result', nary4_result', nary3_result',
      unaryIndexed_result', binaryIndexed_result',
      nullary_result_ne', unary_result_ne', binary_result_ne', ternary_result_ne', quaternary_result_ne', reshape_result_ne',
      nary_result_ne', unaryIndexed_result_ne', binaryIndexed_result_ne']))

/-- The same when the buffer read is a three-operand operation's result: read the operation, select its three operands
    out of the triple, and go on reading what wrote them. -/
macro "host_results3_cat" : tactic =>
  `(tactic| (host_results3
             simp only [Fin.cons_zero, Fin.cons_one, cons_two_of_three]
             host_results3))

end Idealize.ShloMosaic.StableHlo
-- ==== Proof.BridgeL1.lean ====
/-
  Layer 1's launch in the reference's terms: the three arrays it reads — the concatenated Chebyshev terms, the
  reshaped weights, the bias row — as the host operations before it leave them, and the array it writes.
-/
import proofs.«104839_j69879117905989_1_alg».proof.Proof.Bridge0
import proofs.«104839_j69879117905989_1_alg».proof.Proof.LayerEq1
import proofs.«104839_j69879117905989_1_alg».proof.Proof.LibNary3

set_option maxRecDepth 16384
set_option maxHeartbeats 4000000

noncomputable section

namespace Cert.Bridge

open Cert.KernelIdeal Cert.KernelIdeal.Gen Cert.KernelIdeal.Hand Cert.KernelIdeal.HandValue
open Idealize.ShloMosaic Idealize.ShloMosaic.TcCoe Idealize.SL.Sem Idealize.ShloMosaic.StableHlo Idealize.ShloMosaic.ValueIdx
open Cert.ReferenceIdeal.Read (val_main_v1 val_main_v3 val_main_v29 val_main_v45 val_main_v65 val_main_v73 val_main_v89 val_main_v109
  val_main_v117 val_main_v133 val_main_v153 val_main_v161 val_main_v177 val_main_v197 val_main_v204)

variable (m : (ℓ : Loc nD τ sig) → Buf (Elt Ideal) ℓ) (c : Dev nD)

set_option maxRecDepth 100000 in
/-- The concatenation [T0 | T1 | T2]: T0 the layer's input, T1 the normalised-adjacency sum of T0's rows over the edges,
    T2 twice that sum applied to T1 minus T0 — the same gathers and scatter-adds, on the same edge data, as the reference's. -/
theorem cat1 : Gen.V3 m c main_v59
    = concatenate S100000x495 1 [⟨S100000x165, a0 m c⟩, ⟨S100000x165, val_main_v45 (F := Ideal) (a0 m c) (a1 m c)⟩, ⟨S100000x165, val_main_v65 (F := Ideal) (a0 m c) (a1 m c)⟩] concatenates_S100000x165_S100000x165_S100000x165_S100000x495_d1 := by
  have h13 := dis2 m c
  have h1 := src2 m c
  have h3 := dst2 m c
  have h0 := arg2 m c main_arg0 (by decide) (by decide)
  dsimp only [Gen.V3, hostOps0_2]
  generalize Gen.V2 m c = W at h13 h1 h3 h0 ⊢
  simp only [after_cons, after_nil]
  rw [reshape_result_ne]; rotate_left; decide
  rw [reshape_result_ne]; rotate_left; decide
  refine (nary3_result_of _ _ _ _ (a0 m c) (val_main_v45 (F := Ideal) (a0 m c) (a1 m c)) (val_main_v65 (F := Ideal) (a0 m c) (a1 m c)) ?_ ?_ ?_).trans rfl
  · host_results3
    exact h0
  · host_results3
    rw [h13, h1, h3, h0]
    rfl
  · host_results3
    rw [h13, h1, h3, h0]
    rfl

/-- The weights, the three 165-row slabs stacked into 495 rows. -/
theorem wts1 : Gen.V3 m c main_v60 = shapeCast S495x128 (a2 m c) shapeCasts_S3x165x128_S495x128 := by
  have hA := arg2 m c main_arg2 (by decide) (by decide)
  dsimp only [Gen.V3, hostOps0_2]
  generalize Gen.V2 m c = W at hA ⊢
  host_results3
  rw [hA]
  rfl

/-- The bias as a one-row matrix. -/
theorem bia1 : Gen.V3 m c main_v61 = shapeCast S1x128 (a3 m c) shapeCasts_S128_S1x128 := by
  have hA := arg2 m c main_arg3 (by decide) (by decide)
  dsimp only [Gen.V3, hostOps0_2]
  generalize Gen.V2 m c = W at hA ⊢
  host_results3
  rw [hA]
  rfl

/-- What the launch leaves in its result buffer is the reference's layer-1 output. -/
theorem res1 : Gen.V4 m (outs m) c main_v62 = val_main_v73 (F := Ideal) (a0 m c) (a1 m c) (a2 m c) (a3 m c) :=
  (V4_main_v62 m c).trans ((final0 (fun c b => Gen.V3 m c b) c).trans (by
    show layer0 (Gen.V3 m c main_v59) (Gen.V3 m c main_v60) (Gen.V3 m c main_v61) = _
    rw [cat1 m c, wts1 m c, bia1 m c]
    exact layer1_eq _ _ _ _))

end Cert.Bridge

end
-- ==== Proof.RefLayer2.lean ====
/-
  The reference's layer 2 read at one element: the clipped sum of the three matrix products (of the layer's input, of its
  first and of its second Chebyshev transform, each with one slice of the layer's weight) and the bias. The input and the
  two transforms are left as the reference's own values; only the dense part of the layer is opened.
-/
import proofs.«104839_j69879117905989_1_alg».proof.Proof.RefRead
import Idealize.ShloMosaic.Lib.ValueIdx
import Idealize.ShloMosaic.PureOps.Ideal.Laws

noncomputable section

open scoped BigOperators

namespace Cert.RefSide

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The left operand's index of the first product at output `(a, b)` and contraction coordinate `k` is `(a, k)`. -/
theorem l2_lidx0 (a : Fin 100000) (b : Fin 128) (k : Fin 128) : lidx_main_v76 (ix2 a b) k = ix2 a k := by
  funext d; match d with | ⟨0, _⟩ => rfl | ⟨1, _⟩ => rfl
/-- The left operand's index of the second product at output `(a, b)` and contraction coordinate `k` is `(a, k)`. -/
theorem l2_lidx1 (a : Fin 100000) (b : Fin 128) (k : Fin 128) : lidx_main_v92 (ix2 a b) k = ix2 a k := by
  funext d; match d with | ⟨0, _⟩ => rfl | ⟨1, _⟩ => rfl
/-- The left operand's index of the third product at output `(a, b)` and contraction coordinate `k` is `(a, k)`. -/
theorem l2_lidx2 (a : Fin 100000) (b : Fin 128) (k : Fin 128) : lidx_main_v112 (ix2 a b) k = ix2 a k := by
  funext d; match d with | ⟨0, _⟩ => rfl | ⟨1, _⟩ => rfl
/-- The weight element the first product reads at `(a, b)`, `k`: slice 0 of the weight at `(k, b)` (the slice is flattened and
    unflattened by a reshape: `(k·128 + b) / 128 % 128 = k` and `(k·128 + b) % 128 = b`). -/
theorem l2_ridx0 (a : Fin 100000) (b : Fin 128) (k : Fin 128) :
    idx_main_v74 (idx_main_v75 (ridx_main_v76 (ix2 a b) k)) = ix3 (0 : Fin 3) k b := by
  funext d; refine Fin.ext ?_
  have hk := k.isLt; have hb := b.isLt
  match d with
  | ⟨0, _⟩ => rfl
  | ⟨1, _⟩ => show (k.val * 128 + b.val) / 128 % 128 = k.val; omega
  | ⟨2, _⟩ => show (k.val * 128 + b.val) % 128 = b.val; omega
/-- The weight element the second product reads at `(a, b)`, `k`: slice 1 of the weight at `(k, b)` (the slice is flattened and
    unflattened by a reshape: `(k·128 + b) / 128 % 128 = k` and `(k·128 + b) % 128 = b`). -/
theorem l2_ridx1 (a : Fin 100000) (b : Fin 128) (k : Fin 128) :
    idx_main_v90 (idx_main_v91 (ridx_main_v92 (ix2 a b) k)) = ix3 (1 : Fin 3) k b := by
  funext d; refine Fin.ext ?_
  have hk := k.isLt; have hb := b.isLt
  match d with
  | ⟨0, _⟩ => rfl
  | ⟨1, _⟩ => show (k.val * 128 + b.val) / 128 % 128 = k.val; omega
  | ⟨2, _⟩ => show (k.val * 128 + b.val) % 128 = b.val; omega
/-- The weight element the third product reads at `(a, b)`, `k`: slice 2 of the weight at `(k, b)` (the slice is flattened and
    unflattened by a reshape: `(k·128 + b) / 128 % 128 = k` and `(k·128 + b) % 128 = b`). -/
theorem l2_ridx2 (a : Fin 100000) (b : Fin 128) (k : Fin 128) :
    idx_main_v110 (idx_main_v111 (ridx_main_v112 (ix2 a b) k)) = ix3 (2 : Fin 3) k b := by
  funext d; refine Fin.ext ?_
  have hk := k.isLt; have hb := b.isLt
  match d with
  | ⟨0, _⟩ => rfl
  | ⟨1, _⟩ => show (k.val * 128 + b.val) / 128 % 128 = k.val; omega
  | ⟨2, _⟩ => show (k.val * 128 + b.val) % 128 = b.val; omega
/-- The bias element added at `(a, b)` is the bias at `b`. -/
theorem l2_bidx (a : Fin 100000) (b : Fin 128) : idx_main_v114 (idx_main_v115 (ix2 a b)) = ix1 b := by
  funext d; match d with | ⟨0, _⟩ => rfl

/-- The first product at `(a, b)`: row `a` of its left operand against column `b` of the weight's slice 0. -/
theorem l2_prod0 (x0 : (⟨S100000x165, .f32⟩ : BufTy).Contents (Elt Ideal)) (x1 : (⟨S2x625000, .i32⟩ : BufTy).Contents (Elt Ideal)) (x2 : (⟨S3x165x128, .f32⟩ : BufTy).Contents (Elt Ideal)) (x3 : (⟨S128, .f32⟩ : BufTy).Contents (Elt Ideal)) (x4 : (⟨S3x128x128, .f32⟩ : BufTy).Contents (Elt Ideal))
    (a : Fin 100000) (b : Fin 128) :
    val_main_v76 (F := Ideal) x0 x1 x2 x3 x4 (ix2 a b)
      = ∑ k : Fin 128, (val_main_v73 (F := Ideal) x0 x1 x2 x3) (ix2 a k) * x4 (ix3 (0 : Fin 3) k b) := by
  rw [val_main_v76_apply]
  refine Finset.sum_congr rfl fun k _ => ?_
  rw [val_main_v75_apply, val_main_v74_apply, l2_ridx0, l2_lidx0]
/-- The second product at `(a, b)`: row `a` of its left operand against column `b` of the weight's slice 1. -/
theorem l2_prod1 (x0 : (⟨S100000x165, .f32⟩ : BufTy).Contents (Elt Ideal)) (x1 : (⟨S2x625000, .i32⟩ : BufTy).Contents (Elt Ideal)) (x2 : (⟨S3x165x128, .f32⟩ : BufTy).Contents (Elt Ideal)) (x3 : (⟨S128, .f32⟩ : BufTy).Contents (Elt Ideal)) (x4 : (⟨S3x128x128, .f32⟩ : BufTy).Contents (Elt Ideal))
    (a : Fin 100000) (b : Fin 128) :
    val_main_v92 (F := Ideal) x0 x1 x2 x3 x4 (ix2 a b)
      = ∑ k : Fin 128, (val_main_v89 (F := Ideal) x0 x1 x2 x3) (ix2 a k) * x4 (ix3 (1 : Fin 3) k b) := by
  rw [val_main_v92_apply]
  refine Finset.sum_congr rfl fun k _ => ?_
  rw [val_main_v91_apply, val_main_v90_apply, l2_ridx1, l2_lidx1]
/-- The third product at `(a, b)`: row `a` of its left operand against column `b` of the weight's slice 2. -/
theorem l2_prod2 (x0 : (⟨S100000x165, .f32⟩ : BufTy).Contents (Elt Ideal)) (x1 : (⟨S2x625000, .i32⟩ : BufTy).Contents (Elt Ideal)) (x2 : (⟨S3x165x128, .f32⟩ : BufTy).Contents (Elt Ideal)) (x3 : (⟨S128, .f32⟩ : BufTy).Contents (Elt Ideal)) (x4 : (⟨S3x128x128, .f32⟩ : BufTy).Contents (Elt Ideal))
    (a : Fin 100000) (b : Fin 128) :
    val_main_v112 (F := Ideal) x0 x1 x2 x3 x4 (ix2 a b)
      = ∑ k : Fin 128, (val_main_v109 (F := Ideal) x0 x1 x2 x3) (ix2 a k) * x4 (ix3 (2 : Fin 3) k b) := by
  rw [val_main_v112_apply]
  refine Finset.sum_congr rfl fun k _ => ?_
  rw [val_main_v111_apply, val_main_v110_apply, l2_ridx2, l2_lidx2]

/-- LAYER 2 AT `(a, b)`, the coordinates literal `Fin`s: `min 6 (max 0 (((P₀ + P₁) + P₂) + bias b))`, the two constants as the extended reals
    their words encode. -/
theorem ref_layer2_ix (x0 : (⟨S100000x165, .f32⟩ : BufTy).Contents (Elt Ideal)) (x1 : (⟨S2x625000, .i32⟩ : BufTy).Contents (Elt Ideal)) (x2 : (⟨S3x165x128, .f32⟩ : BufTy).Contents (Elt Ideal)) (x3 : (⟨S128, .f32⟩ : BufTy).Contents (Elt Ideal)) (x4 : (⟨S3x128x128, .f32⟩ : BufTy).Contents (Elt Ideal)) (x5 : (⟨S128, .f32⟩ : BufTy).Contents (Elt Ideal))
    (a : Fin 100000) (b : Fin 128) :
    val_main_v117 (F := Ideal) x0 x1 x2 x3 x4 x5 (ix2 a b)
      = min (Ideal.ofBits .f32 0x40C00000#32) (max (Ideal.ofBits .f32 0x00000000#32)
          (((∑ k : Fin 128, (val_main_v73 (F := Ideal) x0 x1 x2 x3) (ix2 a k) * x4 (ix3 (0 : Fin 3) k b)
              + ∑ k : Fin 128, (val_main_v89 (F := Ideal) x0 x1 x2 x3) (ix2 a k) * x4 (ix3 (1 : Fin 3) k b))
              + ∑ k : Fin 128, (val_main_v109 (F := Ideal) x0 x1 x2 x3) (ix2 a k) * x4 (ix3 (2 : Fin 3) k b))
            + x5 (ix1 b))) := by
  rw [val_main_v117_apply, val_main_call2_v4_apply, val_main_call2_v3_apply, val_main_cst_24_apply,
    val_main_call2_v2_apply, val_main_call2_v1_apply, val_main_call2_v0_apply, val_main_cst_23_apply,
    val_main_v116_apply, val_main_v113_apply, val_main_v93_apply, l2_prod0, l2_prod1, l2_prod2,
    val_main_v115_apply, val_main_v114_apply, l2_bidx]
  rfl

/-- The same at an index `i` of the layer's output. -/
theorem ref_layer2_apply (x0 : (⟨S100000x165, .f32⟩ : BufTy).Contents (Elt Ideal)) (x1 : (⟨S2x625000, .i32⟩ : BufTy).Contents (Elt Ideal)) (x2 : (⟨S3x165x128, .f32⟩ : BufTy).Contents (Elt Ideal)) (x3 : (⟨S128, .f32⟩ : BufTy).Contents (Elt Ideal)) (x4 : (⟨S3x128x128, .f32⟩ : BufTy).Contents (Elt Ideal)) (x5 : (⟨S128, .f32⟩ : BufTy).Contents (Elt Ideal))
    (i : S100000x128.Idx) :
    val_main_v117 (F := Ideal) x0 x1 x2 x3 x4 x5 i
      = min (Ideal.ofBits .f32 0x40C00000#32) (max (Ideal.ofBits .f32 0x00000000#32)
          (((∑ k : Fin 128, (val_main_v73 (F := Ideal) x0 x1 x2 x3) (ix2 (i 0) k) * x4 (ix3 (0 : Fin 3) k (i 1))
              + ∑ k : Fin 128, (val_main_v89 (F := Ideal) x0 x1 x2 x3) (ix2 (i 0) k) * x4 (ix3 (1 : Fin 3) k (i 1)))
              + ∑ k : Fin 128, (val_main_v109 (F := Ideal) x0 x1 x2 x3) (ix2 (i 0) k) * x4 (ix3 (2 : Fin 3) k (i 1)))
            + x5 (ix1 (i 1)))) :=
  (congrArg (val_main_v117 (F := Ideal) x0 x1 x2 x3 x4 x5) (eq_ix2 i)).trans (ref_layer2_ix x0 x1 x2 x3 x4 x5 (i 0) (i 1))

end Cert.RefSide
-- ==== Proof.LayerEq2.lean ====
/-
  Layer 2 as the kernel computes it and as the reference computes it are one array. The kernel multiplies the
  concatenation [T0 | T1 | T2] (384 columns) by the weights reshaped to 384 rows; the reference adds the three
  products T0·W[0], T1·W[1], T2·W[2]. Entry by entry, the long sum splits into the three blocks of 128 columns; the
  bias entry and the clamp to [0, 6] are the same on both sides. Addition of extended reals is commutative and associative, so no
  finiteness is used.
-/
import proofs.«104839_j69879117905989_1_alg».proof.Proof.KFinal
import proofs.«104839_j69879117905989_1_alg».proof.Proof.RefRead
import proofs.«104839_j69879117905989_1_alg».proof.Proof.RefLayer2
import proofs.«104839_j69879117905989_1_alg».proof.Proof.LayerAlg
import proofs.«104839_j69879117905989_1_alg».proof.Proof.LayoutReads

set_option maxRecDepth 16384

noncomputable section

namespace Cert.Bridge

open Cert.KernelIdeal Cert.KernelIdeal.Gen Cert.KernelIdeal.HandValue
open Idealize.ShloMosaic Idealize.ShloMosaic.TcCoe Idealize.ShloMosaic.ValueIdx
open Cert.ReferenceIdeal.Read (val_main_v45 val_main_v65 val_main_v73 val_main_v89 val_main_v109
  val_main_v117 val_main_v133 val_main_v153 val_main_v161 val_main_v177 val_main_v197 val_main_v204)

theorem layer2_eq (x0 : (⟨S100000x165, .f32⟩ : BufTy).Contents (Elt Ideal)) (x1 : (⟨S2x625000, .i32⟩ : BufTy).Contents (Elt Ideal)) (x2 : (⟨S3x165x128, .f32⟩ : BufTy).Contents (Elt Ideal)) (x3 : (⟨S128, .f32⟩ : BufTy).Contents (Elt Ideal)) (x4 : (⟨S3x128x128, .f32⟩ : BufTy).Contents (Elt Ideal)) (x5 : (⟨S128, .f32⟩ : BufTy).Contents (Elt Ideal)) :
    layer1 (concatenate S100000x384 1 [⟨S100000x128, val_main_v73 (F := Ideal) x0 x1 x2 x3⟩, ⟨S100000x128, val_main_v89 (F := Ideal) x0 x1 x2 x3⟩, ⟨S100000x128, val_main_v109 (F := Ideal) x0 x1 x2 x3⟩] concatenates_S100000x128_S100000x128_S100000x128_S100000x384_d1)
        (shapeCast S384x128 x4 shapeCasts_S3x128x128_S384x128) (shapeCast S1x128 x5 shapeCasts_S128_S1x128)
      = val_main_v117 (F := Ideal) x0 x1 x2 x3 x4 x5 := by
  funext i
  obtain ⟨a, b, rfl⟩ : ∃ (a : Fin 100000) (b : Fin 128), i = ix2 a b := ⟨i 0, i 1, eq_ix2 i⟩
  rw [layer1_ix]
  refine Eq.trans ?_ (Cert.RefSide.ref_layer2_ix x0 x1 x2 x3 x4 x5 a b).symm
  unfold entry1
  exact congrArg (min _) (congrArg (max _) (Cert.RefSide.bridge128 _ _ _ _ _ _ _ _
    (Cert.RefSide.concat128_0 _ _ _ _) (Cert.RefSide.concat128_1 _ _ _ _) (Cert.RefSide.concat128_2 _ _ _ _)
    (Cert.RefSide.reshapeW128_0 _ _) (Cert.RefSide.reshapeW128_1 _ _) (Cert.RefSide.reshapeW128_2 _ _)
    (Cert.RefSide.reshapeB128 _ _) a b))

end Cert.Bridge

end
-- ==== Proof.BridgeL2.lean ====
/-
  Layer 2's launch in the reference's terms: the three arrays it reads — the concatenated Chebyshev terms, the
  reshaped weights, the bias row — as the host operations before it leave them, and the array it writes.
-/
import proofs.«104839_j69879117905989_1_alg».proof.Proof.BridgeL1
import proofs.«104839_j69879117905989_1_alg».proof.Proof.LayerEq2
import proofs.«104839_j69879117905989_1_alg».proof.Proof.LibNary3

set_option maxRecDepth 16384
set_option maxHeartbeats 4000000

noncomputable section

namespace Cert.Bridge

open Cert.KernelIdeal Cert.KernelIdeal.Gen Cert.KernelIdeal.Hand Cert.KernelIdeal.HandValue
open Idealize.ShloMosaic Idealize.ShloMosaic.TcCoe Idealize.SL.Sem Idealize.ShloMosaic.StableHlo Idealize.ShloMosaic.ValueIdx
open Cert.ReferenceIdeal.Read (val_main_v1 val_main_v3 val_main_v29 val_main_v45 val_main_v65 val_main_v73 val_main_v89 val_main_v109
  val_main_v117 val_main_v133 val_main_v153 val_main_v161 val_main_v177 val_main_v197 val_main_v204)

variable (m : (ℓ : Loc nD τ sig) → Buf (Elt Ideal) ℓ) (c : Dev nD)

set_option maxRecDepth 100000 in
/-- The concatenation [T0 | T1 | T2]: T0 the layer's input, T1 the normalised-adjacency sum of T0's rows over the edges,
    T2 twice that sum applied to T1 minus T0 — the same gathers and scatter-adds, on the same edge data, as the reference's. -/
theorem cat2 : Gen.V5 m (outs m) c main_v92
    = concatenate S100000x384 1 [⟨S100000x128, val_main_v73 (F := Ideal) (a0 m c) (a1 m c) (a2 m c) (a3 m c)⟩, ⟨S100000x128, val_main_v89 (F := Ideal) (a0 m c) (a1 m c) (a2 m c) (a3 m c)⟩, ⟨S100000x128, val_main_v109 (F := Ideal) (a0 m c) (a1 m c) (a2 m c) (a3 m c)⟩] concatenates_S100000x128_S100000x128_S100000x128_S100000x384_d1 := by
  have hp := res1 m c
  have h1 := src4 m c
  have h3 := dst4 m c
  have hw := wgt4 m c
  dsimp only [Gen.V5, hostOps1]
  generalize Gen.V4 m (outs m) c = W at hp h1 h3 hw ⊢
  simp only [after_cons, after_nil]
  rw [reshape_result_ne]; rotate_left; decide
  rw [reshape_result_ne]; rotate_left; decide
  refine (nary3_result_of _ _ _ _ (val_main_v73 (F := Ideal) (a0 m c) (a1 m c) (a2 m c) (a3 m c)) (val_main_v89 (F := Ideal) (a0 m c) (a1 m c) (a2 m c) (a3 m c)) (val_main_v109 (F := Ideal) (a0 m c) (a1 m c) (a2 m c) (a3 m c)) ?_ ?_ ?_).trans rfl
  · host_results3
    exact hp
  · host_results3
    rw [hp, h1, h3, hw]
    rfl
  · host_results3
    rw [hp, h1, h3, hw]
    rfl

/-- The weights, the three 128-row slabs stacked into 384 rows. -/
theorem wts2 : Gen.V5 m (outs m) c main_v93 = shapeCast S384x128 (a4 m c) shapeCasts_S3x128x128_S384x128 := by
  have hA := arg4 m c main_arg4 (by decide) (by decide) (by decide) (by decide)
  dsimp only [Gen.V5, hostOps1]
  generalize Gen.V4 m (outs m) c = W at hA ⊢
  host_results3
  rw [hA]
  rfl

/-- The bias as a one-row matrix. -/
theorem bia2 : Gen.V5 m (outs m) c main_v94 = shapeCast S1x128 (a5 m c) shapeCasts_S128_S1x128 := by
  have hA := arg4 m c main_arg5 (by decide) (by decide) (by decide) (by decide)
  dsimp only [Gen.V5, hostOps1]
  generalize Gen.V4 m (outs m) c = W at hA ⊢
  host_results3
  rw [hA]
  rfl

/-- What the launch leaves in its result buffer is the reference's layer-2 output. -/
theorem res2 : Gen.V6 m (outs m) c main_v95 = val_main_v117 (F := Ideal) (a0 m c) (a1 m c) (a2 m c) (a3 m c) (a4 m c) (a5 m c) :=
  (V6_main_v95 m c).trans ((final1 (fun c b => Gen.V5 m (outs m) c b) c).trans (by
    show layer1 (Gen.V5 m (outs m) c main_v92) (Gen.V5 m (outs m) c main_v93) (Gen.V5 m (outs m) c main_v94) = _
    rw [cat2 m c, wts2 m c, bia2 m c]
    exact layer2_eq _ _ _ _ _ _))

end Cert.Bridge

end
-- ==== Proof.RefLayer3.lean ====
/-
  The reference's layer 3 read at one element: the clipped sum of the three matrix products (of the layer's input, of its
  first and of its second Chebyshev transform, each with one slice of the layer's weight) and the bias. The input and the
  two transforms are left as the reference's own values; only the dense part of the layer is opened.
-/
import proofs.«104839_j69879117905989_1_alg».proof.Proof.RefRead
import Idealize.ShloMosaic.Lib.ValueIdx
import Idealize.ShloMosaic.PureOps.Ideal.Laws

noncomputable section

open scoped BigOperators

namespace Cert.RefSide

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The left operand's index of the first product at output `(a, b)` and contraction coordinate `k` is `(a, k)`. -/
theorem l3_lidx0 (a : Fin 100000) (b : Fin 128) (k : Fin 128) : lidx_main_v120 (ix2 a b) k = ix2 a k := by
  funext d; match d with | ⟨0, _⟩ => rfl | ⟨1, _⟩ => rfl
/-- The left operand's index of the second product at output `(a, b)` and contraction coordinate `k` is `(a, k)`. -/
theorem l3_lidx1 (a : Fin 100000) (b : Fin 128) (k : Fin 128) : lidx_main_v136 (ix2 a b) k = ix2 a k := by
  funext d; match d with | ⟨0, _⟩ => rfl | ⟨1, _⟩ => rfl
/-- The left operand's index of the third product at output `(a, b)` and contraction coordinate `k` is `(a, k)`. -/
theorem l3_lidx2 (a : Fin 100000) (b : Fin 128) (k : Fin 128) : lidx_main_v156 (ix2 a b) k = ix2 a k := by
  funext d; match d with | ⟨0, _⟩ => rfl | ⟨1, _⟩ => rfl
/-- The weight element the first product reads at `(a, b)`, `k`: slice 0 of the weight at `(k, b)` (the slice is flattened and
    unflattened by a reshape: `(k·128 + b) / 128 % 128 = k` and `(k·128 + b) % 128 = b`). -/
theorem l3_ridx0 (a : Fin 100000) (b : Fin 128) (k : Fin 128) :
    idx_main_v118 (idx_main_v119 (ridx_main_v120 (ix2 a b) k)) = ix3 (0 : Fin 3) k b := by
  funext d; refine Fin.ext ?_
  have hk := k.isLt; have hb := b.isLt
  match d with
  | ⟨0, _⟩ => rfl
  | ⟨1, _⟩ => show (k.val * 128 + b.val) / 128 % 128 = k.val; omega
  | ⟨2, _⟩ => show (k.val * 128 + b.val) % 128 = b.val; omega
/-- The weight element the second product reads at `(a, b)`, `k`: slice 1 of the weight at `(k, b)` (the slice is flattened and
    unflattened by a reshape: `(k·128 + b) / 128 % 128 = k` and `(k·128 + b) % 128 = b`). -/
theorem l3_ridx1 (a : Fin 100000) (b : Fin 128) (k : Fin 128) :
    idx_main_v134 (idx_main_v135 (ridx_main_v136 (ix2 a b) k)) = ix3 (1 : Fin 3) k b := by
  funext d; refine Fin.ext ?_
  have hk := k.isLt; have hb := b.isLt
  match d with
  | ⟨0, _⟩ => rfl
  | ⟨1, _⟩ => show (k.val * 128 + b.val) / 128 % 128 = k.val; omega
  | ⟨2, _⟩ => show (k.val * 128 + b.val) % 128 = b.val; omega
/-- The weight element the third product reads at `(a, b)`, `k`: slice 2 of the weight at `(k, b)` (the slice is flattened and
    unflattened by a reshape: `(k·128 + b) / 128 % 128 = k` and `(k·128 + b) % 128 = b`). -/
theorem l3_ridx2 (a : Fin 100000) (b : Fin 128) (k : Fin 128) :
    idx_main_v154 (idx_main_v155 (ridx_main_v156 (ix2 a b) k)) = ix3 (2 : Fin 3) k b := by
  funext d; refine Fin.ext ?_
  have hk := k.isLt; have hb := b.isLt
  match d with
  | ⟨0, _⟩ => rfl
  | ⟨1, _⟩ => show (k.val * 128 + b.val) / 128 % 128 = k.val; omega
  | ⟨2, _⟩ => show (k.val * 128 + b.val) % 128 = b.val; omega
/-- The bias element added at `(a, b)` is the bias at `b`. -/
theorem l3_bidx (a : Fin 100000) (b : Fin 128) : idx_main_v158 (idx_main_v159 (ix2 a b)) = ix1 b := by
  funext d; match d with | ⟨0, _⟩ => rfl

/-- The first product at `(a, b)`: row `a` of its left operand against column `b` of the weight's slice 0. -/
theorem l3_prod0 (x0 : (⟨S100000x165, .f32⟩ : BufTy).Contents (Elt Ideal)) (x1 : (⟨S2x625000, .i32⟩ : BufTy).Contents (Elt Ideal)) (x2 : (⟨S3x165x128, .f32⟩ : BufTy).Contents (Elt Ideal)) (x3 : (⟨S128, .f32⟩ : BufTy).Contents (Elt Ideal)) (x4 : (⟨S3x128x128, .f32⟩ : BufTy).Contents (Elt Ideal)) (x5 : (⟨S128, .f32⟩ : BufTy).Contents (Elt Ideal)) (x6 : (⟨S3x128x128, .f32⟩ : BufTy).Contents (Elt Ideal))
    (a : Fin 100000) (b : Fin 128) :
    val_main_v120 (F := Ideal) x0 x1 x2 x3 x4 x5 x6 (ix2 a b)
      = ∑ k : Fin 128, (val_main_v117 (F := Ideal) x0 x1 x2 x3 x4 x5) (ix2 a k) * x6 (ix3 (0 : Fin 3) k b) := by
  rw [val_main_v120_apply]
  refine Finset.sum_congr rfl fun k _ => ?_
  rw [val_main_v119_apply, val_main_v118_apply, l3_ridx0, l3_lidx0]
/-- The second product at `(a, b)`: row `a` of its left operand against column `b` of the weight's slice 1. -/
theorem l3_prod1 (x0 : (⟨S100000x165, .f32⟩ : BufTy).Contents (Elt Ideal)) (x1 : (⟨S2x625000, .i32⟩ : BufTy).Contents (Elt Ideal)) (x2 : (⟨S3x165x128, .f32⟩ : BufTy).Contents (Elt Ideal)) (x3 : (⟨S128, .f32⟩ : BufTy).Contents (Elt Ideal)) (x4 : (⟨S3x128x128, .f32⟩ : BufTy).Contents (Elt Ideal)) (x5 : (⟨S128, .f32⟩ : BufTy).Contents (Elt Ideal)) (x6 : (⟨S3x128x128, .f32⟩ : BufTy).Contents (Elt Ideal))
    (a : Fin 100000) (b : Fin 128) :
    val_main_v136 (F := Ideal) x0 x1 x2 x3 x4 x5 x6 (ix2 a b)
      = ∑ k : Fin 128, (val_main_v133 (F := Ideal) x0 x1 x2 x3 x4 x5) (ix2 a k) * x6 (ix3 (1 : Fin 3) k b) := by
  rw [val_main_v136_apply]
  refine Finset.sum_congr rfl fun k _ => ?_
  rw [val_main_v135_apply, val_main_v134_apply, l3_ridx1, l3_lidx1]
/-- The third product at `(a, b)`: row `a` of its left operand against column `b` of the weight's slice 2. -/
theorem l3_prod2 (x0 : (⟨S100000x165, .f32⟩ : BufTy).Contents (Elt Ideal)) (x1 : (⟨S2x625000, .i32⟩ : BufTy).Contents (Elt Ideal)) (x2 : (⟨S3x165x128, .f32⟩ : BufTy).Contents (Elt Ideal)) (x3 : (⟨S128, .f32⟩ : BufTy).Contents (Elt Ideal)) (x4 : (⟨S3x128x128, .f32⟩ : BufTy).Contents (Elt Ideal)) (x5 : (⟨S128, .f32⟩ : BufTy).Contents (Elt Ideal)) (x6 : (⟨S3x128x128, .f32⟩ : BufTy).Contents (Elt Ideal))
    (a : Fin 100000) (b : Fin 128) :
    val_main_v156 (F := Ideal) x0 x1 x2 x3 x4 x5 x6 (ix2 a b)
      = ∑ k : Fin 128, (val_main_v153 (F := Ideal) x0 x1 x2 x3 x4 x5) (ix2 a k) * x6 (ix3 (2 : Fin 3) k b) := by
  rw [val_main_v156_apply]
  refine Finset.sum_congr rfl fun k _ => ?_
  rw [val_main_v155_apply, val_main_v154_apply, l3_ridx2, l3_lidx2]

/-- LAYER 3 AT `(a, b)`, the coordinates literal `Fin`s: `min 6 (max 0 (((P₀ + P₁) + P₂) + bias b))`, the two constants as the extended reals
    their words encode. -/
theorem ref_layer3_ix (x0 : (⟨S100000x165, .f32⟩ : BufTy).Contents (Elt Ideal)) (x1 : (⟨S2x625000, .i32⟩ : BufTy).Contents (Elt Ideal)) (x2 : (⟨S3x165x128, .f32⟩ : BufTy).Contents (Elt Ideal)) (x3 : (⟨S128, .f32⟩ : BufTy).Contents (Elt Ideal)) (x4 : (⟨S3x128x128, .f32⟩ : BufTy).Contents (Elt Ideal)) (x5 : (⟨S128, .f32⟩ : BufTy).Contents (Elt Ideal)) (x6 : (⟨S3x128x128, .f32⟩ : BufTy).Contents (Elt Ideal)) (x7 : (⟨S128, .f32⟩ : BufTy).Contents (Elt Ideal))
    (a : Fin 100000) (b : Fin 128) :
    val_main_v161 (F := Ideal) x0 x1 x2 x3 x4 x5 x6 x7 (ix2 a b)
      = min (Ideal.ofBits .f32 0x40C00000#32) (max (Ideal.ofBits .f32 0x00000000#32)
          (((∑ k : Fin 128, (val_main_v117 (F := Ideal) x0 x1 x2 x3 x4 x5) (ix2 a k) * x6 (ix3 (0 : Fin 3) k b)
              + ∑ k : Fin 128, (val_main_v133 (F := Ideal) x0 x1 x2 x3 x4 x5) (ix2 a k) * x6 (ix3 (1 : Fin 3) k b))
              + ∑ k : Fin 128, (val_main_v153 (F := Ideal) x0 x1 x2 x3 x4 x5) (ix2 a k) * x6 (ix3 (2 : Fin 3) k b))
            + x7 (ix1 b))) := by
  rw [val_main_v161_apply, val_main_call3_v4_apply, val_main_call3_v3_apply, val_main_cst_33_apply,
    val_main_call3_v2_apply, val_main_call3_v1_apply, val_main_call3_v0_apply, val_main_cst_32_apply,
    val_main_v160_apply, val_main_v157_apply, val_main_v137_apply, l3_prod0, l3_prod1, l3_prod2,
    val_main_v159_apply, val_main_v158_apply, l3_bidx]
  rfl

/-- The same at an index `i` of the layer's output. -/
theorem ref_layer3_apply (x0 : (⟨S100000x165, .f32⟩ : BufTy).Contents (Elt Ideal)) (x1 : (⟨S2x625000, .i32⟩ : BufTy).Contents (Elt Ideal)) (x2 : (⟨S3x165x128, .f32⟩ : BufTy).Contents (Elt Ideal)) (x3 : (⟨S128, .f32⟩ : BufTy).Contents (Elt Ideal)) (x4 : (⟨S3x128x128, .f32⟩ : BufTy).Contents (Elt Ideal)) (x5 : (⟨S128, .f32⟩ : BufTy).Contents (Elt Ideal)) (x6 : (⟨S3x128x128, .f32⟩ : BufTy).Contents (Elt Ideal)) (x7 : (⟨S128, .f32⟩ : BufTy).Contents (Elt Ideal))
    (i : S100000x128.Idx) :
    val_main_v161 (F := Ideal) x0 x1 x2 x3 x4 x5 x6 x7 i
      = min (Ideal.ofBits .f32 0x40C00000#32) (max (Ideal.ofBits .f32 0x00000000#32)
          (((∑ k : Fin 128, (val_main_v117 (F := Ideal) x0 x1 x2 x3 x4 x5) (ix2 (i 0) k) * x6 (ix3 (0 : Fin 3) k (i 1))
              + ∑ k : Fin 128, (val_main_v133 (F := Ideal) x0 x1 x2 x3 x4 x5) (ix2 (i 0) k) * x6 (ix3 (1 : Fin 3) k (i 1)))
              + ∑ k : Fin 128, (val_main_v153 (F := Ideal) x0 x1 x2 x3 x4 x5) (ix2 (i 0) k) * x6 (ix3 (2 : Fin 3) k (i 1)))
            + x7 (ix1 (i 1)))) :=
  (congrArg (val_main_v161 (F := Ideal) x0 x1 x2 x3 x4 x5 x6 x7) (eq_ix2 i)).trans (ref_layer3_ix x0 x1 x2 x3 x4 x5 x6 x7 (i 0) (i 1))

end Cert.RefSide
-- ==== Proof.LayerEq3.lean ====
/-
  Layer 3 as the kernel computes it and as the reference computes it are one array. The kernel multiplies the
  concatenation [T0 | T1 | T2] (384 columns) by the weights reshaped to 384 rows; the reference adds the three
  products T0·W[0], T1·W[1], T2·W[2]. Entry by entry, the long sum splits into the three blocks of 128 columns; the
  bias entry and the clamp to [0, 6] are the same on both sides. Addition of extended reals is commutative and associative, so no
  finiteness is used.
-/
import proofs.«104839_j69879117905989_1_alg».proof.Proof.KFinal
import proofs.«104839_j69879117905989_1_alg».proof.Proof.RefRead
import proofs.«104839_j69879117905989_1_alg».proof.Proof.RefLayer3
import proofs.«104839_j69879117905989_1_alg».proof.Proof.LayerAlg
import proofs.«104839_j69879117905989_1_alg».proof.Proof.LayoutReads

set_option maxRecDepth 16384

noncomputable section

namespace Cert.Bridge

open Cert.KernelIdeal Cert.KernelIdeal.Gen Cert.KernelIdeal.HandValue
open Idealize.ShloMosaic Idealize.ShloMosaic.TcCoe Idealize.ShloMosaic.ValueIdx
open Cert.ReferenceIdeal.Read (val_main_v45 val_main_v65 val_main_v73 val_main_v89 val_main_v109
  val_main_v117 val_main_v133 val_main_v153 val_main_v161 val_main_v177 val_main_v197 val_main_v204)

theorem layer3_eq (x0 : (⟨S100000x165, .f32⟩ : BufTy).Contents (Elt Ideal)) (x1 : (⟨S2x625000, .i32⟩ : BufTy).Contents (Elt Ideal)) (x2 : (⟨S3x165x128, .f32⟩ : BufTy).Contents (Elt Ideal)) (x3 : (⟨S128, .f32⟩ : BufTy).Contents (Elt Ideal)) (x4 : (⟨S3x128x128, .f32⟩ : BufTy).Contents (Elt Ideal)) (x5 : (⟨S128, .f32⟩ : BufTy).Contents (Elt Ideal)) (x6 : (⟨S3x128x128, .f32⟩ : BufTy).Contents (Elt Ideal)) (x7 : (⟨S128, .f32⟩ : BufTy).Contents (Elt Ideal)) :
    layer2 (concatenate S100000x384 1 [⟨S100000x128, val_main_v117 (F := Ideal) x0 x1 x2 x3 x4 x5⟩, ⟨S100000x128, val_main_v133 (F := Ideal) x0 x1 x2 x3 x4 x5⟩, ⟨S100000x128, val_main_v153 (F := Ideal) x0 x1 x2 x3 x4 x5⟩] concatenates_S100000x128_S100000x128_S100000x128_S100000x384_d1)
        (shapeCast S384x128 x6 shapeCasts_S3x128x128_S384x128) (shapeCast S1x128 x7 shapeCasts_S128_S1x128)
      = val_main_v161 (F := Ideal) x0 x1 x2 x3 x4 x5 x6 x7 := by
  funext i
  obtain ⟨a, b, rfl⟩ : ∃ (a : Fin 100000) (b : Fin 128), i = ix2 a b := ⟨i 0, i 1, eq_ix2 i⟩
  rw [layer2_ix]
  refine Eq.trans ?_ (Cert.RefSide.ref_layer3_ix x0 x1 x2 x3 x4 x5 x6 x7 a b).symm
  unfold entry2
  exact congrArg (min _) (congrArg (max _) (Cert.RefSide.bridge128 _ _ _ _ _ _ _ _
    (Cert.RefSide.concat128_0 _ _ _ _) (Cert.RefSide.concat128_1 _ _ _ _) (Cert.RefSide.concat128_2 _ _ _ _)
    (Cert.RefSide.reshapeW128_0 _ _) (Cert.RefSide.reshapeW128_1 _ _) (Cert.RefSide.reshapeW128_2 _ _)
    (Cert.RefSide.reshapeB128 _ _) a b))

end Cert.Bridge

end
-- ==== Proof.BridgeL3.lean ====
/-
  Layer 3's launch in the reference's terms: the three arrays it reads — the concatenated Chebyshev terms, the
  reshaped weights, the bias row — as the host operations before it leave them, and the array it writes.
-/
import proofs.«104839_j69879117905989_1_alg».proof.Proof.BridgeL2
import proofs.«104839_j69879117905989_1_alg».proof.Proof.LayerEq3
import proofs.«104839_j69879117905989_1_alg».proof.Proof.LibNary3

set_option maxRecDepth 16384
set_option maxHeartbeats 4000000

noncomputable section

namespace Cert.Bridge

open Cert.KernelIdeal Cert.KernelIdeal.Gen Cert.KernelIdeal.Hand Cert.KernelIdeal.HandValue
open Idealize.ShloMosaic Idealize.ShloMosaic.TcCoe Idealize.SL.Sem Idealize.ShloMosaic.StableHlo Idealize.ShloMosaic.ValueIdx
open Cert.ReferenceIdeal.Read (val_main_v1 val_main_v3 val_main_v29 val_main_v45 val_main_v65 val_main_v73 val_main_v89 val_main_v109
  val_main_v117 val_main_v133 val_main_v153 val_main_v161 val_main_v177 val_main_v197 val_main_v204)

variable (m : (ℓ : Loc nD τ sig) → Buf (Elt Ideal) ℓ) (c : Dev nD)

set_option maxRecDepth 100000 in
/-- The concatenation [T0 | T1 | T2]: T0 the layer's input, T1 the normalised-adjacency sum of T0's rows over the edges,
    T2 twice that sum applied to T1 minus T0 — the same gathers and scatter-adds, on the same edge data, as the reference's. -/
theorem cat3 : Gen.V7 m (outs m) c main_v125
    = concatenate S100000x384 1 [⟨S100000x128, val_main_v117 (F := Ideal) (a0 m c) (a1 m c) (a2 m c) (a3 m c) (a4 m c) (a5 m c)⟩, ⟨S100000x128, val_main_v133 (F := Ideal) (a0 m c) (a1 m c) (a2 m c) (a3 m c) (a4 m c) (a5 m c)⟩, ⟨S100000x128, val_main_v153 (F := Ideal) (a0 m c) (a1 m c) (a2 m c) (a3 m c) (a4 m c) (a5 m c)⟩] concatenates_S100000x128_S100000x128_S100000x128_S100000x384_d1 := by
  have hp := res2 m c
  have h1 := src6 m c
  have h3 := dst6 m c
  have hw := wgt6 m c
  dsimp only [Gen.V7, hostOps2]
  generalize Gen.V6 m (outs m) c = W at hp h1 h3 hw ⊢
  simp only [after_cons, after_nil]
  rw [reshape_result_ne]; rotate_left; decide
  rw [reshape_result_ne]; rotate_left; decide
  refine (nary3_result_of _ _ _ _ (val_main_v117 (F := Ideal) (a0 m c) (a1 m c) (a2 m c) (a3 m c) (a4 m c) (a5 m c)) (val_main_v133 (F := Ideal) (a0 m c) (a1 m c) (a2 m c) (a3 m c) (a4 m c) (a5 m c)) (val_main_v153 (F := Ideal) (a0 m c) (a1 m c) (a2 m c) (a3 m c) (a4 m c) (a5 m c)) ?_ ?_ ?_).trans rfl
  · host_results3
    exact hp
  · host_results3
    rw [hp, h1, h3, hw]
    rfl
  · host_results3
    rw [hp, h1, h3, hw]
    rfl

/-- The weights, the three 128-row slabs stacked into 384 rows. -/
theorem wts3 : Gen.V7 m (outs m) c main_v126 = shapeCast S384x128 (a6 m c) shapeCasts_S3x128x128_S384x128 := by
  have hA := arg6 m c main_arg6 (by decide) (by decide) (by decide) (by decide) (by decide) (by decide)
  dsimp only [Gen.V7, hostOps2]
  generalize Gen.V6 m (outs m) c = W at hA ⊢
  host_results3
  rw [hA]
  rfl

/-- The bias as a one-row matrix. -/
theorem bia3 : Gen.V7 m (outs m) c main_v127 = shapeCast S1x128 (a7 m c) shapeCasts_S128_S1x128 := by
  have hA := arg6 m c main_arg7 (by decide) (by decide) (by decide) (by decide) (by decide) (by decide)
  dsimp only [Gen.V7, hostOps2]
  generalize Gen.V6 m (outs m) c = W at hA ⊢
  host_results3
  rw [hA]
  rfl

/-- What the launch leaves in its result buffer is the reference's layer-3 output. -/
theorem res3 : Gen.V8 m (outs m) c main_v128 = val_main_v161 (F := Ideal) (a0 m c) (a1 m c) (a2 m c) (a3 m c) (a4 m c) (a5 m c) (a6 m c) (a7 m c) :=
  (V8_main_v128 m c).trans ((final2 (fun c b => Gen.V7 m (outs m) c b) c).trans (by
    show layer2 (Gen.V7 m (outs m) c main_v125) (Gen.V7 m (outs m) c main_v126) (Gen.V7 m (outs m) c main_v127) = _
    rw [cat3 m c, wts3 m c, bia3 m c]
    exact layer3_eq _ _ _ _ _ _ _ _))

end Cert.Bridge

end
-- ==== Proof.RefLayer4.lean ====
/-
  The reference's layer 4 read at one element: the sum (this layer is not clipped) of the three matrix products (of the layer's input, of its
  first and of its second Chebyshev transform, each with one slice of the layer's weight) and the bias. The input and the
  two transforms are left as the reference's own values; only the dense part of the layer is opened.
-/
import proofs.«104839_j69879117905989_1_alg».proof.Proof.RefRead
import Idealize.ShloMosaic.Lib.ValueIdx
import Idealize.ShloMosaic.PureOps.Ideal.Laws

noncomputable section

open scoped BigOperators

namespace Cert.RefSide

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The left operand's index of the first product at output `(a, b)` and contraction coordinate `k` is `(a, k)`. -/
theorem l4_lidx0 (a : Fin 100000) (b : Fin 2) (k : Fin 128) : lidx_main_v164 (ix2 a b) k = ix2 a k := by
  funext d; match d with | ⟨0, _⟩ => rfl | ⟨1, _⟩ => rfl
/-- The left operand's index of the second product at output `(a, b)` and contraction coordinate `k` is `(a, k)`. -/
theorem l4_lidx1 (a : Fin 100000) (b : Fin 2) (k : Fin 128) : lidx_main_v180 (ix2 a b) k = ix2 a k := by
  funext d; match d with | ⟨0, _⟩ => rfl | ⟨1, _⟩ => rfl
/-- The left operand's index of the third product at output `(a, b)` and contraction coordinate `k` is `(a, k)`. -/
theorem l4_lidx2 (a : Fin 100000) (b : Fin 2) (k : Fin 128) : lidx_main_v200 (ix2 a b) k = ix2 a k := by
  funext d; match d with | ⟨0, _⟩ => rfl | ⟨1, _⟩ => rfl
/-- The weight element the first product reads at `(a, b)`, `k`: slice 0 of the weight at `(k, b)` (the slice is flattened and
    unflattened by a reshape: `(k·2 + b) / 2 % 128 = k` and `(k·2 + b) % 2 = b`). -/
theorem l4_ridx0 (a : Fin 100000) (b : Fin 2) (k : Fin 128) :
    idx_main_v162 (idx_main_v163 (ridx_main_v164 (ix2 a b) k)) = ix3 (0 : Fin 3) k b := by
  funext d; refine Fin.ext ?_
  have hk := k.isLt; have hb := b.isLt
  match d with
  | ⟨0, _⟩ => rfl
  | ⟨1, _⟩ => show (k.val * 2 + b.val) / 2 % 128 = k.val; omega
  | ⟨2, _⟩ => show (k.val * 2 + b.val) % 2 = b.val; omega
/-- The weight element the second product reads at `(a, b)`, `k`: slice 1 of the weight at `(k, b)` (the slice is flattened and
    unflattened by a reshape: `(k·2 + b) / 2 % 128 = k` and `(k·2 + b) % 2 = b`). -/
theorem l4_ridx1 (a : Fin 100000) (b : Fin 2) (k : Fin 128) :
    idx_main_v178 (idx_main_v179 (ridx_main_v180 (ix2 a b) k)) = ix3 (1 : Fin 3) k b := by
  funext d; refine Fin.ext ?_
  have hk := k.isLt; have hb := b.isLt
  match d with
  | ⟨0, _⟩ => rfl
  | ⟨1, _⟩ => show (k.val * 2 + b.val) / 2 % 128 = k.val; omega
  | ⟨2, _⟩ => show (k.val * 2 + b.val) % 2 = b.val; omega
/-- The weight element the third product reads at `(a, b)`, `k`: slice 2 of the weight at `(k, b)` (the slice is flattened and
    unflattened by a reshape: `(k·2 + b) / 2 % 128 = k` and `(k·2 + b) % 2 = b`). -/
theorem l4_ridx2 (a : Fin 100000) (b : Fin 2) (k : Fin 128) :
    idx_main_v198 (idx_main_v199 (ridx_main_v200 (ix2 a b) k)) = ix3 (2 : Fin 3) k b := by
  funext d; refine Fin.ext ?_
  have hk := k.isLt; have hb := b.isLt
  match d with
  | ⟨0, _⟩ => rfl
  | ⟨1, _⟩ => show (k.val * 2 + b.val) / 2 % 128 = k.val; omega
  | ⟨2, _⟩ => show (k.val * 2 + b.val) % 2 = b.val; omega
/-- The bias element added at `(a, b)` is the bias at `b`. -/
theorem l4_bidx (a : Fin 100000) (b : Fin 2) : idx_main_v202 (idx_main_v203 (ix2 a b)) = ix1 b := by
  funext d; match d with | ⟨0, _⟩ => rfl

/-- The first product at `(a, b)`: row `a` of its left operand against column `b` of the weight's slice 0. -/
theorem l4_prod0 (x0 : (⟨S100000x165, .f32⟩ : BufTy).Contents (Elt Ideal)) (x1 : (⟨S2x625000, .i32⟩ : BufTy).Contents (Elt Ideal)) (x2 : (⟨S3x165x128, .f32⟩ : BufTy).Contents (Elt Ideal)) (x3 : (⟨S128, .f32⟩ : BufTy).Contents (Elt Ideal)) (x4 : (⟨S3x128x128, .f32⟩ : BufTy).Contents (Elt Ideal)) (x5 : (⟨S128, .f32⟩ : BufTy).Contents (Elt Ideal)) (x6 : (⟨S3x128x128, .f32⟩ : BufTy).Contents (Elt Ideal)) (x7 : (⟨S128, .f32⟩ : BufTy).Contents (Elt Ideal)) (x8 : (⟨S3x128x2, .f32⟩ : BufTy).Contents (Elt Ideal))
    (a : Fin 100000) (b : Fin 2) :
    val_main_v164 (F := Ideal) x0 x1 x2 x3 x4 x5 x6 x7 x8 (ix2 a b)
      = ∑ k : Fin 128, (val_main_v161 (F := Ideal) x0 x1 x2 x3 x4 x5 x6 x7) (ix2 a k) * x8 (ix3 (0 : Fin 3) k b) := by
  rw [val_main_v164_apply]
  refine Finset.sum_congr rfl fun k _ => ?_
  rw [val_main_v163_apply, val_main_v162_apply, l4_ridx0, l4_lidx0]
/-- The second product at `(a, b)`: row `a` of its left operand against column `b` of the weight's slice 1. -/
theorem l4_prod1 (x0 : (⟨S100000x165, .f32⟩ : BufTy).Contents (Elt Ideal)) (x1 : (⟨S2x625000, .i32⟩ : BufTy).Contents (Elt Ideal)) (x2 : (⟨S3x165x128, .f32⟩ : BufTy).Contents (Elt Ideal)) (x3 : (⟨S128, .f32⟩ : BufTy).Contents (Elt Ideal)) (x4 : (⟨S3x128x128, .f32⟩ : BufTy).Contents (Elt Ideal)) (x5 : (⟨S128, .f32⟩ : BufTy).Contents (Elt Ideal)) (x6 : (⟨S3x128x128, .f32⟩ : BufTy).Contents (Elt Ideal)) (x7 : (⟨S128, .f32⟩ : BufTy).Contents (Elt Ideal)) (x8 : (⟨S3x128x2, .f32⟩ : BufTy).Contents (Elt Ideal))
    (a : Fin 100000) (b : Fin 2) :
    val_main_v180 (F := Ideal) x0 x1 x2 x3 x4 x5 x6 x7 x8 (ix2 a b)
      = ∑ k : Fin 128, (val_main_v177 (F := Ideal) x0 x1 x2 x3 x4 x5 x6 x7) (ix2 a k) * x8 (ix3 (1 : Fin 3) k b) := by
  rw [val_main_v180_apply]
  refine Finset.sum_congr rfl fun k _ => ?_
  rw [val_main_v179_apply, val_main_v178_apply, l4_ridx1, l4_lidx1]
/-- The third product at `(a, b)`: row `a` of its left operand against column `b` of the weight's slice 2. -/
theorem l4_prod2 (x0 : (⟨S100000x165, .f32⟩ : BufTy).Contents (Elt Ideal)) (x1 : (⟨S2x625000, .i32⟩ : BufTy).Contents (Elt Ideal)) (x2 : (⟨S3x165x128, .f32⟩ : BufTy).Contents (Elt Ideal)) (x3 : (⟨S128, .f32⟩ : BufTy).Contents (Elt Ideal)) (x4 : (⟨S3x128x128, .f32⟩ : BufTy).Contents (Elt Ideal)) (x5 : (⟨S128, .f32⟩ : BufTy).Contents (Elt Ideal)) (x6 : (⟨S3x128x128, .f32⟩ : BufTy).Contents (Elt Ideal)) (x7 : (⟨S128, .f32⟩ : BufTy).Contents (Elt Ideal)) (x8 : (⟨S3x128x2, .f32⟩ : BufTy).Contents (Elt Ideal))
    (a : Fin 100000) (b : Fin 2) :
    val_main_v200 (F := Ideal) x0 x1 x2 x3 x4 x5 x6 x7 x8 (ix2 a b)
      = ∑ k : Fin 128, (val_main_v197 (F := Ideal) x0 x1 x2 x3 x4 x5 x6 x7) (ix2 a k) * x8 (ix3 (2 : Fin 3) k b) := by
  rw [val_main_v200_apply]
  refine Finset.sum_congr rfl fun k _ => ?_
  rw [val_main_v199_apply, val_main_v198_apply, l4_ridx2, l4_lidx2]

/-- LAYER 4 AT `(a, b)`, the coordinates literal `Fin`s: `((P₀ + P₁) + P₂) + bias b`. -/
theorem ref_layer4_ix (x0 : (⟨S100000x165, .f32⟩ : BufTy).Contents (Elt Ideal)) (x1 : (⟨S2x625000, .i32⟩ : BufTy).Contents (Elt Ideal)) (x2 : (⟨S3x165x128, .f32⟩ : BufTy).Contents (Elt Ideal)) (x3 : (⟨S128, .f32⟩ : BufTy).Contents (Elt Ideal)) (x4 : (⟨S3x128x128, .f32⟩ : BufTy).Contents (Elt Ideal)) (x5 : (⟨S128, .f32⟩ : BufTy).Contents (Elt Ideal)) (x6 : (⟨S3x128x128, .f32⟩ : BufTy).Contents (Elt Ideal)) (x7 : (⟨S128, .f32⟩ : BufTy).Contents (Elt Ideal)) (x8 : (⟨S3x128x2, .f32⟩ : BufTy).Contents (Elt Ideal)) (x9 : (⟨S2, .f32⟩ : BufTy).Contents (Elt Ideal))
    (a : Fin 100000) (b : Fin 2) :
    val_main_v204 (F := Ideal) x0 x1 x2 x3 x4 x5 x6 x7 x8 x9 (ix2 a b)
      = (((∑ k : Fin 128, (val_main_v161 (F := Ideal) x0 x1 x2 x3 x4 x5 x6 x7) (ix2 a k) * x8 (ix3 (0 : Fin 3) k b)
              + ∑ k : Fin 128, (val_main_v177 (F := Ideal) x0 x1 x2 x3 x4 x5 x6 x7) (ix2 a k) * x8 (ix3 (1 : Fin 3) k b))
              + ∑ k : Fin 128, (val_main_v197 (F := Ideal) x0 x1 x2 x3 x4 x5 x6 x7) (ix2 a k) * x8 (ix3 (2 : Fin 3) k b))
            + x9 (ix1 b)) := by
  rw [val_main_v204_apply, val_main_v201_apply, val_main_v181_apply, l4_prod0, l4_prod1, l4_prod2,
    val_main_v203_apply, val_main_v202_apply, l4_bidx]
  rfl

/-- The same at an index `i` of the layer's output. -/
theorem ref_layer4_apply (x0 : (⟨S100000x165, .f32⟩ : BufTy).Contents (Elt Ideal)) (x1 : (⟨S2x625000, .i32⟩ : BufTy).Contents (Elt Ideal)) (x2 : (⟨S3x165x128, .f32⟩ : BufTy).Contents (Elt Ideal)) (x3 : (⟨S128, .f32⟩ : BufTy).Contents (Elt Ideal)) (x4 : (⟨S3x128x128, .f32⟩ : BufTy).Contents (Elt Ideal)) (x5 : (⟨S128, .f32⟩ : BufTy).Contents (Elt Ideal)) (x6 : (⟨S3x128x128, .f32⟩ : BufTy).Contents (Elt Ideal)) (x7 : (⟨S128, .f32⟩ : BufTy).Contents (Elt Ideal)) (x8 : (⟨S3x128x2, .f32⟩ : BufTy).Contents (Elt Ideal)) (x9 : (⟨S2, .f32⟩ : BufTy).Contents (Elt Ideal))
    (i : S100000x2.Idx) :
    val_main_v204 (F := Ideal) x0 x1 x2 x3 x4 x5 x6 x7 x8 x9 i
      = (((∑ k : Fin 128, (val_main_v161 (F := Ideal) x0 x1 x2 x3 x4 x5 x6 x7) (ix2 (i 0) k) * x8 (ix3 (0 : Fin 3) k (i 1))
              + ∑ k : Fin 128, (val_main_v177 (F := Ideal) x0 x1 x2 x3 x4 x5 x6 x7) (ix2 (i 0) k) * x8 (ix3 (1 : Fin 3) k (i 1)))
              + ∑ k : Fin 128, (val_main_v197 (F := Ideal) x0 x1 x2 x3 x4 x5 x6 x7) (ix2 (i 0) k) * x8 (ix3 (2 : Fin 3) k (i 1)))
            + x9 (ix1 (i 1))) :=
  (congrArg (val_main_v204 (F := Ideal) x0 x1 x2 x3 x4 x5 x6 x7 x8 x9) (eq_ix2 i)).trans (ref_layer4_ix x0 x1 x2 x3 x4 x5 x6 x7 x8 x9 (i 0) (i 1))

end Cert.RefSide
-- ==== Proof.LayerEq4.lean ====
/-
  Layer 4 as the kernel computes it and as the reference computes it are one array. The kernel multiplies the
  concatenation [T0 | T1 | T2] (384 columns) by the weights reshaped to 384 rows; the reference adds the three
  products T0·W[0], T1·W[1], T2·W[2]. Entry by entry, the long sum splits into the three blocks of 128 columns; the
  bias entry is the same on both sides. Addition of extended reals is commutative and associative, so no
  finiteness is used.
-/
import proofs.«104839_j69879117905989_1_alg».proof.Proof.KFinal
import proofs.«104839_j69879117905989_1_alg».proof.Proof.RefRead
import proofs.«104839_j69879117905989_1_alg».proof.Proof.RefLayer4
import proofs.«104839_j69879117905989_1_alg».proof.Proof.LayerAlg
import proofs.«104839_j69879117905989_1_alg».proof.Proof.LayoutReads

set_option maxRecDepth 16384

noncomputable section

namespace Cert.Bridge

open Cert.KernelIdeal Cert.KernelIdeal.Gen Cert.KernelIdeal.HandValue
open Idealize.ShloMosaic Idealize.ShloMosaic.TcCoe Idealize.ShloMosaic.ValueIdx
open Cert.ReferenceIdeal.Read (val_main_v45 val_main_v65 val_main_v73 val_main_v89 val_main_v109
  val_main_v117 val_main_v133 val_main_v153 val_main_v161 val_main_v177 val_main_v197 val_main_v204)

theorem layer4_eq (x0 : (⟨S100000x165, .f32⟩ : BufTy).Contents (Elt Ideal)) (x1 : (⟨S2x625000, .i32⟩ : BufTy).Contents (Elt Ideal)) (x2 : (⟨S3x165x128, .f32⟩ : BufTy).Contents (Elt Ideal)) (x3 : (⟨S128, .f32⟩ : BufTy).Contents (Elt Ideal)) (x4 : (⟨S3x128x128, .f32⟩ : BufTy).Contents (Elt Ideal)) (x5 : (⟨S128, .f32⟩ : BufTy).Contents (Elt Ideal)) (x6 : (⟨S3x128x128, .f32⟩ : BufTy).Contents (Elt Ideal)) (x7 : (⟨S128, .f32⟩ : BufTy).Contents (Elt Ideal)) (x8 : (⟨S3x128x2, .f32⟩ : BufTy).Contents (Elt Ideal)) (x9 : (⟨S2, .f32⟩ : BufTy).Contents (Elt Ideal)) :
    layer3 (concatenate S100000x384 1 [⟨S100000x128, val_main_v161 (F := Ideal) x0 x1 x2 x3 x4 x5 x6 x7⟩, ⟨S100000x128, val_main_v177 (F := Ideal) x0 x1 x2 x3 x4 x5 x6 x7⟩, ⟨S100000x128, val_main_v197 (F := Ideal) x0 x1 x2 x3 x4 x5 x6 x7⟩] concatenates_S100000x128_S100000x128_S100000x128_S100000x384_d1)
        (shapeCast S384x2 x8 shapeCasts_S3x128x2_S384x2) (shapeCast S1x2 x9 shapeCasts_S2_S1x2)
      = val_main_v204 (F := Ideal) x0 x1 x2 x3 x4 x5 x6 x7 x8 x9 := by
  funext i
  obtain ⟨a, b, rfl⟩ : ∃ (a : Fin 100000) (b : Fin 2), i = ix2 a b := ⟨i 0, i 1, eq_ix2 i⟩
  rw [layer3_ix]
  refine Eq.trans ?_ (Cert.RefSide.ref_layer4_ix x0 x1 x2 x3 x4 x5 x6 x7 x8 x9 a b).symm
  unfold entry3
  exact Cert.RefSide.bridge128x2 _ _ _ _ _ _ _ _
    (Cert.RefSide.concat128_0 _ _ _ _) (Cert.RefSide.concat128_1 _ _ _ _) (Cert.RefSide.concat128_2 _ _ _ _)
    (Cert.RefSide.reshapeW128x2_0 _ _) (Cert.RefSide.reshapeW128x2_1 _ _) (Cert.RefSide.reshapeW128x2_2 _ _)
    (Cert.RefSide.reshapeB2 _ _) a b

end Cert.Bridge

end
-- ==== Proof.BridgeL4.lean ====
/-
  Layer 4's launch in the reference's terms: the three arrays it reads — the concatenated Chebyshev terms, the
  reshaped weights, the bias row — as the host operations before it leave them, and the array it writes.
-/
import proofs.«104839_j69879117905989_1_alg».proof.Proof.BridgeL3
import proofs.«104839_j69879117905989_1_alg».proof.Proof.LayerEq4
import proofs.«104839_j69879117905989_1_alg».proof.Proof.LibNary3

set_option maxRecDepth 16384
set_option maxHeartbeats 4000000

noncomputable section

namespace Cert.Bridge

open Cert.KernelIdeal Cert.KernelIdeal.Gen Cert.KernelIdeal.Hand Cert.KernelIdeal.HandValue
open Idealize.ShloMosaic Idealize.ShloMosaic.TcCoe Idealize.SL.Sem Idealize.ShloMosaic.StableHlo Idealize.ShloMosaic.ValueIdx
open Cert.ReferenceIdeal.Read (val_main_v1 val_main_v3 val_main_v29 val_main_v45 val_main_v65 val_main_v73 val_main_v89 val_main_v109
  val_main_v117 val_main_v133 val_main_v153 val_main_v161 val_main_v177 val_main_v197 val_main_v204)

variable (m : (ℓ : Loc nD τ sig) → Buf (Elt Ideal) ℓ) (c : Dev nD)

set_option maxRecDepth 100000 in
/-- The concatenation [T0 | T1 | T2]: T0 the layer's input, T1 the normalised-adjacency sum of T0's rows over the edges,
    T2 twice that sum applied to T1 minus T0 — the same gathers and scatter-adds, on the same edge data, as the reference's. -/
theorem cat4 : Gen.V9 m (outs m) c main_v158
    = concatenate S100000x384 1 [⟨S100000x128, val_main_v161 (F := Ideal) (a0 m c) (a1 m c) (a2 m c) (a3 m c) (a4 m c) (a5 m c) (a6 m c) (a7 m c)⟩, ⟨S100000x128, val_main_v177 (F := Ideal) (a0 m c) (a1 m c) (a2 m c) (a3 m c) (a4 m c) (a5 m c) (a6 m c) (a7 m c)⟩, ⟨S100000x128, val_main_v197 (F := Ideal) (a0 m c) (a1 m c) (a2 m c) (a3 m c) (a4 m c) (a5 m c) (a6 m c) (a7 m c)⟩] concatenates_S100000x128_S100000x128_S100000x128_S100000x384_d1 := by
  have hp := res3 m c
  have h1 := src8 m c
  have h3 := dst8 m c
  have hw := wgt8 m c
  dsimp only [Gen.V9, hostOps3]
  generalize Gen.V8 m (outs m) c = W at hp h1 h3 hw ⊢
  simp only [after_cons, after_nil]
  rw [reshape_result_ne]; rotate_left; decide
  rw [reshape_result_ne]; rotate_left; decide
  refine (nary3_result_of _ _ _ _ (val_main_v161 (F := Ideal) (a0 m c) (a1 m c) (a2 m c) (a3 m c) (a4 m c) (a5 m c) (a6 m c) (a7 m c)) (val_main_v177 (F := Ideal) (a0 m c) (a1 m c) (a2 m c) (a3 m c) (a4 m c) (a5 m c) (a6 m c) (a7 m c)) (val_main_v197 (F := Ideal) (a0 m c) (a1 m c) (a2 m c) (a3 m c) (a4 m c) (a5 m c) (a6 m c) (a7 m c)) ?_ ?_ ?_).trans rfl
  · host_results3
    exact hp
  · host_results3
    rw [hp, h1, h3, hw]
    rfl
  · host_results3
    rw [hp, h1, h3, hw]
    rfl

/-- The weights, the three 128-row slabs stacked into 384 rows. -/
theorem wts4 : Gen.V9 m (outs m) c main_v159 = shapeCast S384x2 (a8 m c) shapeCasts_S3x128x2_S384x2 := by
  have hA := arg8 m c main_arg8 (by decide) (by decide) (by decide) (by decide) (by decide) (by decide) (by decide) (by decide)
  dsimp only [Gen.V9, hostOps3]
  generalize Gen.V8 m (outs m) c = W at hA ⊢
  host_results3
  rw [hA]
  rfl

/-- The bias as a one-row matrix. -/
theorem bia4 : Gen.V9 m (outs m) c main_v160 = shapeCast S1x2 (a9 m c) shapeCasts_S2_S1x2 := by
  have hA := arg8 m c main_arg9 (by decide) (by decide) (by decide) (by decide) (by decide) (by decide) (by decide) (by decide)
  dsimp only [Gen.V9, hostOps3]
  generalize Gen.V8 m (outs m) c = W at hA ⊢
  host_results3
  rw [hA]
  rfl

/-- What the launch leaves in its result buffer is the reference's layer-4 output. -/
theorem res4 : Gen.V10 m (outs m) c main_v161 = val_main_v204 (F := Ideal) (a0 m c) (a1 m c) (a2 m c) (a3 m c) (a4 m c) (a5 m c) (a6 m c) (a7 m c) (a8 m c) (a9 m c) :=
  (result_eq m c).trans ((final3 (fun c b => Gen.V9 m (outs m) c b) c).trans (by
    show layer3 (Gen.V9 m (outs m) c main_v158) (Gen.V9 m (outs m) c main_v159) (Gen.V9 m (outs m) c main_v160) = _
    rw [cat4 m c, wts4 m c, bia4 m c]
    exact layer4_eq _ _ _ _ _ _ _ _ _ _))

end Cert.Bridge

end
-- ==== Proof.lean ====
/- A Chebyshev graph convolution of four layers, three terms per layer, on a graph of 100000 nodes and 625000 edges,
   computed by two programs. Proved here: each program terminates from any memory and leaves its ten argument arrays as
   launched, and, with floats read as extended reals (every operation exact, every change of format the identity), the
   two end with the same results.

   THE COMMON PART. From the edge list both programs compute the edge sources, the edge targets and the edge weights
   w(e) = -(d(src e))^(-1/2) * (d(dst e))^(-1/2), d the in-degree and the factor 0 where the degree is 0, by the same
   operations in the same order: these three arrays are the same terms of the arguments in both. For an array V of node
   rows, (L V)[n] is the sum over the edges e into n of w(e) * V[src e]: a gather, a product with the weight, a
   scatter-add — again the same operations in both programs.

   ONE LAYER, with input X (100000 x F), weights W (3 x F x H) and bias b (H). Its three terms are T0 = X, T1 = L X and
   T2 = 2 (L T1) - T0; they are the same terms of X in both programs and are never rearranged. The reference forms
   ((T0 W[0] + T1 W[1]) + T2 W[2]) + b. The kernel lays the terms side by side, T = (T0 | T1 | T2) (100000 x 3F), stacks
   the three slices of W into Wc (3F x H), and forms the ONE product T Wc + b, in fifty blocks of 2000 rows: point t of
   a grid of fifty computes rows 2000 t ... 2000 t + 1999 from rows 2000 t ... of T, all of Wc and b, and the fifty blocks
   cover the result, each row written once. Entry (a, q) of the one product is the sum over j < 3F of T[a, j] Wc[j, q],
   plus b[q]. The sum over the 3F columns is the sum of the sums over its three consecutive blocks of F columns; on block
   k the side-by-side array reads T_k and the stacked weights read W[k]; so the entry is
   ((sum_k T0[a,k] W[0,k,q] + sum_k T1[a,k] W[1,k,q]) + sum_k T2[a,k] W[2,k,q]) + b[q], the reference's entry with its
   additions associated the same way. Layers 1 to 3 (F = 165, H = 128, then F = H = 128 twice) clamp the entry to [0, 6]
   in both programs; layer 4 (F = 128, H = 2) does not. The kernel rounds both operands of its product to a shorter
   format and accumulates in the longer one; read as extended reals those conversions are the identity.

   NO FINITENESS IS NEEDED. The one law used on the entries is that a finite sum over consecutive blocks of indices is the
   sum of the blocks' sums. It holds in every additive commutative monoid, and the extended reals are one: infinite
   entries and entries of opposite infinite signs are covered as they stand. Nothing is distributed, cancelled or moved
   across a subtraction.

   THE FOUR LAYERS. Each layer's input is the previous layer's result, equal in the two programs by the previous step, and
   the first layer's input is an argument; so the kernel's last result array is the reference's result term of the ten
   arguments. The second result of both programs is the edge list, an argument, unchanged.

   THE RUNS. The kernel program is ten items in order, host stretches and four launches. Between two items every unscoped
   buffer of a core has known contents: a host stretch leaves what its operations compute; a launch leaves its result
   array at the fold of its fifty write-backs and every other buffer as it found it. Every weakly fair execution
   terminates with the buffers at the last of these contents, and no item writes an argument array. The program read at
   the ideal instance is the same text as the word-level program, no operation replaced, so the statement relating those
   two is the trivial one. The reference is one host stretch, run operation by operation. -/
import proofs.«104839_j69879117905989_1_alg».proof.Defs
import proofs.«104839_j69879117905989_1_alg».proof.Proof.Claims
import proofs.«104839_j69879117905989_1_alg».proof.Proof.BridgeL4

noncomputable section

namespace Cert.Proof

theorem claim : Cert.Claim := Cert.Proof.Hand.claim_of (fun m c => Cert.Bridge.res4 m c)

end Cert.Proof

end
